-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x500 : Shape := ⟨2, ![50000, 500]⟩
abbrev S2x800000 : Shape := ⟨2, ![2, 800000]⟩
abbrev S800000 : Shape := ⟨1, ![800000]⟩
abbrev S500x100 : Shape := ⟨2, ![500, 100]⟩
abbrev S100 : Shape := ⟨1, ![100]⟩
abbrev S100x100 : Shape := ⟨2, ![100, 100]⟩
abbrev S1x100x100 : Shape := ⟨3, ![1, 100, 100]⟩
abbrev S100x64 : Shape := ⟨2, ![100, 64]⟩
abbrev S64 : Shape := ⟨1, ![64]⟩
abbrev S_ : Shape := ⟨0, ![]⟩

class Facts : Prop where
  bcast_S_S50000x500 : S_.BroadcastsInDim S50000x500 (![] : Fin 0 → Fin S50000x500.rank)
  reducesTo_S50000x500_S_d0_1 : S50000x500.ReducesTo [0, 1] S_
  h_S_ : 0 < S_.numel
  bcast_S_S500x100 : S_.BroadcastsInDim S500x100 (![] : Fin 0 → Fin S500x100.rank)
  reducesTo_S500x100_S_d0_1 : S500x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S1x100x100 : S_.BroadcastsInDim S1x100x100 (![] : Fin 0 → Fin S1x100x100.rank)
  reducesTo_S1x100x100_S_d0_1_2 : S1x100x100.ReducesTo [0, 1, 2] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S100x64 .f32) (main_arg17 : FVec F S64 .f32) (main_v63 : IVec S_ 1) (main_v67 : IVec S_ 1) : IVec S_ 1 :=
  let main_v68 : IVec S_ 1 := andi main_v63 main_v67
  let main_v69 : FVec F S100x64 .f32 := Host.absf main_arg16
  let main_cst_26 : FVec F S_ .f32 := constant S_ .f32 0x7F800000#32
  let main_v70 : FVec F S100x64 .f32 := broadcastInDim S100x64 ![] bcast_S_S100x64 main_cst_26
  let main_v71 : IVec S100x64 1 := cmpf .olt main_v69 main_v70
  let main_c_27 : IVec S_ 1 := constantI S_ 1 1#1
  let main_v72 : IVec S_ 1 := (fun x v => Host.reduce IntOp.andi x v reducesTo_S100x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg13 : FVec F S100 .f32) (main_arg14 : FVec F S100x100 .f32) (main_arg15 : FVec F S100 .f32) (main_arg16 : FVec F S100x64 .f32) (main_arg17 : FVec F S64 .f32) (main_v48 : IVec S_ 1) (main_v49 : FVec F S100x100 .f32) (main_v50 : FVec F S100x100 .f32) : IVec S_ 1 :=
  let main_v51 : IVec S100x100 1 := cmpf .olt main_v49 main_v50
  let main_c_19 : IVec S_ 1 := constantI S_ 1 1#1
  let main_v52 : IVec S_ 1 := (fun x v => Host.reduce IntOp.andi x v reducesTo_S100x100_S_d0_1 h_S_) main_v51 main_c_19
  let main_v53 : IVec S_ 1 := andi main_v48 main_v52
  let main_v54 : FVec F S100 .f32 := Host.absf main_arg13
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S100x100 .f32 := Host.absf main_arg14
  let main_cst_22 : FVec F S_ .f32 := constant S_ .f32 0x7F800000#32
  let main_v60 : FVec F S100x100 .f32 := broadcastInDim S100x100 ![] bcast_S_S100x100 main_cst_22
  let main_v61 : IVec S100x100 1 := cmpf .olt main_v59 main_v60
  let main_c_23 : IVec S_ 1 := constantI S_ 1 1#1
  let main_v62 : IVec S_ 1 := (fun x v => Host.reduce IntOp.andi x v reducesTo_S100x100_S_d0_1 h_S_) main_v61 main_c_23
  let main_v63 : IVec S_ 1 := andi main_v58 main_v62
  let main_v64 : FVec F S100 .f32 := Host.absf main_arg15
  let main_cst_24 : FVec F S_ .f32 := constant S_ .f32 0x7F800000#32
  let main_v65 : FVec F S100 .f32 := broadcastInDim S100 ![] bcast_S_S100 main_cst_24
  let main_v66 : IVec S100 1 := cmpf .olt main_v64 main_v65
  let main_c_25 : IVec S_ 1 := constantI S_ 1 1#1
  let main_v67 : IVec S_ 1 := (fun x v => Host.reduce IntOp.andi x v reducesTo_S100_S_d0 h_S_) main_v66 main_c_25
  fn_part4 (F := F) main_arg16 main_arg17 main_v63 main_v67

def fn_part2 {F : FTy → Type} [FloatOps F] (main_arg9 : FVec F S100 .f32) (main_arg10 : FVec F S100 .f32) (main_arg11 : FVec F S1x100x100 .f32) (main_arg12 : FVec F S100x100 .f32) (main_arg13 : FVec F S100 .f32) (main_arg14 : FVec F S100x100 .f32) (main_arg15 : FVec F S100 .f32) (main_arg16 : FVec F S100x64 .f32) (main_arg17 : FVec F S64 .f32) (main_v33 : IVec S_ 1) : IVec S_ 1 :=
  let main_v34 : FVec F S100 .f32 := Host.absf main_arg9
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100 .f32 := Host.absf main_arg10
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S1x100x100 .f32 := Host.absf main_arg11
  let main_cst_16 : FVec F S_ .f32 := constant S_ .f32 0x7F800000#32
  let main_v45 : FVec F S1x100x100 .f32 := broadcastInDim S1x100x100 ![] bcast_S_S1x100x100 main_cst_16
  let main_v46 : IVec S1x100x100 1 := cmpf .olt main_v44 main_v45
  let main_c_17 : IVec S_ 1 := constantI S_ 1 1#1
  let main_v47 : IVec S_ 1 := (fun x v => Host.reduce IntOp.andi x v reducesTo_S1x100x100_S_d0_1_2 h_S_) main_v46 main_c_17
  let main_v48 : IVec S_ 1 := andi main_v43 main_v47
  let main_v49 : FVec F S100x100 .f32 := Host.absf main_arg12
  let main_cst_18 : FVec F S_ .f32 := constant S_ .f32 0x7F800000#32
  let main_v50 : FVec F S100x100 .f32 := broadcastInDim S100x100 ![] bcast_S_S100x100 main_cst_18
  fn_part3 (F := F) main_arg13 main_arg14 main_arg15 main_arg16 main_arg17 main_v48 main_v49 main_v50

def fn_part1 {F : FTy → Type} [FloatOps F] (main_arg6 : FVec F S100 .f32) (main_arg7 : FVec F S100x100 .f32) (main_arg8 : FVec F S100 .f32) (main_arg9 : FVec F S100 .f32) (main_arg10 : FVec F S100 .f32) (main_arg11 : FVec F S1x100x100 .f32) (main_arg12 : FVec F S100x100 .f32) (main_arg13 : FVec F S100 .f32) (main_arg14 : FVec F S100x100 .f32) (main_arg15 : FVec F S100 .f32) (main_arg16 : FVec F S100x64 .f32) (main_arg17 : FVec F S64 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100 .f32 := Host.absf main_arg6
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x100 .f32 := Host.absf main_arg7
  let main_cst_8 : FVec F S_ .f32 := constant S_ .f32 0x7F800000#32
  let main_v25 : FVec F S100x100 .f32 := broadcastInDim S100x100 ![] bcast_S_S100x100 main_cst_8
  let main_v26 : IVec S100x100 1 := cmpf .olt main_v24 main_v25
  let main_c_9 : IVec S_ 1 := constantI S_ 1 1#1
  let main_v27 : IVec S_ 1 := (fun x v => Host.reduce IntOp.andi x v reducesTo_S100x100_S_d0_1 h_S_) main_v26 main_c_9
  let main_v28 : IVec S_ 1 := andi main_v23 main_v27
  let main_v29 : FVec F S100 .f32 := Host.absf main_arg8
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x500 .f32) (main_arg1 : IVec S2x800000 32) (main_arg2 : IVec S800000 32) (main_arg3 : FVec F S500x100 .f32) (main_arg4 : FVec F S100 .f32) (main_arg5 : FVec F S100 .f32) (main_arg6 : FVec F S100 .f32) (main_arg7 : FVec F S100x100 .f32) (main_arg8 : FVec F S100 .f32) (main_arg9 : FVec F S100 .f32) (main_arg10 : FVec F S100 .f32) (main_arg11 : FVec F S1x100x100 .f32) (main_arg12 : FVec F S100x100 .f32) (main_arg13 : FVec F S100 .f32) (main_arg14 : FVec F S100x100 .f32) (main_arg15 : FVec F S100 .f32) (main_arg16 : FVec F S100x64 .f32) (main_arg17 : FVec F S64 .f32) : IVec S_ 1 :=
  let main_v0 : FVec F S50000x500 .f32 := Host.absf main_arg0
  let main_cst : FVec F S_ .f32 := constant S_ .f32 0x7F800000#32
  let main_v1 : FVec F S50000x500 .f32 := broadcastInDim S50000x500 ![] bcast_S_S50000x500 main_cst
  let main_v2 : IVec S50000x500 1 := cmpf .olt main_v0 main_v1
  let main_c : IVec S_ 1 := constantI S_ 1 1#1
  let main_v3 : IVec S_ 1 := (fun x v => Host.reduce IntOp.andi x v reducesTo_S50000x500_S_d0_1 h_S_) main_v2 main_c
  let main_v4 : FVec F S500x100 .f32 := Host.absf main_arg3
  let main_cst_0 : FVec F S_ .f32 := constant S_ .f32 0x7F800000#32
  let main_v5 : FVec F S500x100 .f32 := broadcastInDim S500x100 ![] bcast_S_S500x100 main_cst_0
  let main_v6 : IVec S500x100 1 := cmpf .olt main_v4 main_v5
  let main_c_1 : IVec S_ 1 := constantI S_ 1 1#1
  let main_v7 : IVec S_ 1 := (fun x v => Host.reduce IntOp.andi x v reducesTo_S500x100_S_d0_1 h_S_) main_v6 main_c_1
  let main_v8 : IVec S_ 1 := andi main_v3 main_v7
  let main_v9 : FVec F S100 .f32 := Host.absf main_arg4
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100 .f32 := Host.absf main_arg5
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x500 : Shape := ⟨2, ![50000, 500]⟩
abbrev S2x800000 : Shape := ⟨2, ![2, 800000]⟩
abbrev S800000 : Shape := ⟨1, ![800000]⟩
abbrev S500x100 : Shape := ⟨2, ![500, 100]⟩
abbrev S100 : Shape := ⟨1, ![100]⟩
abbrev S100x100 : Shape := ⟨2, ![100, 100]⟩
abbrev S1x100x100 : Shape := ⟨3, ![1, 100, 100]⟩
abbrev S100x64 : Shape := ⟨2, ![100, 64]⟩
abbrev S64 : Shape := ⟨1, ![64]⟩
abbrev S1x800000 : Shape := ⟨2, ![1, 800000]⟩
abbrev S1x100 : Shape := ⟨2, ![1, 100]⟩
abbrev S50000x100 : Shape := ⟨2, ![50000, 100]⟩
abbrev S2000x500 : Shape := ⟨2, ![2000, 500]⟩
abbrev S2000x100 : Shape := ⟨2, ![2000, 100]⟩
abbrev S2000 : Shape := ⟨1, ![2000]⟩
abbrev S2000x1 : Shape := ⟨2, ![2000, 1]⟩
abbrev S100x200 : Shape := ⟨2, ![100, 200]⟩
abbrev S50000x200 : Shape := ⟨2, ![50000, 200]⟩
abbrev S2000x200 : Shape := ⟨2, ![2000, 200]⟩
abbrev S_ : Shape := ⟨0, ![]⟩
abbrev S800000x1 : Shape := ⟨2, ![800000, 1]⟩
abbrev S800000x100 : Shape := ⟨2, ![800000, 100]⟩
abbrev S50000 : Shape := ⟨1, ![50000]⟩
abbrev S850000 : Shape := ⟨1, ![850000]⟩
abbrev S850000x1 : Shape := ⟨2, ![850000, 1]⟩
abbrev S850000x100 : Shape := ⟨2, ![850000, 100]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 128
  | .vmem => 44
  | .smem => 0
  | _ => 0

abbrev bufTy : (tb : Table) → Fin (tcTables nBuf tb) → BufTy
  | .hbm, ⟨0, _⟩ => ⟨S50000x500, .f32⟩
  | .hbm, ⟨1, _⟩ => ⟨S2x800000, .i32⟩
  | .hbm, ⟨2, _⟩ => ⟨S800000, .i32⟩
  | .hbm, ⟨3, _⟩ => ⟨S500x100, .f32⟩
  | .hbm, ⟨4, _⟩ => ⟨S100, .f32⟩
  | .hbm, ⟨5, _⟩ => ⟨S100, .f32⟩
  | .hbm, ⟨6, _⟩ => ⟨S100, .f32⟩
  | .hbm, ⟨7, _⟩ => ⟨S100x100, .f32⟩
  | .hbm, ⟨8, _⟩ => ⟨S100, .f32⟩
  | .hbm, ⟨9, _⟩ => ⟨S100, .f32⟩
  | .hbm, ⟨10, _⟩ => ⟨S100, .f32⟩
  | .hbm, ⟨11, _⟩ => ⟨S1x100x100, .f32⟩
  | .hbm, ⟨12, _⟩ => ⟨S100x100, .f32⟩
  | .hbm, ⟨13, _⟩ => ⟨S100, .f32⟩
  | .hbm, ⟨14, _⟩ => ⟨S100x100, .f32⟩
  | .hbm, ⟨15, _⟩ => ⟨S100, .f32⟩
  | .hbm, ⟨16, _⟩ => ⟨S100x64, .f32⟩
  | .hbm, ⟨17, _⟩ => ⟨S64, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S1x100, .f32⟩
  | .hbm, ⟨23, _⟩ => ⟨S1x100, .f32⟩
  | .hbm, ⟨24, _⟩ => ⟨S1x100, .f32⟩
  | .hbm, ⟨25, _⟩ => ⟨S1x100, .f32⟩
  | .hbm, ⟨26, _⟩ => ⟨S1x100, .f32⟩
  | .hbm, ⟨27, _⟩ => ⟨S1x100, .f32⟩
  | .hbm, ⟨28, _⟩ => ⟨S50000x100, .f32⟩
  | .hbm, ⟨29, _⟩ => ⟨S100x100, .f32⟩
  | .hbm, ⟨30, _⟩ => ⟨S100x200, .f32⟩
  | .hbm, ⟨31, _⟩ => ⟨S50000x200, .f32⟩
  | .hbm, ⟨32, _⟩ => ⟨S50000x100, .f32⟩
  | .hbm, ⟨33, _⟩ => ⟨S50000x100, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x100, .f32⟩
  | .hbm, ⟨43, _⟩ => ⟨S_, .f32⟩
  | .hbm, ⟨44, _⟩ => ⟨S50000x100, .f32⟩
  | .hbm, ⟨45, _⟩ => ⟨S800000x1, .i32⟩
  | .hbm, ⟨46, _⟩ => ⟨S50000x100, .f32⟩
  | .hbm, ⟨47, _⟩ => ⟨S1x100, .f32⟩
  | .hbm, ⟨48, _⟩ => ⟨S50000x100, .f32⟩
  | .hbm, ⟨49, _⟩ => ⟨S50000x100, .f32⟩
  | .hbm, ⟨50, _⟩ => ⟨S50000, .i32⟩
  | .hbm, ⟨51, _⟩ => ⟨S850000, .i32⟩
  | .hbm, ⟨52, _⟩ => ⟨S850000, .i32⟩
  | .hbm, ⟨53, _⟩ => ⟨S_, .f32⟩
  | .hbm, ⟨54, _⟩ => ⟨S850000, .f32⟩
  | .hbm, ⟨55, _⟩ => ⟨S_, .f32⟩
  | .hbm, ⟨56, _⟩ => ⟨S50000, .f32⟩
  | .hbm, ⟨57, _⟩ => ⟨S850000x1, .i32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .i1⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S_, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000, .f32⟩
  | .hbm, ⟨87, _⟩ => ⟨S850000, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x100, .f32⟩
  | .hbm, ⟨97, _⟩ => ⟨S850000x1, .f32⟩
  | .hbm, ⟨98, _⟩ => ⟨S850000x100, .f32⟩
  | .hbm, ⟨99, _⟩ => ⟨S850000x100, .f32⟩
  | .hbm, ⟨100, _⟩ => ⟨S_, .f32⟩
  | .hbm, ⟨101, _⟩ => ⟨S50000x100, .f32⟩
  | .hbm, ⟨102, _⟩ => ⟨S850000x1, .i32⟩
  | .hbm, ⟨103, _⟩ => ⟨S50000x100, .f32⟩
  | .hbm, ⟨104, _⟩ => ⟨S1x100, .f32⟩
  | .hbm, ⟨105, _⟩ => ⟨S50000x100, .f32⟩
  | .hbm, ⟨106, _⟩ => ⟨S50000x64, .f32⟩
  | .hbm, ⟨107, _⟩ => ⟨S50000, .i32⟩
  | .hbm, ⟨108, _⟩ => ⟨S850000, .i32⟩
  | .hbm, ⟨109, _⟩ => ⟨S850000, .i32⟩
  | .hbm, ⟨110, _⟩ => ⟨S_, .i32⟩
  | .hbm, ⟨111, _⟩ => ⟨S850000, .i32⟩
  | .hbm, ⟨112, _⟩ => ⟨S850000, .i1⟩
  | .hbm, ⟨113, _⟩ => ⟨S_, .i32⟩
  | .hbm, ⟨114, _⟩ => ⟨S850000, .i32⟩
  | .hbm, ⟨115, _⟩ => ⟨S850000, .i32⟩
  | .hbm, ⟨116, _⟩ => ⟨S850000, .i32⟩
  | .hbm, ⟨117, _⟩ => ⟨S850000x1, .i32⟩
  | .hbm, ⟨118, _⟩ => ⟨S850000x64, .f32⟩
  | .hbm, ⟨119, _⟩ => ⟨S850000x1, .f32⟩
  | .hbm, ⟨120, _⟩ => ⟨S850000x64, .f32⟩
  | .hbm, ⟨121, _⟩ => ⟨S850000x64, .f32⟩
  | .hbm, ⟨122, _⟩ => ⟨S_, .f32⟩
  | .hbm, ⟨123, _⟩ => ⟨S50000x64, .f32⟩
  | .hbm, ⟨124, _⟩ => ⟨S850000x1, .i32⟩
  | .hbm, ⟨125, _⟩ => ⟨S50000x64, .f32⟩
  | .hbm, ⟨126, _⟩ => ⟨S1x64, .f32⟩
  | .hbm, ⟨127, _⟩ => ⟨S50000x64, .f32⟩
  | .local _ .vmem, ⟨0, _⟩ => ⟨S2000x500, .f32⟩
  | .local _ .vmem, ⟨1, _⟩ => ⟨S2000x500, .f32⟩
  | .local _ .vmem, ⟨2, _⟩ => ⟨S500x100, .f32⟩
  | .local _ .vmem, ⟨3, _⟩ => ⟨S1x100, .f32⟩
  | .local _ .vmem, ⟨4, _⟩ => ⟨S1x100, .f32⟩
  | .local _ .vmem, ⟨5, _⟩ => ⟨S1x100, .f32⟩
  | .local _ .vmem, ⟨6, _⟩ => ⟨S100x100, .f32⟩
  | .local _ .vmem, ⟨7, _⟩ => ⟨S1x100, .f32⟩
  | .local _ .vmem, ⟨8, _⟩ => ⟨S1x100, .f32⟩
  | .local _ .vmem, ⟨9, _⟩ => ⟨S1x100, .f32⟩
  | .local _ .vmem, ⟨10, _⟩ => ⟨S2000x100, .f32⟩
  | .local _ .vmem, ⟨11, _⟩ => ⟨S2000x100, .f32⟩
  | .local _ .vmem, ⟨12, _⟩ => ⟨S2000x100, .f32⟩
  | .local _ .vmem, ⟨13, _⟩ => ⟨S2000x100, .f32⟩
  | .local _ .vmem, ⟨14, _⟩ => ⟨S100x200, .f32⟩
  | .local _ .vmem, ⟨15, _⟩ => ⟨S2000x200, .f32⟩
  | .local _ .vmem, ⟨16, _⟩ => ⟨S2000x200, .f32⟩
  | .local _ .vmem, ⟨17, _⟩ => ⟨S2000x100, .f32⟩
  | .local _ .vmem, ⟨18, _⟩ => ⟨S2000x100, .f32⟩
  | .local _ .vmem, ⟨19, _⟩ => ⟨S2000x100, .f32⟩
  | .local _ .vmem, ⟨20, _⟩ => ⟨S2000x100, .f32⟩
  | .local _ .vmem, ⟨21, _⟩ => ⟨S1x100, .f32⟩
  | .local _ .vmem, ⟨22, _⟩ => ⟨S2000x100, .f32⟩
  | .local _ .vmem, ⟨23, _⟩ => ⟨S2000x100, .f32⟩
  | .local _ .vmem, ⟨24, _⟩ => ⟨S2000x100, .f32⟩
  | .local _ .vmem, ⟨25, _⟩ => ⟨S2000x100, .f32⟩
  | .local _ .vmem, ⟨26, _⟩ => ⟨S100x100, .f32⟩
  | .local _ .vmem, ⟨27, _⟩ => ⟨S2000x100, .f32⟩
  | .local _ .vmem, ⟨28, _⟩ => ⟨S2000x100, .f32⟩
  | .local _ .vmem, ⟨29, _⟩ => ⟨S2000x100, .f32⟩
  | .local _ .vmem, ⟨30, _⟩ => ⟨S2000x100, .f32⟩
  | .local _ .vmem, ⟨31, _⟩ => ⟨S1x100, .f32⟩
  | .local _ .vmem, ⟨32, _⟩ => ⟨S2000x100, .f32⟩
  | .local _ .vmem, ⟨33, _⟩ => ⟨S2000x100, .f32⟩
  | .local _ .vmem, ⟨34, _⟩ => ⟨S2000x100, .f32⟩
  | .local _ .vmem, ⟨35, _⟩ => ⟨S2000x100, .f32⟩
  | .local _ .vmem, ⟨36, _⟩ => ⟨S100x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S1x64, .f32⟩
  | .local _ .vmem, ⟨42, _⟩ => ⟨S2000x64, .f32⟩
  | .local _ .vmem, ⟨43, _⟩ => ⟨S2000x64, .f32⟩
  | _, _ => ⟨S50000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_1 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_call0_v0 : Ref sig .tc := ⟨.hbm, 66, rfl⟩
abbrev main_call0_v1 : Ref sig .tc := ⟨.hbm, 67, rfl⟩
abbrev main_v40 : Ref sig .tc := ⟨.hbm, 68, rfl⟩
abbrev main_c_6 : Ref sig .tc := ⟨.hbm, 69, rfl⟩
abbrev main_v41 : Ref sig .tc := ⟨.hbm, 70, rfl⟩
abbrev main_v42 : Ref sig .tc := ⟨.hbm, 71, rfl⟩
abbrev main_c_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_8 : Ref sig .tc := ⟨.hbm, 78, rfl⟩
abbrev main_v48 : Ref sig .tc := ⟨.hbm, 79, rfl⟩
abbrev main_v49 : Ref sig .tc := ⟨.hbm, 80, rfl⟩
abbrev main_c_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_10 : Ref sig .tc := ⟨.hbm, 88, rfl⟩
abbrev main_v56 : Ref sig .tc := ⟨.hbm, 89, rfl⟩
abbrev main_v57 : Ref sig .tc := ⟨.hbm, 90, rfl⟩
abbrev main_c_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_13 : Ref sig .tc := ⟨.hbm, 110, rfl⟩
abbrev main_v75 : Ref sig .tc := ⟨.hbm, 111, rfl⟩
abbrev main_v76 : Ref sig .tc := ⟨.hbm, 112, rfl⟩
abbrev main_c_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_15 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x100 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x100 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S100x100 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x100 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x100 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x100 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x100 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x100 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S100x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S100_S1x100 : S100.ShapeCasts S1x100
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x100_S500x100_0_0 : ∀ a, (![0, 0] : Fin 2 → Nat) a + S500x100.size a ≤ S500x100.size a
  h_S500x100 : 0 < S500x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2000x100 : S1x100.Broadcasts S2000x100
  reduces_S2000x100_S2000 : S2000x100.Reduces [1] S2000
  shapeCasts_S2000_S2000x1 : S2000.ShapeCasts S2000x1
  broadcasts_S2000x1_S2000x100 : S2000x1.Broadcasts S2000x100
  inb_S100x100_S100x100_0_0 : ∀ a, (![0, 0] : Fin 2 → Nat) a + S100x100.size a ≤ S100x100.size a
  h_S100x100 : 0 < S100x100.numel
  inb_S2000x100_S2000x100_0_0 : ∀ a, (![0, 0] : Fin 2 → Nat) a + S2000x100.size a ≤ S2000x100.size a
  h_S2000x100 : 0 < S2000x100.numel
  shapeCasts_S1x100x100_S100x100 : S1x100x100.ShapeCasts S100x100
  concatenates_S100x100_S100x100_S100x200_d1 : Shape.Concatenates [S100x100, S100x100] S100x200 1
  shapeCasts_S2000x100_S2000x100 : S2000x100.ShapeCasts S2000x100
  inb_S100x200_S100x200_0_0 : ∀ a, (![0, 0] : Fin 2 → Nat) a + S100x200.size a ≤ S100x200.size a
  h_S100x200 : 0 < S100x200.numel
  shapeCasts_S100x200_S100x200 : S100x200.ShapeCasts S100x200
  inb_S2000x200_S2000x200_0_0 : ∀ a, (![0, 0] : Fin 2 → Nat) a + S2000x200.size a ≤ S2000x200.size a
  h_S2000x200 : 0 < S2000x200.numel
  slices_S50000x200_S50000x100_0_0 : S50000x200.Slices ![0, 0] S50000x100
  slices_S50000x200_S50000x100_0_100 : S50000x200.Slices ![0, 100] S50000x100
  bcast_S_S800000 : S_.BroadcastsInDim S800000 (![] : Fin 0 → Fin S800000.rank)
  bcast_S800000_S800000x1_0 : S800000.BroadcastsInDim S800000x1 (![0] : Fin 1 → Fin S800000x1.rank)
  bcast_S_S50000x100 : S_.BroadcastsInDim S50000x100 (![] : Fin 0 → Fin S50000x100.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x100_0_1 : S850000x1.BroadcastsInDim S850000x100 (![0, 1] : Fin 2 → Fin S850000x100.rank)
  inb_S100x64_S100x64_0_0 : ∀ a, (![0, 0] : Fin 2 → Nat) a + S100x64.size a ≤ S100x64.size a
  h_S100x64 : 0 < S100x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  broadcasts_S2000x1_S2000x64 : S2000x1.Broadcasts S2000x64
  dot_S2000x500_S500x100_S2000x100_1_0_0_1_n_n_wf : DotDims.WF S2000x500 S500x100 S2000x100 [1] [0] [0] [1] [] []
  dot_S2000x100_S100x100_S2000x100_1_0_0_1_n_n_wf : DotDims.WF S2000x100 S100x100 S2000x100 [1] [0] [0] [1] [] []
  dot_S2000x100_S100x200_S2000x200_1_0_0_1_n_n_wf : DotDims.WF S2000x100 S100x200 S2000x200 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S2000x100_S100x64_S2000x64_1_0_0_1_n_n_wf : DotDims.WF S2000x100 S100x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S50000x500.size a
  hwx0_0 : ∀ i : grid0.Coords, EltTy.bits .f32 = 32 ∨ (Rect.block (s := S50000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x100.size a ≤ S500x100.size a
  hwx0_1 : ∀ i : grid0.Coords, EltTy.bits .f32 = 32 ∨ (Rect.block (s := S500x100) S500x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x100.size a ≤ S100x100.size a
  hwx0_5 : ∀ i : grid0.Coords, EltTy.bits .f32 = 32 ∨ (Rect.block (s := S100x100) S100x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x100.size a ≤ S1x100.size a
  hwx0_7 : ∀ i : grid0.Coords, EltTy.bits .f32 = 32 ∨ (Rect.block (s := S1x100) S1x100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x100.size a ≤ S1x100.size a
  hwx0_8 : ∀ i : grid0.Coords, EltTy.bits .f32 = 32 ∨ (Rect.block (s := S1x100) S1x100.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x100.size a ≤ S50000x100.size a
  hwx0_9 : ∀ i : grid0.Coords, EltTy.bits .f32 = 32 ∨ (Rect.block (s := S50000x100) S2000x100.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x100.size a ≤ S50000x100.size a
  hwx1_0 : ∀ i : grid1.Coords, EltTy.bits .f32 = 32 ∨ (Rect.block (s := S50000x100) S2000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100x200.size a ≤ S100x200.size a
  hwx1_1 : ∀ i : grid1.Coords, EltTy.bits .f32 = 32 ∨ (Rect.block (s := S100x200) S100x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x200.size a ≤ S50000x200.size a
  hwx1_2 : ∀ i : grid1.Coords, EltTy.bits .f32 = 32 ∨ (Rect.block (s := S50000x200) S2000x200.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x100.size a ≤ S50000x100.size a
  hwx2_0 : ∀ i : grid2.Coords, EltTy.bits .f32 = 32 ∨ (Rect.block (s := S50000x100) S2000x100.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x100.size a ≤ S50000x100.size a
  hwx2_1 : ∀ i : grid2.Coords, EltTy.bits .f32 = 32 ∨ (Rect.block (s := S50000x100) S2000x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x100.size a ≤ S1x100.size a
  hwx2_2 : ∀ i : grid2.Coords, EltTy.bits .f32 = 32 ∨ (Rect.block (s := S1x100) S1x100.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x100.size a ≤ S50000x100.size a
  hwx2_3 : ∀ i : grid2.Coords, EltTy.bits .f32 = 32 ∨ (Rect.block (s := S50000x100) S2000x100.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x100.size a ≤ S50000x100.size a
  hwx3_0 : ∀ i : grid3.Coords, EltTy.bits .f32 = 32 ∨ (Rect.block (s := S50000x100) S2000x100.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S100x100.size a ≤ S100x100.size a
  hwx3_1 : ∀ i : grid3.Coords, EltTy.bits .f32 = 32 ∨ (Rect.block (s := S100x100) S100x100.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x100.size a ≤ S50000x100.size a
  hwx3_2 : ∀ i : grid3.Coords, EltTy.bits .f32 = 32 ∨ (Rect.block (s := S50000x100) S2000x100.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x100.size a ≤ S50000x100.size a
  hwx4_0 : ∀ i : grid4.Coords, EltTy.bits .f32 = 32 ∨ (Rect.block (s := S50000x100) S2000x100.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x100.size a ≤ S1x100.size a
  hwx4_1 : ∀ i : grid4.Coords, EltTy.bits .f32 = 32 ∨ (Rect.block (s := S1x100) S1x100.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x100.size a ≤ S50000x100.size a
  hwx4_2 : ∀ i : grid4.Coords, EltTy.bits .f32 = 32 ∨ (Rect.block (s := S50000x100) S2000x100.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x100.size a ≤ S50000x100.size a
  hwx5_0 : ∀ i : grid5.Coords, EltTy.bits .f32 = 32 ∨ (Rect.block (s := S50000x100) S2000x100.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S100x64.size a ≤ S100x64.size a
  hwx5_1 : ∀ i : grid5.Coords, EltTy.bits .f32 = 32 ∨ (Rect.block (s := S100x64) S100x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)

variable [Facts₀]

def dot_S2000x500_S500x100_S2000x100_1_0_0_1_n_n : DotDims S2000x500 S500x100 S2000x100 where
  lhsContracting := [1]
  rhsContracting := [0]
  lhsNonContracting := [0]
  rhsNonContracting := [1]
  lhsBatch := []
  rhsBatch := []
  wf := dot_S2000x500_S500x100_S2000x100_1_0_0_1_n_n_wf
def dot_S2000x100_S100x100_S2000x100_1_0_0_1_n_n : DotDims S2000x100 S100x100 S2000x100 where
  lhsContracting := [1]
  rhsContracting := [0]
  lhsNonContracting := [0]
  rhsNonContracting := [1]
  lhsBatch := []
  rhsBatch := []
  wf := dot_S2000x100_S100x100_S2000x100_1_0_0_1_n_n_wf
def dot_S2000x100_S100x200_S2000x200_1_0_0_1_n_n : DotDims S2000x100 S100x200 S2000x200 where
  lhsContracting := [1]
  rhsContracting := [0]
  lhsNonContracting := [0]
  rhsNonContracting := [1]
  lhsBatch := []
  rhsBatch := []
  wf := dot_S2000x100_S100x200_S2000x200_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S2000x100_S100x64_S2000x64_1_0_0_1_n_n : DotDims S2000x100 S100x64 S2000x64 where
  lhsContracting := [1]
  rhsContracting := [0]
  lhsNonContracting := [0]
  rhsNonContracting := [1]
  lhsBatch := []
  rhsBatch := []
  wf := dot_S2000x100_S100x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S500x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S100x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x100.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S2000x100.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v10) S2000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S100x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x200.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S2000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S2000x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S2000x100.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v27) S2000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S100x100.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S2000x100.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S2000x100.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S1x100.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S2000x100.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v70) S2000x100.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg16) S100x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v87) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v88) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x500 : Shape := ⟨2, ![50000, 500]⟩
abbrev S2x800000 : Shape := ⟨2, ![2, 800000]⟩
abbrev S800000 : Shape := ⟨1, ![800000]⟩
abbrev S500x100 : Shape := ⟨2, ![500, 100]⟩
abbrev S100 : Shape := ⟨1, ![100]⟩
abbrev S100x100 : Shape := ⟨2, ![100, 100]⟩
abbrev S1x100x100 : Shape := ⟨3, ![1, 100, 100]⟩
abbrev S100x64 : Shape := ⟨2, ![100, 64]⟩
abbrev S64 : Shape := ⟨1, ![64]⟩
abbrev S1x800000 : Shape := ⟨2, ![1, 800000]⟩
abbrev S50000x100 : Shape := ⟨2, ![50000, 100]⟩
abbrev S1x100 : Shape := ⟨2, ![1, 100]⟩
abbrev S_ : Shape := ⟨0, ![]⟩
abbrev S50000 : Shape := ⟨1, ![50000]⟩
abbrev S50000x1 : Shape := ⟨2, ![50000, 1]⟩
abbrev S800000x1 : Shape := ⟨2, ![800000, 1]⟩
abbrev S800000x100 : Shape := ⟨2, ![800000, 100]⟩
abbrev S850000 : Shape := ⟨1, ![850000]⟩
abbrev S850000x1 : Shape := ⟨2, ![850000, 1]⟩
abbrev S850000x100 : Shape := ⟨2, ![850000, 100]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 281
  | .vmem => 0
  | .smem => 0
  | _ => 0

abbrev hbmTy0_0 (i : Nat) : BufTy := match i % 128 with
  | 0 => ⟨S50000x500, .f32⟩
  | 1 => ⟨S2x800000, .i32⟩
  | 2 => ⟨S800000, .i32⟩
  | 3 => ⟨S500x100, .f32⟩
  | 4 => ⟨S100, .f32⟩
  | 5 => ⟨S100, .f32⟩
  | 6 => ⟨S100, .f32⟩
  | 7 => ⟨S100x100, .f32⟩
  | 8 => ⟨S100, .f32⟩
  | 9 => ⟨S100, .f32⟩
  | 10 => ⟨S100, .f32⟩
  | 11 => ⟨S1x100x100, .f32⟩
  | 12 => ⟨S100x100, .f32⟩
  | 13 => ⟨S100, .f32⟩
  | 14 => ⟨S100x100, .f32⟩
  | 15 => ⟨S100, .f32⟩
  | 16 => ⟨S100x64, .f32⟩
  | 17 => ⟨S64, .f32⟩
  | 18 => ⟨S1x800000, .i32⟩
  | 19 => ⟨S800000, .i32⟩
  | 20 => ⟨S1x800000, .i32⟩
  | 21 => ⟨S800000, .i32⟩
  | 22 => ⟨S50000x100, .f32⟩
  | 23 => ⟨S1x100, .f32⟩
  | 24 => ⟨S50000x100, .f32⟩
  | 25 => ⟨S50000x100, .f32⟩
  | 26 => ⟨S_, .f32⟩
  | 27 => ⟨S50000, .f32⟩
  | 28 => ⟨S50000x1, .f32⟩
  | 29 => ⟨S_, .f32⟩
  | 30 => ⟨S50000x1, .f32⟩
  | 31 => ⟨S50000x1, .f32⟩
  | 32 => ⟨S_, .i32⟩
  | 33 => ⟨S_, .f32⟩
  | 34 => ⟨S50000, .f32⟩
  | 35 => ⟨S50000x1, .f32⟩
  | 36 => ⟨S_, .f32⟩
  | 37 => ⟨S50000x1, .f32⟩
  | 38 => ⟨S50000x1, .f32⟩
  | 39 => ⟨S50000x100, .f32⟩
  | 40 => ⟨S50000x100, .f32⟩
  | 41 => ⟨S50000x100, .f32⟩
  | 42 => ⟨S_, .f32⟩
  | 43 => ⟨S_, .f32⟩
  | 44 => ⟨S_, .f32⟩
  | 45 => ⟨S_, .f32⟩
  | 46 => ⟨S50000, .f32⟩
  | 47 => ⟨S50000x1, .f32⟩
  | 48 => ⟨S50000x1, .f32⟩
  | 49 => ⟨S50000x1, .f32⟩
  | 50 => ⟨S_, .f32⟩
  | 51 => ⟨S_, .i1⟩
  | 52 => ⟨S_, .f32⟩
  | 53 => ⟨S_, .f32⟩
  | 54 => ⟨S50000x1, .f32⟩
  | 55 => ⟨S50000x1, .f32⟩
  | 56 => ⟨S50000x100, .f32⟩
  | 57 => ⟨S50000x100, .f32⟩
  | 58 => ⟨S_, .f32⟩
  | 59 => ⟨S50000x1, .f32⟩
  | 60 => ⟨S50000x1, .f32⟩
  | 61 => ⟨S50000x1, .f32⟩
  | 62 => ⟨S50000x100, .f32⟩
  | 63 => ⟨S50000x100, .f32⟩
  | 64 => ⟨S1x100, .f32⟩
  | 65 => ⟨S50000x100, .f32⟩
  | 66 => ⟨S50000x100, .f32⟩
  | 67 => ⟨S1x100, .f32⟩
  | 68 => ⟨S50000x100, .f32⟩
  | 69 => ⟨S50000x100, .f32⟩
  | 70 => ⟨S_, .f32⟩
  | 71 => ⟨S50000x100, .f32⟩
  | 72 => ⟨S50000x100, .f32⟩
  | 73 => ⟨S50000x100, .f32⟩
  | 74 => ⟨S1x100, .f32⟩
  | 75 => ⟨S50000x100, .f32⟩
  | 76 => ⟨S50000x100, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S_, .i32⟩
  | 84 => ⟨S_, .f32⟩
  | 85 => ⟨S50000, .f32⟩
  | 86 => ⟨S50000x1, .f32⟩
  | 87 => ⟨S_, .f32⟩
  | 88 => ⟨S50000x1, .f32⟩
  | 89 => ⟨S50000x1, .f32⟩
  | 90 => ⟨S50000x100, .f32⟩
  | 91 => ⟨S50000x100, .f32⟩
  | 92 => ⟨S50000x100, .f32⟩
  | 93 => ⟨S_, .f32⟩
  | 94 => ⟨S_, .f32⟩
  | 95 => ⟨S_, .f32⟩
  | 96 => ⟨S_, .f32⟩
  | 97 => ⟨S50000, .f32⟩
  | 98 => ⟨S50000x1, .f32⟩
  | 99 => ⟨S50000x1, .f32⟩
  | 100 => ⟨S50000x1, .f32⟩
  | 101 => ⟨S_, .f32⟩
  | 102 => ⟨S_, .i1⟩
  | 103 => ⟨S_, .f32⟩
  | 104 => ⟨S_, .f32⟩
  | 105 => ⟨S50000x1, .f32⟩
  | 106 => ⟨S50000x1, .f32⟩
  | 107 => ⟨S50000x100, .f32⟩
  | 108 => ⟨S50000x100, .f32⟩
  | 109 => ⟨S_, .f32⟩
  | 110 => ⟨S50000x1, .f32⟩
  | 111 => ⟨S50000x1, .f32⟩
  | 112 => ⟨S50000x1, .f32⟩
  | 113 => ⟨S50000x100, .f32⟩
  | 114 => ⟨S50000x100, .f32⟩
  | 115 => ⟨S1x100, .f32⟩
  | 116 => ⟨S50000x100, .f32⟩
  | 117 => ⟨S50000x100, .f32⟩
  | 118 => ⟨S1x100, .f32⟩
  | 119 => ⟨S50000x100, .f32⟩
  | 120 => ⟨S50000x100, .f32⟩
  | 121 => ⟨S_, .f32⟩
  | 122 => ⟨S50000x100, .f32⟩
  | 123 => ⟨S50000x100, .f32⟩
  | 124 => ⟨S_, .i32⟩
  | 125 => ⟨S800000, .i32⟩
  | 126 => ⟨S800000, .i1⟩
  | 127 => ⟨S_, .i32⟩
  | _ => ⟨S50000x500, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x100, .f32⟩
  | 5 => ⟨S100x100, .f32⟩
  | 6 => ⟨S800000x100, .f32⟩
  | 7 => ⟨S50000x100, .f32⟩
  | 8 => ⟨S_, .f32⟩
  | 9 => ⟨S50000x100, .f32⟩
  | 10 => ⟨S800000x1, .i32⟩
  | 11 => ⟨S50000x100, .f32⟩
  | 12 => ⟨S50000x100, .f32⟩
  | 13 => ⟨S1x100, .f32⟩
  | 14 => ⟨S50000x100, .f32⟩
  | 15 => ⟨S50000x100, .f32⟩
  | 16 => ⟨S_, .f32⟩
  | 17 => ⟨S50000x100, .f32⟩
  | 18 => ⟨S50000x100, .f32⟩
  | 19 => ⟨S50000x100, .f32⟩
  | 20 => ⟨S50000, .i32⟩
  | 21 => ⟨S850000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x100, .f32⟩
  | 67 => ⟨S850000x1, .f32⟩
  | 68 => ⟨S850000x100, .f32⟩
  | 69 => ⟨S850000x100, .f32⟩
  | 70 => ⟨S_, .f32⟩
  | 71 => ⟨S50000x100, .f32⟩
  | 72 => ⟨S850000x1, .i32⟩
  | 73 => ⟨S50000x100, .f32⟩
  | 74 => ⟨S1x100, .f32⟩
  | 75 => ⟨S50000x100, .f32⟩
  | 76 => ⟨S50000x100, .f32⟩
  | 77 => ⟨S_, .f32⟩
  | 78 => ⟨S50000x100, .f32⟩
  | 79 => ⟨S50000x100, .f32⟩
  | 80 => ⟨S50000x64, .f32⟩
  | 81 => ⟨S50000, .i32⟩
  | 82 => ⟨S850000, .i32⟩
  | 83 => ⟨S850000, .i32⟩
  | 84 => ⟨S_, .f32⟩
  | 85 => ⟨S850000, .f32⟩
  | 86 => ⟨S_, .f32⟩
  | 87 => ⟨S50000, .f32⟩
  | 88 => ⟨S850000x1, .i32⟩
  | 89 => ⟨S50000, .f32⟩
  | 90 => ⟨S_, .f32⟩
  | 91 => ⟨S50000, .f32⟩
  | 92 => ⟨S50000, .i1⟩
  | 93 => ⟨S_, .f32⟩
  | 94 => ⟨S50000, .f32⟩
  | 95 => ⟨S50000, .f32⟩
  | 96 => ⟨S_, .f32⟩
  | 97 => ⟨S_, .f32⟩
  | 98 => ⟨S50000, .f32⟩
  | 99 => ⟨S50000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x64, .f32⟩
  | _ => ⟨S50000x500, .f32⟩

abbrev hbmTy0_2 (i : Nat) : BufTy := match i % 128 with
  | 0 => ⟨S850000x1, .f32⟩
  | 1 => ⟨S850000x64, .f32⟩
  | 2 => ⟨S850000x64, .f32⟩
  | 3 => ⟨S_, .f32⟩
  | 4 => ⟨S50000x64, .f32⟩
  | 5 => ⟨S850000x1, .i32⟩
  | 6 => ⟨S50000x64, .f32⟩
  | 7 => ⟨S1x64, .f32⟩
  | 8 => ⟨S50000x64, .f32⟩
  | 9 => ⟨S50000x64, .f32⟩
  | 10 => ⟨S_, .f32⟩
  | 11 => ⟨S50000, .f32⟩
  | 12 => ⟨S_, .f32⟩
  | 13 => ⟨S50000, .f32⟩
  | 14 => ⟨S50000, .f32⟩
  | 15 => ⟨S50000x1, .f32⟩
  | 16 => ⟨S50000x64, .f32⟩
  | 17 => ⟨S50000x64, .f32⟩
  | 18 => ⟨S50000x64, .f32⟩
  | 19 => ⟨S_, .f32⟩
  | 20 => ⟨S50000, .f32⟩
  | 21 => ⟨S50000x1, .f32⟩
  | 22 => ⟨S50000x1, .f32⟩
  | 23 => ⟨S50000x64, .f32⟩
  | 24 => ⟨S50000x64, .f32⟩
  | _ => ⟨S50000x500, .f32⟩

abbrev hbmTy (i : Nat) : BufTy := match i / 128 with
  | 0 => hbmTy0_0 i
  | 1 => hbmTy0_1 i
  | 2 => hbmTy0_2 i
  | _ => ⟨S50000x500, .f32⟩

abbrev bufTy : (tb : Table) → Fin (tcTables nBuf tb) → BufTy
  | .hbm, ⟨i, _⟩ => hbmTy i
  | _, _ => ⟨S50000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_cst_3 : Ref sig .tc := ⟨.hbm, 50, rfl⟩
abbrev main_call0_v13 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_cst_1 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_call1_cst : Ref sig .tc := ⟨.hbm, 70, rfl⟩
abbrev main_call1_v0 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_cst_2 : Ref sig .tc := ⟨.hbm, 77, rfl⟩
abbrev main_v31 : Ref sig .tc := ⟨.hbm, 78, rfl⟩
abbrev main_v32 : Ref sig .tc := ⟨.hbm, 79, rfl⟩
abbrev main_cst_3 : Ref sig .tc := ⟨.hbm, 80, rfl⟩
abbrev main_v33 : Ref sig .tc := ⟨.hbm, 81, rfl⟩
abbrev main_v34 : Ref sig .tc := ⟨.hbm, 82, rfl⟩
abbrev main_c_4 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_cst_1 : Ref sig .tc := ⟨.hbm, 94, rfl⟩
abbrev main_call2_v8 : Ref sig .tc := ⟨.hbm, 95, rfl⟩
abbrev main_call2_cst_2 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_cst_3 : Ref sig .tc := ⟨.hbm, 101, rfl⟩
abbrev main_call2_v13 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_cst_5 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_call3_cst : Ref sig .tc := ⟨.hbm, 121, rfl⟩
abbrev main_call3_v0 : Ref sig .tc := ⟨.hbm, 122, rfl⟩
abbrev main_v49 : Ref sig .tc := ⟨.hbm, 123, rfl⟩
abbrev main_c_6 : Ref sig .tc := ⟨.hbm, 124, rfl⟩
abbrev main_v50 : Ref sig .tc := ⟨.hbm, 125, rfl⟩
abbrev main_v51 : Ref sig .tc := ⟨.hbm, 126, rfl⟩
abbrev main_c_7 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_cst_8 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_call4_cst : Ref sig .tc := ⟨.hbm, 144, rfl⟩
abbrev main_call4_v0 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_cst_9 : Ref sig .tc := ⟨.hbm, 151, rfl⟩
abbrev main_v72 : Ref sig .tc := ⟨.hbm, 152, rfl⟩
abbrev main_cst_10 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_cst_11 : Ref sig .tc := ⟨.hbm, 157, rfl⟩
abbrev main_v76 : Ref sig .tc := ⟨.hbm, 158, rfl⟩
abbrev main_v77 : Ref sig .tc := ⟨.hbm, 159, rfl⟩
abbrev main_cst_12 : Ref sig .tc := ⟨.hbm, 160, rfl⟩
abbrev main_v78 : Ref sig .tc := ⟨.hbm, 161, rfl⟩
abbrev main_v79 : Ref sig .tc := ⟨.hbm, 162, rfl⟩
abbrev main_cst_13 : Ref sig .tc := ⟨.hbm, 163, rfl⟩
abbrev main_call5_v0 : Ref sig .tc := ⟨.hbm, 164, rfl⟩
abbrev main_call5_v1 : Ref sig .tc := ⟨.hbm, 165, rfl⟩
abbrev main_v80 : Ref sig .tc := ⟨.hbm, 166, rfl⟩
abbrev main_c_14 : Ref sig .tc := ⟨.hbm, 167, rfl⟩
abbrev main_v81 : Ref sig .tc := ⟨.hbm, 168, rfl⟩
abbrev main_v82 : Ref sig .tc := ⟨.hbm, 169, rfl⟩
abbrev main_c_15 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_c_16 : Ref sig .tc := ⟨.hbm, 176, rfl⟩
abbrev main_v88 : Ref sig .tc := ⟨.hbm, 177, rfl⟩
abbrev main_v89 : Ref sig .tc := ⟨.hbm, 178, rfl⟩
abbrev main_c_17 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_c_18 : Ref sig .tc := ⟨.hbm, 186, rfl⟩
abbrev main_v96 : Ref sig .tc := ⟨.hbm, 187, rfl⟩
abbrev main_v97 : Ref sig .tc := ⟨.hbm, 188, rfl⟩
abbrev main_c_19 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_cst_20 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_call6_cst : Ref sig .tc := ⟨.hbm, 205, rfl⟩
abbrev main_call6_v0 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_cst_21 : Ref sig .tc := ⟨.hbm, 212, rfl⟩
abbrev main_v117 : Ref sig .tc := ⟨.hbm, 213, rfl⟩
abbrev main_cst_22 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_cst_23 : Ref sig .tc := ⟨.hbm, 218, rfl⟩
abbrev main_v121 : Ref sig .tc := ⟨.hbm, 219, rfl⟩
abbrev main_v122 : Ref sig .tc := ⟨.hbm, 220, rfl⟩
abbrev main_cst_24 : Ref sig .tc := ⟨.hbm, 221, rfl⟩
abbrev main_v123 : Ref sig .tc := ⟨.hbm, 222, rfl⟩
abbrev main_v124 : Ref sig .tc := ⟨.hbm, 223, rfl⟩
abbrev main_cst_25 : Ref sig .tc := ⟨.hbm, 224, rfl⟩
abbrev main_call7_v0 : Ref sig .tc := ⟨.hbm, 225, rfl⟩
abbrev main_call7_v1 : Ref sig .tc := ⟨.hbm, 226, rfl⟩
abbrev main_v125 : Ref sig .tc := ⟨.hbm, 227, rfl⟩
abbrev main_c_26 : Ref sig .tc := ⟨.hbm, 228, rfl⟩
abbrev main_v126 : Ref sig .tc := ⟨.hbm, 229, rfl⟩
abbrev main_v127 : Ref sig .tc := ⟨.hbm, 230, rfl⟩
abbrev main_c_27 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_c_28 : Ref sig .tc := ⟨.hbm, 237, rfl⟩
abbrev main_v133 : Ref sig .tc := ⟨.hbm, 238, rfl⟩
abbrev main_v134 : Ref sig .tc := ⟨.hbm, 239, rfl⟩
abbrev main_c_29 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_c_30 : Ref sig .tc := ⟨.hbm, 247, rfl⟩
abbrev main_v141 : Ref sig .tc := ⟨.hbm, 248, rfl⟩
abbrev main_v142 : Ref sig .tc := ⟨.hbm, 249, rfl⟩
abbrev main_c_31 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_cst_32 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_call8_cst : Ref sig .tc := ⟨.hbm, 266, rfl⟩
abbrev main_call8_v0 : Ref sig .tc := ⟨.hbm, 267, rfl⟩
abbrev main_call8_cst_0 : Ref sig .tc := ⟨.hbm, 268, rfl⟩
abbrev main_call8_v1 : Ref sig .tc := ⟨.hbm, 269, rfl⟩
abbrev main_call8_v2 : Ref sig .tc := ⟨.hbm, 270, rfl⟩
abbrev main_call8_v3 : Ref sig .tc := ⟨.hbm, 271, rfl⟩
abbrev main_call8_v4 : Ref sig .tc := ⟨.hbm, 272, rfl⟩
abbrev main_call8_v5 : Ref sig .tc := ⟨.hbm, 273, rfl⟩
abbrev main_call8_v6 : Ref sig .tc := ⟨.hbm, 274, rfl⟩
abbrev main_call8_cst_1 : Ref sig .tc := ⟨.hbm, 275, rfl⟩
abbrev main_call8_v7 : Ref sig .tc := ⟨.hbm, 276, rfl⟩
abbrev main_call8_v8 : Ref sig .tc := ⟨.hbm, 277, rfl⟩
abbrev main_call8_v9 : Ref sig .tc := ⟨.hbm, 278, rfl⟩
abbrev main_call8_v10 : Ref sig .tc := ⟨.hbm, 279, rfl⟩
abbrev main_v157 : Ref sig .tc := ⟨.hbm, 280, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  reducesTo_S50000x100_S50000_d1 : S50000x100.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x100_0_1 : S50000x1.BroadcastsInDim S50000x100 (![0, 1] : Fin 2 → Fin S50000x100.rank)
  bcast_S_S50000x100 : S_.BroadcastsInDim S50000x100 (![] : Fin 0 → Fin S50000x100.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S1x100x100_S100x100 : S1x100x100.ShapeCasts S100x100
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x100_0_1 : S850000x1.BroadcastsInDim S850000x100 (![0, 1] : Fin 2 → Fin S850000x100.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  dot_S50000x500_S500x100_S50000x100_1_0_0_1_n_n_wf : DotDims.WF S50000x500 S500x100 S50000x100 [1] [0] [0] [1] [] []
  dot_S50000x100_S100x100_S50000x100_1_0_0_1_n_n_wf : DotDims.WF S50000x100 S100x100 S50000x100 [1] [0] [0] [1] [] []
  gather_S50000x100_S800000x1_S800000x100_1_0_n_n_0_1_1100_wf : GatherDims.WF S50000x100 S800000x1 S800000x100 [1] [0] [] [0] [] 1 ![1, 100]
  dot_S800000x100_S100x100_S800000x100_1_0_0_1_n_n_wf : DotDims.WF S800000x100 S100x100 S800000x100 [1] [0] [0] [1] [] []
  scatter_S50000x100_S800000x1_S800000x100_1_0_0_1_wf : ScatterDims.WF S50000x100 S800000x1 S800000x100 [1] [0] [0] 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S50000x100_S100x64_S50000x64_1_0_0_1_n_n_wf : DotDims.WF S50000x100 S100x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x500_S500x100_S50000x100_1_0_0_1_n_n : DotDims S50000x500 S500x100 S50000x100 where
  lhsContracting := [1]
  rhsContracting := [0]
  lhsNonContracting := [0]
  rhsNonContracting := [1]
  lhsBatch := []
  rhsBatch := []
  wf := dot_S50000x500_S500x100_S50000x100_1_0_0_1_n_n_wf
def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def dot_S800000x100_S100x100_S800000x100_1_0_0_1_n_n : DotDims S800000x100 S100x100 S800000x100 where
  lhsContracting := [1]
  rhsContracting := [0]
  lhsNonContracting := [0]
  rhsNonContracting := [1]
  lhsBatch := []
  rhsBatch := []
  wf := dot_S800000x100_S100x100_S800000x100_1_0_0_1_n_n_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S50000x100_S100x64_S50000x64_1_0_0_1_n_n : DotDims S50000x100 S100x64 S50000x64 where
  lhsContracting := [1]
  rhsContracting := [0]
  lhsNonContracting := [0]
  rhsNonContracting := [1]
  lhsBatch := []
  rhsBatch := []
  wf := dot_S50000x100_S100x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result named. The program is seven grid launches among stretches of host
  operations; the buffer contents at each boundary are a fold from the launch memory (`Gen.W0` … `Gen.W14`: a host
  stretch applies its operations, a launch leaves its arrays at what its write-backs fold to). Every weakly fair
  execution terminates without a fault, and in the final state the result array holds the last boundary's contents
  at the result's buffer, and each argument array what it held at the launch: the launch theorem for a program of
  several regions over the generated segments, with the final thread state read at the result's buffer as well as
  at the arguments'.
-/
import proofs.«132481_j11579231830735_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting; the result array ends at the
    last boundary's contents `Gen.W14` of its buffer, and every argument array as launched. -/
theorem run_result : θ_run defs (onTc (τ := τ) (main (F := F))) ⟨m, fun _ => 0, ρ⟩ (fun r => ∀ c : Dev nD,
      r.2.mem ((c.tc : Thread nD τ).loc main_v89) = W14 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v89 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c)⟩)

end Cert.KernelIdeal.ValueRun

end
-- ==== Proof.RefRun.Ops0.lean ====
import proofs.«132481_j11579231830735_1_alg».proof.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- 4 operations of @main (window main_part0), in order, the outlined functions' operations at their call sites. -/
abbrev opsP0a : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]
/-- Each touches TensorCore references only. -/
theorem opsP0a_sub : (opsP0a : List (HloOp τ sig (Elt F))).Forall fun op => op.bufs ⊆ tcRefs τ sig :=
  ⟨unary_bufs_sub .., reshape_bufs_sub .., unary_bufs_sub .., reshape_bufs_sub ..⟩
/-- The buffers these operations write. -/
abbrev opsP0a_W : List (Ref sig .tc) := [main_v0, main_v1, main_v2, main_v3]
theorem opsP0a_writes : (opsP0a : List (HloOp τ sig (Elt F))).Forall fun op => op.writes ⊆ (opsP0a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- None leaves its result undetermined. -/
theorem opsP0a_fresh : ∀ op ∈ (opsP0a : List (HloOp τ sig (Elt F))), op.fresh = ∅ := by
  intro _ h; (repeat (cases h with | head => rfl | tail _ h => ?_)); exact nomatch h

/-- 51 operations of @main (window main_part0), in order, the outlined functions' operations at their call sites. -/
abbrev opsP0b : List (HloOp τ sig (Elt F)) :=
  [ StableHlo.binary main_arg0 main_arg3 main_v4 ((fun l r => Host.dotGeneral dot_S50000x500_S500x100_S50000x100_1_0_0_1_n_n none l r) : (⟨S50000x500, .f32⟩ : BufTy).Contents (Elt F) → (⟨S500x100, .f32⟩ : BufTy).Contents (Elt F) → (⟨S50000x100, .f32⟩ : BufTy).Contents (Elt F)),
    StableHlo.unary main_arg4 main_v5 (broadcastInDim S1x100 ![1] bcast_S100_S1x100_1 : (⟨S100, .f32⟩ : BufTy).Contents (Elt F) → (⟨S1x100, .f32⟩ : BufTy).Contents (Elt F)),
    StableHlo.unary main_v5 main_v6 (broadcastInDim S50000x100 ![0, 1] bcast_S1x100_S50000x100_0_1 : (⟨S1x100, .f32⟩ : BufTy).Contents (Elt F) → (⟨S50000x100, .f32⟩ : BufTy).Contents (Elt F)),
    StableHlo.binary main_v4 main_v6 main_v7 (addf : (⟨S50000x100, .f32⟩ : BufTy).Contents (Elt F) → (⟨S50000x100, .f32⟩ : BufTy).Contents (Elt F) → (⟨S50000x100, .f32⟩ : BufTy).Contents (Elt F)),
    StableHlo.nullary main_cst (constant S_ .f32 0x00000000#32),
    StableHlo.binary main_v7 main_cst main_v8 ((fun x v => Host.reduceAdd x v reducesTo_S50000x100_S50000_d1 h_S_) : (⟨S50000x100, .f32⟩ : BufTy).Contents (Elt F) → (⟨S_, .f32⟩ : BufTy).Contents (Elt F) → (⟨S50000, .f32⟩ : BufTy).Contents (Elt F)),
    StableHlo.unary main_v8 main_v9 (broadcastInDim S50000x1 ![0] bcast_S50000_S50000x1_0 : (⟨S50000, .f32⟩ : BufTy).Contents (Elt F) → (⟨S50000x1, .f32⟩ : BufTy).Contents (Elt F)),
    StableHlo.nullary main_cst_0 (constant S_ .f32 0x42C80000#32),
    StableHlo.unary main_cst_0 main_v10 (broadcastInDim S50000x1 ![] bcast_S_S50000x1 : (⟨S_, .f32⟩ : BufTy).Contents (Elt F) → (⟨S50000x1, .f32⟩ : BufTy).Contents (Elt F)),
    StableHlo.binary main_v9 main_v10 main_v11 (Host.divf : (⟨S50000x1, .f32⟩ : BufTy).Contents (Elt F) → (⟨S50000x1, .f32⟩ : BufTy).Contents (Elt F) → (⟨S50000x1, .f32⟩ : BufTy).Contents (Elt F)),
    StableHlo.nullary main_c (constantI S_ 32 0#32),
    StableHlo.nullary main_call0_cst (constant S_ .f32 0x00000000#32),
    StableHlo.binary main_v7 main_call0_cst main_call0_v0 ((fun x v => Host.reduceAdd x v reducesTo_S50000x100_S50000_d1 h_S_) : (⟨S50000x100, .f32⟩ : BufTy).Contents (Elt F) → (⟨S_, .f32⟩ : BufTy).Contents (Elt F) → (⟨S50000, .f32⟩ : BufTy).Contents (Elt F)),
    StableHlo.unary main_call0_v0 main_call0_v1 ((broadcastInDim S50000x1 ![0] bcast_S50000_S50000x1_0) : (⟨S50000, .f32⟩ : BufTy).Contents (Elt F) → (⟨S50000x1, .f32⟩ : BufTy).Contents (Elt F)),
    StableHlo.nullary main_call0_cst_0 (constant S_ .f32 0x42C80000#32),
    StableHlo.unary main_call0_cst_0 main_call0_v2 ((broadcastInDim S50000x1 ![] bcast_S_S50000x1) : (⟨S_, .f32⟩ : BufTy).Contents (Elt F) → (⟨S50000x1, .f32⟩ : BufTy).Contents (Elt F)),
    StableHlo.binary main_call0_v1 main_call0_v2 main_call0_v3 (Host.divf : (⟨S50000x1, .f32⟩ : BufTy).Contents (Elt F) → (⟨S50000x1, .f32⟩ : BufTy).Contents (Elt F) → (⟨S50000x1, .f32⟩ : BufTy).Contents (Elt F)),
    StableHlo.unary main_call0_v3 main_call0_v4 ((broadcastInDim S50000x100 ![0, 1] bcast_S50000x1_S50000x100_0_1) : (⟨S50000x1, .f32⟩ : BufTy).Contents (Elt F) → (⟨S50000x100, .f32⟩ : BufTy).Contents (Elt F)),
    StableHlo.binary main_v7 main_call0_v4 main_call0_v5 (subf : (⟨S50000x100, .f32⟩ : BufTy).Contents (Elt F) → (⟨S50000x100, .f32⟩ : BufTy).Contents (Elt F) → (⟨S50000x100, .f32⟩ : BufTy).Contents (Elt F)),
    StableHlo.binary main_call0_v5 main_call0_v5 main_call0_v6 (mulf : (⟨S50000x100, .f32⟩ : BufTy).Contents (Elt F) → (⟨S50000x100, .f32⟩ : BufTy).Contents (Elt F) → (⟨S50000x100, .f32⟩ : BufTy).Contents (Elt F)),
    StableHlo.unary main_c main_call0_v7 ((sitofp .f32) : (⟨S_, .i32⟩ : BufTy).Contents (Elt F) → (⟨S_, .f32⟩ : BufTy).Contents (Elt F)),
    StableHlo.nullary main_call0_cst_1 (constant S_ .f32 0x42C80000#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S50000x100_S50000_d1 h_S_) : (⟨S50000x100, .f32⟩ : BufTy).Contents (Elt F) → (⟨S_, .f32⟩ : BufTy).Contents (Elt F) → (⟨S50000, .f32⟩ : BufTy).Contents (Elt F)),
    StableHlo.unary main_call0_v9 main_call0_v10 ((broadcastInDim S50000x1 ![0] bcast_S50000_S50000x1_0) : (⟨S50000, .f32⟩ : BufTy).Contents (Elt F) → (⟨S50000x1, .f32⟩ : BufTy).Contents (Elt F)),
    StableHlo.unary main_call0_v8 main_call0_v11 ((broadcastInDim S50000x1 ![] bcast_S_S50000x1) : (⟨S_, .f32⟩ : BufTy).Contents (Elt F) → (⟨S50000x1, .f32⟩ : BufTy).Contents (Elt F)),
    StableHlo.binary main_call0_v10 main_call0_v11 main_call0_v12 (Host.divf : (⟨S50000x1, .f32⟩ : BufTy).Contents (Elt F) → (⟨S50000x1, .f32⟩ : BufTy).Contents (Elt F) → (⟨S50000x1, .f32⟩ : BufTy).Contents (Elt F)),
    StableHlo.nullary main_call0_cst_3 (constant S_ .f32 0x00000000#32),
    StableHlo.binary main_call0_v8 main_call0_cst_3 main_call0_v13 ((cmpf .ogt) : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 ((broadcastInDim S50000x1 ![] bcast_S_S50000x1) : (⟨S_, .f32⟩ : BufTy).Contents (Elt F) → (⟨S50000x1, .f32⟩ : BufTy).Contents (Elt F)),
    StableHlo.ternary main_call0_v13 main_call0_v12 main_call0_call0_v1 main_v12 ((fun p a b => select (broadcastInDim S50000x1 ![] bcast_S_S50000x1 p) a b) : (⟨S_, .i1⟩ : BufTy).Contents (Elt F) → (⟨S50000x1, .f32⟩ : BufTy).Contents (Elt F) → (⟨S50000x1, .f32⟩ : BufTy).Contents (Elt F) → (⟨S50000x1, .f32⟩ : BufTy).Contents (Elt F)),
    StableHlo.unary main_v11 main_v13 (broadcastInDim S50000x100 ![0, 1] bcast_S50000x1_S50000x100_0_1 : (⟨S50000x1, .f32⟩ : BufTy).Contents (Elt F) → (⟨S50000x100, .f32⟩ : BufTy).Contents (Elt F)),
    StableHlo.binary main_v7 main_v13 main_v14 (subf : (⟨S50000x100, .f32⟩ : BufTy).Contents (Elt F) → (⟨S50000x100, .f32⟩ : BufTy).Contents (Elt F) → (⟨S50000x100, .f32⟩ : BufTy).Contents (Elt F)),
    StableHlo.nullary main_cst_1 (constant S_ .f32 0x3727C5AC#32),
    StableHlo.unary main_cst_1 main_v15 (broadcastInDim S50000x1 ![] bcast_S_S50000x1 : (⟨S_, .f32⟩ : BufTy).Contents (Elt F) → (⟨S50000x1, .f32⟩ : BufTy).Contents (Elt F)),
    StableHlo.binary main_v12 main_v15 main_v16 (addf : (⟨S50000x1, .f32⟩ : BufTy).Contents (Elt F) → (⟨S50000x1, .f32⟩ : BufTy).Contents (Elt F) → (⟨S50000x1, .f32⟩ : BufTy).Contents (Elt F)),
    StableHlo.unary main_v16 main_v17 (Host.sqrt : (⟨S50000x1, .f32⟩ : BufTy).Contents (Elt F) → (⟨S50000x1, .f32⟩ : BufTy).Contents (Elt F)),
    StableHlo.unary main_v17 main_v18 (broadcastInDim S50000x100 ![0, 1] bcast_S50000x1_S50000x100_0_1 : (⟨S50000x1, .f32⟩ : BufTy).Contents (Elt F) → (⟨S50000x100, .f32⟩ : BufTy).Contents (Elt F)),
    StableHlo.binary main_v14 main_v18 main_v19 (Host.divf : (⟨S50000x100, .f32⟩ : BufTy).Contents (Elt F) → (⟨S50000x100, .f32⟩ : BufTy).Contents (Elt F) → (⟨S50000x100, .f32⟩ : BufTy).Contents (Elt F)),
    StableHlo.unary main_arg5 main_v20 (broadcastInDim S1x100 ![1] bcast_S100_S1x100_1 : (⟨S100, .f32⟩ : BufTy).Contents (Elt F) → (⟨S1x100, .f32⟩ : BufTy).Contents (Elt F)),
    StableHlo.unary main_v20 main_v21 (broadcastInDim S50000x100 ![0, 1] bcast_S1x100_S50000x100_0_1 : (⟨S1x100, .f32⟩ : BufTy).Contents (Elt F) → (⟨S50000x100, .f32⟩ : BufTy).Contents (Elt F)),
    StableHlo.binary main_v19 main_v21 main_v22 (mulf : (⟨S50000x100, .f32⟩ : BufTy).Contents (Elt F) → (⟨S50000x100, .f32⟩ : BufTy).Contents (Elt F) → (⟨S50000x100, .f32⟩ : BufTy).Contents (Elt F)),
    StableHlo.unary main_arg6 main_v23 (broadcastInDim S1x100 ![1] bcast_S100_S1x100_1 : (⟨S100, .f32⟩ : BufTy).Contents (Elt F) → (⟨S1x100, .f32⟩ : BufTy).Contents (Elt F)),
    StableHlo.unary main_v23 main_v24 (broadcastInDim S50000x100 ![0, 1] bcast_S1x100_S50000x100_0_1 : (⟨S1x100, .f32⟩ : BufTy).Contents (Elt F) → (⟨S50000x100, .f32⟩ : BufTy).Contents (Elt F)),
    StableHlo.binary main_v22 main_v24 main_v25 (addf : (⟨S50000x100, .f32⟩ : BufTy).Contents (Elt F) → (⟨S50000x100, .f32⟩ : BufTy).Contents (Elt F) → (⟨S50000x100, .f32⟩ : BufTy).Contents (Elt F)),
    StableHlo.nullary main_call1_cst (constant S_ .f32 0x00000000#32),
    StableHlo.unary main_call1_cst main_call1_v0 ((broadcastInDim S50000x100 ![] bcast_S_S50000x100) : (⟨S_, .f32⟩ : BufTy).Contents (Elt F) → (⟨S50000x100, .f32⟩ : BufTy).Contents (Elt F)),
    StableHlo.binary main_v25 main_call1_v0 main_v26 (maximumf : (⟨S50000x100, .f32⟩ : BufTy).Contents (Elt F) → (⟨S50000x100, .f32⟩ : BufTy).Contents (Elt F) → (⟨S50000x100, .f32⟩ : BufTy).Contents (Elt F)) ]
/-- Each touches TensorCore references only. -/
theorem opsP0b_sub : (opsP0b : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- The buffers these operations write. -/
abbrev opsP0b_W : List (Ref sig .tc) := [main_v4, main_v5, main_v6, main_v7, main_cst, main_v8, main_v9, main_cst_0, main_v10, main_v11, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v12, main_v13, main_v14, main_cst_1, main_v15, main_v16, main_v17, main_v18, main_v19, main_v20, main_v21, main_v22, main_v23, main_v24, main_v25, main_call1_cst, main_call1_v0, main_v26]
theorem opsP0b_writes : (opsP0b : List (HloOp τ sig (Elt F))).Forall fun op => op.writes ⊆ (opsP0b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- None leaves its result undetermined. -/
theorem opsP0b_fresh : ∀ op ∈ (opsP0b : List (HloOp τ sig (Elt F))), op.fresh = ∅ := by
  intro _ h; (repeat (cases h with | head => rfl | tail _ h => ?_)); exact nomatch h

/-- 51 operations of @main (window main_part0), in order, the outlined functions' operations at their call sites. -/
abbrev opsP0c : List (HloOp τ sig (Elt F)) :=
  [ StableHlo.binary main_v26 main_arg7 main_v27 ((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)),
    StableHlo.unary main_arg8 main_v28 (broadcastInDim S1x100 ![1] bcast_S100_S1x100_1 : (⟨S100, .f32⟩ : BufTy).Contents (Elt F) → (⟨S1x100, .f32⟩ : BufTy).Contents (Elt F)),
    StableHlo.unary main_v28 main_v29 (broadcastInDim S50000x100 ![0, 1] bcast_S1x100_S50000x100_0_1 : (⟨S1x100, .f32⟩ : BufTy).Contents (Elt F) → (⟨S50000x100, .f32⟩ : BufTy).Contents (Elt F)),
    StableHlo.binary main_v27 main_v29 main_v30 (addf : (⟨S50000x100, .f32⟩ : BufTy).Contents (Elt F) → (⟨S50000x100, .f32⟩ : BufTy).Contents (Elt F) → (⟨S50000x100, .f32⟩ : BufTy).Contents (Elt F)),
    StableHlo.nullary main_cst_2 (constant S_ .f32 0x00000000#32),
    StableHlo.binary main_v30 main_cst_2 main_v31 ((fun x v => Host.reduceAdd x v reducesTo_S50000x100_S50000_d1 h_S_) : (⟨S50000x100, .f32⟩ : BufTy).Contents (Elt F) → (⟨S_, .f32⟩ : BufTy).Contents (Elt F) → (⟨S50000, .f32⟩ : BufTy).Contents (Elt F)),
    StableHlo.unary main_v31 main_v32 (broadcastInDim S50000x1 ![0] bcast_S50000_S50000x1_0 : (⟨S50000, .f32⟩ : BufTy).Contents (Elt F) → (⟨S50000x1, .f32⟩ : BufTy).Contents (Elt F)),
    StableHlo.nullary main_cst_3 (constant S_ .f32 0x42C80000#32),
    StableHlo.unary main_cst_3 main_v33 (broadcastInDim S50000x1 ![] bcast_S_S50000x1 : (⟨S_, .f32⟩ : BufTy).Contents (Elt F) → (⟨S50000x1, .f32⟩ : BufTy).Contents (Elt F)),
    StableHlo.binary main_v32 main_v33 main_v34 (Host.divf : (⟨S50000x1, .f32⟩ : BufTy).Contents (Elt F) → (⟨S50000x1, .f32⟩ : BufTy).Contents (Elt F) → (⟨S50000x1, .f32⟩ : BufTy).Contents (Elt F)),
    StableHlo.nullary main_c_4 (constantI S_ 32 0#32),
    StableHlo.nullary main_call2_cst (constant S_ .f32 0x00000000#32),
    StableHlo.binary main_v30 main_call2_cst main_call2_v0 ((fun x v => Host.reduceAdd x v reducesTo_S50000x100_S50000_d1 h_S_) : (⟨S50000x100, .f32⟩ : BufTy).Contents (Elt F) → (⟨S_, .f32⟩ : BufTy).Contents (Elt F) → (⟨S50000, .f32⟩ : BufTy).Contents (Elt F)),
    StableHlo.unary main_call2_v0 main_call2_v1 ((broadcastInDim S50000x1 ![0] bcast_S50000_S50000x1_0) : (⟨S50000, .f32⟩ : BufTy).Contents (Elt F) → (⟨S50000x1, .f32⟩ : BufTy).Contents (Elt F)),
    StableHlo.nullary main_call2_cst_0 (constant S_ .f32 0x42C80000#32),
    StableHlo.unary main_call2_cst_0 main_call2_v2 ((broadcastInDim S50000x1 ![] bcast_S_S50000x1) : (⟨S_, .f32⟩ : BufTy).Contents (Elt F) → (⟨S50000x1, .f32⟩ : BufTy).Contents (Elt F)),
    StableHlo.binary main_call2_v1 main_call2_v2 main_call2_v3 (Host.divf : (⟨S50000x1, .f32⟩ : BufTy).Contents (Elt F) → (⟨S50000x1, .f32⟩ : BufTy).Contents (Elt F) → (⟨S50000x1, .f32⟩ : BufTy).Contents (Elt F)),
    StableHlo.unary main_call2_v3 main_call2_v4 ((broadcastInDim S50000x100 ![0, 1] bcast_S50000x1_S50000x100_0_1) : (⟨S50000x1, .f32⟩ : BufTy).Contents (Elt F) → (⟨S50000x100, .f32⟩ : BufTy).Contents (Elt F)),
    StableHlo.binary main_v30 main_call2_v4 main_call2_v5 (subf : (⟨S50000x100, .f32⟩ : BufTy).Contents (Elt F) → (⟨S50000x100, .f32⟩ : BufTy).Contents (Elt F) → (⟨S50000x100, .f32⟩ : BufTy).Contents (Elt F)),
    StableHlo.binary main_call2_v5 main_call2_v5 main_call2_v6 (mulf : (⟨S50000x100, .f32⟩ : BufTy).Contents (Elt F) → (⟨S50000x100, .f32⟩ : BufTy).Contents (Elt F) → (⟨S50000x100, .f32⟩ : BufTy).Contents (Elt F)),
    StableHlo.unary main_c_4 main_call2_v7 ((sitofp .f32) : (⟨S_, .i32⟩ : BufTy).Contents (Elt F) → (⟨S_, .f32⟩ : BufTy).Contents (Elt F)),
    StableHlo.nullary main_call2_cst_1 (constant S_ .f32 0x42C80000#32),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32),
    StableHlo.binary main_call2_v6 main_call2_cst_2 main_call2_v9 ((fun x v => Host.reduceAdd x v reducesTo_S50000x100_S50000_d1 h_S_) : (⟨S50000x100, .f32⟩ : BufTy).Contents (Elt F) → (⟨S_, .f32⟩ : BufTy).Contents (Elt F) → (⟨S50000, .f32⟩ : BufTy).Contents (Elt F)),
    StableHlo.unary main_call2_v9 main_call2_v10 ((broadcastInDim S50000x1 ![0] bcast_S50000_S50000x1_0) : (⟨S50000, .f32⟩ : BufTy).Contents (Elt F) → (⟨S50000x1, .f32⟩ : BufTy).Contents (Elt F)),
    StableHlo.unary main_call2_v8 main_call2_v11 ((broadcastInDim S50000x1 ![] bcast_S_S50000x1) : (⟨S_, .f32⟩ : BufTy).Contents (Elt F) → (⟨S50000x1, .f32⟩ : BufTy).Contents (Elt F)),
    StableHlo.binary main_call2_v10 main_call2_v11 main_call2_v12 (Host.divf : (⟨S50000x1, .f32⟩ : BufTy).Contents (Elt F) → (⟨S50000x1, .f32⟩ : BufTy).Contents (Elt F) → (⟨S50000x1, .f32⟩ : BufTy).Contents (Elt F)),
    StableHlo.nullary main_call2_cst_3 (constant S_ .f32 0x00000000#32),
    StableHlo.binary main_call2_v8 main_call2_cst_3 main_call2_v13 ((cmpf .ogt) : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 ((broadcastInDim S50000x1 ![] bcast_S_S50000x1) : (⟨S_, .f32⟩ : BufTy).Contents (Elt F) → (⟨S50000x1, .f32⟩ : BufTy).Contents (Elt F)),
    StableHlo.ternary main_call2_v13 main_call2_v12 main_call2_call0_v1 main_v35 ((fun p a b => select (broadcastInDim S50000x1 ![] bcast_S_S50000x1 p) a b) : (⟨S_, .i1⟩ : BufTy).Contents (Elt F) → (⟨S50000x1, .f32⟩ : BufTy).Contents (Elt F) → (⟨S50000x1, .f32⟩ : BufTy).Contents (Elt F) → (⟨S50000x1, .f32⟩ : BufTy).Contents (Elt F)),
    StableHlo.unary main_v34 main_v36 (broadcastInDim S50000x100 ![0, 1] bcast_S50000x1_S50000x100_0_1 : (⟨S50000x1, .f32⟩ : BufTy).Contents (Elt F) → (⟨S50000x100, .f32⟩ : BufTy).Contents (Elt F)),
    StableHlo.binary main_v30 main_v36 main_v37 (subf : (⟨S50000x100, .f32⟩ : BufTy).Contents (Elt F) → (⟨S50000x100, .f32⟩ : BufTy).Contents (Elt F) → (⟨S50000x100, .f32⟩ : BufTy).Contents (Elt F)),
    StableHlo.nullary main_cst_5 (constant S_ .f32 0x3727C5AC#32),
    StableHlo.unary main_cst_5 main_v38 (broadcastInDim S50000x1 ![] bcast_S_S50000x1 : (⟨S_, .f32⟩ : BufTy).Contents (Elt F) → (⟨S50000x1, .f32⟩ : BufTy).Contents (Elt F)),
    StableHlo.binary main_v35 main_v38 main_v39 (addf : (⟨S50000x1, .f32⟩ : BufTy).Contents (Elt F) → (⟨S50000x1, .f32⟩ : BufTy).Contents (Elt F) → (⟨S50000x1, .f32⟩ : BufTy).Contents (Elt F)),
    StableHlo.unary main_v39 main_v40 (Host.sqrt : (⟨S50000x1, .f32⟩ : BufTy).Contents (Elt F) → (⟨S50000x1, .f32⟩ : BufTy).Contents (Elt F)),
    StableHlo.unary main_v40 main_v41 (broadcastInDim S50000x100 ![0, 1] bcast_S50000x1_S50000x100_0_1 : (⟨S50000x1, .f32⟩ : BufTy).Contents (Elt F) → (⟨S50000x100, .f32⟩ : BufTy).Contents (Elt F)),
    StableHlo.binary main_v37 main_v41 main_v42 (Host.divf : (⟨S50000x100, .f32⟩ : BufTy).Contents (Elt F) → (⟨S50000x100, .f32⟩ : BufTy).Contents (Elt F) → (⟨S50000x100, .f32⟩ : BufTy).Contents (Elt F)),
    StableHlo.unary main_arg9 main_v43 (broadcastInDim S1x100 ![1] bcast_S100_S1x100_1 : (⟨S100, .f32⟩ : BufTy).Contents (Elt F) → (⟨S1x100, .f32⟩ : BufTy).Contents (Elt F)),
    StableHlo.unary main_v43 main_v44 (broadcastInDim S50000x100 ![0, 1] bcast_S1x100_S50000x100_0_1 : (⟨S1x100, .f32⟩ : BufTy).Contents (Elt F) → (⟨S50000x100, .f32⟩ : BufTy).Contents (Elt F)),
    StableHlo.binary main_v42 main_v44 main_v45 (mulf : (⟨S50000x100, .f32⟩ : BufTy).Contents (Elt F) → (⟨S50000x100, .f32⟩ : BufTy).Contents (Elt F) → (⟨S50000x100, .f32⟩ : BufTy).Contents (Elt F)),
    StableHlo.unary main_arg10 main_v46 (broadcastInDim S1x100 ![1] bcast_S100_S1x100_1 : (⟨S100, .f32⟩ : BufTy).Contents (Elt F) → (⟨S1x100, .f32⟩ : BufTy).Contents (Elt F)),
    StableHlo.unary main_v46 main_v47 (broadcastInDim S50000x100 ![0, 1] bcast_S1x100_S50000x100_0_1 : (⟨S1x100, .f32⟩ : BufTy).Contents (Elt F) → (⟨S50000x100, .f32⟩ : BufTy).Contents (Elt F)),
    StableHlo.binary main_v45 main_v47 main_v48 (addf : (⟨S50000x100, .f32⟩ : BufTy).Contents (Elt F) → (⟨S50000x100, .f32⟩ : BufTy).Contents (Elt F) → (⟨S50000x100, .f32⟩ : BufTy).Contents (Elt F)),
    StableHlo.nullary main_call3_cst (constant S_ .f32 0x00000000#32),
    StableHlo.unary main_call3_cst main_call3_v0 ((broadcastInDim S50000x100 ![] bcast_S_S50000x100) : (⟨S_, .f32⟩ : BufTy).Contents (Elt F) → (⟨S50000x100, .f32⟩ : BufTy).Contents (Elt F)),
    StableHlo.binary main_v48 main_call3_v0 main_v49 (maximumf : (⟨S50000x100, .f32⟩ : BufTy).Contents (Elt F) → (⟨S50000x100, .f32⟩ : BufTy).Contents (Elt F) → (⟨S50000x100, .f32⟩ : BufTy).Contents (Elt F)) ]
/-- Each touches TensorCore references only. -/
theorem opsP0c_sub : (opsP0c : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- The buffers these operations write. -/
abbrev opsP0c_W : List (Ref sig .tc) := [main_v27, main_v28, main_v29, main_v30, main_cst_2, main_v31, main_v32, main_cst_3, main_v33, main_v34, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v35, main_v36, main_v37, main_cst_5, main_v38, main_v39, main_v40, main_v41, main_v42, main_v43, main_v44, main_v45, main_v46, main_v47, main_v48, main_call3_cst, main_call3_v0, main_v49]
theorem opsP0c_writes : (opsP0c : List (HloOp τ sig (Elt F))).Forall fun op => op.writes ⊆ (opsP0c_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- None leaves its result undetermined. -/
theorem opsP0c_fresh : ∀ op ∈ (opsP0c : List (HloOp τ sig (Elt F))), op.fresh = ∅ := by
  intro _ h; (repeat (cases h with | head => rfl | tail _ h => ?_)); exact nomatch h

/-- 2 operations of @main (window main_part0), in order, the outlined functions' operations at their call sites. -/
abbrev opsP0d : List (HloOp τ sig (Elt F)) :=
  [ StableHlo.nullary main_c_6 (constantI S_ 32 0#32),
    StableHlo.unary main_c_6 main_v50 (broadcastInDim S800000 ![] bcast_S_S800000 : (⟨S_, .i32⟩ : BufTy).Contents (Elt F) → (⟨S800000, .i32⟩ : BufTy).Contents (Elt F)) ]
/-- Each touches TensorCore references only. -/
theorem opsP0d_sub : (opsP0d : List (HloOp τ sig (Elt F))).Forall fun op => op.bufs ⊆ tcRefs τ sig :=
  ⟨nullary_bufs_sub .., unary_bufs_sub ..⟩
/-- The buffers these operations write. -/
abbrev opsP0d_W : List (Ref sig .tc) := [main_c_6, main_v50]
theorem opsP0d_writes : (opsP0d : List (HloOp τ sig (Elt F))).Forall fun op => op.writes ⊆ (opsP0d_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- None leaves its result undetermined. -/
theorem opsP0d_fresh : ∀ op ∈ (opsP0d : List (HloOp τ sig (Elt F))), op.fresh = ∅ := by
  intro _ h; (repeat (cases h with | head => rfl | tail _ h => ?_)); exact nomatch h

end Cert.RefRun

end
-- ==== Proof.RefRun.Eq0.lean ====
/-
  Window 0 of the reference's @main is the straight line of its operations: the outlined functions' bodies
  unfolded at their calls and the call records at their fields, both sides are one chain of host steps once
  the sequencing is reassociated, and step by step the same operation (a call's typed references are its buffers, the
  transport along their types the identity); the window's list is cut where a stage of the computation ends.
-/
import proofs.«132481_j11579231830735_1_alg».proof.Proof.RefRun.Ops0

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- Window 0 of @main runs its pieces' operations in order. -/
theorem main_part0_eq (c : Dev nD) : main_part0 (F := F) c = seq (opsP0a ++ opsP0b ++ opsP0c ++ opsP0d) := by
  simp only [main_part0, fn_var.body, fn_where.body, fn_relu.body, opsP0a, opsP0b, opsP0c, opsP0d, List.cons_append, List.nil_append, seq, bind_assoc, pure_bind] <;> rfl

end Cert.RefRun

end
-- ==== Proof.RefRun.Cat.lean ====
/-
  The edge list with a self-loop appended for every node: an array of 800000 edge ends followed by the 50000 node
  numbers. The reference builds it four times (sources and targets, for each graph convolution). The operands of the
  concatenation sit in a list that a later argument's type mentions, so the operation is given a name whose operands
  are plain arguments.
-/
import proofs.«132481_j11579231830735_1_alg».proof.ReferenceIdeal

noncomputable section

namespace Cert.RefRun

open Cert.ReferenceIdeal Idealize.ShloMosaic

variable {F : FTy → Type} [FloatOps F] [Cert.ReferenceIdeal.Facts]
open Cert.ReferenceIdeal.Facts₀ Cert.ReferenceIdeal.Facts

/-- `a` followed by `b`: the edge ends, then one self-loop per node. -/
def withLoops (a : (⟨S800000, .i32⟩ : BufTy).Contents (Elt F)) (b : (⟨S50000, .i32⟩ : BufTy).Contents (Elt F)) :
    (⟨S850000, .i32⟩ : BufTy).Contents (Elt F) :=
  concatenate S850000 0 [⟨S800000, a⟩, ⟨S50000, b⟩] concatenates_S800000_S50000_S850000_d0

end Cert.RefRun

end
-- ==== Proof.RefRun.Ops1.lean ====
import proofs.«132481_j11579231830735_1_alg».proof.ReferenceIdeal
import Idealize.ShloMosaic.Lib.StableHlo.Run
import proofs.«132481_j11579231830735_1_alg».proof.Proof.RefRun.Cat

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- 21 operations of @main (window main_part1), in order, the outlined functions' operations at their call sites. -/
abbrev opsP1a : List (HloOp τ sig (Elt F)) :=
  [ StableHlo.binary main_v1 main_v50 main_v51 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v52 (broadcastInDim S800000 ![] bcast_S_S800000 : (⟨S_, .i32⟩ : BufTy).Contents (Elt F) → (⟨S800000, .i32⟩ : BufTy).Contents (Elt F)),
    StableHlo.binary main_v1 main_v52 main_v53 (addi : (⟨S800000, .i32⟩ : BufTy).Contents (Elt F) → (⟨S800000, .i32⟩ : BufTy).Contents (Elt F) → (⟨S800000, .i32⟩ : BufTy).Contents (Elt F)),
    StableHlo.ternary main_v51 main_v53 main_v1 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v54 main_v55 (broadcastInDim S800000x1 ![0] bcast_S800000_S800000x1_0 : (⟨S800000, .i32⟩ : BufTy).Contents (Elt F) → (⟨S800000x1, .i32⟩ : BufTy).Contents (Elt F)),
    StableHlo.binary main_v49 main_v55 main_v56 ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)),
    StableHlo.reshape main_arg11 main_v57 rfl shapeCasts_S1x100x100_S100x100,
    StableHlo.binary main_v56 main_v57 main_v58 ((fun l r => Host.dotGeneral dot_S800000x100_S100x100_S800000x100_1_0_0_1_n_n none l r) : (⟨S800000x100, .f32⟩ : BufTy).Contents (Elt F) → (⟨S100x100, .f32⟩ : BufTy).Contents (Elt F) → (⟨S800000x100, .f32⟩ : BufTy).Contents (Elt F)),
    StableHlo.binary main_v49 main_arg12 main_v59 ((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)),
    StableHlo.nullary main_cst_8 (constant S_ .f32 0x00000000#32),
    StableHlo.unary main_cst_8 main_v60 (broadcastInDim S50000x100 ![] bcast_S_S50000x100 : (⟨S_, .f32⟩ : BufTy).Contents (Elt F) → (⟨S50000x100, .f32⟩ : BufTy).Contents (Elt F)),
    StableHlo.unary main_v3 main_v61 (broadcastInDim S800000x1 ![0] bcast_S800000_S800000x1_0 : (⟨S800000, .i32⟩ : BufTy).Contents (Elt F) → (⟨S800000x1, .i32⟩ : BufTy).Contents (Elt F)),
    StableHlo.ternary main_v60 main_v61 main_v58 main_v62 ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)),
    StableHlo.binary main_v59 main_v62 main_v63 (addf : (⟨S50000x100, .f32⟩ : BufTy).Contents (Elt F) → (⟨S50000x100, .f32⟩ : BufTy).Contents (Elt F) → (⟨S50000x100, .f32⟩ : BufTy).Contents (Elt F)),
    StableHlo.unary main_arg13 main_v64 (broadcastInDim S1x100 ![1] bcast_S100_S1x100_1 : (⟨S100, .f32⟩ : BufTy).Contents (Elt F) → (⟨S1x100, .f32⟩ : BufTy).Contents (Elt F)),
    StableHlo.unary main_v64 main_v65 (broadcastInDim S50000x100 ![0, 1] bcast_S1x100_S50000x100_0_1 : (⟨S1x100, .f32⟩ : BufTy).Contents (Elt F) → (⟨S50000x100, .f32⟩ : BufTy).Contents (Elt F)),
    StableHlo.binary main_v63 main_v65 main_v66 (addf : (⟨S50000x100, .f32⟩ : BufTy).Contents (Elt F) → (⟨S50000x100, .f32⟩ : BufTy).Contents (Elt F) → (⟨S50000x100, .f32⟩ : BufTy).Contents (Elt F)),
    StableHlo.nullary main_call4_cst (constant S_ .f32 0x00000000#32),
    StableHlo.unary main_call4_cst main_call4_v0 ((broadcastInDim S50000x100 ![] bcast_S_S50000x100) : (⟨S_, .f32⟩ : BufTy).Contents (Elt F) → (⟨S50000x100, .f32⟩ : BufTy).Contents (Elt F)),
    StableHlo.binary main_v66 main_call4_v0 main_v67 (maximumf : (⟨S50000x100, .f32⟩ : BufTy).Contents (Elt F) → (⟨S50000x100, .f32⟩ : BufTy).Contents (Elt F) → (⟨S50000x100, .f32⟩ : BufTy).Contents (Elt F)) ]
/-- Each touches TensorCore references only. -/
theorem opsP1a_sub : (opsP1a : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., reshape_bufs_sub .., binary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub ..⟩
/-- The buffers these operations write. -/
abbrev opsP1a_W : List (Ref sig .tc) := [main_v51, main_c_7, main_v52, main_v53, main_v54, main_v55, main_v56, main_v57, main_v58, main_v59, main_cst_8, main_v60, main_v61, main_v62, main_v63, main_v64, main_v65, main_v66, main_call4_cst, main_call4_v0, main_v67]
theorem opsP1a_writes : (opsP1a : List (HloOp τ sig (Elt F))).Forall fun op => op.writes ⊆ (opsP1a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- None leaves its result undetermined. -/
theorem opsP1a_fresh : ∀ op ∈ (opsP1a : List (HloOp τ sig (Elt F))), op.fresh = ∅ := by
  intro _ h; (repeat (cases h with | head => rfl | tail _ h => ?_)); exact nomatch h

/-- 43 operations of @main (window main_part1), in order, the outlined functions' operations at their call sites. -/
abbrev opsP1b : List (HloOp τ sig (Elt F)) :=
  [ StableHlo.binary main_v67 main_arg14 main_v68 ((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)),
    StableHlo.nullary main_v69 (iotaInDim S50000 32 0),
    StableHlo.binary main_v1 main_v69 main_v70 (withLoops : (⟨S800000, .i32⟩ : BufTy).Contents (Elt F) → (⟨S50000, .i32⟩ : BufTy).Contents (Elt F) → (⟨S850000, .i32⟩ : BufTy).Contents (Elt F)),
    StableHlo.binary main_v3 main_v69 main_v71 (withLoops : (⟨S800000, .i32⟩ : BufTy).Contents (Elt F) → (⟨S50000, .i32⟩ : BufTy).Contents (Elt F) → (⟨S850000, .i32⟩ : BufTy).Contents (Elt F)),
    StableHlo.nullary main_cst_9 (constant S_ .f32 0x3F800000#32),
    StableHlo.unary main_cst_9 main_v72 (broadcastInDim S850000 ![] bcast_S_S850000 : (⟨S_, .f32⟩ : BufTy).Contents (Elt F) → (⟨S850000, .f32⟩ : BufTy).Contents (Elt F)),
    StableHlo.nullary main_cst_10 (constant S_ .f32 0x00000000#32),
    StableHlo.unary main_cst_10 main_v73 (broadcastInDim S50000 ![] bcast_S_S50000 : (⟨S_, .f32⟩ : BufTy).Contents (Elt F) → (⟨S50000, .f32⟩ : BufTy).Contents (Elt F)),
    StableHlo.unary main_v71 main_v74 (broadcastInDim S850000x1 ![0] bcast_S850000_S850000x1_0 : (⟨S850000, .i32⟩ : BufTy).Contents (Elt F) → (⟨S850000x1, .i32⟩ : BufTy).Contents (Elt F)),
    StableHlo.ternary main_v73 main_v74 main_v72 main_v75 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_11 (constant S_ .f32 0x00000000#32),
    StableHlo.unary main_cst_11 main_v76 (broadcastInDim S50000 ![] bcast_S_S50000 : (⟨S_, .f32⟩ : BufTy).Contents (Elt F) → (⟨S50000, .f32⟩ : BufTy).Contents (Elt F)),
    StableHlo.binary main_v75 main_v76 main_v77 (cmpf .ogt : (⟨S50000, .f32⟩ : BufTy).Contents (Elt F) → (⟨S50000, .f32⟩ : BufTy).Contents (Elt F) → (⟨S50000, .i1⟩ : BufTy).Contents (Elt F)),
    StableHlo.nullary main_cst_12 (constant S_ .f32 0xBF000000#32),
    StableHlo.unary main_cst_12 main_v78 (broadcastInDim S50000 ![] bcast_S_S50000 : (⟨S_, .f32⟩ : BufTy).Contents (Elt F) → (⟨S50000, .f32⟩ : BufTy).Contents (Elt F)),
    StableHlo.binary main_v75 main_v78 main_v79 (Host.powf : (⟨S50000, .f32⟩ : BufTy).Contents (Elt F) → (⟨S50000, .f32⟩ : BufTy).Contents (Elt F) → (⟨S50000, .f32⟩ : BufTy).Contents (Elt F)),
    StableHlo.nullary main_cst_13 (constant S_ .f32 0x00000000#32),
    StableHlo.unary main_cst_13 main_call5_v0 (id : (⟨S_, .f32⟩ : BufTy).Contents (Elt F) → (⟨S_, .f32⟩ : BufTy).Contents (Elt F)),
    StableHlo.unary main_call5_v0 main_call5_v1 ((broadcastInDim S50000 ![] bcast_S_S50000) : (⟨S_, .f32⟩ : BufTy).Contents (Elt F) → (⟨S50000, .f32⟩ : BufTy).Contents (Elt F)),
    StableHlo.ternary main_v77 main_v79 main_call5_v1 main_v80 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.nullary main_c_14 (constantI S_ 32 0#32),
    StableHlo.unary main_c_14 main_v81 (broadcastInDim S850000 ![] bcast_S_S850000 : (⟨S_, .i32⟩ : BufTy).Contents (Elt F) → (⟨S850000, .i32⟩ : BufTy).Contents (Elt F)),
    StableHlo.binary main_v70 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v83 (broadcastInDim S850000 ![] bcast_S_S850000 : (⟨S_, .i32⟩ : BufTy).Contents (Elt F) → (⟨S850000, .i32⟩ : BufTy).Contents (Elt F)),
    StableHlo.binary main_v70 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v70 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v80 main_v86 main_v87 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_16 (constantI S_ 32 0#32),
    StableHlo.unary main_c_16 main_v88 (broadcastInDim S850000 ![] bcast_S_S850000 : (⟨S_, .i32⟩ : BufTy).Contents (Elt F) → (⟨S850000, .i32⟩ : BufTy).Contents (Elt F)),
    StableHlo.binary main_v71 main_v88 main_v89 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v90 (broadcastInDim S850000 ![] bcast_S_S850000 : (⟨S_, .i32⟩ : BufTy).Contents (Elt F) → (⟨S850000, .i32⟩ : BufTy).Contents (Elt F)),
    StableHlo.binary main_v71 main_v90 main_v91 (addi : (⟨S850000, .i32⟩ : BufTy).Contents (Elt F) → (⟨S850000, .i32⟩ : BufTy).Contents (Elt F) → (⟨S850000, .i32⟩ : BufTy).Contents (Elt F)),
    StableHlo.ternary main_v89 main_v91 main_v71 main_v92 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v92 main_v93 (broadcastInDim S850000x1 ![0] bcast_S850000_S850000x1_0 : (⟨S850000, .i32⟩ : BufTy).Contents (Elt F) → (⟨S850000x1, .i32⟩ : BufTy).Contents (Elt F)),
    StableHlo.binary main_v80 main_v93 main_v94 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v87 main_v94 main_v95 (mulf : (⟨S850000, .f32⟩ : BufTy).Contents (Elt F) → (⟨S850000, .f32⟩ : BufTy).Contents (Elt F) → (⟨S850000, .f32⟩ : BufTy).Contents (Elt F)),
    StableHlo.nullary main_c_18 (constantI S_ 32 0#32),
    StableHlo.unary main_c_18 main_v96 (broadcastInDim S850000 ![] bcast_S_S850000 : (⟨S_, .i32⟩ : BufTy).Contents (Elt F) → (⟨S850000, .i32⟩ : BufTy).Contents (Elt F)),
    StableHlo.binary main_v70 main_v96 main_v97 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32) ]
/-- Each touches TensorCore references only. -/
theorem opsP1b_sub : (opsP1b : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub ..⟩
/-- The buffers these operations write. -/
abbrev opsP1b_W : List (Ref sig .tc) := [main_v68, main_v69, main_v70, main_v71, main_cst_9, main_v72, main_cst_10, main_v73, main_v74, main_v75, main_cst_11, main_v76, main_v77, main_cst_12, main_v78, main_v79, main_cst_13, main_call5_v0, main_call5_v1, main_v80, main_c_14, main_v81, main_v82, main_c_15, main_v83, main_v84, main_v85, main_v86, main_v87, main_c_16, main_v88, main_v89, main_c_17, main_v90, main_v91, main_v92, main_v93, main_v94, main_v95, main_c_18, main_v96, main_v97, main_c_19]
theorem opsP1b_writes : (opsP1b : List (HloOp τ sig (Elt F))).Forall fun op => op.writes ⊆ (opsP1b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- None leaves its result undetermined. -/
theorem opsP1b_fresh : ∀ op ∈ (opsP1b : List (HloOp τ sig (Elt F))), op.fresh = ∅ := by
  intro _ h; (repeat (cases h with | head => rfl | tail _ h => ?_)); exact nomatch h

end Cert.RefRun

end
-- ==== Proof.RefRun.Eq1.lean ====
/-
  Window 1 of the reference's @main is the straight line of its operations: the outlined functions' bodies
  unfolded at their calls and the call records at their fields, both sides are one chain of host steps once
  the sequencing is reassociated, and step by step the same operation (a call's typed references are its buffers, the
  transport along their types the identity); the window's list is cut where a stage of the computation ends.
-/
import proofs.«132481_j11579231830735_1_alg».proof.Proof.RefRun.Ops1

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- Window 1 of @main runs its pieces' operations in order. -/
theorem main_part1_eq (c : Dev nD) : main_part1 (F := F) c = seq (opsP1a ++ opsP1b) := by
  simp only [main_part1, fn_relu.body, fn_where_0.body, opsP1a, opsP1b, List.cons_append, List.nil_append, seq, bind_assoc, pure_bind] <;> rfl

end Cert.RefRun

end
-- ==== Proof.RefRun.Ops2.lean ====
import proofs.«132481_j11579231830735_1_alg».proof.ReferenceIdeal
import Idealize.ShloMosaic.Lib.StableHlo.Run
import proofs.«132481_j11579231830735_1_alg».proof.Proof.RefRun.Cat

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- 18 operations of @main (window main_part2), in order, the outlined functions' operations at their call sites. -/
abbrev opsP2a : List (HloOp τ sig (Elt F)) :=
  [ StableHlo.unary main_c_19 main_v98 (broadcastInDim S850000 ![] bcast_S_S850000 : (⟨S_, .i32⟩ : BufTy).Contents (Elt F) → (⟨S850000, .i32⟩ : BufTy).Contents (Elt F)),
    StableHlo.binary main_v70 main_v98 main_v99 (addi : (⟨S850000, .i32⟩ : BufTy).Contents (Elt F) → (⟨S850000, .i32⟩ : BufTy).Contents (Elt F) → (⟨S850000, .i32⟩ : BufTy).Contents (Elt F)),
    StableHlo.ternary main_v97 main_v99 main_v70 main_v100 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v100 main_v101 (broadcastInDim S850000x1 ![0] bcast_S850000_S850000x1_0 : (⟨S850000, .i32⟩ : BufTy).Contents (Elt F) → (⟨S850000x1, .i32⟩ : BufTy).Contents (Elt F)),
    StableHlo.binary main_v68 main_v101 main_v102 ((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)),
    StableHlo.unary main_v95 main_v103 (broadcastInDim S850000x1 ![0] bcast_S850000_S850000x1_0 : (⟨S850000, .f32⟩ : BufTy).Contents (Elt F) → (⟨S850000x1, .f32⟩ : BufTy).Contents (Elt F)),
    StableHlo.unary main_v103 main_v104 (broadcastInDim S850000x100 ![0, 1] bcast_S850000x1_S850000x100_0_1 : (⟨S850000x1, .f32⟩ : BufTy).Contents (Elt F) → (⟨S850000x100, .f32⟩ : BufTy).Contents (Elt F)),
    StableHlo.binary main_v102 main_v104 main_v105 (mulf : (⟨S850000x100, .f32⟩ : BufTy).Contents (Elt F) → (⟨S850000x100, .f32⟩ : BufTy).Contents (Elt F) → (⟨S850000x100, .f32⟩ : BufTy).Contents (Elt F)),
    StableHlo.nullary main_cst_20 (constant S_ .f32 0x00000000#32),
    StableHlo.unary main_cst_20 main_v106 (broadcastInDim S50000x100 ![] bcast_S_S50000x100 : (⟨S_, .f32⟩ : BufTy).Contents (Elt F) → (⟨S50000x100, .f32⟩ : BufTy).Contents (Elt F)),
    StableHlo.unary main_v71 main_v107 (broadcastInDim S850000x1 ![0] bcast_S850000_S850000x1_0 : (⟨S850000, .i32⟩ : BufTy).Contents (Elt F) → (⟨S850000x1, .i32⟩ : BufTy).Contents (Elt F)),
    StableHlo.ternary main_v106 main_v107 main_v105 main_v108 ((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)),
    StableHlo.unary main_arg15 main_v109 (broadcastInDim S1x100 ![1] bcast_S100_S1x100_1 : (⟨S100, .f32⟩ : BufTy).Contents (Elt F) → (⟨S1x100, .f32⟩ : BufTy).Contents (Elt F)),
    StableHlo.unary main_v109 main_v110 (broadcastInDim S50000x100 ![0, 1] bcast_S1x100_S50000x100_0_1 : (⟨S1x100, .f32⟩ : BufTy).Contents (Elt F) → (⟨S50000x100, .f32⟩ : BufTy).Contents (Elt F)),
    StableHlo.binary main_v108 main_v110 main_v111 (addf : (⟨S50000x100, .f32⟩ : BufTy).Contents (Elt F) → (⟨S50000x100, .f32⟩ : BufTy).Contents (Elt F) → (⟨S50000x100, .f32⟩ : BufTy).Contents (Elt F)),
    StableHlo.nullary main_call6_cst (constant S_ .f32 0x00000000#32),
    StableHlo.unary main_call6_cst main_call6_v0 ((broadcastInDim S50000x100 ![] bcast_S_S50000x100) : (⟨S_, .f32⟩ : BufTy).Contents (Elt F) → (⟨S50000x100, .f32⟩ : BufTy).Contents (Elt F)),
    StableHlo.binary main_v111 main_call6_v0 main_v112 (maximumf : (⟨S50000x100, .f32⟩ : BufTy).Contents (Elt F) → (⟨S50000x100, .f32⟩ : BufTy).Contents (Elt F) → (⟨S50000x100, .f32⟩ : BufTy).Contents (Elt F)) ]
/-- Each touches TensorCore references only. -/
theorem opsP2a_sub : (opsP2a : List (HloOp τ sig (Elt F))).Forall fun op => op.bufs ⊆ tcRefs τ sig :=
  ⟨unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
/-- The buffers these operations write. -/
abbrev opsP2a_W : List (Ref sig .tc) := [main_v98, main_v99, main_v100, main_v101, main_v102, main_v103, main_v104, main_v105, main_cst_20, main_v106, main_v107, main_v108, main_v109, main_v110, main_v111, main_call6_cst, main_call6_v0, main_v112]
theorem opsP2a_writes : (opsP2a : List (HloOp τ sig (Elt F))).Forall fun op => op.writes ⊆ (opsP2a_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- None leaves its result undetermined. -/
theorem opsP2a_fresh : ∀ op ∈ (opsP2a : List (HloOp τ sig (Elt F))), op.fresh = ∅ := by
  intro _ h; (repeat (cases h with | head => rfl | tail _ h => ?_)); exact nomatch h

/-- 46 operations of @main (window main_part2), in order, the outlined functions' operations at their call sites. -/
abbrev opsP2b : List (HloOp τ sig (Elt F)) :=
  [ StableHlo.binary main_v112 main_arg16 main_v113 ((fun l r => Host.dotGeneral dot_S50000x100_S100x64_S50000x64_1_0_0_1_n_n none l r) : (⟨S50000x100, .f32⟩ : BufTy).Contents (Elt F) → (⟨S100x64, .f32⟩ : BufTy).Contents (Elt F) → (⟨S50000x64, .f32⟩ : BufTy).Contents (Elt F)),
    StableHlo.nullary main_v114 (iotaInDim S50000 32 0),
    StableHlo.binary main_v1 main_v114 main_v115 (withLoops : (⟨S800000, .i32⟩ : BufTy).Contents (Elt F) → (⟨S50000, .i32⟩ : BufTy).Contents (Elt F) → (⟨S850000, .i32⟩ : BufTy).Contents (Elt F)),
    StableHlo.binary main_v3 main_v114 main_v116 (withLoops : (⟨S800000, .i32⟩ : BufTy).Contents (Elt F) → (⟨S50000, .i32⟩ : BufTy).Contents (Elt F) → (⟨S850000, .i32⟩ : BufTy).Contents (Elt F)),
    StableHlo.nullary main_cst_21 (constant S_ .f32 0x3F800000#32),
    StableHlo.unary main_cst_21 main_v117 (broadcastInDim S850000 ![] bcast_S_S850000 : (⟨S_, .f32⟩ : BufTy).Contents (Elt F) → (⟨S850000, .f32⟩ : BufTy).Contents (Elt F)),
    StableHlo.nullary main_cst_22 (constant S_ .f32 0x00000000#32),
    StableHlo.unary main_cst_22 main_v118 (broadcastInDim S50000 ![] bcast_S_S50000 : (⟨S_, .f32⟩ : BufTy).Contents (Elt F) → (⟨S50000, .f32⟩ : BufTy).Contents (Elt F)),
    StableHlo.unary main_v116 main_v119 (broadcastInDim S850000x1 ![0] bcast_S850000_S850000x1_0 : (⟨S850000, .i32⟩ : BufTy).Contents (Elt F) → (⟨S850000x1, .i32⟩ : BufTy).Contents (Elt F)),
    StableHlo.ternary main_v118 main_v119 main_v117 main_v120 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_23 (constant S_ .f32 0x00000000#32),
    StableHlo.unary main_cst_23 main_v121 (broadcastInDim S50000 ![] bcast_S_S50000 : (⟨S_, .f32⟩ : BufTy).Contents (Elt F) → (⟨S50000, .f32⟩ : BufTy).Contents (Elt F)),
    StableHlo.binary main_v120 main_v121 main_v122 (cmpf .ogt : (⟨S50000, .f32⟩ : BufTy).Contents (Elt F) → (⟨S50000, .f32⟩ : BufTy).Contents (Elt F) → (⟨S50000, .i1⟩ : BufTy).Contents (Elt F)),
    StableHlo.nullary main_cst_24 (constant S_ .f32 0xBF000000#32),
    StableHlo.unary main_cst_24 main_v123 (broadcastInDim S50000 ![] bcast_S_S50000 : (⟨S_, .f32⟩ : BufTy).Contents (Elt F) → (⟨S50000, .f32⟩ : BufTy).Contents (Elt F)),
    StableHlo.binary main_v120 main_v123 main_v124 (Host.powf : (⟨S50000, .f32⟩ : BufTy).Contents (Elt F) → (⟨S50000, .f32⟩ : BufTy).Contents (Elt F) → (⟨S50000, .f32⟩ : BufTy).Contents (Elt F)),
    StableHlo.nullary main_cst_25 (constant S_ .f32 0x00000000#32),
    StableHlo.unary main_cst_25 main_call7_v0 (id : (⟨S_, .f32⟩ : BufTy).Contents (Elt F) → (⟨S_, .f32⟩ : BufTy).Contents (Elt F)),
    StableHlo.unary main_call7_v0 main_call7_v1 ((broadcastInDim S50000 ![] bcast_S_S50000) : (⟨S_, .f32⟩ : BufTy).Contents (Elt F) → (⟨S50000, .f32⟩ : BufTy).Contents (Elt F)),
    StableHlo.ternary main_v122 main_v124 main_call7_v1 main_v125 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.nullary main_c_26 (constantI S_ 32 0#32),
    StableHlo.unary main_c_26 main_v126 (broadcastInDim S850000 ![] bcast_S_S850000 : (⟨S_, .i32⟩ : BufTy).Contents (Elt F) → (⟨S850000, .i32⟩ : BufTy).Contents (Elt F)),
    StableHlo.binary main_v115 main_v126 main_v127 (cmpi .slt : (⟨S850000, .i32⟩ : BufTy).Contents (Elt F) → (⟨S850000, .i32⟩ : BufTy).Contents (Elt F) → (⟨S850000, .i1⟩ : BufTy).Contents (Elt F)),
    StableHlo.nullary main_c_27 (constantI S_ 32 50000#32),
    StableHlo.unary main_c_27 main_v128 (broadcastInDim S850000 ![] bcast_S_S850000 : (⟨S_, .i32⟩ : BufTy).Contents (Elt F) → (⟨S850000, .i32⟩ : BufTy).Contents (Elt F)),
    StableHlo.binary main_v115 main_v128 main_v129 (addi : (⟨S850000, .i32⟩ : BufTy).Contents (Elt F) → (⟨S850000, .i32⟩ : BufTy).Contents (Elt F) → (⟨S850000, .i32⟩ : BufTy).Contents (Elt F)),
    StableHlo.ternary main_v127 main_v129 main_v115 main_v130 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v130 main_v131 (broadcastInDim S850000x1 ![0] bcast_S850000_S850000x1_0 : (⟨S850000, .i32⟩ : BufTy).Contents (Elt F) → (⟨S850000x1, .i32⟩ : BufTy).Contents (Elt F)),
    StableHlo.binary main_v125 main_v131 main_v132 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_28 (constantI S_ 32 0#32),
    StableHlo.unary main_c_28 main_v133 (broadcastInDim S850000 ![] bcast_S_S850000 : (⟨S_, .i32⟩ : BufTy).Contents (Elt F) → (⟨S850000, .i32⟩ : BufTy).Contents (Elt F)),
    StableHlo.binary main_v116 main_v133 main_v134 (cmpi .slt : (⟨S850000, .i32⟩ : BufTy).Contents (Elt F) → (⟨S850000, .i32⟩ : BufTy).Contents (Elt F) → (⟨S850000, .i1⟩ : BufTy).Contents (Elt F)),
    StableHlo.nullary main_c_29 (constantI S_ 32 50000#32),
    StableHlo.unary main_c_29 main_v135 (broadcastInDim S850000 ![] bcast_S_S850000 : (⟨S_, .i32⟩ : BufTy).Contents (Elt F) → (⟨S850000, .i32⟩ : BufTy).Contents (Elt F)),
    StableHlo.binary main_v116 main_v135 main_v136 (addi : (⟨S850000, .i32⟩ : BufTy).Contents (Elt F) → (⟨S850000, .i32⟩ : BufTy).Contents (Elt F) → (⟨S850000, .i32⟩ : BufTy).Contents (Elt F)),
    StableHlo.ternary main_v134 main_v136 main_v116 main_v137 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v137 main_v138 (broadcastInDim S850000x1 ![0] bcast_S850000_S850000x1_0 : (⟨S850000, .i32⟩ : BufTy).Contents (Elt F) → (⟨S850000x1, .i32⟩ : BufTy).Contents (Elt F)),
    StableHlo.binary main_v125 main_v138 main_v139 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v132 main_v139 main_v140 (mulf : (⟨S850000, .f32⟩ : BufTy).Contents (Elt F) → (⟨S850000, .f32⟩ : BufTy).Contents (Elt F) → (⟨S850000, .f32⟩ : BufTy).Contents (Elt F)),
    StableHlo.nullary main_c_30 (constantI S_ 32 0#32),
    StableHlo.unary main_c_30 main_v141 (broadcastInDim S850000 ![] bcast_S_S850000 : (⟨S_, .i32⟩ : BufTy).Contents (Elt F) → (⟨S850000, .i32⟩ : BufTy).Contents (Elt F)),
    StableHlo.binary main_v115 main_v141 main_v142 (cmpi .slt : (⟨S850000, .i32⟩ : BufTy).Contents (Elt F) → (⟨S850000, .i32⟩ : BufTy).Contents (Elt F) → (⟨S850000, .i1⟩ : BufTy).Contents (Elt F)),
    StableHlo.nullary main_c_31 (constantI S_ 32 50000#32),
    StableHlo.unary main_c_31 main_v143 (broadcastInDim S850000 ![] bcast_S_S850000 : (⟨S_, .i32⟩ : BufTy).Contents (Elt F) → (⟨S850000, .i32⟩ : BufTy).Contents (Elt F)),
    StableHlo.binary main_v115 main_v143 main_v144 (addi : (⟨S850000, .i32⟩ : BufTy).Contents (Elt F) → (⟨S850000, .i32⟩ : BufTy).Contents (Elt F) → (⟨S850000, .i32⟩ : BufTy).Contents (Elt F)),
    StableHlo.ternary main_v142 main_v144 main_v115 main_v145 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ]
/-- Each touches TensorCore references only. -/
theorem opsP2b_sub : (opsP2b : List (HloOp τ sig (Elt F))).Forall fun op => op.bufs ⊆ tcRefs τ sig :=
  ⟨binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩
/-- The buffers these operations write. -/
abbrev opsP2b_W : List (Ref sig .tc) := [main_v113, main_v114, main_v115, main_v116, main_cst_21, main_v117, main_cst_22, main_v118, main_v119, main_v120, main_cst_23, main_v121, main_v122, main_cst_24, main_v123, main_v124, main_cst_25, main_call7_v0, main_call7_v1, main_v125, main_c_26, main_v126, main_v127, main_c_27, main_v128, main_v129, main_v130, main_v131, main_v132, main_c_28, main_v133, main_v134, main_c_29, main_v135, main_v136, main_v137, main_v138, main_v139, main_v140, main_c_30, main_v141, main_v142, main_c_31, main_v143, main_v144, main_v145]
theorem opsP2b_writes : (opsP2b : List (HloOp τ sig (Elt F))).Forall fun op => op.writes ⊆ (opsP2b_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- None leaves its result undetermined. -/
theorem opsP2b_fresh : ∀ op ∈ (opsP2b : List (HloOp τ sig (Elt F))), op.fresh = ∅ := by
  intro _ h; (repeat (cases h with | head => rfl | tail _ h => ?_)); exact nomatch h

end Cert.RefRun

end
-- ==== Proof.RefRun.Eq2.lean ====
/-
  Window 2 of the reference's @main is the straight line of its operations: the outlined functions' bodies
  unfolded at their calls and the call records at their fields, both sides are one chain of host steps once
  the sequencing is reassociated, and step by step the same operation (a call's typed references are its buffers, the
  transport along their types the identity); the window's list is cut where a stage of the computation ends.
-/
import proofs.«132481_j11579231830735_1_alg».proof.Proof.RefRun.Ops2

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- Window 2 of @main runs its pieces' operations in order. -/
theorem main_part2_eq (c : Dev nD) : main_part2 (F := F) c = seq (opsP2a ++ opsP2b) := by
  simp only [main_part2, fn_relu.body, fn_where_0.body, opsP2a, opsP2b, List.cons_append, List.nil_append, seq, bind_assoc, pure_bind] <;> rfl

end Cert.RefRun

end
-- ==== Proof.RefRun.Ops3.lean ====
import proofs.«132481_j11579231830735_1_alg».proof.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- 27 operations of @main (window main_part3), in order, the outlined functions' operations at their call sites. -/
abbrev opsP3 : List (HloOp τ sig (Elt F)) :=
  [ StableHlo.unary main_v145 main_v146 (broadcastInDim S850000x1 ![0] bcast_S850000_S850000x1_0 : (⟨S850000, .i32⟩ : BufTy).Contents (Elt F) → (⟨S850000x1, .i32⟩ : BufTy).Contents (Elt F)),
    StableHlo.binary main_v113 main_v146 main_v147 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v140 main_v148 (broadcastInDim S850000x1 ![0] bcast_S850000_S850000x1_0 : (⟨S850000, .f32⟩ : BufTy).Contents (Elt F) → (⟨S850000x1, .f32⟩ : BufTy).Contents (Elt F)),
    StableHlo.unary main_v148 main_v149 (broadcastInDim S850000x64 ![0, 1] bcast_S850000x1_S850000x64_0_1 : (⟨S850000x1, .f32⟩ : BufTy).Contents (Elt F) → (⟨S850000x64, .f32⟩ : BufTy).Contents (Elt F)),
    StableHlo.binary main_v147 main_v149 main_v150 (mulf : (⟨S850000x64, .f32⟩ : BufTy).Contents (Elt F) → (⟨S850000x64, .f32⟩ : BufTy).Contents (Elt F) → (⟨S850000x64, .f32⟩ : BufTy).Contents (Elt F)),
    StableHlo.nullary main_cst_32 (constant S_ .f32 0x00000000#32),
    StableHlo.unary main_cst_32 main_v151 (broadcastInDim S50000x64 ![] bcast_S_S50000x64 : (⟨S_, .f32⟩ : BufTy).Contents (Elt F) → (⟨S50000x64, .f32⟩ : BufTy).Contents (Elt F)),
    StableHlo.unary main_v116 main_v152 (broadcastInDim S850000x1 ![0] bcast_S850000_S850000x1_0 : (⟨S850000, .i32⟩ : BufTy).Contents (Elt F) → (⟨S850000x1, .i32⟩ : BufTy).Contents (Elt F)),
    StableHlo.ternary main_v151 main_v152 main_v150 main_v153 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg17 main_v154 (broadcastInDim S1x64 ![1] bcast_S64_S1x64_1 : (⟨S64, .f32⟩ : BufTy).Contents (Elt F) → (⟨S1x64, .f32⟩ : BufTy).Contents (Elt F)),
    StableHlo.unary main_v154 main_v155 (broadcastInDim S50000x64 ![0, 1] bcast_S1x64_S50000x64_0_1 : (⟨S1x64, .f32⟩ : BufTy).Contents (Elt F) → (⟨S50000x64, .f32⟩ : BufTy).Contents (Elt F)),
    StableHlo.binary main_v153 main_v155 main_v156 (addf : (⟨S50000x64, .f32⟩ : BufTy).Contents (Elt F) → (⟨S50000x64, .f32⟩ : BufTy).Contents (Elt F) → (⟨S50000x64, .f32⟩ : BufTy).Contents (Elt F)),
    StableHlo.nullary main_call8_cst (constant S_ .f32 0xFF800000#32),
    StableHlo.binary main_v156 main_call8_cst main_call8_v0 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.nullary main_call8_cst_0 (constant S_ .f32 0xFF800000#32),
    StableHlo.unary main_call8_cst_0 main_call8_v1 ((broadcastInDim S50000 ![] bcast_S_S50000) : (⟨S_, .f32⟩ : BufTy).Contents (Elt F) → (⟨S50000, .f32⟩ : BufTy).Contents (Elt F)),
    StableHlo.binary main_call8_v1 main_call8_v0 main_call8_v2 (maximumf : (⟨S50000, .f32⟩ : BufTy).Contents (Elt F) → (⟨S50000, .f32⟩ : BufTy).Contents (Elt F) → (⟨S50000, .f32⟩ : BufTy).Contents (Elt F)),
    StableHlo.unary main_call8_v2 main_call8_v3 ((broadcastInDim S50000x1 ![0] bcast_S50000_S50000x1_0) : (⟨S50000, .f32⟩ : BufTy).Contents (Elt F) → (⟨S50000x1, .f32⟩ : BufTy).Contents (Elt F)),
    StableHlo.unary main_call8_v3 main_call8_v4 ((broadcastInDim S50000x64 ![0, 1] bcast_S50000x1_S50000x64_0_1) : (⟨S50000x1, .f32⟩ : BufTy).Contents (Elt F) → (⟨S50000x64, .f32⟩ : BufTy).Contents (Elt F)),
    StableHlo.binary main_v156 main_call8_v4 main_call8_v5 (subf : (⟨S50000x64, .f32⟩ : BufTy).Contents (Elt F) → (⟨S50000x64, .f32⟩ : BufTy).Contents (Elt F) → (⟨S50000x64, .f32⟩ : BufTy).Contents (Elt F)),
    StableHlo.unary main_call8_v5 main_call8_v6 (Host.exp : (⟨S50000x64, .f32⟩ : BufTy).Contents (Elt F) → (⟨S50000x64, .f32⟩ : BufTy).Contents (Elt F)),
    StableHlo.nullary main_call8_cst_1 (constant S_ .f32 0x00000000#32),
    StableHlo.binary main_call8_v6 main_call8_cst_1 main_call8_v7 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_call8_v7 main_call8_v8 ((broadcastInDim S50000x1 ![0] bcast_S50000_S50000x1_0) : (⟨S50000, .f32⟩ : BufTy).Contents (Elt F) → (⟨S50000x1, .f32⟩ : BufTy).Contents (Elt F)),
    StableHlo.unary main_call8_v8 main_call8_v9 (Host.log : (⟨S50000x1, .f32⟩ : BufTy).Contents (Elt F) → (⟨S50000x1, .f32⟩ : BufTy).Contents (Elt F)),
    StableHlo.unary main_call8_v9 main_call8_v10 ((broadcastInDim S50000x64 ![0, 1] bcast_S50000x1_S50000x64_0_1) : (⟨S50000x1, .f32⟩ : BufTy).Contents (Elt F) → (⟨S50000x64, .f32⟩ : BufTy).Contents (Elt F)),
    StableHlo.binary main_call8_v5 main_call8_v10 main_v157 (subf : (⟨S50000x64, .f32⟩ : BufTy).Contents (Elt F) → (⟨S50000x64, .f32⟩ : BufTy).Contents (Elt F) → (⟨S50000x64, .f32⟩ : BufTy).Contents (Elt F)) ]
/-- Each touches TensorCore references only. -/
theorem opsP3_sub : (opsP3 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
/-- The buffers these operations write. -/
abbrev opsP3_W : List (Ref sig .tc) := [main_v146, main_v147, main_v148, main_v149, main_v150, main_cst_32, main_v151, main_v152, main_v153, main_v154, main_v155, main_v156, main_call8_cst, main_call8_v0, main_call8_cst_0, main_call8_v1, main_call8_v2, main_call8_v3, main_call8_v4, main_call8_v5, main_call8_v6, main_call8_cst_1, main_call8_v7, main_call8_v8, main_call8_v9, main_call8_v10, main_v157]
theorem opsP3_writes : (opsP3 : List (HloOp τ sig (Elt F))).Forall fun op => op.writes ⊆ (opsP3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- None leaves its result undetermined. -/
theorem opsP3_fresh : ∀ op ∈ (opsP3 : List (HloOp τ sig (Elt F))), op.fresh = ∅ := by
  intro _ h; (repeat (cases h with | head => rfl | tail _ h => ?_)); exact nomatch h

end Cert.RefRun

end
-- ==== Proof.RefRun.Eq3.lean ====
/-
  Window 3 of the reference's @main is the straight line of its operations: the outlined functions' bodies
  unfolded at their calls and the call records at their fields, both sides are one chain of host steps once
  the sequencing is reassociated, and step by step the same operation (a call's typed references are its buffers, the
  transport along their types the identity); the window's list is cut where a stage of the computation ends.
-/
import proofs.«132481_j11579231830735_1_alg».proof.Proof.RefRun.Ops3

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

-- the folds and pointwise maps stay folded while the two lines are compared: the comparison never looks inside them
attribute [local irreducible] Host.reduce Host.reduceAdd Host.exp Host.log in
/-- Window 3 of @main runs its pieces' operations in order. -/
theorem main_part3_eq (c : Dev nD) : main_part3 (F := F) c = seq (opsP3) := by
  simp only [main_part3, fn_log_softmax.body, opsP3, List.cons_append, List.nil_append, seq, bind_assoc, pure_bind] <;> rfl

end Cert.RefRun

end
-- ==== Proof.Stages.lean ====
/-
  The reference program's @main as pure functions of its argument arrays, one function per stage, each a chain of
  `let`s with one line per host operation of the printed program, in its order, the outlined functions
  (`_var`, `_where`, `relu`, `_where_0`, `log_softmax`) as functions of their own. Stage by stage:
  the edge sources and targets (rows 0 and 1 of the edge index); Linear → LayerNorm → relu → Linear → LayerNorm → relu
  on the node features; the relational layer (messages gathered along the sources, multiplied by the relation's
  weights, summed at the targets, plus the self term and the bias, relu); the first graph convolution with self-loops
  and the symmetric degree normalisation, relu; the second one, and log_softmax along the 64 classes.
  Nothing is proved here: these are the terms the reference's run ends at, and the terms the kernel's regions and
  host stretches are compared with.
-/
import proofs.«132481_j11579231830735_1_alg».proof.ReferenceIdeal

noncomputable section

namespace Cert.Stages

open Idealize.ShloMosaic Cert.ReferenceIdeal

variable {F : FTy → Type} [FloatOps F] [Cert.ReferenceIdeal.Facts]
open Cert.ReferenceIdeal.Facts₀ Cert.ReferenceIdeal.Facts

/-- `jnp.where(p, a, s)` with a scalar condition and a scalar alternative, over f32[50000, 1]. -/
def fnwhere (p : (⟨S_, .i1⟩ : BufTy).Contents (Elt F)) (a : (⟨S50000x1, .f32⟩ : BufTy).Contents (Elt F)) (s : (⟨S_, .f32⟩ : BufTy).Contents (Elt F)) : (⟨S50000x1, .f32⟩ : BufTy).Contents (Elt F) :=
  let v0 : (⟨S_, .f32⟩ : BufTy).Contents (Elt F) := id s
  let v1 : (⟨S50000x1, .f32⟩ : BufTy).Contents (Elt F) := broadcastInDim S50000x1 ![] bcast_S_S50000x1 v0
  (fun p a b => select (broadcastInDim S50000x1 ![] bcast_S_S50000x1 p) a b) p a v1

/-- `jnp.var` along the last axis of f32[50000, 100], keepdims, with `d` delta degrees of freedom:
    the mean of the squared deviations from the row mean, where the divisor `100 - d` is positive. -/
def fnvar (x : (⟨S50000x100, .f32⟩ : BufTy).Contents (Elt F)) (d : (⟨S_, .i32⟩ : BufTy).Contents (Elt F)) : (⟨S50000x1, .f32⟩ : BufTy).Contents (Elt F) :=
  let cst : (⟨S_, .f32⟩ : BufTy).Contents (Elt F) := constant S_ .f32 0x00000000#32
  let v0 : (⟨S50000, .f32⟩ : BufTy).Contents (Elt F) := (fun x v => Host.reduceAdd x v reducesTo_S50000x100_S50000_d1 h_S_) x cst
  let v1 : (⟨S50000x1, .f32⟩ : BufTy).Contents (Elt F) := broadcastInDim S50000x1 ![0] bcast_S50000_S50000x1_0 v0
  let cst_0 : (⟨S_, .f32⟩ : BufTy).Contents (Elt F) := constant S_ .f32 0x42C80000#32
  let v2 : (⟨S50000x1, .f32⟩ : BufTy).Contents (Elt F) := broadcastInDim S50000x1 ![] bcast_S_S50000x1 cst_0
  let v3 : (⟨S50000x1, .f32⟩ : BufTy).Contents (Elt F) := Host.divf v1 v2
  let v4 : (⟨S50000x100, .f32⟩ : BufTy).Contents (Elt F) := broadcastInDim S50000x100 ![0, 1] bcast_S50000x1_S50000x100_0_1 v3
  let v5 : (⟨S50000x100, .f32⟩ : BufTy).Contents (Elt F) := subf x v4
  let v6 : (⟨S50000x100, .f32⟩ : BufTy).Contents (Elt F) := mulf v5 v5
  let v7 : (⟨S_, .f32⟩ : BufTy).Contents (Elt F) := sitofp .f32 d
  let cst_1 : (⟨S_, .f32⟩ : BufTy).Contents (Elt F) := constant S_ .f32 0x42C80000#32
  let v8 : (⟨S_, .f32⟩ : BufTy).Contents (Elt F) := subf cst_1 v7
  let cst_2 : (⟨S_, .f32⟩ : BufTy).Contents (Elt F) := constant S_ .f32 0x00000000#32
  let v9 : (⟨S50000, .f32⟩ : BufTy).Contents (Elt F) := (fun x v => Host.reduceAdd x v reducesTo_S50000x100_S50000_d1 h_S_) v6 cst_2
  let v10 : (⟨S50000x1, .f32⟩ : BufTy).Contents (Elt F) := broadcastInDim S50000x1 ![0] bcast_S50000_S50000x1_0 v9
  let v11 : (⟨S50000x1, .f32⟩ : BufTy).Contents (Elt F) := broadcastInDim S50000x1 ![] bcast_S_S50000x1 v8
  let v12 : (⟨S50000x1, .f32⟩ : BufTy).Contents (Elt F) := Host.divf v10 v11
  let cst_3 : (⟨S_, .f32⟩ : BufTy).Contents (Elt F) := constant S_ .f32 0x00000000#32
  let v13 : (⟨S_, .i1⟩ : BufTy).Contents (Elt F) := cmpf .ogt v8 cst_3
  let cst_4 : (⟨S_, .f32⟩ : BufTy).Contents (Elt F) := constant S_ .f32 0x7FC00000#32
  fnwhere v13 v12 cst_4

/-- `relu` over f32[50000, 100]: the maximum with zero. -/
def fnrelu (x : (⟨S50000x100, .f32⟩ : BufTy).Contents (Elt F)) : (⟨S50000x100, .f32⟩ : BufTy).Contents (Elt F) :=
  let cst : (⟨S_, .f32⟩ : BufTy).Contents (Elt F) := constant S_ .f32 0x00000000#32
  let v0 : (⟨S50000x100, .f32⟩ : BufTy).Contents (Elt F) := broadcastInDim S50000x100 ![] bcast_S_S50000x100 cst
  maximumf x v0

/-- `jnp.where(p, a, s)` with a scalar alternative, over f32[50000]. -/
def fnwhere0 (p : (⟨S50000, .i1⟩ : BufTy).Contents (Elt F)) (a : (⟨S50000, .f32⟩ : BufTy).Contents (Elt F)) (s : (⟨S_, .f32⟩ : BufTy).Contents (Elt F)) : (⟨S50000, .f32⟩ : BufTy).Contents (Elt F) :=
  let v0 : (⟨S_, .f32⟩ : BufTy).Contents (Elt F) := id s
  let v1 : (⟨S50000, .f32⟩ : BufTy).Contents (Elt F) := broadcastInDim S50000 ![] bcast_S_S50000 v0
  select p a v1

/-- `log_softmax` along the last axis of f32[50000, 64]: `(x - max) - log (Σ exp (x - max))`, row by row. -/
def fnlogSoftmax (x : (⟨S50000x64, .f32⟩ : BufTy).Contents (Elt F)) : (⟨S50000x64, .f32⟩ : BufTy).Contents (Elt F) :=
  let cst : (⟨S_, .f32⟩ : BufTy).Contents (Elt F) := constant S_ .f32 0xFF800000#32
  let v0 : (⟨S50000, .f32⟩ : BufTy).Contents (Elt F) := (fun x v => Host.reduce FloatOps.maximumf x v reducesTo_S50000x64_S50000_d1 h_S_) x cst
  let cst_0 : (⟨S_, .f32⟩ : BufTy).Contents (Elt F) := constant S_ .f32 0xFF800000#32
  let v1 : (⟨S50000, .f32⟩ : BufTy).Contents (Elt F) := broadcastInDim S50000 ![] bcast_S_S50000 cst_0
  let v2 : (⟨S50000, .f32⟩ : BufTy).Contents (Elt F) := maximumf v1 v0
  let v3 : (⟨S50000x1, .f32⟩ : BufTy).Contents (Elt F) := broadcastInDim S50000x1 ![0] bcast_S50000_S50000x1_0 v2
  let v4 : (⟨S50000x64, .f32⟩ : BufTy).Contents (Elt F) := broadcastInDim S50000x64 ![0, 1] bcast_S50000x1_S50000x64_0_1 v3
  let v5 : (⟨S50000x64, .f32⟩ : BufTy).Contents (Elt F) := subf x v4
  let v6 : (⟨S50000x64, .f32⟩ : BufTy).Contents (Elt F) := Host.exp v5
  let cst_1 : (⟨S_, .f32⟩ : BufTy).Contents (Elt F) := constant S_ .f32 0x00000000#32
  let v7 : (⟨S50000, .f32⟩ : BufTy).Contents (Elt F) := (fun x v => Host.reduceAdd x v reducesTo_S50000x64_S50000_d1 h_S_) v6 cst_1
  let v8 : (⟨S50000x1, .f32⟩ : BufTy).Contents (Elt F) := broadcastInDim S50000x1 ![0] bcast_S50000_S50000x1_0 v7
  let v9 : (⟨S50000x1, .f32⟩ : BufTy).Contents (Elt F) := Host.log v8
  let v10 : (⟨S50000x64, .f32⟩ : BufTy).Contents (Elt F) := broadcastInDim S50000x64 ![0, 1] bcast_S50000x1_S50000x64_0_1 v9
  subf v5 v10

/-- The edge sources: row 0 of the edge index. -/
def refSrc (main_arg1 : (⟨S2x800000, .i32⟩ : BufTy).Contents (Elt F)) : (⟨S800000, .i32⟩ : BufTy).Contents (Elt F) :=
  let main_v0 := ((extractStridedSlice S1x800000 ![0, 0] · slices_S2x800000_S1x800000_0_0) : (⟨S2x800000, .i32⟩ : BufTy).Contents (Elt F) → (⟨S1x800000, .i32⟩ : BufTy).Contents (Elt F)) main_arg1
  let main_v1 := shapeCast S800000 main_v0 shapeCasts_S1x800000_S800000
  main_v1

/-- The edge targets: row 1 of the edge index. -/
def refTgt (main_arg1 : (⟨S2x800000, .i32⟩ : BufTy).Contents (Elt F)) : (⟨S800000, .i32⟩ : BufTy).Contents (Elt F) :=
  let main_v2 := ((extractStridedSlice S1x800000 ![1, 0] · slices_S2x800000_S1x800000_1_0) : (⟨S2x800000, .i32⟩ : BufTy).Contents (Elt F) → (⟨S1x800000, .i32⟩ : BufTy).Contents (Elt F)) main_arg1
  let main_v3 := shapeCast S800000 main_v2 shapeCasts_S1x800000_S800000
  main_v3

/-- Linear → LayerNorm → relu → Linear → LayerNorm → relu on the node features. -/
def refX1 (main_arg0 : (⟨S50000x500, .f32⟩ : BufTy).Contents (Elt F)) (main_arg3 : (⟨S500x100, .f32⟩ : BufTy).Contents (Elt F)) (main_arg4 main_arg5 main_arg6 : (⟨S100, .f32⟩ : BufTy).Contents (Elt F))
    (main_arg7 : (⟨S100x100, .f32⟩ : BufTy).Contents (Elt F)) (main_arg8 main_arg9 main_arg10 : (⟨S100, .f32⟩ : BufTy).Contents (Elt F)) : (⟨S50000x100, .f32⟩ : BufTy).Contents (Elt F) :=
  let main_v4 := ((fun l r => Host.dotGeneral dot_S50000x500_S500x100_S50000x100_1_0_0_1_n_n none l r) : (⟨S50000x500, .f32⟩ : BufTy).Contents (Elt F) → (⟨S500x100, .f32⟩ : BufTy).Contents (Elt F) → (⟨S50000x100, .f32⟩ : BufTy).Contents (Elt F)) main_arg0 main_arg3
  let main_v5 := (broadcastInDim S1x100 ![1] bcast_S100_S1x100_1 : (⟨S100, .f32⟩ : BufTy).Contents (Elt F) → (⟨S1x100, .f32⟩ : BufTy).Contents (Elt F)) main_arg4
  let main_v6 := (broadcastInDim S50000x100 ![0, 1] bcast_S1x100_S50000x100_0_1 : (⟨S1x100, .f32⟩ : BufTy).Contents (Elt F) → (⟨S50000x100, .f32⟩ : BufTy).Contents (Elt F)) main_v5
  let main_v7 := (addf : (⟨S50000x100, .f32⟩ : BufTy).Contents (Elt F) → (⟨S50000x100, .f32⟩ : BufTy).Contents (Elt F) → (⟨S50000x100, .f32⟩ : BufTy).Contents (Elt F)) main_v4 main_v6
  let main_cst : (⟨S_, .f32⟩ : BufTy).Contents (Elt F) := constant S_ .f32 0x00000000#32
  let main_v8 := ((fun x v => Host.reduceAdd x v reducesTo_S50000x100_S50000_d1 h_S_) : (⟨S50000x100, .f32⟩ : BufTy).Contents (Elt F) → (⟨S_, .f32⟩ : BufTy).Contents (Elt F) → (⟨S50000, .f32⟩ : BufTy).Contents (Elt F)) main_v7 main_cst
  let main_v9 := (broadcastInDim S50000x1 ![0] bcast_S50000_S50000x1_0 : (⟨S50000, .f32⟩ : BufTy).Contents (Elt F) → (⟨S50000x1, .f32⟩ : BufTy).Contents (Elt F)) main_v8
  let main_cst_0 : (⟨S_, .f32⟩ : BufTy).Contents (Elt F) := constant S_ .f32 0x42C80000#32
  let main_v10 := (broadcastInDim S50000x1 ![] bcast_S_S50000x1 : (⟨S_, .f32⟩ : BufTy).Contents (Elt F) → (⟨S50000x1, .f32⟩ : BufTy).Contents (Elt F)) main_cst_0
  let main_v11 := (Host.divf : (⟨S50000x1, .f32⟩ : BufTy).Contents (Elt F) → (⟨S50000x1, .f32⟩ : BufTy).Contents (Elt F) → (⟨S50000x1, .f32⟩ : BufTy).Contents (Elt F)) main_v9 main_v10
  let main_c : (⟨S_, .i32⟩ : BufTy).Contents (Elt F) := constantI S_ 32 0#32
  let main_v12 := fnvar main_v7 main_c
  let main_v13 := (broadcastInDim S50000x100 ![0, 1] bcast_S50000x1_S50000x100_0_1 : (⟨S50000x1, .f32⟩ : BufTy).Contents (Elt F) → (⟨S50000x100, .f32⟩ : BufTy).Contents (Elt F)) main_v11
  let main_v14 := (subf : (⟨S50000x100, .f32⟩ : BufTy).Contents (Elt F) → (⟨S50000x100, .f32⟩ : BufTy).Contents (Elt F) → (⟨S50000x100, .f32⟩ : BufTy).Contents (Elt F)) main_v7 main_v13
  let main_cst_1 : (⟨S_, .f32⟩ : BufTy).Contents (Elt F) := constant S_ .f32 0x3727C5AC#32
  let main_v15 := (broadcastInDim S50000x1 ![] bcast_S_S50000x1 : (⟨S_, .f32⟩ : BufTy).Contents (Elt F) → (⟨S50000x1, .f32⟩ : BufTy).Contents (Elt F)) main_cst_1
  let main_v16 := (addf : (⟨S50000x1, .f32⟩ : BufTy).Contents (Elt F) → (⟨S50000x1, .f32⟩ : BufTy).Contents (Elt F) → (⟨S50000x1, .f32⟩ : BufTy).Contents (Elt F)) main_v12 main_v15
  let main_v17 := (Host.sqrt : (⟨S50000x1, .f32⟩ : BufTy).Contents (Elt F) → (⟨S50000x1, .f32⟩ : BufTy).Contents (Elt F)) main_v16
  let main_v18 := (broadcastInDim S50000x100 ![0, 1] bcast_S50000x1_S50000x100_0_1 : (⟨S50000x1, .f32⟩ : BufTy).Contents (Elt F) → (⟨S50000x100, .f32⟩ : BufTy).Contents (Elt F)) main_v17
  let main_v19 := (Host.divf : (⟨S50000x100, .f32⟩ : BufTy).Contents (Elt F) → (⟨S50000x100, .f32⟩ : BufTy).Contents (Elt F) → (⟨S50000x100, .f32⟩ : BufTy).Contents (Elt F)) main_v14 main_v18
  let main_v20 := (broadcastInDim S1x100 ![1] bcast_S100_S1x100_1 : (⟨S100, .f32⟩ : BufTy).Contents (Elt F) → (⟨S1x100, .f32⟩ : BufTy).Contents (Elt F)) main_arg5
  let main_v21 := (broadcastInDim S50000x100 ![0, 1] bcast_S1x100_S50000x100_0_1 : (⟨S1x100, .f32⟩ : BufTy).Contents (Elt F) → (⟨S50000x100, .f32⟩ : BufTy).Contents (Elt F)) main_v20
  let main_v22 := (mulf : (⟨S50000x100, .f32⟩ : BufTy).Contents (Elt F) → (⟨S50000x100, .f32⟩ : BufTy).Contents (Elt F) → (⟨S50000x100, .f32⟩ : BufTy).Contents (Elt F)) main_v19 main_v21
  let main_v23 := (broadcastInDim S1x100 ![1] bcast_S100_S1x100_1 : (⟨S100, .f32⟩ : BufTy).Contents (Elt F) → (⟨S1x100, .f32⟩ : BufTy).Contents (Elt F)) main_arg6
  let main_v24 := (broadcastInDim S50000x100 ![0, 1] bcast_S1x100_S50000x100_0_1 : (⟨S1x100, .f32⟩ : BufTy).Contents (Elt F) → (⟨S50000x100, .f32⟩ : BufTy).Contents (Elt F)) main_v23
  let main_v25 := (addf : (⟨S50000x100, .f32⟩ : BufTy).Contents (Elt F) → (⟨S50000x100, .f32⟩ : BufTy).Contents (Elt F) → (⟨S50000x100, .f32⟩ : BufTy).Contents (Elt F)) main_v22 main_v24
  let main_v26 := fnrelu main_v25
  let main_v27 := ((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)) main_v26 main_arg7
  let main_v28 := (broadcastInDim S1x100 ![1] bcast_S100_S1x100_1 : (⟨S100, .f32⟩ : BufTy).Contents (Elt F) → (⟨S1x100, .f32⟩ : BufTy).Contents (Elt F)) main_arg8
  let main_v29 := (broadcastInDim S50000x100 ![0, 1] bcast_S1x100_S50000x100_0_1 : (⟨S1x100, .f32⟩ : BufTy).Contents (Elt F) → (⟨S50000x100, .f32⟩ : BufTy).Contents (Elt F)) main_v28
  let main_v30 := (addf : (⟨S50000x100, .f32⟩ : BufTy).Contents (Elt F) → (⟨S50000x100, .f32⟩ : BufTy).Contents (Elt F) → (⟨S50000x100, .f32⟩ : BufTy).Contents (Elt F)) main_v27 main_v29
  let main_cst_2 : (⟨S_, .f32⟩ : BufTy).Contents (Elt F) := constant S_ .f32 0x00000000#32
  let main_v31 := ((fun x v => Host.reduceAdd x v reducesTo_S50000x100_S50000_d1 h_S_) : (⟨S50000x100, .f32⟩ : BufTy).Contents (Elt F) → (⟨S_, .f32⟩ : BufTy).Contents (Elt F) → (⟨S50000, .f32⟩ : BufTy).Contents (Elt F)) main_v30 main_cst_2
  let main_v32 := (broadcastInDim S50000x1 ![0] bcast_S50000_S50000x1_0 : (⟨S50000, .f32⟩ : BufTy).Contents (Elt F) → (⟨S50000x1, .f32⟩ : BufTy).Contents (Elt F)) main_v31
  let main_cst_3 : (⟨S_, .f32⟩ : BufTy).Contents (Elt F) := constant S_ .f32 0x42C80000#32
  let main_v33 := (broadcastInDim S50000x1 ![] bcast_S_S50000x1 : (⟨S_, .f32⟩ : BufTy).Contents (Elt F) → (⟨S50000x1, .f32⟩ : BufTy).Contents (Elt F)) main_cst_3
  let main_v34 := (Host.divf : (⟨S50000x1, .f32⟩ : BufTy).Contents (Elt F) → (⟨S50000x1, .f32⟩ : BufTy).Contents (Elt F) → (⟨S50000x1, .f32⟩ : BufTy).Contents (Elt F)) main_v32 main_v33
  let main_c_4 : (⟨S_, .i32⟩ : BufTy).Contents (Elt F) := constantI S_ 32 0#32
  let main_v35 := fnvar main_v30 main_c_4
  let main_v36 := (broadcastInDim S50000x100 ![0, 1] bcast_S50000x1_S50000x100_0_1 : (⟨S50000x1, .f32⟩ : BufTy).Contents (Elt F) → (⟨S50000x100, .f32⟩ : BufTy).Contents (Elt F)) main_v34
  let main_v37 := (subf : (⟨S50000x100, .f32⟩ : BufTy).Contents (Elt F) → (⟨S50000x100, .f32⟩ : BufTy).Contents (Elt F) → (⟨S50000x100, .f32⟩ : BufTy).Contents (Elt F)) main_v30 main_v36
  let main_cst_5 : (⟨S_, .f32⟩ : BufTy).Contents (Elt F) := constant S_ .f32 0x3727C5AC#32
  let main_v38 := (broadcastInDim S50000x1 ![] bcast_S_S50000x1 : (⟨S_, .f32⟩ : BufTy).Contents (Elt F) → (⟨S50000x1, .f32⟩ : BufTy).Contents (Elt F)) main_cst_5
  let main_v39 := (addf : (⟨S50000x1, .f32⟩ : BufTy).Contents (Elt F) → (⟨S50000x1, .f32⟩ : BufTy).Contents (Elt F) → (⟨S50000x1, .f32⟩ : BufTy).Contents (Elt F)) main_v35 main_v38
  let main_v40 := (Host.sqrt : (⟨S50000x1, .f32⟩ : BufTy).Contents (Elt F) → (⟨S50000x1, .f32⟩ : BufTy).Contents (Elt F)) main_v39
  let main_v41 := (broadcastInDim S50000x100 ![0, 1] bcast_S50000x1_S50000x100_0_1 : (⟨S50000x1, .f32⟩ : BufTy).Contents (Elt F) → (⟨S50000x100, .f32⟩ : BufTy).Contents (Elt F)) main_v40
  let main_v42 := (Host.divf : (⟨S50000x100, .f32⟩ : BufTy).Contents (Elt F) → (⟨S50000x100, .f32⟩ : BufTy).Contents (Elt F) → (⟨S50000x100, .f32⟩ : BufTy).Contents (Elt F)) main_v37 main_v41
  let main_v43 := (broadcastInDim S1x100 ![1] bcast_S100_S1x100_1 : (⟨S100, .f32⟩ : BufTy).Contents (Elt F) → (⟨S1x100, .f32⟩ : BufTy).Contents (Elt F)) main_arg9
  let main_v44 := (broadcastInDim S50000x100 ![0, 1] bcast_S1x100_S50000x100_0_1 : (⟨S1x100, .f32⟩ : BufTy).Contents (Elt F) → (⟨S50000x100, .f32⟩ : BufTy).Contents (Elt F)) main_v43
  let main_v45 := (mulf : (⟨S50000x100, .f32⟩ : BufTy).Contents (Elt F) → (⟨S50000x100, .f32⟩ : BufTy).Contents (Elt F) → (⟨S50000x100, .f32⟩ : BufTy).Contents (Elt F)) main_v42 main_v44
  let main_v46 := (broadcastInDim S1x100 ![1] bcast_S100_S1x100_1 : (⟨S100, .f32⟩ : BufTy).Contents (Elt F) → (⟨S1x100, .f32⟩ : BufTy).Contents (Elt F)) main_arg10
  let main_v47 := (broadcastInDim S50000x100 ![0, 1] bcast_S1x100_S50000x100_0_1 : (⟨S1x100, .f32⟩ : BufTy).Contents (Elt F) → (⟨S50000x100, .f32⟩ : BufTy).Contents (Elt F)) main_v46
  let main_v48 := (addf : (⟨S50000x100, .f32⟩ : BufTy).Contents (Elt F) → (⟨S50000x100, .f32⟩ : BufTy).Contents (Elt F) → (⟨S50000x100, .f32⟩ : BufTy).Contents (Elt F)) main_v45 main_v47
  let main_v49 := fnrelu main_v48
  main_v49

/-- The relational layer: `relu (x · Wself + Σ_{edges into the node} (x[source] · Wrel) + b)`. -/
def refX2 (main_v49 : (⟨S50000x100, .f32⟩ : BufTy).Contents (Elt F)) (main_v1 main_v3 : (⟨S800000, .i32⟩ : BufTy).Contents (Elt F)) (main_arg11 : (⟨S1x100x100, .f32⟩ : BufTy).Contents (Elt F))
    (main_arg12 : (⟨S100x100, .f32⟩ : BufTy).Contents (Elt F)) (main_arg13 : (⟨S100, .f32⟩ : BufTy).Contents (Elt F)) : (⟨S50000x100, .f32⟩ : BufTy).Contents (Elt F) :=
  let main_c_6 : (⟨S_, .i32⟩ : BufTy).Contents (Elt F) := constantI S_ 32 0#32
  let main_v50 := (broadcastInDim S800000 ![] bcast_S_S800000 : (⟨S_, .i32⟩ : BufTy).Contents (Elt F) → (⟨S800000, .i32⟩ : BufTy).Contents (Elt F)) main_c_6
  let main_v51 := (cmpi .slt : (⟨S800000, .i32⟩ : BufTy).Contents (Elt F) → (⟨S800000, .i32⟩ : BufTy).Contents (Elt F) → (⟨S800000, .i1⟩ : BufTy).Contents (Elt F)) main_v1 main_v50
  let main_c_7 : (⟨S_, .i32⟩ : BufTy).Contents (Elt F) := constantI S_ 32 50000#32
  let main_v52 := (broadcastInDim S800000 ![] bcast_S_S800000 : (⟨S_, .i32⟩ : BufTy).Contents (Elt F) → (⟨S800000, .i32⟩ : BufTy).Contents (Elt F)) main_c_7
  let main_v53 := (addi : (⟨S800000, .i32⟩ : BufTy).Contents (Elt F) → (⟨S800000, .i32⟩ : BufTy).Contents (Elt F) → (⟨S800000, .i32⟩ : BufTy).Contents (Elt F)) main_v1 main_v52
  let main_v54 := (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) main_v51 main_v53 main_v1
  let main_v55 := (broadcastInDim S800000x1 ![0] bcast_S800000_S800000x1_0 : (⟨S800000, .i32⟩ : BufTy).Contents (Elt F) → (⟨S800000x1, .i32⟩ : BufTy).Contents (Elt F)) main_v54
  let main_v56 := ((fun x i => Host.gather gather_S50000x100_S800000x1_S800000x100_1_0_n_n_0_1_1100 x i) : (⟨S50000x100, .f32⟩ : BufTy).Contents (Elt F) → (⟨S800000x1, .i32⟩ : BufTy).Contents (Elt F) → (⟨S800000x100, .f32⟩ : BufTy).Contents (Elt F)) main_v49 main_v55
  let main_v57 := shapeCast S100x100 main_arg11 shapeCasts_S1x100x100_S100x100
  let main_v58 := ((fun l r => Host.dotGeneral dot_S800000x100_S100x100_S800000x100_1_0_0_1_n_n none l r) : (⟨S800000x100, .f32⟩ : BufTy).Contents (Elt F) → (⟨S100x100, .f32⟩ : BufTy).Contents (Elt F) → (⟨S800000x100, .f32⟩ : BufTy).Contents (Elt F)) main_v56 main_v57
  let main_v59 := ((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)) main_v49 main_arg12
  let main_cst_8 : (⟨S_, .f32⟩ : BufTy).Contents (Elt F) := constant S_ .f32 0x00000000#32
  let main_v60 := (broadcastInDim S50000x100 ![] bcast_S_S50000x100 : (⟨S_, .f32⟩ : BufTy).Contents (Elt F) → (⟨S50000x100, .f32⟩ : BufTy).Contents (Elt F)) main_cst_8
  let main_v61 := (broadcastInDim S800000x1 ![0] bcast_S800000_S800000x1_0 : (⟨S800000, .i32⟩ : BufTy).Contents (Elt F) → (⟨S800000x1, .i32⟩ : BufTy).Contents (Elt F)) main_v3
  let main_v62 := ((fun x i u => Host.scatterAdd scatter_S50000x100_S800000x1_S800000x100_1_0_0_1 x i u) : (⟨S50000x100, .f32⟩ : BufTy).Contents (Elt F) → (⟨S800000x1, .i32⟩ : BufTy).Contents (Elt F) → (⟨S800000x100, .f32⟩ : BufTy).Contents (Elt F) → (⟨S50000x100, .f32⟩ : BufTy).Contents (Elt F)) main_v60 main_v61 main_v58
  let main_v63 := (addf : (⟨S50000x100, .f32⟩ : BufTy).Contents (Elt F) → (⟨S50000x100, .f32⟩ : BufTy).Contents (Elt F) → (⟨S50000x100, .f32⟩ : BufTy).Contents (Elt F)) main_v59 main_v62
  let main_v64 := (broadcastInDim S1x100 ![1] bcast_S100_S1x100_1 : (⟨S100, .f32⟩ : BufTy).Contents (Elt F) → (⟨S1x100, .f32⟩ : BufTy).Contents (Elt F)) main_arg13
  let main_v65 := (broadcastInDim S50000x100 ![0, 1] bcast_S1x100_S50000x100_0_1 : (⟨S1x100, .f32⟩ : BufTy).Contents (Elt F) → (⟨S50000x100, .f32⟩ : BufTy).Contents (Elt F)) main_v64
  let main_v66 := (addf : (⟨S50000x100, .f32⟩ : BufTy).Contents (Elt F) → (⟨S50000x100, .f32⟩ : BufTy).Contents (Elt F) → (⟨S50000x100, .f32⟩ : BufTy).Contents (Elt F)) main_v63 main_v65
  let main_v67 := fnrelu main_v66
  main_v67

/-- The first graph convolution: self-loops added, messages `(x · W)[source]` weighted by the symmetric degree
    normalisation and summed at the targets, plus the bias, relu. -/
def refX3 (main_v67 : (⟨S50000x100, .f32⟩ : BufTy).Contents (Elt F)) (main_v1 main_v3 : (⟨S800000, .i32⟩ : BufTy).Contents (Elt F)) (main_arg14 : (⟨S100x100, .f32⟩ : BufTy).Contents (Elt F))
    (main_arg15 : (⟨S100, .f32⟩ : BufTy).Contents (Elt F)) : (⟨S50000x100, .f32⟩ : BufTy).Contents (Elt F) :=
  let main_v68 := ((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)) main_v67 main_arg14
  let main_v69 : (⟨S50000, .i32⟩ : BufTy).Contents (Elt F) := iotaInDim S50000 32 0
  let main_v70 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v1 main_v69
  let main_v71 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v3 main_v69
  let main_cst_9 : (⟨S_, .f32⟩ : BufTy).Contents (Elt F) := constant S_ .f32 0x3F800000#32
  let main_v72 := (broadcastInDim S850000 ![] bcast_S_S850000 : (⟨S_, .f32⟩ : BufTy).Contents (Elt F) → (⟨S850000, .f32⟩ : BufTy).Contents (Elt F)) main_cst_9
  let main_cst_10 : (⟨S_, .f32⟩ : BufTy).Contents (Elt F) := constant S_ .f32 0x00000000#32
  let main_v73 := (broadcastInDim S50000 ![] bcast_S_S50000 : (⟨S_, .f32⟩ : BufTy).Contents (Elt F) → (⟨S50000, .f32⟩ : BufTy).Contents (Elt F)) main_cst_10
  let main_v74 := (broadcastInDim S850000x1 ![0] bcast_S850000_S850000x1_0 : (⟨S850000, .i32⟩ : BufTy).Contents (Elt F) → (⟨S850000x1, .i32⟩ : BufTy).Contents (Elt F)) main_v71
  let main_v75 := ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) main_v73 main_v74 main_v72
  let main_cst_11 : (⟨S_, .f32⟩ : BufTy).Contents (Elt F) := constant S_ .f32 0x00000000#32
  let main_v76 := (broadcastInDim S50000 ![] bcast_S_S50000 : (⟨S_, .f32⟩ : BufTy).Contents (Elt F) → (⟨S50000, .f32⟩ : BufTy).Contents (Elt F)) main_cst_11
  let main_v77 := (cmpf .ogt : (⟨S50000, .f32⟩ : BufTy).Contents (Elt F) → (⟨S50000, .f32⟩ : BufTy).Contents (Elt F) → (⟨S50000, .i1⟩ : BufTy).Contents (Elt F)) main_v75 main_v76
  let main_cst_12 : (⟨S_, .f32⟩ : BufTy).Contents (Elt F) := constant S_ .f32 0xBF000000#32
  let main_v78 := (broadcastInDim S50000 ![] bcast_S_S50000 : (⟨S_, .f32⟩ : BufTy).Contents (Elt F) → (⟨S50000, .f32⟩ : BufTy).Contents (Elt F)) main_cst_12
  let main_v79 := (Host.powf : (⟨S50000, .f32⟩ : BufTy).Contents (Elt F) → (⟨S50000, .f32⟩ : BufTy).Contents (Elt F) → (⟨S50000, .f32⟩ : BufTy).Contents (Elt F)) main_v75 main_v78
  let main_cst_13 : (⟨S_, .f32⟩ : BufTy).Contents (Elt F) := constant S_ .f32 0x00000000#32
  let main_v80 := fnwhere0 main_v77 main_v79 main_cst_13
  let main_c_14 : (⟨S_, .i32⟩ : BufTy).Contents (Elt F) := constantI S_ 32 0#32
  let main_v81 := (broadcastInDim S850000 ![] bcast_S_S850000 : (⟨S_, .i32⟩ : BufTy).Contents (Elt F) → (⟨S850000, .i32⟩ : BufTy).Contents (Elt F)) main_c_14
  let main_v82 := (cmpi .slt : (⟨S850000, .i32⟩ : BufTy).Contents (Elt F) → (⟨S850000, .i32⟩ : BufTy).Contents (Elt F) → (⟨S850000, .i1⟩ : BufTy).Contents (Elt F)) main_v70 main_v81
  let main_c_15 : (⟨S_, .i32⟩ : BufTy).Contents (Elt F) := constantI S_ 32 50000#32
  let main_v83 := (broadcastInDim S850000 ![] bcast_S_S850000 : (⟨S_, .i32⟩ : BufTy).Contents (Elt F) → (⟨S850000, .i32⟩ : BufTy).Contents (Elt F)) main_c_15
  let main_v84 := (addi : (⟨S850000, .i32⟩ : BufTy).Contents (Elt F) → (⟨S850000, .i32⟩ : BufTy).Contents (Elt F) → (⟨S850000, .i32⟩ : BufTy).Contents (Elt F)) main_v70 main_v83
  let main_v85 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v82 main_v84 main_v70
  let main_v86 := (broadcastInDim S850000x1 ![0] bcast_S850000_S850000x1_0 : (⟨S850000, .i32⟩ : BufTy).Contents (Elt F) → (⟨S850000x1, .i32⟩ : BufTy).Contents (Elt F)) main_v85
  let main_v87 := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) main_v80 main_v86
  let main_c_16 : (⟨S_, .i32⟩ : BufTy).Contents (Elt F) := constantI S_ 32 0#32
  let main_v88 := (broadcastInDim S850000 ![] bcast_S_S850000 : (⟨S_, .i32⟩ : BufTy).Contents (Elt F) → (⟨S850000, .i32⟩ : BufTy).Contents (Elt F)) main_c_16
  let main_v89 := (cmpi .slt : (⟨S850000, .i32⟩ : BufTy).Contents (Elt F) → (⟨S850000, .i32⟩ : BufTy).Contents (Elt F) → (⟨S850000, .i1⟩ : BufTy).Contents (Elt F)) main_v71 main_v88
  let main_c_17 : (⟨S_, .i32⟩ : BufTy).Contents (Elt F) := constantI S_ 32 50000#32
  let main_v90 := (broadcastInDim S850000 ![] bcast_S_S850000 : (⟨S_, .i32⟩ : BufTy).Contents (Elt F) → (⟨S850000, .i32⟩ : BufTy).Contents (Elt F)) main_c_17
  let main_v91 := (addi : (⟨S850000, .i32⟩ : BufTy).Contents (Elt F) → (⟨S850000, .i32⟩ : BufTy).Contents (Elt F) → (⟨S850000, .i32⟩ : BufTy).Contents (Elt F)) main_v71 main_v90
  let main_v92 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v89 main_v91 main_v71
  let main_v93 := (broadcastInDim S850000x1 ![0] bcast_S850000_S850000x1_0 : (⟨S850000, .i32⟩ : BufTy).Contents (Elt F) → (⟨S850000x1, .i32⟩ : BufTy).Contents (Elt F)) main_v92
  let main_v94 := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) main_v80 main_v93
  let main_v95 := (mulf : (⟨S850000, .f32⟩ : BufTy).Contents (Elt F) → (⟨S850000, .f32⟩ : BufTy).Contents (Elt F) → (⟨S850000, .f32⟩ : BufTy).Contents (Elt F)) main_v87 main_v94
  let main_c_18 : (⟨S_, .i32⟩ : BufTy).Contents (Elt F) := constantI S_ 32 0#32
  let main_v96 := (broadcastInDim S850000 ![] bcast_S_S850000 : (⟨S_, .i32⟩ : BufTy).Contents (Elt F) → (⟨S850000, .i32⟩ : BufTy).Contents (Elt F)) main_c_18
  let main_v97 := (cmpi .slt : (⟨S850000, .i32⟩ : BufTy).Contents (Elt F) → (⟨S850000, .i32⟩ : BufTy).Contents (Elt F) → (⟨S850000, .i1⟩ : BufTy).Contents (Elt F)) main_v70 main_v96
  let main_c_19 : (⟨S_, .i32⟩ : BufTy).Contents (Elt F) := constantI S_ 32 50000#32
  let main_v98 := (broadcastInDim S850000 ![] bcast_S_S850000 : (⟨S_, .i32⟩ : BufTy).Contents (Elt F) → (⟨S850000, .i32⟩ : BufTy).Contents (Elt F)) main_c_19
  let main_v99 := (addi : (⟨S850000, .i32⟩ : BufTy).Contents (Elt F) → (⟨S850000, .i32⟩ : BufTy).Contents (Elt F) → (⟨S850000, .i32⟩ : BufTy).Contents (Elt F)) main_v70 main_v98
  let main_v100 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v97 main_v99 main_v70
  let main_v101 := (broadcastInDim S850000x1 ![0] bcast_S850000_S850000x1_0 : (⟨S850000, .i32⟩ : BufTy).Contents (Elt F) → (⟨S850000x1, .i32⟩ : BufTy).Contents (Elt F)) main_v100
  let main_v102 := ((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)) main_v68 main_v101
  let main_v103 := (broadcastInDim S850000x1 ![0] bcast_S850000_S850000x1_0 : (⟨S850000, .f32⟩ : BufTy).Contents (Elt F) → (⟨S850000x1, .f32⟩ : BufTy).Contents (Elt F)) main_v95
  let main_v104 := (broadcastInDim S850000x100 ![0, 1] bcast_S850000x1_S850000x100_0_1 : (⟨S850000x1, .f32⟩ : BufTy).Contents (Elt F) → (⟨S850000x100, .f32⟩ : BufTy).Contents (Elt F)) main_v103
  let main_v105 := (mulf : (⟨S850000x100, .f32⟩ : BufTy).Contents (Elt F) → (⟨S850000x100, .f32⟩ : BufTy).Contents (Elt F) → (⟨S850000x100, .f32⟩ : BufTy).Contents (Elt F)) main_v102 main_v104
  let main_cst_20 : (⟨S_, .f32⟩ : BufTy).Contents (Elt F) := constant S_ .f32 0x00000000#32
  let main_v106 := (broadcastInDim S50000x100 ![] bcast_S_S50000x100 : (⟨S_, .f32⟩ : BufTy).Contents (Elt F) → (⟨S50000x100, .f32⟩ : BufTy).Contents (Elt F)) main_cst_20
  let main_v107 := (broadcastInDim S850000x1 ![0] bcast_S850000_S850000x1_0 : (⟨S850000, .i32⟩ : BufTy).Contents (Elt F) → (⟨S850000x1, .i32⟩ : BufTy).Contents (Elt F)) main_v71
  let main_v108 := ((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)) main_v106 main_v107 main_v105
  let main_v109 := (broadcastInDim S1x100 ![1] bcast_S100_S1x100_1 : (⟨S100, .f32⟩ : BufTy).Contents (Elt F) → (⟨S1x100, .f32⟩ : BufTy).Contents (Elt F)) main_arg15
  let main_v110 := (broadcastInDim S50000x100 ![0, 1] bcast_S1x100_S50000x100_0_1 : (⟨S1x100, .f32⟩ : BufTy).Contents (Elt F) → (⟨S50000x100, .f32⟩ : BufTy).Contents (Elt F)) main_v109
  let main_v111 := (addf : (⟨S50000x100, .f32⟩ : BufTy).Contents (Elt F) → (⟨S50000x100, .f32⟩ : BufTy).Contents (Elt F) → (⟨S50000x100, .f32⟩ : BufTy).Contents (Elt F)) main_v108 main_v110
  let main_v112 := fnrelu main_v111
  main_v112

/-- The second graph convolution (64 output features) and log_softmax along the classes. -/
def refOut (main_v112 : (⟨S50000x100, .f32⟩ : BufTy).Contents (Elt F)) (main_v1 main_v3 : (⟨S800000, .i32⟩ : BufTy).Contents (Elt F)) (main_arg16 : (⟨S100x64, .f32⟩ : BufTy).Contents (Elt F))
    (main_arg17 : (⟨S64, .f32⟩ : BufTy).Contents (Elt F)) : (⟨S50000x64, .f32⟩ : BufTy).Contents (Elt F) :=
  let main_v113 := ((fun l r => Host.dotGeneral dot_S50000x100_S100x64_S50000x64_1_0_0_1_n_n none l r) : (⟨S50000x100, .f32⟩ : BufTy).Contents (Elt F) → (⟨S100x64, .f32⟩ : BufTy).Contents (Elt F) → (⟨S50000x64, .f32⟩ : BufTy).Contents (Elt F)) main_v112 main_arg16
  let main_v114 : (⟨S50000, .i32⟩ : BufTy).Contents (Elt F) := iotaInDim S50000 32 0
  let main_v115 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v1 main_v114
  let main_v116 := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) main_v3 main_v114
  let main_cst_21 : (⟨S_, .f32⟩ : BufTy).Contents (Elt F) := constant S_ .f32 0x3F800000#32
  let main_v117 := (broadcastInDim S850000 ![] bcast_S_S850000 : (⟨S_, .f32⟩ : BufTy).Contents (Elt F) → (⟨S850000, .f32⟩ : BufTy).Contents (Elt F)) main_cst_21
  let main_cst_22 : (⟨S_, .f32⟩ : BufTy).Contents (Elt F) := constant S_ .f32 0x00000000#32
  let main_v118 := (broadcastInDim S50000 ![] bcast_S_S50000 : (⟨S_, .f32⟩ : BufTy).Contents (Elt F) → (⟨S50000, .f32⟩ : BufTy).Contents (Elt F)) main_cst_22
  let main_v119 := (broadcastInDim S850000x1 ![0] bcast_S850000_S850000x1_0 : (⟨S850000, .i32⟩ : BufTy).Contents (Elt F) → (⟨S850000x1, .i32⟩ : BufTy).Contents (Elt F)) main_v116
  let main_v120 := ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) main_v118 main_v119 main_v117
  let main_cst_23 : (⟨S_, .f32⟩ : BufTy).Contents (Elt F) := constant S_ .f32 0x00000000#32
  let main_v121 := (broadcastInDim S50000 ![] bcast_S_S50000 : (⟨S_, .f32⟩ : BufTy).Contents (Elt F) → (⟨S50000, .f32⟩ : BufTy).Contents (Elt F)) main_cst_23
  let main_v122 := (cmpf .ogt : (⟨S50000, .f32⟩ : BufTy).Contents (Elt F) → (⟨S50000, .f32⟩ : BufTy).Contents (Elt F) → (⟨S50000, .i1⟩ : BufTy).Contents (Elt F)) main_v120 main_v121
  let main_cst_24 : (⟨S_, .f32⟩ : BufTy).Contents (Elt F) := constant S_ .f32 0xBF000000#32
  let main_v123 := (broadcastInDim S50000 ![] bcast_S_S50000 : (⟨S_, .f32⟩ : BufTy).Contents (Elt F) → (⟨S50000, .f32⟩ : BufTy).Contents (Elt F)) main_cst_24
  let main_v124 := (Host.powf : (⟨S50000, .f32⟩ : BufTy).Contents (Elt F) → (⟨S50000, .f32⟩ : BufTy).Contents (Elt F) → (⟨S50000, .f32⟩ : BufTy).Contents (Elt F)) main_v120 main_v123
  let main_cst_25 : (⟨S_, .f32⟩ : BufTy).Contents (Elt F) := constant S_ .f32 0x00000000#32
  let main_v125 := fnwhere0 main_v122 main_v124 main_cst_25
  let main_c_26 : (⟨S_, .i32⟩ : BufTy).Contents (Elt F) := constantI S_ 32 0#32
  let main_v126 := (broadcastInDim S850000 ![] bcast_S_S850000 : (⟨S_, .i32⟩ : BufTy).Contents (Elt F) → (⟨S850000, .i32⟩ : BufTy).Contents (Elt F)) main_c_26
  let main_v127 := (cmpi .slt : (⟨S850000, .i32⟩ : BufTy).Contents (Elt F) → (⟨S850000, .i32⟩ : BufTy).Contents (Elt F) → (⟨S850000, .i1⟩ : BufTy).Contents (Elt F)) main_v115 main_v126
  let main_c_27 : (⟨S_, .i32⟩ : BufTy).Contents (Elt F) := constantI S_ 32 50000#32
  let main_v128 := (broadcastInDim S850000 ![] bcast_S_S850000 : (⟨S_, .i32⟩ : BufTy).Contents (Elt F) → (⟨S850000, .i32⟩ : BufTy).Contents (Elt F)) main_c_27
  let main_v129 := (addi : (⟨S850000, .i32⟩ : BufTy).Contents (Elt F) → (⟨S850000, .i32⟩ : BufTy).Contents (Elt F) → (⟨S850000, .i32⟩ : BufTy).Contents (Elt F)) main_v115 main_v128
  let main_v130 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v127 main_v129 main_v115
  let main_v131 := (broadcastInDim S850000x1 ![0] bcast_S850000_S850000x1_0 : (⟨S850000, .i32⟩ : BufTy).Contents (Elt F) → (⟨S850000x1, .i32⟩ : BufTy).Contents (Elt F)) main_v130
  let main_v132 := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) main_v125 main_v131
  let main_c_28 : (⟨S_, .i32⟩ : BufTy).Contents (Elt F) := constantI S_ 32 0#32
  let main_v133 := (broadcastInDim S850000 ![] bcast_S_S850000 : (⟨S_, .i32⟩ : BufTy).Contents (Elt F) → (⟨S850000, .i32⟩ : BufTy).Contents (Elt F)) main_c_28
  let main_v134 := (cmpi .slt : (⟨S850000, .i32⟩ : BufTy).Contents (Elt F) → (⟨S850000, .i32⟩ : BufTy).Contents (Elt F) → (⟨S850000, .i1⟩ : BufTy).Contents (Elt F)) main_v116 main_v133
  let main_c_29 : (⟨S_, .i32⟩ : BufTy).Contents (Elt F) := constantI S_ 32 50000#32
  let main_v135 := (broadcastInDim S850000 ![] bcast_S_S850000 : (⟨S_, .i32⟩ : BufTy).Contents (Elt F) → (⟨S850000, .i32⟩ : BufTy).Contents (Elt F)) main_c_29
  let main_v136 := (addi : (⟨S850000, .i32⟩ : BufTy).Contents (Elt F) → (⟨S850000, .i32⟩ : BufTy).Contents (Elt F) → (⟨S850000, .i32⟩ : BufTy).Contents (Elt F)) main_v116 main_v135
  let main_v137 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v134 main_v136 main_v116
  let main_v138 := (broadcastInDim S850000x1 ![0] bcast_S850000_S850000x1_0 : (⟨S850000, .i32⟩ : BufTy).Contents (Elt F) → (⟨S850000x1, .i32⟩ : BufTy).Contents (Elt F)) main_v137
  let main_v139 := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) main_v125 main_v138
  let main_v140 := (mulf : (⟨S850000, .f32⟩ : BufTy).Contents (Elt F) → (⟨S850000, .f32⟩ : BufTy).Contents (Elt F) → (⟨S850000, .f32⟩ : BufTy).Contents (Elt F)) main_v132 main_v139
  let main_c_30 : (⟨S_, .i32⟩ : BufTy).Contents (Elt F) := constantI S_ 32 0#32
  let main_v141 := (broadcastInDim S850000 ![] bcast_S_S850000 : (⟨S_, .i32⟩ : BufTy).Contents (Elt F) → (⟨S850000, .i32⟩ : BufTy).Contents (Elt F)) main_c_30
  let main_v142 := (cmpi .slt : (⟨S850000, .i32⟩ : BufTy).Contents (Elt F) → (⟨S850000, .i32⟩ : BufTy).Contents (Elt F) → (⟨S850000, .i1⟩ : BufTy).Contents (Elt F)) main_v115 main_v141
  let main_c_31 : (⟨S_, .i32⟩ : BufTy).Contents (Elt F) := constantI S_ 32 50000#32
  let main_v143 := (broadcastInDim S850000 ![] bcast_S_S850000 : (⟨S_, .i32⟩ : BufTy).Contents (Elt F) → (⟨S850000, .i32⟩ : BufTy).Contents (Elt F)) main_c_31
  let main_v144 := (addi : (⟨S850000, .i32⟩ : BufTy).Contents (Elt F) → (⟨S850000, .i32⟩ : BufTy).Contents (Elt F) → (⟨S850000, .i32⟩ : BufTy).Contents (Elt F)) main_v115 main_v143
  let main_v145 := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) main_v142 main_v144 main_v115
  let main_v146 := (broadcastInDim S850000x1 ![0] bcast_S850000_S850000x1_0 : (⟨S850000, .i32⟩ : BufTy).Contents (Elt F) → (⟨S850000x1, .i32⟩ : BufTy).Contents (Elt F)) main_v145
  let main_v147 := ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)) main_v113 main_v146
  let main_v148 := (broadcastInDim S850000x1 ![0] bcast_S850000_S850000x1_0 : (⟨S850000, .f32⟩ : BufTy).Contents (Elt F) → (⟨S850000x1, .f32⟩ : BufTy).Contents (Elt F)) main_v140
  let main_v149 := (broadcastInDim S850000x64 ![0, 1] bcast_S850000x1_S850000x64_0_1 : (⟨S850000x1, .f32⟩ : BufTy).Contents (Elt F) → (⟨S850000x64, .f32⟩ : BufTy).Contents (Elt F)) main_v148
  let main_v150 := (mulf : (⟨S850000x64, .f32⟩ : BufTy).Contents (Elt F) → (⟨S850000x64, .f32⟩ : BufTy).Contents (Elt F) → (⟨S850000x64, .f32⟩ : BufTy).Contents (Elt F)) main_v147 main_v149
  let main_cst_32 : (⟨S_, .f32⟩ : BufTy).Contents (Elt F) := constant S_ .f32 0x00000000#32
  let main_v151 := (broadcastInDim S50000x64 ![] bcast_S_S50000x64 : (⟨S_, .f32⟩ : BufTy).Contents (Elt F) → (⟨S50000x64, .f32⟩ : BufTy).Contents (Elt F)) main_cst_32
  let main_v152 := (broadcastInDim S850000x1 ![0] bcast_S850000_S850000x1_0 : (⟨S850000, .i32⟩ : BufTy).Contents (Elt F) → (⟨S850000x1, .i32⟩ : BufTy).Contents (Elt F)) main_v116
  let main_v153 := ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) main_v151 main_v152 main_v150
  let main_v154 := (broadcastInDim S1x64 ![1] bcast_S64_S1x64_1 : (⟨S64, .f32⟩ : BufTy).Contents (Elt F) → (⟨S1x64, .f32⟩ : BufTy).Contents (Elt F)) main_arg17
  let main_v155 := (broadcastInDim S50000x64 ![0, 1] bcast_S1x64_S50000x64_0_1 : (⟨S1x64, .f32⟩ : BufTy).Contents (Elt F) → (⟨S50000x64, .f32⟩ : BufTy).Contents (Elt F)) main_v154
  let main_v156 := (addf : (⟨S50000x64, .f32⟩ : BufTy).Contents (Elt F) → (⟨S50000x64, .f32⟩ : BufTy).Contents (Elt F) → (⟨S50000x64, .f32⟩ : BufTy).Contents (Elt F)) main_v153 main_v155
  let main_v157 := fnlogSoftmax main_v156
  main_v157

/-- The whole reference: its result as one function of its argument arrays (the relation types, argument 2, are not read). -/
def refResult (a0 : (⟨S50000x500, .f32⟩ : BufTy).Contents (Elt F)) (a1 : (⟨S2x800000, .i32⟩ : BufTy).Contents (Elt F)) (a3 : (⟨S500x100, .f32⟩ : BufTy).Contents (Elt F)) (a4 a5 a6 : (⟨S100, .f32⟩ : BufTy).Contents (Elt F))
    (a7 : (⟨S100x100, .f32⟩ : BufTy).Contents (Elt F)) (a8 a9 a10 : (⟨S100, .f32⟩ : BufTy).Contents (Elt F)) (a11 : (⟨S1x100x100, .f32⟩ : BufTy).Contents (Elt F)) (a12 : (⟨S100x100, .f32⟩ : BufTy).Contents (Elt F))
    (a13 : (⟨S100, .f32⟩ : BufTy).Contents (Elt F)) (a14 : (⟨S100x100, .f32⟩ : BufTy).Contents (Elt F)) (a15 : (⟨S100, .f32⟩ : BufTy).Contents (Elt F)) (a16 : (⟨S100x64, .f32⟩ : BufTy).Contents (Elt F))
    (a17 : (⟨S64, .f32⟩ : BufTy).Contents (Elt F)) : (⟨S50000x64, .f32⟩ : BufTy).Contents (Elt F) :=
  refOut (refX3 (refX2 (refX1 a0 a3 a4 a5 a6 a7 a8 a9 a10) (refSrc a1) (refTgt a1) a11 a12 a13) (refSrc a1) (refTgt a1) a14 a15)
    (refSrc a1) (refTgt a1) a16 a17

end Cert.Stages

end
-- ==== Proof.RefRun.St0.lean ====
/-
  The first four operations of the reference read the edge index: from any contents of the buffers they leave the
  edge sources (row 0) and the edge targets (row 1), each a function of the edge index array alone.
-/
import proofs.«132481_j11579231830735_1_alg».proof.Proof.RefRun.Ops0
import proofs.«132481_j11579231830735_1_alg».proof.Proof.Stages

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- After the four operations the sources' buffer holds row 0 of the edge index. -/
theorem srcAt (V : Valuation τ sig (Elt F)) :
    after (opsP0a) V (Proc.devRef .tc main_v1)
      = Cert.Stages.refSrc (V (Proc.devRef .tc main_arg1)) := by
  simp only [opsP0a, List.cons_append, List.nil_append]
  after_results_simp
  rfl

/-- After the four operations the targets' buffer holds row 1 of the edge index. -/
theorem tgtAt (V : Valuation τ sig (Elt F)) :
    after (opsP0a) V (Proc.devRef .tc main_v3)
      = Cert.Stages.refTgt (V (Proc.devRef .tc main_arg1)) := by
  simp only [opsP0a, List.cons_append, List.nil_append]
  after_results_simp
  rfl

end Cert.RefRun

end
-- ==== Proof.RefRun.St1.lean ====
/-
  The node-feature stack of the reference (Linear, LayerNorm, relu, Linear, LayerNorm, relu): from any contents of the
  buffers its operations leave their last result at one function of the feature array and the eight parameter arrays.
  The two LayerNorms call the outlined variance, whose operations are in the line at their call sites.
-/
import proofs.«132481_j11579231830735_1_alg».proof.Proof.RefRun.Ops0
import proofs.«132481_j11579231830735_1_alg».proof.Proof.Stages

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

set_option maxHeartbeats 4000000 in
/-- After the stack's operations its last buffer holds the stack's value at the contents of the arrays it reads. -/
theorem x1At (V : Valuation τ sig (Elt F)) :
    after (opsP0b ++ opsP0c) V (Proc.devRef .tc main_v49)
      = Cert.Stages.refX1 (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  simp only [opsP0b, opsP0c, List.cons_append, List.nil_append]
  after_results_simp
  rfl

end Cert.RefRun

end
-- ==== Proof.RefRun.St2.lean ====
/-
  The relational layer of the reference: the node rows gathered at the edge sources, multiplied by the relation's
  weights, summed at the edge targets, plus the self term and the bias, then relu. From any contents of the buffers its
  operations leave their last result at one function of the incoming node rows, the sources, the targets and the
  layer's three parameter arrays.
-/
import proofs.«132481_j11579231830735_1_alg».proof.Proof.RefRun.Ops0
import proofs.«132481_j11579231830735_1_alg».proof.Proof.RefRun.Ops1
import proofs.«132481_j11579231830735_1_alg».proof.Proof.Stages

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

set_option maxHeartbeats 1000000 in
/-- After the layer's operations its last buffer holds the layer's value at the contents of the arrays it reads. -/
theorem x2At (V : Valuation τ sig (Elt F)) :
    after (opsP0d ++ opsP1a) V (Proc.devRef .tc main_v67)
      = Cert.Stages.refX2 (V (Proc.devRef .tc main_v49)) (V (Proc.devRef .tc main_v1)) (V (Proc.devRef .tc main_v3)) (V (Proc.devRef .tc main_arg11)) (V (Proc.devRef .tc main_arg12)) (V (Proc.devRef .tc main_arg13)) := by
  simp only [opsP0d, opsP1a, List.cons_append, List.nil_append]
  after_results_simp
  rfl

end Cert.RefRun

end
-- ==== Proof.RefRun.St3.lean ====
/-
  The first graph convolution of the reference: self-loops appended to the edge list, the degrees counted at the
  targets, the symmetric normalisation d^(-1/2) at both ends of an edge, the weighted rows summed at the targets, the
  bias, relu. From any contents of the buffers its operations leave their last result at one function of the incoming
  node rows, the sources, the targets and the layer's two parameter arrays.
-/
import proofs.«132481_j11579231830735_1_alg».proof.Proof.RefRun.Ops1
import proofs.«132481_j11579231830735_1_alg».proof.Proof.RefRun.Ops2
import proofs.«132481_j11579231830735_1_alg».proof.Proof.Stages

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

set_option maxHeartbeats 4000000 in
/-- After the convolution's operations its last buffer holds its value at the contents of the arrays it reads. -/
theorem x3At (V : Valuation τ sig (Elt F)) :
    after (opsP1b ++ opsP2a) V (Proc.devRef .tc main_v112)
      = Cert.Stages.refX3 (V (Proc.devRef .tc main_v67)) (V (Proc.devRef .tc main_v1)) (V (Proc.devRef .tc main_v3)) (V (Proc.devRef .tc main_arg14)) (V (Proc.devRef .tc main_arg15)) := by
  simp only [opsP1b, opsP2a, List.cons_append, List.nil_append]
  after_results_simp
  rfl

end Cert.RefRun

end
-- ==== Proof.RefRun.St4.lean ====
/-
  The second graph convolution of the reference (the same normalised aggregation into 64 classes) and log_softmax along
  the classes. From any contents of the buffers its operations leave the program's result at one function of the
  incoming node rows, the sources, the targets and the layer's two parameter arrays.
-/
import proofs.«132481_j11579231830735_1_alg».proof.Proof.RefRun.Ops2
import proofs.«132481_j11579231830735_1_alg».proof.Proof.RefRun.Ops3
import proofs.«132481_j11579231830735_1_alg».proof.Proof.Stages

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

set_option maxHeartbeats 4000000 in
/-- After the last stage's operations the result buffer holds its value at the contents of the arrays it reads. -/
theorem outAt (V : Valuation τ sig (Elt F)) :
    after (opsP2b ++ opsP3) V (Proc.devRef .tc main_v157)
      = Cert.Stages.refOut (V (Proc.devRef .tc main_v112)) (V (Proc.devRef .tc main_v1)) (V (Proc.devRef .tc main_v3)) (V (Proc.devRef .tc main_arg16)) (V (Proc.devRef .tc main_arg17)) := by
  simp only [opsP2b, opsP3, List.cons_append, List.nil_append]
  after_results_simp
  rfl

end Cert.RefRun

end
-- ==== Proof.RefRun.lean ====
/-
  The run of the reference program. Its @main is a straight line of 263 host operations once the outlined functions
  are read at their call sites; the line is cut into nine pieces, at the ends of the printed windows and at the ends
  of the stages of the computation (the edge index's two rows; the node-feature stack; the relational layer; the two
  graph convolutions, the second followed by log_softmax). No buffer is written twice, so what a stage leaves is read
  off piece by piece: a stage's last buffer is the stage's function of the buffers it reads, and every buffer a piece
  does not write passes through it unchanged. Composed, the result buffer ends at the reference's function of the
  argument arrays, and the argument arrays end as they began.
-/
import proofs.«132481_j11579231830735_1_alg».proof.Proof.RefRun.Eq0
import proofs.«132481_j11579231830735_1_alg».proof.Proof.RefRun.Eq1
import proofs.«132481_j11579231830735_1_alg».proof.Proof.RefRun.Eq2
import proofs.«132481_j11579231830735_1_alg».proof.Proof.RefRun.Eq3
import proofs.«132481_j11579231830735_1_alg».proof.Proof.RefRun.St0
import proofs.«132481_j11579231830735_1_alg».proof.Proof.RefRun.St1
import proofs.«132481_j11579231830735_1_alg».proof.Proof.RefRun.St2
import proofs.«132481_j11579231830735_1_alg».proof.Proof.RefRun.St3
import proofs.«132481_j11579231830735_1_alg».proof.Proof.RefRun.St4
import Idealize.ShloMosaic.Lib.Pipeline.Frame

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- @main's operations, grouped by stage. -/
abbrev ops : List (HloOp τ sig (Elt F)) :=
  opsP0a ++ ((opsP0b ++ opsP0c) ++ ((opsP0d ++ opsP1a) ++ ((opsP1b ++ opsP2a) ++ (opsP2b ++ opsP3))))

/-- @main is that line: window by window, and two lines in a row are their concatenation. -/
theorem main_eq (c : Dev nD) : main (F := F) c = seq ops := by
  simp only [main, ops, main_part0_eq, main_part1_eq, main_part2_eq, main_part3_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_iff_forall_mem.mpr fun op h => by
    simp only [ops, List.mem_append, or_assoc] at h
    rcases h with h | h | h | h | h | h | h | h | h
    exacts [List.forall_iff_forall_mem.mp opsP0a_sub op h,
      List.forall_iff_forall_mem.mp opsP0b_sub op h,
      List.forall_iff_forall_mem.mp opsP0c_sub op h,
      List.forall_iff_forall_mem.mp opsP0d_sub op h,
      List.forall_iff_forall_mem.mp opsP1a_sub op h,
      List.forall_iff_forall_mem.mp opsP1b_sub op h,
      List.forall_iff_forall_mem.mp opsP2a_sub op h,
      List.forall_iff_forall_mem.mp opsP2b_sub op h,
      List.forall_iff_forall_mem.mp opsP3_sub op h]

/-- No operation leaves its result undetermined. -/
theorem ops_fresh : ∀ op ∈ (ops : List (HloOp τ sig (Elt F))), op.fresh = ∅ := by
  intro op h
  simp only [ops, List.mem_append, or_assoc] at h
  rcases h with h | h | h | h | h | h | h | h | h
  exacts [opsP0a_fresh op h, opsP0b_fresh op h, opsP0c_fresh op h, opsP0d_fresh op h, opsP1a_fresh op h, opsP1b_fresh op h, opsP2a_fresh op h, opsP2b_fresh op h, opsP3_fresh op h]

/-! ## What a piece does not write, it keeps -/

/-- A buffer neither of two pieces in a row writes keeps its contents through both. -/
theorem keep2 {A B : List (HloOp τ sig (Elt F))} {WA WB : List (Ref sig .tc)}
    (hA : A.Forall fun op => op.writes ⊆ (WA.map (Proc.devRef (τ := τ) .tc)).toFinset)
    (hB : B.Forall fun op => op.writes ⊆ (WB.map (Proc.devRef (τ := τ) .tc)).toFinset)
    (V : Valuation τ sig (Elt F)) (r : Ref sig .tc) (ha : r ∉ WA) (hb : r ∉ WB) :
    after (A ++ B) V (Proc.devRef .tc r) = V (Proc.devRef .tc r) := by
  rw [after_append, after_of_writes_sub B _ hB hb, after_of_writes_sub A _ hA ha]

/-- Through the edge index's rows. -/
theorem keepS0 (V : Valuation τ sig (Elt F)) (r : Ref sig .tc) (h : r ∉ (opsP0a_W : List (Ref sig .tc))) :
    after opsP0a V (Proc.devRef .tc r) = V (Proc.devRef .tc r) := after_of_writes_sub opsP0a _ opsP0a_writes h
/-- Through the node-feature stack. -/
theorem keepS1 (V : Valuation τ sig (Elt F)) (r : Ref sig .tc) (ha : r ∉ (opsP0b_W : List (Ref sig .tc))) (hb : r ∉ (opsP0c_W : List (Ref sig .tc))) :
    after (opsP0b ++ opsP0c) V (Proc.devRef .tc r) = V (Proc.devRef .tc r) := keep2 opsP0b_writes opsP0c_writes V r ha hb
/-- Through the relational layer. -/
theorem keepS2 (V : Valuation τ sig (Elt F)) (r : Ref sig .tc) (ha : r ∉ (opsP0d_W : List (Ref sig .tc))) (hb : r ∉ (opsP1a_W : List (Ref sig .tc))) :
    after (opsP0d ++ opsP1a) V (Proc.devRef .tc r) = V (Proc.devRef .tc r) := keep2 opsP0d_writes opsP1a_writes V r ha hb
/-- Through the first graph convolution. -/
theorem keepS3 (V : Valuation τ sig (Elt F)) (r : Ref sig .tc) (ha : r ∉ (opsP1b_W : List (Ref sig .tc))) (hb : r ∉ (opsP2a_W : List (Ref sig .tc))) :
    after (opsP1b ++ opsP2a) V (Proc.devRef .tc r) = V (Proc.devRef .tc r) := keep2 opsP1b_writes opsP2a_writes V r ha hb
/-- Through the second graph convolution and log_softmax. -/
theorem keepS4 (V : Valuation τ sig (Elt F)) (r : Ref sig .tc) (ha : r ∉ (opsP2b_W : List (Ref sig .tc))) (hb : r ∉ (opsP3_W : List (Ref sig .tc))) :
    after (opsP2b ++ opsP3) V (Proc.devRef .tc r) = V (Proc.devRef .tc r) := keep2 opsP2b_writes opsP3_writes V r ha hb

/-- A buffer no piece writes — an argument array — keeps its contents through the whole line. -/
theorem keepAll (V : Valuation τ sig (Elt F)) (r : Ref sig .tc)
    (h0 : r ∉ (opsP0a_W : List (Ref sig .tc))) (h1 : r ∉ (opsP0b_W : List (Ref sig .tc))) (h2 : r ∉ (opsP0c_W : List (Ref sig .tc))) (h3 : r ∉ (opsP0d_W : List (Ref sig .tc))) (h4 : r ∉ (opsP1a_W : List (Ref sig .tc))) (h5 : r ∉ (opsP1b_W : List (Ref sig .tc))) (h6 : r ∉ (opsP2a_W : List (Ref sig .tc))) (h7 : r ∉ (opsP2b_W : List (Ref sig .tc))) (h8 : r ∉ (opsP3_W : List (Ref sig .tc))) :
    after ops V (Proc.devRef .tc r) = V (Proc.devRef .tc r) := by
  simp only [ops]
  rw [after_append, after_append, after_append, after_append, keepS4 _ r h7 h8, keepS3 _ r h5 h6, keepS2 _ r h3 h4, keepS1 _ r h1 h2, keepS0 _ r h0]

/-! ## The result -/

/-- After the whole line the result buffer holds the reference's function of the argument arrays' contents: each
    stage's last buffer is its function of what it reads, and what it reads is an earlier stage's last buffer,
    an edge row, or an argument array, none of them written in between. -/
theorem result_eq (V : Valuation τ sig (Elt F)) :
    after ops V (Proc.devRef .tc main_v157)
      = Cert.Stages.refResult (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  unfold Cert.Stages.refResult
  simp only [ops]
  rw [after_append, after_append, after_append, after_append]
  -- the last stage, and what it reads
  rw [outAt,
    keepS3 _ main_v1 (by decide) (by decide), keepS3 _ main_v3 (by decide) (by decide),
    keepS3 _ main_arg16 (by decide) (by decide), keepS3 _ main_arg17 (by decide) (by decide)]
  -- the first graph convolution
  rw [x3At,
    keepS2 _ main_v1 (by decide) (by decide), keepS2 _ main_v3 (by decide) (by decide),
    keepS2 _ main_arg14 (by decide) (by decide), keepS2 _ main_arg15 (by decide) (by decide),
    keepS2 _ main_arg16 (by decide) (by decide), keepS2 _ main_arg17 (by decide) (by decide)]
  -- the relational layer
  rw [x2At,
    keepS1 _ main_v1 (by decide) (by decide), keepS1 _ main_v3 (by decide) (by decide),
    keepS1 _ main_arg11 (by decide) (by decide), keepS1 _ main_arg12 (by decide) (by decide), keepS1 _ main_arg13 (by decide) (by decide), keepS1 _ main_arg14 (by decide) (by decide), keepS1 _ main_arg15 (by decide) (by decide), keepS1 _ main_arg16 (by decide) (by decide), keepS1 _ main_arg17 (by decide) (by decide)]
  -- the node-feature stack, the edge rows
  rw [x1At, srcAt, tgtAt,
    keepS0 _ main_arg0 (by decide), keepS0 _ main_arg3 (by decide), keepS0 _ main_arg4 (by decide), keepS0 _ main_arg5 (by decide), keepS0 _ main_arg6 (by decide), keepS0 _ main_arg7 (by decide), keepS0 _ main_arg8 (by decide), keepS0 _ main_arg9 (by decide), keepS0 _ main_arg10 (by decide), keepS0 _ main_arg11 (by decide), keepS0 _ main_arg12 (by decide), keepS0 _ main_arg13 (by decide), keepS0 _ main_arg14 (by decide), keepS0 _ main_arg15 (by decide), keepS0 _ main_arg16 (by decide), keepS0 _ main_arg17 (by decide)]

/-! ## The run -/

/-- On every device, for any float values, from any memory with zero counters: every weakly fair execution of the
    reference's @main terminates with the result buffer at the reference's function of the argument arrays as the
    launch left them, and the argument arrays unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v157) = Cert.Stages.refResult (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v157).trans (result_eq _),
      (h c main_arg0).trans (keepAll _ main_arg0 (by decide) (by decide) (by decide) (by decide) (by decide) (by decide) (by decide) (by decide) (by decide)),
      (h c main_arg1).trans (keepAll _ main_arg1 (by decide) (by decide) (by decide) (by decide) (by decide) (by decide) (by decide) (by decide) (by decide)),
      (h c main_arg2).trans (keepAll _ main_arg2 (by decide) (by decide) (by decide) (by decide) (by decide) (by decide) (by decide) (by decide) (by decide)),
      (h c main_arg3).trans (keepAll _ main_arg3 (by decide) (by decide) (by decide) (by decide) (by decide) (by decide) (by decide) (by decide) (by decide)),
      (h c main_arg4).trans (keepAll _ main_arg4 (by decide) (by decide) (by decide) (by decide) (by decide) (by decide) (by decide) (by decide) (by decide)),
      (h c main_arg5).trans (keepAll _ main_arg5 (by decide) (by decide) (by decide) (by decide) (by decide) (by decide) (by decide) (by decide) (by decide)),
      (h c main_arg6).trans (keepAll _ main_arg6 (by decide) (by decide) (by decide) (by decide) (by decide) (by decide) (by decide) (by decide) (by decide)),
      (h c main_arg7).trans (keepAll _ main_arg7 (by decide) (by decide) (by decide) (by decide) (by decide) (by decide) (by decide) (by decide) (by decide)),
      (h c main_arg8).trans (keepAll _ main_arg8 (by decide) (by decide) (by decide) (by decide) (by decide) (by decide) (by decide) (by decide) (by decide)),
      (h c main_arg9).trans (keepAll _ main_arg9 (by decide) (by decide) (by decide) (by decide) (by decide) (by decide) (by decide) (by decide) (by decide)),
      (h c main_arg10).trans (keepAll _ main_arg10 (by decide) (by decide) (by decide) (by decide) (by decide) (by decide) (by decide) (by decide) (by decide)),
      (h c main_arg11).trans (keepAll _ main_arg11 (by decide) (by decide) (by decide) (by decide) (by decide) (by decide) (by decide) (by decide) (by decide)),
      (h c main_arg12).trans (keepAll _ main_arg12 (by decide) (by decide) (by decide) (by decide) (by decide) (by decide) (by decide) (by decide) (by decide)),
      (h c main_arg13).trans (keepAll _ main_arg13 (by decide) (by decide) (by decide) (by decide) (by decide) (by decide) (by decide) (by decide) (by decide)),
      (h c main_arg14).trans (keepAll _ main_arg14 (by decide) (by decide) (by decide) (by decide) (by decide) (by decide) (by decide) (by decide) (by decide)),
      (h c main_arg15).trans (keepAll _ main_arg15 (by decide) (by decide) (by decide) (by decide) (by decide) (by decide) (by decide) (by decide) (by decide)),
      (h c main_arg16).trans (keepAll _ main_arg16 (by decide) (by decide) (by decide) (by decide) (by decide) (by decide) (by decide) (by decide) (by decide)),
      (h c main_arg17).trans (keepAll _ main_arg17 (by decide) (by decide) (by decide) (by decide) (by decide) (by decide) (by decide) (by decide) (by decide))⟩)
    (run_seq scopedRefs_eq scopedSems_eq defs main (fun _ => ops) main_eq (fun _ => ops_sub) m ρ (fun _ => ops_fresh))

end Cert.RefRun

end
-- ==== Proof.KStages.lean ====
/-
  The graph operations both programs apply, named once as pure functions of their operands (over the reference
  program's shape facts), and the reference's last three stages restated over them.
  Indexing: an edge list entry `v` reads row `v`, or row `v + 50000` when `v` is negative (`wrap8`, `wrap85`); the
  graph convolutions append one self-loop per node to the edge list (`withLoops`). Summing at the targets is a
  scatter-add into zeros (`msgSum`, `agg100`, `agg64`). The degree normalisation of an edge is
  `deg(source)^(-1/2) · deg(target)^(-1/2)` with the in-degree counted over the looped edge list, zero where the degree
  is not positive (`degree`, `dinv`, `norm`).
  With them: the relational layer is `relu (x·Wself + msgSum ((x gathered along the sources)·Wrel) + b)`; a graph
  convolution is `relu` (or `log_softmax`) of `agg ((x·W) gathered along the looped sources, times the normalisation) + b`.
-/
import proofs.«132481_j11579231830735_1_alg».proof.Proof.Stages

noncomputable section

namespace Cert.KStages

open Idealize.ShloMosaic Cert.ReferenceIdeal Cert.Stages

variable {F : FTy → Type} [FloatOps F] [Cert.ReferenceIdeal.Facts]
open Cert.ReferenceIdeal.Facts₀ Cert.ReferenceIdeal.Facts

/-- The row an edge-list entry reads, as a column of start indices: negative entries count from the end. -/
def wrap8 (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The same for the looped edge list. -/
def wrap85 (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- An edge list with one self-loop per node appended. -/
def withLoops (v : (⟨S800000, .i32⟩ : BufTy).Contents (Elt F)) : (⟨S850000, .i32⟩ : BufTy).Contents (Elt F) :=
  concatenate S850000 0 [⟨S800000, v⟩, ⟨S50000, iotaInDim S50000 32 0⟩] concatenates_S800000_S50000_S850000_d0

/-- Rows of `x` gathered along the sources. -/
def gatherRows (x : (⟨S50000x100, .f32⟩ : BufTy).Contents (Elt F)) (src : (⟨S800000, .i32⟩ : BufTy).Contents (Elt F)) : (⟨S800000x100, .f32⟩ : BufTy).Contents (Elt F) :=
  Host.gather gather_S50000x100_S800000x1_S800000x100_1_0_n_n_0_1_1100 x (wrap8 src)

/-- Edge messages summed at their targets (targets outside the nodes are dropped). -/
def msgSum (y : (⟨S800000x100, .f32⟩ : BufTy).Contents (Elt F)) (tgt : (⟨S800000, .i32⟩ : BufTy).Contents (Elt F)) : (⟨S50000x100, .f32⟩ : BufTy).Contents (Elt F) :=
  Host.scatterAdd scatter_S50000x100_S800000x1_S800000x100_1_0_0_1
    (broadcastInDim S50000x100 ![] bcast_S_S50000x100 (constant S_ .f32 0x00000000#32))
    (broadcastInDim S800000x1 ![0] bcast_S800000_S800000x1_0 tgt) y

/-- The in-degree of each node over the looped edge list. -/
def degree (tgt : (⟨S800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 (withLoops tgt))
    (broadcastInDim S850000 ![] bcast_S_S850000 (constant S_ .f32 0x3F800000#32))

/-- `deg^(-1/2)` where the degree is positive, zero elsewhere. -/
def dinv (tgt : (⟨S800000, .i32⟩ : BufTy).Contents (Elt F)) : (⟨S50000, .f32⟩ : BufTy).Contents (Elt F) :=
  fnwhere0 (cmpf .ogt (degree tgt) (broadcastInDim S50000 ![] bcast_S_S50000 (constant S_ .f32 0x00000000#32)))
    (Host.powf (degree tgt) (broadcastInDim S50000 ![] bcast_S_S50000 (constant S_ .f32 0xBF000000#32)))
    (constant S_ .f32 0x00000000#32)

/-- The symmetric normalisation of each looped edge. -/
def norm (src tgt : (⟨S800000, .i32⟩ : BufTy).Contents (Elt F)) : (⟨S850000, .f32⟩ : BufTy).Contents (Elt F) :=
  mulf (Host.gather gather_S50000_S850000x1_S850000_n_0_n_n_0_1_1 (dinv tgt) (wrap85 (withLoops src)))
    (Host.gather gather_S50000_S850000x1_S850000_n_0_n_n_0_1_1 (dinv tgt) (wrap85 (withLoops tgt)))

/-- One graph-convolution aggregation over 100 features: rows of `h` gathered along the looped sources, weighted by the
    edge normalisation, summed at the looped targets. -/
def agg100 (h : (⟨S50000x100, .f32⟩ : BufTy).Contents (Elt F)) (src tgt : (⟨S800000, .i32⟩ : BufTy).Contents (Elt F)) (nrm : (⟨S850000, .f32⟩ : BufTy).Contents (Elt F)) : (⟨S50000x100, .f32⟩ : BufTy).Contents (Elt F) :=
  Host.scatterAdd scatter_S50000x100_S850000x1_S850000x100_1_0_0_1
    (broadcastInDim S50000x100 ![] bcast_S_S50000x100 (constant S_ .f32 0x00000000#32))
    (broadcastInDim S850000x1 ![0] bcast_S850000_S850000x1_0 (withLoops tgt))
    (mulf (Host.gather gather_S50000x100_S850000x1_S850000x100_1_0_n_n_0_1_1100 h (wrap85 (withLoops src)))
      (broadcastInDim S850000x100 ![0, 1] bcast_S850000x1_S850000x100_0_1
        (broadcastInDim S850000x1 ![0] bcast_S850000_S850000x1_0 nrm)))

/-- The same over 64 features. -/
def agg64 (h : (⟨S50000x64, .f32⟩ : BufTy).Contents (Elt F)) (src tgt : (⟨S800000, .i32⟩ : BufTy).Contents (Elt F)) (nrm : (⟨S850000, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 (withLoops tgt))
    (mulf (Host.gather gather_S50000x64_S850000x1_S850000x64_1_0_n_n_0_1_164 h (wrap85 (withLoops src)))
      (broadcastInDim S850000x64 ![0, 1] bcast_S850000x1_S850000x64_0_1
        (broadcastInDim S850000x1 ![0] bcast_S850000_S850000x1_0 nrm)))

/-- A bias vector as a row, then down all the rows. -/
def rowBias (a : (⟨S100, .f32⟩ : BufTy).Contents (Elt F)) : (⟨S50000x100, .f32⟩ : BufTy).Contents (Elt F) :=
  broadcastInDim S50000x100 ![0, 1] bcast_S1x100_S50000x100_0_1 (broadcastInDim S1x100 ![1] bcast_S100_S1x100_1 a)
def rowBias64 (a : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 a)

/-- The relational layer over the named operations. -/
theorem refX2_eq (x1 : (⟨S50000x100, .f32⟩ : BufTy).Contents (Elt F)) (src tgt : (⟨S800000, .i32⟩ : BufTy).Contents (Elt F)) (a11 : (⟨S1x100x100, .f32⟩ : BufTy).Contents (Elt F))
    (a12 : (⟨S100x100, .f32⟩ : BufTy).Contents (Elt F)) (a13 : (⟨S100, .f32⟩ : BufTy).Contents (Elt F)) :
    refX2 x1 src tgt a11 a12 a13
      = fnrelu (addf (addf (Host.dotGeneral dot_S50000x100_S100x100_S50000x100_1_0_0_1_n_n none x1 a12)
          (msgSum (Host.dotGeneral dot_S800000x100_S100x100_S800000x100_1_0_0_1_n_n none (gatherRows x1 src)
            (shapeCast S100x100 a11 shapeCasts_S1x100x100_S100x100)) tgt)) (rowBias a13)) := rfl

/-- The first graph convolution over the named operations. -/
theorem refX3_eq (x2 : (⟨S50000x100, .f32⟩ : BufTy).Contents (Elt F)) (src tgt : (⟨S800000, .i32⟩ : BufTy).Contents (Elt F)) (a14 : (⟨S100x100, .f32⟩ : BufTy).Contents (Elt F)) (a15 : (⟨S100, .f32⟩ : BufTy).Contents (Elt F)) :
    refX3 x2 src tgt a14 a15
      = fnrelu (addf (agg100 (Host.dotGeneral dot_S50000x100_S100x100_S50000x100_1_0_0_1_n_n none x2 a14) src tgt (norm src tgt))
          (rowBias a15)) := rfl

/-- The second graph convolution and log_softmax over the named operations. -/
theorem refOut_eq (x3 : (⟨S50000x100, .f32⟩ : BufTy).Contents (Elt F)) (src tgt : (⟨S800000, .i32⟩ : BufTy).Contents (Elt F)) (a16 : (⟨S100x64, .f32⟩ : BufTy).Contents (Elt F)) (a17 : (⟨S64, .f32⟩ : BufTy).Contents (Elt F)) :
    refOut x3 src tgt a16 a17
      = fnlogSoftmax (addf (agg64 (Host.dotGeneral dot_S50000x100_S100x64_S50000x64_1_0_0_1_n_n none x3 a16) src tgt (norm src tgt))
          (rowBias64 a17)) := rfl

end Cert.KStages

end
-- ==== Proof.Keep.lean ====
/-
  What the boundaries between the idealized kernel's segments keep. The buffer contents at each boundary are a fold
  from the launch memory: a host stretch changes only the buffers its operations write, a grid launch only its own
  arrays. So a buffer nothing in between writes holds at a later boundary what it held at an earlier one: the edge
  sources and targets from the first stretch on, the degree normalisation from the stretch that computes it to the
  second aggregation, and every argument array, at the boundary where it is read, what the launch memory holds.
-/
import proofs.«132481_j11579231830735_1_alg».proof.Proof.Gen.KernelIdeal.Frame

set_option maxRecDepth 16384

noncomputable section

namespace Cert.KernelIdeal.Keep

open Idealize.ShloMosaic Idealize.ShloMosaic.TcCoe Idealize.ShloMosaic.Tactic Idealize.SL.Sem
open Cert.KernelIdeal Cert.KernelIdeal.Gen

variable {F : FTy → Type} [FloatOps F]
variable (m : (ℓ : Loc nD τ sig) → Buf (Elt F) ℓ) (ρ : Dev nD → PrngReg)

/-- A host stretch leaves a buffer none of its operations writes as it was. -/
macro "hkeep" : tactic => `(tactic| (
  refine StableHlo.after_of_forall_not_mem _ _ (List.forall_iff_forall_mem.mp ?_)
  simp only [hostOps0, hostOps1, hostOps2, hostOps4, hostOps4_1, hostOps4_2, hostOps6, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The argument arrays, at the boundary where each is read -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by hkeep
    _ = m ((c : Thread nD τ).loc main_arg0) := rfl

theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by hkeep
    _ = m ((c : Thread nD τ).loc main_arg1) := rfl

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by hkeep
    _ = m ((c : Thread nD τ).loc main_arg3) := rfl

theorem W1_arg7 (c : Dev nD) : W1 m ρ c (Proc.devRef .tc main_arg7) = m ((c : Thread nD τ).loc main_arg7) :=
  calc W1 m ρ c (Proc.devRef .tc main_arg7)
    _ = W0 m ρ c (Proc.devRef .tc main_arg7) := by hkeep
    _ = m ((c : Thread nD τ).loc main_arg7) := rfl

theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := by hkeep
    _ = m ((c : Thread nD τ).loc main_arg11) := rfl

theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := by hkeep
    _ = m ((c : Thread nD τ).loc main_arg12) := rfl

theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by hkeep
    _ = W1 m ρ c (Proc.devRef .tc main_arg13) := W2_of_ne m ρ c main_arg13 (by decide)
    _ = W0 m ρ c (Proc.devRef .tc main_arg13) := by hkeep
    _ = m ((c : Thread nD τ).loc main_arg13) := rfl

theorem W6_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := by hkeep
    _ = W3 m ρ c (Proc.devRef .tc main_arg14) := W4_of_ne m ρ c main_arg14 (by decide)
    _ = W2 m ρ c (Proc.devRef .tc main_arg14) := by hkeep
    _ = W1 m ρ c (Proc.devRef .tc main_arg14) := W2_of_ne m ρ c main_arg14 (by decide)
    _ = W0 m ρ c (Proc.devRef .tc main_arg14) := by hkeep
    _ = m ((c : Thread nD τ).loc main_arg14) := rfl

theorem W7_arg15 (c : Dev nD) : W7 m ρ c (Proc.devRef .tc main_arg15) = m ((c : Thread nD τ).loc main_arg15) :=
  calc W7 m ρ c (Proc.devRef .tc main_arg15)
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := by hkeep
    _ = W3 m ρ c (Proc.devRef .tc main_arg15) := W4_of_ne m ρ c main_arg15 (by decide)
    _ = W2 m ρ c (Proc.devRef .tc main_arg15) := by hkeep
    _ = W1 m ρ c (Proc.devRef .tc main_arg15) := W2_of_ne m ρ c main_arg15 (by decide)
    _ = W0 m ρ c (Proc.devRef .tc main_arg15) := by hkeep
    _ = m ((c : Thread nD τ).loc main_arg15) := rfl

theorem W9_arg15 (c : Dev nD) : W9 m ρ c (Proc.devRef .tc main_arg15) = m ((c : Thread nD τ).loc main_arg15) :=
  calc W9 m ρ c (Proc.devRef .tc main_arg15)
    _ = W8 m ρ c (Proc.devRef .tc main_arg15) := by hkeep
    _ = W7 m ρ c (Proc.devRef .tc main_arg15) := by hkeep
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := by hkeep
    _ = W3 m ρ c (Proc.devRef .tc main_arg15) := W4_of_ne m ρ c main_arg15 (by decide)
    _ = W2 m ρ c (Proc.devRef .tc main_arg15) := by hkeep
    _ = W1 m ρ c (Proc.devRef .tc main_arg15) := W2_of_ne m ρ c main_arg15 (by decide)
    _ = W0 m ρ c (Proc.devRef .tc main_arg15) := by hkeep
    _ = m ((c : Thread nD τ).loc main_arg15) := rfl

theorem W11_arg16 (c : Dev nD) : W11 m ρ c (Proc.devRef .tc main_arg16) = m ((c : Thread nD τ).loc main_arg16) :=
  calc W11 m ρ c (Proc.devRef .tc main_arg16)
    _ = W10 m ρ c (Proc.devRef .tc main_arg16) := W11_of_ne m ρ c main_arg16 (by decide)
    _ = W9 m ρ c (Proc.devRef .tc main_arg16) := by hkeep
    _ = W8 m ρ c (Proc.devRef .tc main_arg16) := by hkeep
    _ = W7 m ρ c (Proc.devRef .tc main_arg16) := by hkeep
    _ = W6 m ρ c (Proc.devRef .tc main_arg16) := W7_of_ne m ρ c main_arg16 (by decide)
    _ = W5 m ρ c (Proc.devRef .tc main_arg16) := W6_of_ne m ρ c main_arg16 (by decide)
    _ = W4 m ρ c (Proc.devRef .tc main_arg16) := by hkeep
    _ = W3 m ρ c (Proc.devRef .tc main_arg16) := W4_of_ne m ρ c main_arg16 (by decide)
    _ = W2 m ρ c (Proc.devRef .tc main_arg16) := by hkeep
    _ = W1 m ρ c (Proc.devRef .tc main_arg16) := W2_of_ne m ρ c main_arg16 (by decide)
    _ = W0 m ρ c (Proc.devRef .tc main_arg16) := by hkeep
    _ = m ((c : Thread nD τ).loc main_arg16) := rfl

theorem W12_arg17 (c : Dev nD) : W12 m ρ c (Proc.devRef .tc main_arg17) = m ((c : Thread nD τ).loc main_arg17) :=
  calc W12 m ρ c (Proc.devRef .tc main_arg17)
    _ = W11 m ρ c (Proc.devRef .tc main_arg17) := W12_of_ne m ρ c main_arg17 (by decide)
    _ = W10 m ρ c (Proc.devRef .tc main_arg17) := W11_of_ne m ρ c main_arg17 (by decide)
    _ = W9 m ρ c (Proc.devRef .tc main_arg17) := by hkeep
    _ = W8 m ρ c (Proc.devRef .tc main_arg17) := by hkeep
    _ = W7 m ρ c (Proc.devRef .tc main_arg17) := by hkeep
    _ = W6 m ρ c (Proc.devRef .tc main_arg17) := W7_of_ne m ρ c main_arg17 (by decide)
    _ = W5 m ρ c (Proc.devRef .tc main_arg17) := W6_of_ne m ρ c main_arg17 (by decide)
    _ = W4 m ρ c (Proc.devRef .tc main_arg17) := by hkeep
    _ = W3 m ρ c (Proc.devRef .tc main_arg17) := W4_of_ne m ρ c main_arg17 (by decide)
    _ = W2 m ρ c (Proc.devRef .tc main_arg17) := by hkeep
    _ = W1 m ρ c (Proc.devRef .tc main_arg17) := W2_of_ne m ρ c main_arg17 (by decide)
    _ = W0 m ρ c (Proc.devRef .tc main_arg17) := by hkeep
    _ = m ((c : Thread nD τ).loc main_arg17) := rfl

/-! ## The edge sources and targets, from the first stretch to each later reader -/

theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by hkeep
    _ = W1 m ρ c (Proc.devRef .tc main_v1) := W2_of_ne m ρ c main_v1 (by decide)

theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by hkeep
    _ = W1 m ρ c (Proc.devRef .tc main_v3) := W2_of_ne m ρ c main_v3 (by decide)

theorem W7_v1 (c : Dev nD) : W7 m ρ c (Proc.devRef .tc main_v1) = W4 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := by hkeep

theorem W7_v3 (c : Dev nD) : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by hkeep

theorem W12_v1 (c : Dev nD) : W12 m ρ c (Proc.devRef .tc main_v1) = W7 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := W11_of_ne m ρ c main_v1 (by decide)
    _ = W9 m ρ c (Proc.devRef .tc main_v1) := by hkeep
    _ = W8 m ρ c (Proc.devRef .tc main_v1) := by hkeep
    _ = W7 m ρ c (Proc.devRef .tc main_v1) := by hkeep

theorem W12_v3 (c : Dev nD) : W12 m ρ c (Proc.devRef .tc main_v3) = W7 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := by hkeep
    _ = W8 m ρ c (Proc.devRef .tc main_v3) := by hkeep
    _ = W7 m ρ c (Proc.devRef .tc main_v3) := by hkeep

/-! ## The degree normalisation, from the stretch that computes it to the second aggregation; the first layer's
    output across the concatenation of the relational weights -/

theorem W12_v55 (c : Dev nD) : W12 m ρ c (Proc.devRef .tc main_v55) = W10 m ρ c (Proc.devRef .tc main_v55) :=
  calc W12 m ρ c (Proc.devRef .tc main_v55)
    _ = W11 m ρ c (Proc.devRef .tc main_v55) := W12_of_ne m ρ c main_v55 (by decide)
    _ = W10 m ρ c (Proc.devRef .tc main_v55) := W11_of_ne m ρ c main_v55 (by decide)

theorem W3_v10 (c : Dev nD) : W3 m ρ c (Proc.devRef .tc main_v10) = W2 m ρ c (Proc.devRef .tc main_v10) :=
  calc W3 m ρ c (Proc.devRef .tc main_v10)
    _ = W2 m ρ c (Proc.devRef .tc main_v10) := by hkeep

end Cert.KernelIdeal.Keep

end
-- ==== Proof.Bound1.lean ====
/-
  What the first two host stretches of the idealized kernel leave for the regions that follow them.
  The first stretch cuts the edge index into its two rows — the sources and the targets, the reference's own first
  operations — and lays each of the first stage's six bias and scale vectors out as a row f32[1, 100]; the second
  lays the relation's weights and the self weights side by side as one f32[100, 200] matrix.
-/
import proofs.«132481_j11579231830735_1_alg».proof.Proof.Gen.KernelIdeal.Frame
import proofs.«132481_j11579231830735_1_alg».proof.Proof.Gen.ReferenceIdeal
import proofs.«132481_j11579231830735_1_alg».proof.Proof.Stages
import proofs.«132481_j11579231830735_1_alg».proof.Proof.Keep
import Idealize.ShloMosaic.Lib.StableHlo.Run

set_option maxRecDepth 16384

noncomputable section

namespace Cert.KernelIdeal.Bound

open Idealize.ShloMosaic Idealize.ShloMosaic.TcCoe Idealize.ShloMosaic.Tactic Idealize.SL.Sem
open Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The edge sources after the first stretch are the reference's. -/
theorem W1_v1 (c : Dev nD) : W1 m ρ c (Proc.devRef .tc main_v1) = Cert.Stages.refSrc (F := F) (m ((c : Thread nD τ).loc main_arg1)) := by
  show StableHlo.after hostOps0 (W0 m ρ c) (Proc.devRef .tc main_v1) = _
  after_results
  rfl

/-- The edge targets after the first stretch are the reference's. -/
theorem W1_v3 (c : Dev nD) : W1 m ρ c (Proc.devRef .tc main_v3) = Cert.Stages.refTgt (F := F) (m ((c : Thread nD τ).loc main_arg1)) := by
  show StableHlo.after hostOps0 (W0 m ρ c) (Proc.devRef .tc main_v3) = _
  after_results
  rfl

/-- A vector f32[100] laid out as a row f32[1, 100]. -/
def asRow (a : (⟨S100, .f32⟩ : BufTy).Contents (Elt F)) : (⟨S1x100, .f32⟩ : BufTy).Contents (Elt F) :=
  shapeCast S1x100 a shapeCasts_S100_S1x100

theorem W1_v4 (c : Dev nD) : W1 m ρ c (Proc.devRef .tc main_v4) = asRow (m ((c : Thread nD τ).loc main_arg4)) := by
  show StableHlo.after hostOps0 (W0 m ρ c) (Proc.devRef .tc main_v4) = _
  after_results
  rfl
theorem W1_v5 (c : Dev nD) : W1 m ρ c (Proc.devRef .tc main_v5) = asRow (m ((c : Thread nD τ).loc main_arg5)) := by
  show StableHlo.after hostOps0 (W0 m ρ c) (Proc.devRef .tc main_v5) = _
  after_results
  rfl
theorem W1_v6 (c : Dev nD) : W1 m ρ c (Proc.devRef .tc main_v6) = asRow (m ((c : Thread nD τ).loc main_arg6)) := by
  show StableHlo.after hostOps0 (W0 m ρ c) (Proc.devRef .tc main_v6) = _
  after_results
  rfl
theorem W1_v7 (c : Dev nD) : W1 m ρ c (Proc.devRef .tc main_v7) = asRow (m ((c : Thread nD τ).loc main_arg8)) := by
  show StableHlo.after hostOps0 (W0 m ρ c) (Proc.devRef .tc main_v7) = _
  after_results
  rfl
theorem W1_v8 (c : Dev nD) : W1 m ρ c (Proc.devRef .tc main_v8) = asRow (m ((c : Thread nD τ).loc main_arg9)) := by
  show StableHlo.after hostOps0 (W0 m ρ c) (Proc.devRef .tc main_v8) = _
  after_results
  rfl
theorem W1_v9 (c : Dev nD) : W1 m ρ c (Proc.devRef .tc main_v9) = asRow (m ((c : Thread nD τ).loc main_arg10)) := by
  show StableHlo.after hostOps0 (W0 m ρ c) (Proc.devRef .tc main_v9) = _
  after_results
  rfl

/-- The relation's weights (its one relation, as a matrix) and the self weights side by side. -/
def wcat (a11 : (⟨S1x100x100, .f32⟩ : BufTy).Contents (Elt F)) (a12 : (⟨S100x100, .f32⟩ : BufTy).Contents (Elt F)) :
    (⟨S100x200, .f32⟩ : BufTy).Contents (Elt F) :=
  concatenate S100x200 1 [⟨S100x100, shapeCast S100x100 a11 shapeCasts_S1x100x100_S100x100⟩, ⟨S100x100, a12⟩]
    concatenates_S100x100_S100x100_S100x200_d1

theorem W3_v12 (c : Dev nD) : W3 m ρ c (Proc.devRef .tc main_v12)
    = wcat (m ((c : Thread nD τ).loc main_arg11)) (m ((c : Thread nD τ).loc main_arg12)) := by
  show StableHlo.after hostOps1 (W2 m ρ c) (Proc.devRef .tc main_v12) = _
  after_results
  rw [Keep.W2_arg11 m ρ c, Keep.W2_arg12 m ρ c]
  rfl

end Cert.KernelIdeal.Bound

end
-- ==== Proof.AfterRest.lean ====
/-
  Reading a fold of host operations at a buffer, the last steps: each operation's result at its own buffer is its
  function's value, and at any other buffer what was there before.
-/
import Idealize.ShloMosaic.Lib.StableHlo.Run

open Idealize.ShloMosaic.StableHlo in
/-- Rewrite every remaining operation result: at the operation's own result buffer by its function, elsewhere by what the
    buffer held (the two buffers differ, by decision). -/
macro "after_rest" : tactic =>
  `(tactic| (repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide))))
-- ==== Proof.Bound2.lean ====
/-
  What the message-passing stretch of the idealized kernel leaves for the relational layer's region: the right half
  of the doubled product (the self term), the left half gathered along the edge sources and summed at the edge
  targets (the messages), and the bias as a row.
-/
import proofs.«132481_j11579231830735_1_alg».proof.Proof.Gen.KernelIdeal.Frame
import proofs.«132481_j11579231830735_1_alg».proof.Proof.Gen.ReferenceIdeal
import proofs.«132481_j11579231830735_1_alg».proof.Proof.Stages
import proofs.«132481_j11579231830735_1_alg».proof.Proof.Keep
import Idealize.ShloMosaic.Lib.StableHlo.Run
import proofs.«132481_j11579231830735_1_alg».proof.Proof.KStages
import proofs.«132481_j11579231830735_1_alg».proof.Proof.Bound1
import proofs.«132481_j11579231830735_1_alg».proof.Proof.AfterRest
set_option maxRecDepth 16384

noncomputable section

namespace Cert.KernelIdeal.Bound

open Idealize.ShloMosaic Idealize.ShloMosaic.TcCoe Idealize.ShloMosaic.Tactic Idealize.SL.Sem
open Idealize.ShloMosaic.StableHlo
open Cert.KernelIdeal Cert.KernelIdeal.Gen

variable {F : FTy → Type} [FloatOps F]
variable (m : (ℓ : Loc nD τ sig) → Buf (Elt F) ℓ) (ρ : Dev nD → PrngReg)

set_option maxHeartbeats 8000000 in
theorem W5_v15 (c : Dev nD) : W5 m ρ c (Proc.devRef .tc main_v15)
    = extractStridedSlice S50000x100 ![0, 100] (W4 m ρ c (Proc.devRef .tc main_v13)) slices_S50000x200_S50000x100_0_100 := by
  show StableHlo.after hostOps2 (W4 m ρ c) (Proc.devRef .tc main_v15) = _
  after_results_simp
  try after_rest

set_option maxHeartbeats 8000000 in
theorem W5_v25 (c : Dev nD) : W5 m ρ c (Proc.devRef .tc main_v25)
    = Cert.KStages.msgSum (F := F) (Cert.KStages.gatherRows
        (extractStridedSlice S50000x100 ![0, 0] (W4 m ρ c (Proc.devRef .tc main_v13)) slices_S50000x200_S50000x100_0_0)
        (W4 m ρ c (Proc.devRef .tc main_v1))) (W4 m ρ c (Proc.devRef .tc main_v3)) := by
  show StableHlo.after hostOps2 (W4 m ρ c) (Proc.devRef .tc main_v25) = _
  after_results_simp
  try after_rest
  rfl

set_option maxHeartbeats 8000000 in
theorem W5_v26 (c : Dev nD) : W5 m ρ c (Proc.devRef .tc main_v26) = asRow (m ((c : Thread nD τ).loc main_arg13)) := by
  show StableHlo.after hostOps2 (W4 m ρ c) (Proc.devRef .tc main_v26) = _
  after_results_simp
  try after_rest
  rw [Keep.W4_arg13 m ρ c]
  rfl

end Cert.KernelIdeal.Bound

end
-- ==== Proof.Bound4.lean ====
/-
  What the three host stretches between the fourth and fifth regions of the idealized kernel leave: the symmetric
  degree normalisation of the looped edges, the first graph convolution's aggregation of the 100-feature product with
  it, and the bias as a row.
-/
import proofs.«132481_j11579231830735_1_alg».proof.Proof.Gen.KernelIdeal.Frame
import proofs.«132481_j11579231830735_1_alg».proof.Proof.Gen.ReferenceIdeal
import proofs.«132481_j11579231830735_1_alg».proof.Proof.Stages
import proofs.«132481_j11579231830735_1_alg».proof.Proof.Keep
import Idealize.ShloMosaic.Lib.StableHlo.Run
import proofs.«132481_j11579231830735_1_alg».proof.Proof.KStages
import proofs.«132481_j11579231830735_1_alg».proof.Proof.Bound1
import proofs.«132481_j11579231830735_1_alg».proof.Proof.AfterRest
set_option maxRecDepth 16384

noncomputable section

namespace Cert.KernelIdeal.Bound

open Idealize.ShloMosaic Idealize.ShloMosaic.TcCoe Idealize.ShloMosaic.Tactic Idealize.SL.Sem
open Idealize.ShloMosaic.StableHlo
open Cert.KernelIdeal Cert.KernelIdeal.Gen

variable {F : FTy → Type} [FloatOps F]
variable (m : (ℓ : Loc nD τ sig) → Buf (Elt F) ℓ) (ρ : Dev nD → PrngReg)

set_option maxHeartbeats 16000000 in
theorem W10_v55 (c : Dev nD) : W10 m ρ c (Proc.devRef .tc main_v55)
    = Cert.KStages.norm (F := F) (W7 m ρ c (Proc.devRef .tc main_v1)) (W7 m ρ c (Proc.devRef .tc main_v3)) := by
  show StableHlo.after hostOps4_2 (StableHlo.after hostOps4_1 (StableHlo.after hostOps4 (W7 m ρ c))) (Proc.devRef .tc main_v55) = _
  after_results_simp
  try after_rest
  rfl

set_option maxHeartbeats 16000000 in
theorem W10_v68 (c : Dev nD) : W10 m ρ c (Proc.devRef .tc main_v68)
    = Cert.KStages.agg100 (F := F) (W7 m ρ c (Proc.devRef .tc main_v28)) (W7 m ρ c (Proc.devRef .tc main_v1))
        (W7 m ρ c (Proc.devRef .tc main_v3))
        (Cert.KStages.norm (W7 m ρ c (Proc.devRef .tc main_v1)) (W7 m ρ c (Proc.devRef .tc main_v3))) := by
  show StableHlo.after hostOps4_2 (StableHlo.after hostOps4_1 (StableHlo.after hostOps4 (W7 m ρ c))) (Proc.devRef .tc main_v68) = _
  after_results_simp
  try after_rest
  rfl

set_option maxHeartbeats 8000000 in
theorem W10_v69 (c : Dev nD) : W10 m ρ c (Proc.devRef .tc main_v69) = asRow (m ((c : Thread nD τ).loc main_arg15)) := by
  show StableHlo.after hostOps4_2 (W9 m ρ c) (Proc.devRef .tc main_v69) = _
  after_results_simp
  try after_rest
  rw [Keep.W7_arg15 m ρ c]
  rfl

end Cert.KernelIdeal.Bound

end
-- ==== Proof.Bound6.lean ====
/-
  What the last host stretch of the idealized kernel leaves for the final region: the second graph convolution's
  aggregation of the 64-feature product along the looped edges, with the edge normalisation the earlier stretch
  computed, and the bias as a row.
-/
import proofs.«132481_j11579231830735_1_alg».proof.Proof.Gen.KernelIdeal.Frame
import proofs.«132481_j11579231830735_1_alg».proof.Proof.Gen.ReferenceIdeal
import proofs.«132481_j11579231830735_1_alg».proof.Proof.Stages
import proofs.«132481_j11579231830735_1_alg».proof.Proof.Keep
import Idealize.ShloMosaic.Lib.StableHlo.Run
import proofs.«132481_j11579231830735_1_alg».proof.Proof.KStages
import proofs.«132481_j11579231830735_1_alg».proof.Proof.Bound1
import proofs.«132481_j11579231830735_1_alg».proof.Proof.AfterRest
set_option maxRecDepth 16384

noncomputable section

namespace Cert.KernelIdeal.Bound

open Idealize.ShloMosaic Idealize.ShloMosaic.TcCoe Idealize.ShloMosaic.Tactic Idealize.SL.Sem
open Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A vector f32[64] laid out as a row f32[1, 64]. -/
def asRow64 (a : (⟨S64, .f32⟩ : BufTy).Contents (Elt F)) : (⟨S1x64, .f32⟩ : BufTy).Contents (Elt F) :=
  shapeCast S1x64 a shapeCasts_S64_S1x64

set_option maxHeartbeats 8000000 in
theorem W13_v87 (c : Dev nD) : W13 m ρ c (Proc.devRef .tc main_v87)
    = Cert.KStages.agg64 (F := F) (W12 m ρ c (Proc.devRef .tc main_v71)) (W12 m ρ c (Proc.devRef .tc main_v1))
        (W12 m ρ c (Proc.devRef .tc main_v3)) (W12 m ρ c (Proc.devRef .tc main_v55)) := by
  show StableHlo.after hostOps6 (W12 m ρ c) (Proc.devRef .tc main_v87) = _
  after_results_simp
  try after_rest
  rfl

set_option maxHeartbeats 8000000 in
theorem W13_v88 (c : Dev nD) : W13 m ρ c (Proc.devRef .tc main_v88) = asRow64 (m ((c : Thread nD τ).loc main_arg17)) := by
  show StableHlo.after hostOps6 (W12 m ρ c) (Proc.devRef .tc main_v88) = _
  after_results_simp
  try after_rest
  rw [Keep.W12_arg17 m ρ c]
  rfl

end Cert.KernelIdeal.Bound

end
-- ==== Proof.DotAt.lean ====
/- A product of an m×k matrix by a k×n matrix whose dimension numbers contract the left operand's column axis with the
   right operand's row axis (no batch axes), read at one entry at the ideal values: the sum over the contracted
   coordinate c of A(a, c) · B(c, b). Stated once for the kernel's matrix unit accumulating into the zero splat and once
   for the host's dot_general, over any well-formedness witness of the dimension numbers, so that every record with
   these dimension numbers is an instance. -/
import Idealize.ShloMosaic.PureOps.Ideal.Laws
import Idealize.ShloMosaic.Lib.ValueIdx

noncomputable section

open scoped BigOperators

namespace Cert.KernelIdeal.Regions

open Idealize.ShloMosaic Idealize.ShloMosaic.ValueIdx

variable {m k n : Nat} {φ₁ φ₂ : FTy}

/-- The dimension numbers "columns of the left with rows of the right" over a given well-formedness witness. -/
abbrev rowCol (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- At output entry (a, b) and contracted coordinate c the left operand is read at (a, c). -/
theorem rowCol_lhsIdx (w : DotDims.WF ⟨2, ![m, k]⟩ ⟨2, ![k, n]⟩ ⟨2, ![m, n]⟩ [1] [0] [0] [1] [] [])
    (a : Fin m) (b : Fin n) (c : Fin k) :
    (rowCol w).lhsIdx (ix2 a b) ((contrEquiv1 (rowCol w) k rfl rfl).symm c) = ix2 a c := by
  have c2 := contrEquiv1_symm_val (rowCol w) k rfl rfl c
  funext ax; apply Fin.ext
  match ax with
  | ⟨0, _⟩ => simp [DotDims.lhsIdx]; rfl
  | ⟨1, _⟩ => simp [DotDims.lhsIdx]; exact c2

/-- At output entry (a, b) and contracted coordinate c the right operand is read at (c, b). -/
theorem rowCol_rhsIdx (w : DotDims.WF ⟨2, ![m, k]⟩ ⟨2, ![k, n]⟩ ⟨2, ![m, n]⟩ [1] [0] [0] [1] [] [])
    (a : Fin m) (b : Fin n) (c : Fin k) :
    (rowCol w).rhsIdx (ix2 a b) ((contrEquiv1 (rowCol w) k rfl rfl).symm c) = ix2 c b := by
  have c2 := contrEquiv1_symm_val (rowCol w) k rfl rfl c
  funext ax; apply Fin.ext
  match ax with
  | ⟨0, _⟩ => simp [DotDims.rhsIdx]; exact c2
  | ⟨1, _⟩ => simp [DotDims.rhsIdx]; rfl

/-- The matrix unit's product into the zero splat, at entry (a, b): the exact sum of the products along the contracted
    coordinate. -/
theorem matmul_rowCol_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (rowCol w) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (rowCol w) k rfl rfl).symm]
  refine Finset.sum_congr rfl fun c _ => ?_
  rw [rowCol_lhsIdx, rowCol_rhsIdx]

/-- The host's dot_general at entry (a, b): the same sum. -/
theorem dotGeneral_rowCol_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (rowCol w) prec A B (ix2 a b) = ∑ c : Fin k, A (ix2 a c) * B (ix2 c b) := by
  show FloatOps.dotGeneral _ prec _ A B (ix2 a b) = _
  rw [Ideal.dotGeneral_apply, ← Equiv.sum_comp (contrEquiv1 (rowCol w) k rfl rfl).symm]
  refine Finset.sum_congr rfl fun c _ => ?_
  rw [rowCol_lhsIdx, rowCol_rhsIdx]

end Cert.KernelIdeal.Regions

end
-- ==== Proof.RegionMM1.lean ====
/- Region 1 of the kernel's program (a matrix product over row tiles), as ONE function of the arrays the region finds:
   after its 25 grid points the output array is the host's dot_general of the left operand [50000, 100] with the
   weights [100, 200], entry by entry the exact sum over the contracted coordinate. Point t multiplies rows
   2000·t … 2000·t + 1999 of the left operand by the whole weight matrix (at the ideal values the narrowing to bf16 is
   the identity and the matrix unit's accumulation into the zero splat is the exact sum), and writes rows
   2000·t … 2000·t + 1999 of the output; the 25 row tiles cover the 50000 rows. -/
import proofs.«132481_j11579231830735_1_alg».proof.Proof.Gen.KernelIdeal.Frame
import proofs.«132481_j11579231830735_1_alg».proof.Proof.DotAt
import Idealize.ShloMosaic.Lib.Pipeline.Value
import Idealize.ShloMosaic.Lib.ValueIdx

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The host product's dimension numbers for [50000, 100] by [100, 200]: the left operand's columns contracted with the
    right operand's rows, no batch axes. -/
def dotCat : DotDims S50000x100 S100x200 S50000x200 where
  lhsContracting := [1]
  rhsContracting := [0]
  lhsNonContracting := [0]
  rhsNonContracting := [1]
  lhsBatch := []
  rhsBatch := []
  wf := (DotDims.plain 50000 100 200).wf

/-- Every access of the body starts at the block's origin. -/
theorem origin1 : (![0, 0] : Fin 2 → Nat) = fun _ => 0 := funext fun a => by fin_cases a <;> rfl

/-- The body's one stored value at entry (p, q) of its block: the exact sum over k of x0(p, k) · x1(k, q). -/
theorem pay1_apply (x0 : Vec Ideal S2000x100 .f32) (x1 : Vec Ideal S100x200 .f32) (p : Fin 2000) (q : Fin 200) :
    k1_pay1 x0 x1 (ix2 p q) = ∑ k : Fin 100, x0 (ix2 p k) * x1 (ix2 k q) := by
  unfold k1_pay1
  refine (matmul_rowCol_apply Facts₀.dot_S2000x100_S100x200_S2000x200_1_0_0_1_n_n_wf none _ _ p q).trans ?_
  refine Finset.sum_congr rfl fun k _ => ?_
  rw [truncf_apply, truncf_apply, shapeCast_self, shapeCast_self]

/-- The host's product at entry (r, q): the same sum over the whole arrays. -/
theorem dot1_apply (A : FVec Ideal S50000x100 .f32) (B : FVec Ideal S100x200 .f32) (r : Fin 50000) (q : Fin 200) :
    Host.dotGeneral (F := Ideal) (φ₁ := .f32) (φ₂ := .f32) dotCat none A B (ix2 r q) = ∑ k : Fin 100, A (ix2 r k) * B (ix2 k q) :=
  dotGeneral_rowCol_apply _ none A B r q

/-- The printed index maps over the 25 points: the row-tiled windows sit at block row t, block column 0; the weights'
    window at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t, at (p, k), is the array at row 2000·t + p, column k. -/
theorem lhs1_apply (c : Dev nD) (t : Fin cfg1.N) (x : S2000x100.Idx) (i : S50000x100.Idx)
    (h0 : (i 0).val = 2000 * t.val + (x 0).val) (h1 : (i 1).val = (x 1).val) :
    (iblk1 V c 0 t : Vec Ideal S2000x100 .f32) x = (V c (Pipeline.arrRef spec1 0) : S50000x100.Idx → Elt Ideal .f32) i := by
  obtain ⟨e0, e1, -⟩ := idx_facts1 t
  unfold iblk1
  rw [View.read_apply]
  show V c (Pipeline.arrRef spec1 0) _ = V c (Pipeline.arrRef spec1 0) i
  congr 1
  funext a
  apply Fin.ext
  match a with
  | ⟨0, _⟩ => show win1_0.index t (0 : Fin 2) * 2000 + 1 * (x 0).val = (i 0).val; rw [e0, h0]; omega
  | ⟨1, _⟩ => show win1_0.index t (1 : Fin 2) * 100 + 1 * (x 1).val = (i 1).val; rw [e1, h1]; omega

/-- The weights' block at every point is the whole weight array. -/
theorem rhs1_apply (c : Dev nD) (t : Fin cfg1.N) (x : S100x200.Idx) :
    (iblk1 V c 1 t : Vec Ideal S100x200 .f32) x = (V c (Pipeline.arrRef spec1 1) : S100x200.Idx → Elt Ideal .f32) x := by
  obtain ⟨-, -, e2, e3, -⟩ := idx_facts1 t
  unfold iblk1
  rw [View.read_apply]
  show V c (Pipeline.arrRef spec1 1) _ = V c (Pipeline.arrRef spec1 1) x
  congr 1
  funext a
  apply Fin.ext
  match a with
  | ⟨0, _⟩ => show win1_1.index t (0 : Fin 2) * 100 + 1 * (x 0).val = (x 0).val; rw [e2]; omega
  | ⟨1, _⟩ => show win1_1.index t (1 : Fin 2) * 200 + 1 * (x 1).val = (x 1).val; rw [e3]; omega

/-- What the region's output array ends holding: the host's product of the two arrays the region finds. -/
abbrev prod1 (c : Dev nD) : FVec Ideal S50000x200 .f32 :=
  Host.dotGeneral (F := Ideal) (φ₁ := .f32) (φ₂ := .f32) dotCat none (V c (Pipeline.arrRef spec1 0) : FVec Ideal S50000x100 .f32)
    (V c (Pipeline.arrRef spec1 1) : FVec Ideal S100x200 .f32)

/-- What point t writes back is rows 2000·t … 2000·t + 1999 of that product. -/
theorem flushed1_eq (c : Dev nD) (t : Fin cfg1.N) :
    (dat1 (F := Ideal) V c).flushed 2 t = ((cfg1.win 2).blk t).view.read (Elt Ideal) (prod1 V c) := by
  have ht : t.val < 25 := lt_of_lt_of_eq t.isLt N_1
  obtain ⟨-, -, -, -, e4, e5⟩ := idx_facts1 t
  show (cfg1.win 2).cut (grid1.coords t) ((dat1 V c).after 2 t) = _
  rw [after1_2]
  unfold out1_2
  rw [View.canon_unit_zero origin1]
  simp only [View.ld_unit_zero (S := S2000x100) origin1, View.ld_unit_zero (S := S100x200) origin1]
  funext j
  obtain ⟨p, q, rfl⟩ : ∃ (p : Fin 2000) (q : Fin 200), j = ix2 p q := ⟨j 0, j 1, eq_ix2 j⟩
  have hemb : ((cfg1.win 2).blk t).view.emb (ix2 p q) = (ix2 (⟨2000 * t.val + p.val, by omega⟩ : Fin 50000) q : S50000x200.Idx) := by
    funext a
    apply Fin.ext
    match a with
    | ⟨0, _⟩ => show win1_2.index t (0 : Fin 2) * 2000 + 1 * p.val = 2000 * t.val + p.val; rw [e4]; omega
    | ⟨1, _⟩ => show win1_2.index t (1 : Fin 2) * 200 + 1 * q.val = q.val; rw [e5]; omega
  show k1_pay1 (iblk1 V c 0 t) (iblk1 V c 1 t) (ix2 p q) = prod1 V c (((cfg1.win 2).blk t).view.emb (ix2 p q))
  rw [hemb]
  refine (pay1_apply _ _ p q).trans (Eq.trans ?_ (dot1_apply _ _ _ q).symm)
  refine Finset.sum_congr rfl fun k _ => ?_
  exact congrArg₂ (· * ·) (lhs1_apply V c t (ix2 p k) (ix2 (⟨2000 * t.val + p.val, by omega⟩ : Fin 50000) k) rfl rfl)
    (rhs1_apply V c t (ix2 k q))

/-- An index of the output array is in point t's block iff each coordinate is in the block's range on its axis. -/
theorem mem_blk1 (t : Fin cfg1.N) (i : S50000x200.Idx) :
    i ∈ ((cfg1.win 2).blk t).view.set ↔ ∀ a : Fin 2, win1_2.index t a * S2000x200.size a ≤ (i a).val ∧ (i a).val < win1_2.index t a * S2000x200.size a + S2000x200.size a := by
  show i ∈ ((View.whole (Pipeline.arrRef spec1 2)).slice (win1_2.rect t)).set ↔ _
  rw [View.set_slice_whole, Rect.mem_set_unit]
  exact Iff.rfl

/-- Row r of the output lies in the block of point r / 2000, and every point writes back. -/
theorem cover1 (i : S50000x200.Idx) :
    ∃ t : Fin cfg1.N, (cfg1.win 2).flush t = true ∧ i ∈ ((cfg1.win 2).blk t).view.set := by
  have hi0 : (i 0).val < 50000 := (i 0).isLt
  have hi1 : (i 1).val < 200 := (i 1).isLt
  have hN : cfg1.N = 25 := N_1
  have hlt : (i 0).val / 2000 < cfg1.N := by rw [hN]; omega
  obtain ⟨-, -, -, -, e4, e5⟩ := idx_facts1 ⟨(i 0).val / 2000, hlt⟩
  refine ⟨⟨(i 0).val / 2000, hlt⟩, flush1_2 _, ?_⟩
  rw [mem_blk1]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hlt⟩ (1 : Fin 2) * 200 ≤ (i 1).val ∧ (i 1).val < win1_2.index ⟨(i 0).val / 2000, hlt⟩ (1 : Fin 2) * 200 + 200
    rw [e5]; omega

/-- THE REGION'S VALUE: after the 25 points the output array is the host's product of the arrays the region finds. -/
theorem final1 (c : Dev nD) :
    (Gen.dat1 (F := Ideal) V c).arrAt 2 cfg1.N
      = Host.dotGeneral (F := Ideal) (φ₁ := .f32) (φ₂ := .f32) dotCat none (V c (Pipeline.arrRef spec1 0)) (V c (Pipeline.arrRef spec1 1)) :=
  (dat1 (F := Ideal) V c).arrAt_eq_of_cover 2 (prod1 V c) (fun t _ => flushed1_eq V c t) cover1

end Cert.KernelIdeal.Regions

end
-- ==== Proof.Alg.lean ====
/-
  The algebra that joins the kernel's relational layer to the reference's.
  The kernel multiplies the node features ONCE by the relation's weights and the self weights laid side by side, then
  cuts the product in two; the reference multiplies twice, and gathers the rows along the edge sources BEFORE the
  relation's product where the kernel gathers after. On the extended reals a matrix product at an entry is the exact
  sum over the contracted coordinate, so: an entry of the doubled product in the right half is the entry of the
  product with the self weights, one in the left half that of the product with the relation's weights; and a row
  gather commutes with a product on the right, because the gathered array's row `e` is row `row(e)` of the operand and
  the column is kept. A vector f32[n] reshaped to a row f32[1, n] is its `broadcast_in_dim` along axis 1.
-/
import proofs.«132481_j11579231830735_1_alg».proof.Proof.KStages
import proofs.«132481_j11579231830735_1_alg».proof.Proof.Gen.ReferenceIdeal
import proofs.«132481_j11579231830735_1_alg».proof.Proof.Gen.KernelIdeal
import proofs.«132481_j11579231830735_1_alg».proof.Proof.DotAt
import proofs.«132481_j11579231830735_1_alg».proof.Proof.RegionMM1
import Idealize.ShloMosaic.Lib.ValueIdx
import Idealize.ShloMosaic.Lib.Pipeline.Value

noncomputable section

namespace Cert.Alg

open Idealize.ShloMosaic Idealize.ShloMosaic.ValueIdx Cert.ReferenceIdeal
open Cert.ReferenceIdeal.Facts₀ Cert.ReferenceIdeal.Facts
open Cert.KernelIdeal.Regions (rowCol dotGeneral_rowCol_apply dotCat)

/-! ## A row gather read at an entry -/

/-- The node row an edge reads: its start index read signed and clamped into the rows. -/
def rowOf (idx : IVec S800000x1 32) (e : Fin 800000) : Fin 50000 :=
  ⟨min (idx (ix2 e (0 : Fin 1))).toInt.toNat 49999, by omega⟩

/-- The operand entry a row gather reads for result entry `(e, q)`: row `rowOf e`, column `q`. -/
theorem operandIdx_rows (idx : IVec S800000x1 32) (e : Fin 800000) (q : Fin 100) :
    gather_S50000x100_S800000x1_S800000x100_1_0_n_n_0_1_1100.operandIdx (ix2 e q) idx = ix2 (rowOf idx e) q := by
  funext a
  refine Fin.ext ?_
  show gather_S50000x100_S800000x1_S800000x100_1_0_n_n_0_1_1100.start (ix2 e q) idx a + gather_S50000x100_S800000x1_S800000x100_1_0_n_n_0_1_1100.batchCoord (ix2 e q) a + gather_S50000x100_S800000x1_S800000x100_1_0_n_n_0_1_1100.offCoord (ix2 e q) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin S50000x100.rank) ∈ gather_S50000x100_S800000x1_S800000x100_1_0_n_n_0_1_1100.startIndexMap from List.mem_singleton.mpr rfl)]
    have hsi : gather_S50000x100_S800000x1_S800000x100_1_0_n_n_0_1_1100.siIdx (ix2 e q)
        ⟨List.idxOf (⟨0, h0⟩ : Fin S50000x100.rank) gather_S50000x100_S800000x1_S800000x100_1_0_n_n_0_1_1100.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    have hn : ∀ l : List (Fin S50000x100.rank), l = [0] → (⟨1, h1⟩ : Fin S50000x100.rank) ∉ l := by
      intro l hl h
      rw [hl] at h
      exact Nat.one_ne_zero (show (1 : ℕ) = 0 from congrArg Fin.val (List.mem_singleton.mp h))
    have hs : gather_S50000x100_S800000x1_S800000x100_1_0_n_n_0_1_1100.start (ix2 e q) idx ⟨1, h1⟩ = 0 := by
      unfold GatherDims.start
      rw [dif_neg (hn gather_S50000x100_S800000x1_S800000x100_1_0_n_n_0_1_1100.startIndexMap rfl)]
    rw [hs]
    have ho : gather_S50000x100_S800000x1_S800000x100_1_0_n_n_0_1_1100.offCoord (ix2 e q) ⟨1, h1⟩ = q.val := by
      unfold GatherDims.offCoord
      rw [dif_pos ((GatherDims.mem_sKept _ _).mpr ⟨hn gather_S50000x100_S800000x1_S800000x100_1_0_n_n_0_1_1100.collapsedSliceDims rfl, List.not_mem_nil⟩)]
      rfl
    rw [ho]
    simp

/-- Rows gathered along the sources, at entry `(e, q)`. -/
theorem gatherRows_apply (x : FVec Ideal S50000x100 .f32) (src : IVec S800000 32) (e : Fin 800000) (q : Fin 100) :
    Cert.KStages.gatherRows (F := Ideal) x src (ix2 e q) = x (ix2 (rowOf (Cert.KStages.wrap8 (F := Ideal) src) e) q) := by
  show x (gather_S50000x100_S800000x1_S800000x100_1_0_n_n_0_1_1100.operandIdx (ix2 e q) (Cert.KStages.wrap8 (F := Ideal) src)) = _
  rw [operandIdx_rows]

/-! ## The two weight matrices side by side -/

/-- Two f32[100, 100] matrices side by side as one f32[100, 200]. -/
def cat (A B : FVec Ideal S100x100 .f32) : FVec Ideal Cert.KernelIdeal.S100x200 .f32 :=
  concatenate Cert.KernelIdeal.S100x200 1 [⟨S100x100, A⟩, ⟨S100x100, B⟩] Cert.KernelIdeal.Facts₀.concatenates_S100x100_S100x100_S100x200_d1

theorem cat_left (A B : FVec Ideal S100x100 .f32) (c : Fin 100) (q : Fin 100) :
    cat A B (ix2 c (⟨q.val, by omega⟩ : Fin 200)) = A (ix2 c q) := by
  unfold cat
  refine concatenate_pair_apply_left (t := Cert.KernelIdeal.S100x200) (1 : Fin 2) A B Cert.KernelIdeal.Facts₀.concatenates_S100x100_S100x100_S100x200_d1
    (ix2 c (⟨q.val, by omega⟩ : Fin 200)) rfl (ix2 c q) ?_
  intro b
  match b with
  | ⟨0, _⟩ => rfl
  | ⟨1, _⟩ => rfl

theorem cat_right (A B : FVec Ideal S100x100 .f32) (c : Fin 100) (q : Fin 100) :
    cat A B (ix2 c (⟨q.val + 100, by omega⟩ : Fin 200)) = B (ix2 c q) := by
  unfold cat
  refine concatenate_pair_apply_right (t := Cert.KernelIdeal.S100x200) (1 : Fin 2) A B Cert.KernelIdeal.Facts₀.concatenates_S100x100_S100x100_S100x200_d1
    (ix2 c (⟨q.val + 100, by omega⟩ : Fin 200)) rfl rfl (ix2 c q) ?_ ?_
  · intro b hb
    match b with
    | ⟨0, _⟩ => rfl
    | ⟨1, _⟩ => exact absurd rfl hb
  · rfl

/-! ## The three matrix products at an entry -/

theorem dotCat_apply (x : FVec Ideal S50000x100 .f32) (W : FVec Ideal Cert.KernelIdeal.S100x200 .f32) (p : Fin 50000) (q : Fin 200) :
    Host.dotGeneral (F := Ideal) (φ₁ := .f32) (φ₂ := .f32) dotCat none x W (ix2 p q) = ∑ c : Fin 100, x (ix2 p c) * W (ix2 c q) :=
  dotGeneral_rowCol_apply _ none x W p q

theorem dotNode_apply (x : FVec Ideal S50000x100 .f32) (W : FVec Ideal S100x100 .f32) (p : Fin 50000) (q : Fin 100) :
    Host.dotGeneral (F := Ideal) (φ₁ := .f32) (φ₂ := .f32) dot_S50000x100_S100x100_S50000x100_1_0_0_1_n_n none x W (ix2 p q)
      = ∑ c : Fin 100, x (ix2 p c) * W (ix2 c q) :=
  dotGeneral_rowCol_apply _ none x W p q

theorem dotEdge_apply (y : FVec Ideal S800000x100 .f32) (W : FVec Ideal S100x100 .f32) (e : Fin 800000) (q : Fin 100) :
    Host.dotGeneral (F := Ideal) (φ₁ := .f32) (φ₂ := .f32) dot_S800000x100_S100x100_S800000x100_1_0_0_1_n_n none y W (ix2 e q)
      = ∑ c : Fin 100, y (ix2 e c) * W (ix2 c q) :=
  dotGeneral_rowCol_apply _ none y W e q

/-! ## The doubled product cut in two -/

/-- The right half of the doubled product is the product with the right matrix. -/
theorem right_half (x : FVec Ideal S50000x100 .f32) (A B : FVec Ideal S100x100 .f32) :
    extractStridedSlice S50000x100 ![0, 100] (Host.dotGeneral (F := Ideal) (φ₁ := .f32) (φ₂ := .f32) dotCat none x (cat A B))
        Cert.KernelIdeal.Facts₀.slices_S50000x200_S50000x100_0_100
      = Host.dotGeneral (F := Ideal) (φ₁ := .f32) (φ₂ := .f32) dot_S50000x100_S100x100_S50000x100_1_0_0_1_n_n none x B := by
  funext j
  obtain ⟨p, q, rfl⟩ : ∃ (p : Fin 50000) (q : Fin 100), j = ix2 p q := ⟨j 0, j 1, eq_ix2 j⟩
  rw [extractStridedSlice_apply _ _ _ (ix2 p q) (ix2 p (⟨q.val + 100, by omega⟩ : Fin 200)) (by
    intro a
    match a with
    | ⟨0, _⟩ => simp
    | ⟨1, _⟩ => show q.val + 100 = 100 + q.val; omega)]
  rw [dotCat_apply, dotNode_apply]
  exact Finset.sum_congr rfl fun c _ => by rw [cat_right]

/-- Rows of the left half of the doubled product gathered along the sources: the product of the gathered rows with the
    left matrix. -/
theorem gather_left_half (x : FVec Ideal S50000x100 .f32) (A B : FVec Ideal S100x100 .f32) (src : IVec S800000 32) :
    Cert.KStages.gatherRows (F := Ideal)
        (extractStridedSlice S50000x100 ![0, 0] (Host.dotGeneral (F := Ideal) (φ₁ := .f32) (φ₂ := .f32) dotCat none x (cat A B))
          Cert.KernelIdeal.Facts₀.slices_S50000x200_S50000x100_0_0) src
      = Host.dotGeneral (F := Ideal) (φ₁ := .f32) (φ₂ := .f32) dot_S800000x100_S100x100_S800000x100_1_0_0_1_n_n none
          (Cert.KStages.gatherRows (F := Ideal) x src) A := by
  funext j
  obtain ⟨e, q, rfl⟩ : ∃ (e : Fin 800000) (q : Fin 100), j = ix2 e q := ⟨j 0, j 1, eq_ix2 j⟩
  rw [gatherRows_apply]
  rw [extractStridedSlice_apply _ _ _ (ix2 (rowOf (Cert.KStages.wrap8 (F := Ideal) src) e) q)
    (ix2 (rowOf (Cert.KStages.wrap8 (F := Ideal) src) e) (⟨q.val, by omega⟩ : Fin 200)) (by
    intro a
    match a with
    | ⟨0, _⟩ => simp
    | ⟨1, _⟩ => simp)]
  rw [dotCat_apply, dotEdge_apply]
  exact Finset.sum_congr rfl fun c _ => by rw [cat_left, gatherRows_apply]

/-! ## A vector as a row -/

/-- A vector f32[100] reshaped to a row is its broadcast along axis 1. -/
theorem row100_eq (a : FVec Ideal S100 .f32) :
    shapeCast S1x100 a Cert.KernelIdeal.Facts₀.shapeCasts_S100_S1x100 = broadcastInDim S1x100 ![1] bcast_S100_S1x100_1 a := by
  funext j
  obtain ⟨p, q, rfl⟩ : ∃ (p : Fin 1) (q : Fin 100), j = ix2 p q := ⟨j 0, j 1, eq_ix2 j⟩
  rw [shapeCast_apply a _ (ix2 p q) (ix1 q) (by
      rw [Shape.rowMajor_val_one, Shape.rowMajor_val_two]
      have := p.isLt
      simp),
    broadcastInDim_apply _ _ a (ix2 p q) (ix1 q) (by
      intro b
      obtain rfl : b = 0 := Subsingleton.elim _ _
      simp)]

/-- A vector f32[64] reshaped to a row is its broadcast along axis 1. -/
theorem row64_eq (a : FVec Ideal S64 .f32) :
    shapeCast S1x64 a Cert.KernelIdeal.Facts₀.shapeCasts_S64_S1x64 = broadcastInDim S1x64 ![1] bcast_S64_S1x64_1 a := by
  funext j
  obtain ⟨p, q, rfl⟩ : ∃ (p : Fin 1) (q : Fin 64), j = ix2 p q := ⟨j 0, j 1, eq_ix2 j⟩
  rw [shapeCast_apply a _ (ix2 p q) (ix1 q) (by
      rw [Shape.rowMajor_val_one, Shape.rowMajor_val_two]
      have := p.isLt
      simp),
    broadcastInDim_apply _ _ a (ix2 p q) (ix1 q) (by
      intro b
      obtain rfl : b = 0 := Subsingleton.elim _ _
      simp)]

end Cert.Alg

end
-- ==== Proof.RegionMM3.lean ====
/- Region 3 of the kernel's program (a matrix product over row tiles), as ONE function of the arrays the region finds:
   after its 25 grid points the output array is the host's dot_general of the left operand [50000, 100] with the
   weights [100, 100], entry by entry the exact sum over the contracted coordinate. Point t multiplies rows
   2000·t … 2000·t + 1999 of the left operand by the whole weight matrix (at the ideal values the narrowing to bf16 is
   the identity and the matrix unit's accumulation into the zero splat is the exact sum), and writes rows
   2000·t … 2000·t + 1999 of the output; the 25 row tiles cover the 50000 rows. -/
import proofs.«132481_j11579231830735_1_alg».proof.Proof.Gen.KernelIdeal.Frame
import proofs.«132481_j11579231830735_1_alg».proof.Proof.DotAt
import proofs.«132481_j11579231830735_1_alg».proof.ReferenceIdeal
import Idealize.ShloMosaic.Lib.Pipeline.Value
import Idealize.ShloMosaic.Lib.ValueIdx

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

open Cert.ReferenceIdeal.Facts₀ Cert.ReferenceIdeal.Facts

variable [Cert.ReferenceIdeal.Facts]
variable (V : (c : Dev nD) → (b : Ref sig .tc) → Buf (Elt Ideal) ((c : Thread nD τ).loc b))

/-- Every access of the body starts at the block's origin. -/
theorem origin3 : (![0, 0] : Fin 2 → Nat) = fun _ => 0 := funext fun a => by fin_cases a <;> rfl

/-- The body's one stored value at entry (p, q) of its block: the exact sum over k of x0(p, k) · x1(k, q). -/
theorem pay3_apply (x0 : Vec Ideal S2000x100 .f32) (x1 : Vec Ideal S100x100 .f32) (p : Fin 2000) (q : Fin 100) :
    k3_pay1 x0 x1 (ix2 p q) = ∑ k : Fin 100, x0 (ix2 p k) * x1 (ix2 k q) := by
  unfold k3_pay1
  refine (matmul_rowCol_apply Facts₀.dot_S2000x100_S100x100_S2000x100_1_0_0_1_n_n_wf none _ _ p q).trans ?_
  refine Finset.sum_congr rfl fun k _ => ?_
  rw [truncf_apply, truncf_apply, shapeCast_self]

/-- The host's product at entry (r, q): the same sum over the whole arrays. -/
theorem dot3_apply (A : FVec Ideal S50000x100 .f32) (B : FVec Ideal S100x100 .f32) (r : Fin 50000) (q : Fin 100) :
    Host.dotGeneral (F := Ideal) (φ₁ := .f32) (φ₂ := .f32) Cert.ReferenceIdeal.dot_S50000x100_S100x100_S50000x100_1_0_0_1_n_n none A B (ix2 r q) = ∑ k : Fin 100, A (ix2 r k) * B (ix2 k q) :=
  dotGeneral_rowCol_apply _ none A B r q

/-- The printed index maps over the 25 points: the row-tiled windows sit at block row t, block column 0; the weights'
    window at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point t, at (p, k), is the array at row 2000·t + p, column k. -/
theorem lhs3_apply (c : Dev nD) (t : Fin cfg3.N) (x : S2000x100.Idx) (i : S50000x100.Idx)
    (h0 : (i 0).val = 2000 * t.val + (x 0).val) (h1 : (i 1).val = (x 1).val) :
    (iblk3 V c 0 t : Vec Ideal S2000x100 .f32) x = (V c (Pipeline.arrRef spec3 0) : S50000x100.Idx → Elt Ideal .f32) i := by
  obtain ⟨e0, e1, -⟩ := idx_facts3 t
  unfold iblk3
  rw [View.read_apply]
  show V c (Pipeline.arrRef spec3 0) _ = V c (Pipeline.arrRef spec3 0) i
  congr 1
  funext a
  apply Fin.ext
  match a with
  | ⟨0, _⟩ => show win3_0.index t (0 : Fin 2) * 2000 + 1 * (x 0).val = (i 0).val; rw [e0, h0]; omega
  | ⟨1, _⟩ => show win3_0.index t (1 : Fin 2) * 100 + 1 * (x 1).val = (i 1).val; rw [e1, h1]; omega

/-- The weights' block at every point is the whole weight array. -/
theorem rhs3_apply (c : Dev nD) (t : Fin cfg3.N) (x : S100x100.Idx) :
    (iblk3 V c 1 t : Vec Ideal S100x100 .f32) x = (V c (Pipeline.arrRef spec3 1) : S100x100.Idx → Elt Ideal .f32) x := by
  obtain ⟨-, -, e2, e3, -⟩ := idx_facts3 t
  unfold iblk3
  rw [View.read_apply]
  show V c (Pipeline.arrRef spec3 1) _ = V c (Pipeline.arrRef spec3 1) x
  congr 1
  funext a
  apply Fin.ext
  match a with
  | ⟨0, _⟩ => show win3_1.index t (0 : Fin 2) * 100 + 1 * (x 0).val = (x 0).val; rw [e2]; omega
  | ⟨1, _⟩ => show win3_1.index t (1 : Fin 2) * 100 + 1 * (x 1).val = (x 1).val; rw [e3]; omega

/-- What the region's output array ends holding: the host's product of the two arrays the region finds. -/
abbrev prod3 (c : Dev nD) : FVec Ideal S50000x100 .f32 :=
  Host.dotGeneral (F := Ideal) (φ₁ := .f32) (φ₂ := .f32) Cert.ReferenceIdeal.dot_S50000x100_S100x100_S50000x100_1_0_0_1_n_n none (V c (Pipeline.arrRef spec3 0) : FVec Ideal S50000x100 .f32)
    (V c (Pipeline.arrRef spec3 1) : FVec Ideal S100x100 .f32)

/-- What point t writes back is rows 2000·t … 2000·t + 1999 of that product. -/
theorem flushed3_eq (c : Dev nD) (t : Fin cfg3.N) :
    (dat3 (F := Ideal) V c).flushed 2 t = ((cfg3.win 2).blk t).view.read (Elt Ideal) (prod3 V c) := by
  have ht : t.val < 25 := lt_of_lt_of_eq t.isLt N_3
  obtain ⟨-, -, -, -, e4, e5⟩ := idx_facts3 t
  show (cfg3.win 2).cut (grid3.coords t) ((dat3 V c).after 2 t) = _
  rw [after3_2]
  unfold out3_2
  rw [View.canon_unit_zero origin3]
  simp only [View.ld_unit_zero (S := S2000x100) origin3, View.ld_unit_zero (S := S100x100) origin3]
  funext j
  obtain ⟨p, q, rfl⟩ : ∃ (p : Fin 2000) (q : Fin 100), j = ix2 p q := ⟨j 0, j 1, eq_ix2 j⟩
  have hemb : ((cfg3.win 2).blk t).view.emb (ix2 p q) = (ix2 (⟨2000 * t.val + p.val, by omega⟩ : Fin 50000) q : S50000x100.Idx) := by
    funext a
    apply Fin.ext
    match a with
    | ⟨0, _⟩ => show win3_2.index t (0 : Fin 2) * 2000 + 1 * p.val = 2000 * t.val + p.val; rw [e4]; omega
    | ⟨1, _⟩ => show win3_2.index t (1 : Fin 2) * 100 + 1 * q.val = q.val; rw [e5]; omega
  show k3_pay1 (iblk3 V c 0 t) (iblk3 V c 1 t) (ix2 p q) = prod3 V c (((cfg3.win 2).blk t).view.emb (ix2 p q))
  rw [hemb]
  refine (pay3_apply _ _ p q).trans (Eq.trans ?_ (dot3_apply _ _ _ q).symm)
  refine Finset.sum_congr rfl fun k _ => ?_
  exact congrArg₂ (· * ·) (lhs3_apply V c t (ix2 p k) (ix2 (⟨2000 * t.val + p.val, by omega⟩ : Fin 50000) k) rfl rfl)
    (rhs3_apply V c t (ix2 k q))

/-- An index of the output array is in point t's block iff each coordinate is in the block's range on its axis. -/
theorem mem_blk3 (t : Fin cfg3.N) (i : S50000x100.Idx) :
    i ∈ ((cfg3.win 2).blk t).view.set ↔ ∀ a : Fin 2, win3_2.index t a * S2000x100.size a ≤ (i a).val ∧ (i a).val < win3_2.index t a * S2000x100.size a + S2000x100.size a := by
  show i ∈ ((View.whole (Pipeline.arrRef spec3 2)).slice (win3_2.rect t)).set ↔ _
  rw [View.set_slice_whole, Rect.mem_set_unit]
  exact Iff.rfl

/-- Row r of the output lies in the block of point r / 2000, and every point writes back. -/
theorem cover3 (i : S50000x100.Idx) :
    ∃ t : Fin cfg3.N, (cfg3.win 2).flush t = true ∧ i ∈ ((cfg3.win 2).blk t).view.set := by
  have hi0 : (i 0).val < 50000 := (i 0).isLt
  have hi1 : (i 1).val < 100 := (i 1).isLt
  have hN : cfg3.N = 25 := N_3
  have hlt : (i 0).val / 2000 < cfg3.N := by rw [hN]; omega
  obtain ⟨-, -, -, -, e4, e5⟩ := idx_facts3 ⟨(i 0).val / 2000, hlt⟩
  refine ⟨⟨(i 0).val / 2000, hlt⟩, flush3_2 _, ?_⟩
  rw [mem_blk3]
  intro a
  match a with
  | ⟨0, _⟩ =>
    show win3_2.index ⟨(i 0).val / 2000, hlt⟩ (0 : Fin 2) * 2000 ≤ (i 0).val ∧ (i 0).val < win3_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, hlt⟩ (1 : Fin 2) * 100 ≤ (i 1).val ∧ (i 1).val < win3_2.index ⟨(i 0).val / 2000, hlt⟩ (1 : Fin 2) * 100 + 100
    rw [e5]; omega

/-- THE REGION'S VALUE: after the 25 points the output array is the host's product of the arrays the region finds. -/
theorem final3 (c : Dev nD) :
    (Gen.dat3 (F := Ideal) V c).arrAt 2 cfg3.N
      = Host.dotGeneral (F := Ideal) (φ₁ := .f32) (φ₂ := .f32) Cert.ReferenceIdeal.dot_S50000x100_S100x100_S50000x100_1_0_0_1_n_n none (V c (Pipeline.arrRef spec3 0)) (V c (Pipeline.arrRef spec3 1)) :=
  (dat3 (F := Ideal) V c).arrAt_eq_of_cover 2 (prod3 V c) (fun t _ => flushed3_eq V c t) cover3

end Cert.KernelIdeal.Regions

end
-- ==== Proof.RegionMM5.lean ====
/- Region 5 of the kernel's program (a matrix product over row tiles), as ONE function of the arrays the region finds:
   after its 25 grid points the output array is the host's dot_general of the left operand [50000, 100] with the
   weights [100, 64], entry by entry the exact sum over the contracted coordinate. Point t multiplies rows
   2000·t … 2000·t + 1999 of the left operand by the whole weight matrix (at the ideal values the narrowing to bf16 is
   the identity and the matrix unit's accumulation into the zero splat is the exact sum), and writes rows
   2000·t … 2000·t + 1999 of the output; the 25 row tiles cover the 50000 rows. -/
import proofs.«132481_j11579231830735_1_alg».proof.Proof.Gen.KernelIdeal.Frame
import proofs.«132481_j11579231830735_1_alg».proof.Proof.DotAt
import proofs.«132481_j11579231830735_1_alg».proof.ReferenceIdeal
import Idealize.ShloMosaic.Lib.Pipeline.Value
import Idealize.ShloMosaic.Lib.ValueIdx

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

open Cert.ReferenceIdeal.Facts₀ Cert.ReferenceIdeal.Facts

variable [Cert.ReferenceIdeal.Facts]
variable (V : (c : Dev nD) → (b : Ref sig .tc) → Buf (Elt Ideal) ((c : Thread nD τ).loc b))

/-- Every access of the body starts at the block's origin. -/
theorem origin5 : (![0, 0] : Fin 2 → Nat) = fun _ => 0 := funext fun a => by fin_cases a <;> rfl

/-- The body's one stored value at entry (p, q) of its block: the exact sum over k of x0(p, k) · x1(k, q). -/
theorem pay5_apply (x0 : Vec Ideal S2000x100 .f32) (x1 : Vec Ideal S100x64 .f32) (p : Fin 2000) (q : Fin 64) :
    k5_pay1 x0 x1 (ix2 p q) = ∑ k : Fin 100, x0 (ix2 p k) * x1 (ix2 k q) := by
  unfold k5_pay1
  refine (matmul_rowCol_apply Facts₀.dot_S2000x100_S100x64_S2000x64_1_0_0_1_n_n_wf none _ _ p q).trans ?_
  refine Finset.sum_congr rfl fun k _ => ?_
  rw [truncf_apply, truncf_apply, shapeCast_self]

/-- The host's product at entry (r, q): the same sum over the whole arrays. -/
theorem dot5_apply (A : FVec Ideal S50000x100 .f32) (B : FVec Ideal S100x64 .f32) (r : Fin 50000) (q : Fin 64) :
    Host.dotGeneral (F := Ideal) (φ₁ := .f32) (φ₂ := .f32) Cert.ReferenceIdeal.dot_S50000x100_S100x64_S50000x64_1_0_0_1_n_n none A B (ix2 r q) = ∑ k : Fin 100, A (ix2 r k) * B (ix2 k q) :=
  dotGeneral_rowCol_apply _ none A B r q

/-- The printed index maps over the 25 points: the row-tiled windows sit at block row t, block column 0; the weights'
    window at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The left operand's block at point t, at (p, k), is the array at row 2000·t + p, column k. -/
theorem lhs5_apply (c : Dev nD) (t : Fin cfg5.N) (x : S2000x100.Idx) (i : S50000x100.Idx)
    (h0 : (i 0).val = 2000 * t.val + (x 0).val) (h1 : (i 1).val = (x 1).val) :
    (iblk5 V c 0 t : Vec Ideal S2000x100 .f32) x = (V c (Pipeline.arrRef spec5 0) : S50000x100.Idx → Elt Ideal .f32) i := by
  obtain ⟨e0, e1, -⟩ := idx_facts5 t
  unfold iblk5
  rw [View.read_apply]
  show V c (Pipeline.arrRef spec5 0) _ = V c (Pipeline.arrRef spec5 0) i
  congr 1
  funext a
  apply Fin.ext
  match a with
  | ⟨0, _⟩ => show win5_0.index t (0 : Fin 2) * 2000 + 1 * (x 0).val = (i 0).val; rw [e0, h0]; omega
  | ⟨1, _⟩ => show win5_0.index t (1 : Fin 2) * 100 + 1 * (x 1).val = (i 1).val; rw [e1, h1]; omega

/-- The weights' block at every point is the whole weight array. -/
theorem rhs5_apply (c : Dev nD) (t : Fin cfg5.N) (x : S100x64.Idx) :
    (iblk5 V c 1 t : Vec Ideal S100x64 .f32) x = (V c (Pipeline.arrRef spec5 1) : S100x64.Idx → Elt Ideal .f32) x := by
  obtain ⟨-, -, e2, e3, -⟩ := idx_facts5 t
  unfold iblk5
  rw [View.read_apply]
  show V c (Pipeline.arrRef spec5 1) _ = V c (Pipeline.arrRef spec5 1) x
  congr 1
  funext a
  apply Fin.ext
  match a with
  | ⟨0, _⟩ => show win5_1.index t (0 : Fin 2) * 100 + 1 * (x 0).val = (x 0).val; rw [e2]; omega
  | ⟨1, _⟩ => show win5_1.index t (1 : Fin 2) * 64 + 1 * (x 1).val = (x 1).val; rw [e3]; omega

/-- What the region's output array ends holding: the host's product of the two arrays the region finds. -/
abbrev prod5 (c : Dev nD) : FVec Ideal S50000x64 .f32 :=
  Host.dotGeneral (F := Ideal) (φ₁ := .f32) (φ₂ := .f32) Cert.ReferenceIdeal.dot_S50000x100_S100x64_S50000x64_1_0_0_1_n_n none (V c (Pipeline.arrRef spec5 0) : FVec Ideal S50000x100 .f32)
    (V c (Pipeline.arrRef spec5 1) : FVec Ideal S100x64 .f32)

/-- What point t writes back is rows 2000·t … 2000·t + 1999 of that product. -/
theorem flushed5_eq (c : Dev nD) (t : Fin cfg5.N) :
    (dat5 (F := Ideal) V c).flushed 2 t = ((cfg5.win 2).blk t).view.read (Elt Ideal) (prod5 V c) := by
  have ht : t.val < 25 := lt_of_lt_of_eq t.isLt N_5
  obtain ⟨-, -, -, -, e4, e5⟩ := idx_facts5 t
  show (cfg5.win 2).cut (grid5.coords t) ((dat5 V c).after 2 t) = _
  rw [after5_2]
  unfold out5_2
  rw [View.canon_unit_zero origin5]
  simp only [View.ld_unit_zero (S := S2000x100) origin5, View.ld_unit_zero (S := S100x64) origin5]
  funext j
  obtain ⟨p, q, rfl⟩ : ∃ (p : Fin 2000) (q : Fin 64), j = ix2 p q := ⟨j 0, j 1, eq_ix2 j⟩
  have hemb : ((cfg5.win 2).blk t).view.emb (ix2 p q) = (ix2 (⟨2000 * t.val + p.val, by omega⟩ : Fin 50000) q : S50000x64.Idx) := by
    funext a
    apply Fin.ext
    match a with
    | ⟨0, _⟩ => show win5_2.index t (0 : Fin 2) * 2000 + 1 * p.val = 2000 * t.val + p.val; rw [e4]; omega
    | ⟨1, _⟩ => show win5_2.index t (1 : Fin 2) * 64 + 1 * q.val = q.val; rw [e5]; omega
  show k5_pay1 (iblk5 V c 0 t) (iblk5 V c 1 t) (ix2 p q) = prod5 V c (((cfg5.win 2).blk t).view.emb (ix2 p q))
  rw [hemb]
  refine (pay5_apply _ _ p q).trans (Eq.trans ?_ (dot5_apply _ _ _ q).symm)
  refine Finset.sum_congr rfl fun k _ => ?_
  exact congrArg₂ (· * ·) (lhs5_apply V c t (ix2 p k) (ix2 (⟨2000 * t.val + p.val, by omega⟩ : Fin 50000) k) rfl rfl)
    (rhs5_apply V c t (ix2 k q))

/-- An index of the output array is in point t's block iff each coordinate is in the block's range on its axis. -/
theorem mem_blk5 (t : Fin cfg5.N) (i : S50000x64.Idx) :
    i ∈ ((cfg5.win 2).blk t).view.set ↔ ∀ a : Fin 2, win5_2.index t a * S2000x64.size a ≤ (i a).val ∧ (i a).val < win5_2.index t a * S2000x64.size a + S2000x64.size a := by
  show i ∈ ((View.whole (Pipeline.arrRef spec5 2)).slice (win5_2.rect t)).set ↔ _
  rw [View.set_slice_whole, Rect.mem_set_unit]
  exact Iff.rfl

/-- Row r of the output lies in the block of point r / 2000, and every point writes back. -/
theorem cover5 (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 25 := N_5
  have hlt : (i 0).val / 2000 < cfg5.N := by rw [hN]; omega
  obtain ⟨-, -, -, -, e4, e5⟩ := idx_facts5 ⟨(i 0).val / 2000, hlt⟩
  refine ⟨⟨(i 0).val / 2000, hlt⟩, flush5_2 _, ?_⟩
  rw [mem_blk5]
  intro a
  match a with
  | ⟨0, _⟩ =>
    show win5_2.index ⟨(i 0).val / 2000, hlt⟩ (0 : Fin 2) * 2000 ≤ (i 0).val ∧ (i 0).val < win5_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win5_2.index ⟨(i 0).val / 2000, hlt⟩ (1 : Fin 2) * 64 ≤ (i 1).val ∧ (i 1).val < win5_2.index ⟨(i 0).val / 2000, hlt⟩ (1 : Fin 2) * 64 + 64
    rw [e5]; omega

/-- THE REGION'S VALUE: after the 25 points the output array is the host's product of the arrays the region finds. -/
theorem final5 (c : Dev nD) :
    (Gen.dat5 (F := Ideal) V c).arrAt 2 cfg5.N
      = Host.dotGeneral (F := Ideal) (φ₁ := .f32) (φ₂ := .f32) Cert.ReferenceIdeal.dot_S50000x100_S100x64_S50000x64_1_0_0_1_n_n none (V c (Pipeline.arrRef spec5 0)) (V c (Pipeline.arrRef spec5 1)) :=
  (dat5 (F := Ideal) V c).arrAt_eq_of_cover 2 (prod5 V c) (fun t _ => flushed5_eq V c t) cover5

end Cert.KernelIdeal.Regions

end
-- ==== Proof.RegionAdd2.lean ====
/- Region 2 of the kernel's program (the sum of two activations plus a bias row, then max with zero, over row tiles), as ONE
   function of the arrays the region finds: after its 25 grid points the output array is, entry by entry,
   max(a(r, q) + b(r, q) + bias(0, q), 0) — the host's add of the bias row broadcast down the 50000 rows and its maximum
   with the broadcast zero. Point t computes rows 2000·t … 2000·t + 1999 from the same rows of the activations and
   the whole bias row; the 25 row tiles cover the 50000 rows. -/
import proofs.«132481_j11579231830735_1_alg».proof.Proof.Gen.KernelIdeal.Frame
import proofs.«132481_j11579231830735_1_alg».proof.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]

variable (V : (c : Dev nD) → (b : Ref sig .tc) → Buf (Elt Ideal) ((c : Thread nD τ).loc b))

/-- Every access of the body starts at the block's origin. -/
theorem origin2 : (![0, 0] : Fin 2 → Nat) = fun _ => 0 := funext fun a => by fin_cases a <;> rfl

/-- The body's one stored value at entry (p, q) of its block: the two activations' entries added, plus the bias row's entry q,
    against zero. -/
theorem pay2_apply (x0 x1 : Vec Ideal S2000x100 .f32) (x2 : Vec Ideal S1x100 .f32) (p : Fin 2000) (q : Fin 100) :
    k2_pay1 x0 x1 x2 (ix2 p q)
      = max ((x0 (ix2 p q) + x1 (ix2 p q)) + x2 (ix2 (0 : Fin 1) q)) (Scalar.ofBits (F := Ideal) .f32 0x00000000#32) := by
  unfold k2_pay1
  simp only [shapeCast_self]
  show max ((x0 (ix2 p q) + x1 (ix2 p q)) + broadcastTo S2000x100 x2 _ (ix2 p q)) _ = _
  rw [broadcastTo_1b_ab_apply]
  rfl

/-- The host's operations on whole arrays: the bias row broadcast down the rows and added, then the maximum with the
    broadcast zero. -/
abbrev relu2 (A B : FVec Ideal S50000x100 .f32) (bias : FVec Ideal S1x100 .f32) : FVec Ideal S50000x100 .f32 :=
  maximumf (addf (addf A B) (broadcastInDim S50000x100 ![0, 1] Cert.ReferenceIdeal.Facts₀.bcast_S1x100_S50000x100_0_1 bias))
    (broadcastInDim S50000x100 ![] Cert.ReferenceIdeal.Facts₀.bcast_S_S50000x100 (constant (F := Ideal) S_ .f32 0x00000000#32))

/-- … read at entry (r, q). -/
theorem relu2_apply (A B : FVec Ideal S50000x100 .f32) (bias : FVec Ideal S1x100 .f32) (r : Fin 50000) (q : Fin 100) :
    relu2 A B bias (ix2 r q)
      = max ((A (ix2 r q) + B (ix2 r q)) + bias (ix2 (0 : Fin 1) q)) (Scalar.ofBits (F := Ideal) .f32 0x00000000#32) := by
  show max ((A (ix2 r q) + B (ix2 r q)) + broadcastInDim S50000x100 ![0, 1] _ bias (ix2 r q))
      (broadcastInDim S50000x100 ![] _ (constant (F := Ideal) S_ .f32 0x00000000#32) (ix2 r q)) = _
  rw [broadcastInDim_oneRow_apply, broadcastInDim_scalar_apply]
  rfl

/-- The printed index maps over the 25 points: the row-tiled windows sit at block row t, block column 0; the bias
    row's window at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first activation's block at point t, at (p, q), is the array at row 2000·t + p, column q. -/
theorem a2_apply (c : Dev nD) (t : Fin cfg2.N) (x : S2000x100.Idx) (i : S50000x100.Idx)
    (h0 : (i 0).val = 2000 * t.val + (x 0).val) (h1 : (i 1).val = (x 1).val) :
    (iblk2 V c 0 t : Vec Ideal S2000x100 .f32) x = (V c (Pipeline.arrRef spec2 0) : S50000x100.Idx → Elt Ideal .f32) i := by
  obtain ⟨e0, e1, -⟩ := idx_facts2 t
  unfold iblk2
  rw [View.read_apply]
  show V c (Pipeline.arrRef spec2 0) _ = V c (Pipeline.arrRef spec2 0) i
  congr 1
  funext a
  apply Fin.ext
  match a with
  | ⟨0, _⟩ => show win2_0.index t (0 : Fin 2) * 2000 + 1 * (x 0).val = (i 0).val; rw [e0, h0]; omega
  | ⟨1, _⟩ => show win2_0.index t (1 : Fin 2) * 100 + 1 * (x 1).val = (i 1).val; rw [e1, h1]; omega

/-- The second activation's block at point t, likewise. -/
theorem b2_apply (c : Dev nD) (t : Fin cfg2.N) (x : S2000x100.Idx) (i : S50000x100.Idx)
    (h0 : (i 0).val = 2000 * t.val + (x 0).val) (h1 : (i 1).val = (x 1).val) :
    (iblk2 V c 1 t : Vec Ideal S2000x100 .f32) x = (V c (Pipeline.arrRef spec2 1) : S50000x100.Idx → Elt Ideal .f32) i := by
  obtain ⟨-, -, e0, e1, -⟩ := idx_facts2 t
  unfold iblk2
  rw [View.read_apply]
  show V c (Pipeline.arrRef spec2 1) _ = V c (Pipeline.arrRef spec2 1) i
  congr 1
  funext a
  apply Fin.ext
  match a with
  | ⟨0, _⟩ => show win2_1.index t (0 : Fin 2) * 2000 + 1 * (x 0).val = (i 0).val; rw [e0, h0]; omega
  | ⟨1, _⟩ => show win2_1.index t (1 : Fin 2) * 100 + 1 * (x 1).val = (i 1).val; rw [e1, h1]; omega

/-- The bias row's block at every point is the whole bias row. -/
theorem bias2_apply (c : Dev nD) (t : Fin cfg2.N) (x : S1x100.Idx) :
    (iblk2 V c 2 t : Vec Ideal S1x100 .f32) x = (V c (Pipeline.arrRef spec2 2) : S1x100.Idx → Elt Ideal .f32) x := by
  obtain ⟨-, -, -, -, e0, e1, -⟩ := idx_facts2 t
  unfold iblk2
  rw [View.read_apply]
  show V c (Pipeline.arrRef spec2 2) _ = V c (Pipeline.arrRef spec2 2) x
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 100 + 1 * (x 1).val = (x 1).val; rw [e1]; omega

/-- What the region's output array ends holding: the host's operations of the arrays the region finds. -/
abbrev val2 (c : Dev nD) : FVec Ideal S50000x100 .f32 :=
  relu2 (V c (Pipeline.arrRef spec2 0)) (V c (Pipeline.arrRef spec2 1)) (V c (Pipeline.arrRef spec2 2))

/-- What point t writes back is rows 2000·t … 2000·t + 1999 of that array. -/
theorem flushed2_eq (c : Dev nD) (t : Fin cfg2.N) :
    (dat2 (F := Ideal) V c).flushed 3 t = ((cfg2.win 3).blk t).view.read (Elt Ideal) (val2 V c) := by
  have ht : t.val < 25 := lt_of_lt_of_eq t.isLt N_2
  obtain ⟨-, -, -, -, -, -, e4, e5⟩ := idx_facts2 t
  show (cfg2.win 3).cut (grid2.coords t) ((dat2 V c).after 3 t) = _
  rw [after2_3]
  unfold out2_3
  rw [View.canon_unit_zero origin2]
  simp only [View.ld_unit_zero (S := S2000x100) origin2, View.ld_unit_zero (S := S1x100) origin2]
  funext j
  obtain ⟨p, q, rfl⟩ : ∃ (p : Fin 2000) (q : Fin 100), j = ix2 p q := ⟨j 0, j 1, eq_ix2 j⟩
  have hemb : ((cfg2.win 3).blk t).view.emb (ix2 p q) = (ix2 (⟨2000 * t.val + p.val, by omega⟩ : Fin 50000) q : S50000x100.Idx) := by
    funext a
    apply Fin.ext
    match a with
    | ⟨0, _⟩ => show win2_3.index t (0 : Fin 2) * 2000 + 1 * p.val = 2000 * t.val + p.val; rw [e4]; omega
    | ⟨1, _⟩ => show win2_3.index t (1 : Fin 2) * 100 + 1 * q.val = q.val; rw [e5]; omega
  show k2_pay1 (iblk2 V c 0 t) (iblk2 V c 1 t) (iblk2 V c 2 t) (ix2 p q) = val2 V c (((cfg2.win 3).blk t).view.emb (ix2 p q))
  rw [hemb]
  refine (pay2_apply _ _ _ p q).trans (Eq.trans ?_ (relu2_apply _ _ _ _ q).symm)
  exact congrArg₂ max (congrArg₂ (· + ·) (congrArg₂ (· + ·)
      (a2_apply V c t (ix2 p q) (ix2 (⟨2000 * t.val + p.val, by omega⟩ : Fin 50000) q) rfl rfl)
      (b2_apply V c t (ix2 p q) (ix2 (⟨2000 * t.val + p.val, by omega⟩ : Fin 50000) q) rfl rfl))
      (bias2_apply V c t (ix2 (0 : Fin 1) q))) rfl

/-- An index of the output array is in point t's block iff each coordinate is in the block's range on its axis. -/
theorem mem_blk2 (t : Fin cfg2.N) (i : S50000x100.Idx) :
    i ∈ ((cfg2.win 3).blk t).view.set ↔ ∀ a : Fin 2, win2_3.index t a * S2000x100.size a ≤ (i a).val ∧ (i a).val < win2_3.index t a * S2000x100.size a + S2000x100.size a := by
  show i ∈ ((View.whole (Pipeline.arrRef spec2 3)).slice (win2_3.rect t)).set ↔ _
  rw [View.set_slice_whole, Rect.mem_set_unit]
  exact Iff.rfl

/-- Row r of the output lies in the block of point r / 2000, and every point writes back. -/
theorem cover2 (i : S50000x100.Idx) :
    ∃ t : Fin cfg2.N, (cfg2.win 3).flush t = true ∧ i ∈ ((cfg2.win 3).blk t).view.set := by
  have hi0 : (i 0).val < 50000 := (i 0).isLt
  have hi1 : (i 1).val < 100 := (i 1).isLt
  have hN : cfg2.N = 25 := N_2
  have hlt : (i 0).val / 2000 < cfg2.N := by rw [hN]; omega
  obtain ⟨-, -, -, -, -, -, e4, e5⟩ := idx_facts2 ⟨(i 0).val / 2000, hlt⟩
  refine ⟨⟨(i 0).val / 2000, hlt⟩, flush2_3 _, ?_⟩
  rw [mem_blk2]
  intro a
  match a with
  | ⟨0, _⟩ =>
    show win2_3.index ⟨(i 0).val / 2000, hlt⟩ (0 : Fin 2) * 2000 ≤ (i 0).val ∧ (i 0).val < win2_3.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win2_3.index ⟨(i 0).val / 2000, hlt⟩ (1 : Fin 2) * 100 ≤ (i 1).val ∧ (i 1).val < win2_3.index ⟨(i 0).val / 2000, hlt⟩ (1 : Fin 2) * 100 + 100
    rw [e5]; omega

/-- THE REGION'S VALUE: after the 25 points the output array is the host's add-bias-and-clamp of the arrays the region
    finds. -/
theorem final2 (c : Dev nD) :
    (Gen.dat2 (F := Ideal) V c).arrAt 3 cfg2.N
      = maximumf (addf (addf (V c (Pipeline.arrRef spec2 0)) (V c (Pipeline.arrRef spec2 1))) (broadcastInDim S50000x100 ![0, 1] Cert.ReferenceIdeal.Facts₀.bcast_S1x100_S50000x100_0_1 (V c (Pipeline.arrRef spec2 2))))
          (broadcastInDim S50000x100 ![] Cert.ReferenceIdeal.Facts₀.bcast_S_S50000x100 (constant (F := Ideal) S_ .f32 0x00000000#32)) :=
  (dat2 (F := Ideal) V c).arrAt_eq_of_cover 3 (val2 V c) (fun t _ => flushed2_eq V c t) cover2

end Cert.KernelIdeal.Regions

end
-- ==== Proof.RegionAdd4.lean ====
/- Region 4 of the kernel's program (an activation plus a bias row, then max with zero, over row tiles), as ONE
   function of the arrays the region finds: after its 25 grid points the output array is, entry by entry,
   max(a(r, q) + bias(0, q), 0) — the host's add of the bias row broadcast down the 50000 rows and its maximum
   with the broadcast zero. Point t computes rows 2000·t … 2000·t + 1999 from the same rows of the activation and
   the whole bias row; the 25 row tiles cover the 50000 rows. -/
import proofs.«132481_j11579231830735_1_alg».proof.Proof.Gen.KernelIdeal.Frame
import proofs.«132481_j11579231830735_1_alg».proof.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]

variable (V : (c : Dev nD) → (b : Ref sig .tc) → Buf (Elt Ideal) ((c : Thread nD τ).loc b))

/-- Every access of the body starts at the block's origin. -/
theorem origin4 : (![0, 0] : Fin 2 → Nat) = fun _ => 0 := funext fun a => by fin_cases a <;> rfl

/-- The body's one stored value at entry (p, q) of its block: the activation's entry, plus the bias row's entry q,
    against zero. -/
theorem pay4_apply (x0 : Vec Ideal S2000x100 .f32) (x2 : Vec Ideal S1x100 .f32) (p : Fin 2000) (q : Fin 100) :
    k4_pay1 x0 x2 (ix2 p q)
      = max (x0 (ix2 p q) + x2 (ix2 (0 : Fin 1) q)) (Scalar.ofBits (F := Ideal) .f32 0x00000000#32) := by
  unfold k4_pay1
  simp only [shapeCast_self]
  show max (x0 (ix2 p q) + broadcastTo S2000x100 x2 _ (ix2 p q)) _ = _
  rw [broadcastTo_1b_ab_apply]
  rfl

/-- The host's operations on whole arrays: the bias row broadcast down the rows and added, then the maximum with the
    broadcast zero. -/
abbrev relu4 (A : FVec Ideal S50000x100 .f32) (bias : FVec Ideal S1x100 .f32) : FVec Ideal S50000x100 .f32 :=
  maximumf (addf A (broadcastInDim S50000x100 ![0, 1] Cert.ReferenceIdeal.Facts₀.bcast_S1x100_S50000x100_0_1 bias))
    (broadcastInDim S50000x100 ![] Cert.ReferenceIdeal.Facts₀.bcast_S_S50000x100 (constant (F := Ideal) S_ .f32 0x00000000#32))

/-- … read at entry (r, q). -/
theorem relu4_apply (A : FVec Ideal S50000x100 .f32) (bias : FVec Ideal S1x100 .f32) (r : Fin 50000) (q : Fin 100) :
    relu4 A bias (ix2 r q)
      = max (A (ix2 r q) + bias (ix2 (0 : Fin 1) q)) (Scalar.ofBits (F := Ideal) .f32 0x00000000#32) := by
  show max (A (ix2 r q) + broadcastInDim S50000x100 ![0, 1] _ bias (ix2 r q))
      (broadcastInDim S50000x100 ![] _ (constant (F := Ideal) S_ .f32 0x00000000#32) (ix2 r q)) = _
  rw [broadcastInDim_oneRow_apply, broadcastInDim_scalar_apply]
  rfl

/-- The printed index maps over the 25 points: the row-tiled windows sit at block row t, block column 0; the bias
    row's window at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The activation's block at point t, at (p, q), is the array at row 2000·t + p, column q. -/
theorem a4_apply (c : Dev nD) (t : Fin cfg4.N) (x : S2000x100.Idx) (i : S50000x100.Idx)
    (h0 : (i 0).val = 2000 * t.val + (x 0).val) (h1 : (i 1).val = (x 1).val) :
    (iblk4 V c 0 t : Vec Ideal S2000x100 .f32) x = (V c (Pipeline.arrRef spec4 0) : S50000x100.Idx → Elt Ideal .f32) i := by
  obtain ⟨e0, e1, -⟩ := idx_facts4 t
  unfold iblk4
  rw [View.read_apply]
  show V c (Pipeline.arrRef spec4 0) _ = V c (Pipeline.arrRef spec4 0) i
  congr 1
  funext a
  apply Fin.ext
  match a with
  | ⟨0, _⟩ => show win4_0.index t (0 : Fin 2) * 2000 + 1 * (x 0).val = (i 0).val; rw [e0, h0]; omega
  | ⟨1, _⟩ => show win4_0.index t (1 : Fin 2) * 100 + 1 * (x 1).val = (i 1).val; rw [e1, h1]; omega

/-- The bias row's block at every point is the whole bias row. -/
theorem bias4_apply (c : Dev nD) (t : Fin cfg4.N) (x : S1x100.Idx) :
    (iblk4 V c 1 t : Vec Ideal S1x100 .f32) x = (V c (Pipeline.arrRef spec4 1) : S1x100.Idx → Elt Ideal .f32) x := by
  obtain ⟨-, -, e0, e1, -⟩ := idx_facts4 t
  unfold iblk4
  rw [View.read_apply]
  show V c (Pipeline.arrRef spec4 1) _ = V c (Pipeline.arrRef spec4 1) x
  congr 1
  funext a
  apply Fin.ext
  match a with
  | ⟨0, _⟩ => show win4_1.index t (0 : Fin 2) * 1 + 1 * (x 0).val = (x 0).val; rw [e0]; omega
  | ⟨1, _⟩ => show win4_1.index t (1 : Fin 2) * 100 + 1 * (x 1).val = (x 1).val; rw [e1]; omega

/-- What the region's output array ends holding: the host's operations of the arrays the region finds. -/
abbrev val4 (c : Dev nD) : FVec Ideal S50000x100 .f32 :=
  relu4 (V c (Pipeline.arrRef spec4 0)) (V c (Pipeline.arrRef spec4 1))

/-- What point t writes back is rows 2000·t … 2000·t + 1999 of that array. -/
theorem flushed4_eq (c : Dev nD) (t : Fin cfg4.N) :
    (dat4 (F := Ideal) V c).flushed 2 t = ((cfg4.win 2).blk t).view.read (Elt Ideal) (val4 V c) := by
  have ht : t.val < 25 := lt_of_lt_of_eq t.isLt N_4
  obtain ⟨-, -, -, -, e4, e5⟩ := idx_facts4 t
  show (cfg4.win 2).cut (grid4.coords t) ((dat4 V c).after 2 t) = _
  rw [after4_2]
  unfold out4_2
  rw [View.canon_unit_zero origin4]
  simp only [View.ld_unit_zero (S := S2000x100) origin4, View.ld_unit_zero (S := S1x100) origin4]
  funext j
  obtain ⟨p, q, rfl⟩ : ∃ (p : Fin 2000) (q : Fin 100), j = ix2 p q := ⟨j 0, j 1, eq_ix2 j⟩
  have hemb : ((cfg4.win 2).blk t).view.emb (ix2 p q) = (ix2 (⟨2000 * t.val + p.val, by omega⟩ : Fin 50000) q : S50000x100.Idx) := by
    funext a
    apply Fin.ext
    match a with
    | ⟨0, _⟩ => show win4_2.index t (0 : Fin 2) * 2000 + 1 * p.val = 2000 * t.val + p.val; rw [e4]; omega
    | ⟨1, _⟩ => show win4_2.index t (1 : Fin 2) * 100 + 1 * q.val = q.val; rw [e5]; omega
  show k4_pay1 (iblk4 V c 0 t) (iblk4 V c 1 t) (ix2 p q) = val4 V c (((cfg4.win 2).blk t).view.emb (ix2 p q))
  rw [hemb]
  refine (pay4_apply _ _ p q).trans (Eq.trans ?_ (relu4_apply _ _ _ q).symm)
  exact congrArg₂ max (congrArg₂ (· + ·)
      (a4_apply V c t (ix2 p q) (ix2 (⟨2000 * t.val + p.val, by omega⟩ : Fin 50000) q) rfl rfl)
      (bias4_apply V c t (ix2 (0 : Fin 1) q))) rfl

/-- An index of the output array is in point t's block iff each coordinate is in the block's range on its axis. -/
theorem mem_blk4 (t : Fin cfg4.N) (i : S50000x100.Idx) :
    i ∈ ((cfg4.win 2).blk t).view.set ↔ ∀ a : Fin 2, win4_2.index t a * S2000x100.size a ≤ (i a).val ∧ (i a).val < win4_2.index t a * S2000x100.size a + S2000x100.size a := by
  show i ∈ ((View.whole (Pipeline.arrRef spec4 2)).slice (win4_2.rect t)).set ↔ _
  rw [View.set_slice_whole, Rect.mem_set_unit]
  exact Iff.rfl

/-- Row r of the output lies in the block of point r / 2000, and every point writes back. -/
theorem cover4 (i : S50000x100.Idx) :
    ∃ t : Fin cfg4.N, (cfg4.win 2).flush t = true ∧ i ∈ ((cfg4.win 2).blk t).view.set := by
  have hi0 : (i 0).val < 50000 := (i 0).isLt
  have hi1 : (i 1).val < 100 := (i 1).isLt
  have hN : cfg4.N = 25 := N_4
  have hlt : (i 0).val / 2000 < cfg4.N := by rw [hN]; omega
  obtain ⟨-, -, -, -, e4, e5⟩ := idx_facts4 ⟨(i 0).val / 2000, hlt⟩
  refine ⟨⟨(i 0).val / 2000, hlt⟩, flush4_2 _, ?_⟩
  rw [mem_blk4]
  intro a
  match a with
  | ⟨0, _⟩ =>
    show win4_2.index ⟨(i 0).val / 2000, hlt⟩ (0 : Fin 2) * 2000 ≤ (i 0).val ∧ (i 0).val < win4_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win4_2.index ⟨(i 0).val / 2000, hlt⟩ (1 : Fin 2) * 100 ≤ (i 1).val ∧ (i 1).val < win4_2.index ⟨(i 0).val / 2000, hlt⟩ (1 : Fin 2) * 100 + 100
    rw [e5]; omega

/-- THE REGION'S VALUE: after the 25 points the output array is the host's add-bias-and-clamp of the arrays the region
    finds. -/
theorem final4 (c : Dev nD) :
    (Gen.dat4 (F := Ideal) V c).arrAt 2 cfg4.N
      = maximumf (addf (V c (Pipeline.arrRef spec4 0)) (broadcastInDim S50000x100 ![0, 1] Cert.ReferenceIdeal.Facts₀.bcast_S1x100_S50000x100_0_1 (V c (Pipeline.arrRef spec4 1))))
          (broadcastInDim S50000x100 ![] Cert.ReferenceIdeal.Facts₀.bcast_S_S50000x100 (constant (F := Ideal) S_ .f32 0x00000000#32)) :=
  (dat4 (F := Ideal) V c).arrAt_eq_of_cover 2 (val4 V c) (fun t _ => flushed4_eq V c t) cover4

end Cert.KernelIdeal.Regions

end
-- ==== Proof.Chain.lean ====
/-
  The idealized kernel's boundaries, stage by stage, as the reference's stage functions of the launch memory's
  arguments. Each lemma takes what the previous stage left and gives what this one leaves: a region's output array is
  the region's whole-array function of the arrays it found; the arrays it found are what the host stretch before it
  computed from earlier outputs, the edge lists and the arguments; and that composite is the reference's stage
  (for the relational layer by the algebra of the doubled product; for the graph convolutions the two programs apply the
  same operations, and only the bias row's layout differs).
-/
import proofs.«132481_j11579231830735_1_alg».proof.Proof.Gen.KernelIdeal.Frame
import proofs.«132481_j11579231830735_1_alg».proof.Proof.Gen.ReferenceIdeal
import proofs.«132481_j11579231830735_1_alg».proof.Proof.Stages
import proofs.«132481_j11579231830735_1_alg».proof.Proof.KStages
import proofs.«132481_j11579231830735_1_alg».proof.Proof.Keep
import proofs.«132481_j11579231830735_1_alg».proof.Proof.Bound1
import proofs.«132481_j11579231830735_1_alg».proof.Proof.Bound2
import proofs.«132481_j11579231830735_1_alg».proof.Proof.Bound4
import proofs.«132481_j11579231830735_1_alg».proof.Proof.Bound6
import proofs.«132481_j11579231830735_1_alg».proof.Proof.Alg
import proofs.«132481_j11579231830735_1_alg».proof.Proof.RegionMM1
import proofs.«132481_j11579231830735_1_alg».proof.Proof.RegionMM3
import proofs.«132481_j11579231830735_1_alg».proof.Proof.RegionMM5
import proofs.«132481_j11579231830735_1_alg».proof.Proof.RegionAdd2
import proofs.«132481_j11579231830735_1_alg».proof.Proof.RegionAdd4

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The edge sources at the boundary the message-passing stretch starts from are the reference's. -/
theorem src4 (c : Dev nD) : W4 m ρ c (Proc.devRef .tc main_v1) = (Cert.Stages.refSrc (F := Ideal) (m ((c : Thread nD τ).loc main_arg1))) := (Keep.W4_v1 m ρ c).trans (Bound.W1_v1 m ρ c)
theorem tgt4 (c : Dev nD) : W4 m ρ c (Proc.devRef .tc main_v3) = (Cert.Stages.refTgt (F := Ideal) (m ((c : Thread nD τ).loc main_arg1))) := (Keep.W4_v3 m ρ c).trans (Bound.W1_v3 m ρ c)
theorem src7 (c : Dev nD) : W7 m ρ c (Proc.devRef .tc main_v1) = (Cert.Stages.refSrc (F := Ideal) (m ((c : Thread nD τ).loc main_arg1))) := (Keep.W7_v1 m ρ c).trans (src4 m ρ c)
theorem tgt7 (c : Dev nD) : W7 m ρ c (Proc.devRef .tc main_v3) = (Cert.Stages.refTgt (F := Ideal) (m ((c : Thread nD τ).loc main_arg1))) := (Keep.W7_v3 m ρ c).trans (tgt4 m ρ c)
theorem src12 (c : Dev nD) : W12 m ρ c (Proc.devRef .tc main_v1) = (Cert.Stages.refSrc (F := Ideal) (m ((c : Thread nD τ).loc main_arg1))) := (Keep.W12_v1 m ρ c).trans (src7 m ρ c)
theorem tgt12 (c : Dev nD) : W12 m ρ c (Proc.devRef .tc main_v3) = (Cert.Stages.refTgt (F := Ideal) (m ((c : Thread nD τ).loc main_arg1))) := (Keep.W12_v3 m ρ c).trans (tgt7 m ρ c)

/-- The doubled product: the first stage's output times the relation's and the self weights side by side. -/
theorem doubled (c : Dev nD) (X1 : FVec Ideal S50000x100 .f32) (h : W2 m ρ c (Proc.devRef .tc main_v10) = X1) :
    W4 m ρ c (Proc.devRef .tc main_v13)
      = (Host.dotGeneral (F := Ideal) (φ₁ := .f32) (φ₂ := .f32) Regions.dotCat none X1 (Cert.Alg.cat (shapeCast S100x100 (m ((c : Thread nD τ).loc main_arg11)) shapeCasts_S1x100x100_S100x100) (m ((c : Thread nD τ).loc main_arg12)))) := by
  refine (W4_arr m ρ c 2).trans ((Regions.final1 (V3 m ρ) c).trans ?_)
  have h0 : V3 m ρ c (Pipeline.arrRef spec1 0) = X1 := (Keep.W3_v10 m ρ c).trans h
  have h1 : V3 m ρ c (Pipeline.arrRef spec1 1) = Cert.Alg.cat (shapeCast S100x100 (m ((c : Thread nD τ).loc main_arg11)) shapeCasts_S1x100x100_S100x100) (m ((c : Thread nD τ).loc main_arg12)) := Bound.W3_v12 m ρ c
  rw [h0, h1]

/-- The relational layer's region leaves the reference's relational layer of the first stage's output. -/
theorem relational (c : Dev nD) (X1 : FVec Ideal S50000x100 .f32)
    (h : W4 m ρ c (Proc.devRef .tc main_v13) = (Host.dotGeneral (F := Ideal) (φ₁ := .f32) (φ₂ := .f32) Regions.dotCat none X1 (Cert.Alg.cat (shapeCast S100x100 (m ((c : Thread nD τ).loc main_arg11)) shapeCasts_S1x100x100_S100x100) (m ((c : Thread nD τ).loc main_arg12))))) :
    W6 m ρ c (Proc.devRef .tc main_v27)
      = Cert.Stages.refX2 (F := Ideal) X1 (Cert.Stages.refSrc (F := Ideal) (m ((c : Thread nD τ).loc main_arg1))) (Cert.Stages.refTgt (F := Ideal) (m ((c : Thread nD τ).loc main_arg1))) (m ((c : Thread nD τ).loc main_arg11)) (m ((c : Thread nD τ).loc main_arg12)) (m ((c : Thread nD τ).loc main_arg13)) := by
  refine (W6_arr m ρ c 3).trans ((Regions.final2 (V5 m ρ) c).trans ?_)
  have e0 : V5 m ρ c (Pipeline.arrRef spec2 0)
      = (Host.dotGeneral (F := Ideal) (φ₁ := .f32) (φ₂ := .f32) Cert.ReferenceIdeal.dot_S50000x100_S100x100_S50000x100_1_0_0_1_n_n none X1 (m ((c : Thread nD τ).loc main_arg12))) := by
    refine (Bound.W5_v15 m ρ c).trans ?_
    rw [h]
    exact Cert.Alg.right_half X1 _ _
  have e1 : V5 m ρ c (Pipeline.arrRef spec2 1)
      = Cert.KStages.msgSum (F := Ideal) (Host.dotGeneral (F := Ideal) (φ₁ := .f32) (φ₂ := .f32) Cert.ReferenceIdeal.dot_S800000x100_S100x100_S800000x100_1_0_0_1_n_n none (Cert.KStages.gatherRows (F := Ideal) X1 (Cert.Stages.refSrc (F := Ideal) (m ((c : Thread nD τ).loc main_arg1)))) (shapeCast S100x100 (m ((c : Thread nD τ).loc main_arg11)) shapeCasts_S1x100x100_S100x100)) (Cert.Stages.refTgt (F := Ideal) (m ((c : Thread nD τ).loc main_arg1))) := by
    refine (Bound.W5_v25 m ρ c).trans ?_
    rw [h, src4 m ρ c, tgt4 m ρ c]
    exact congrArg (fun y => Cert.KStages.msgSum (F := Ideal) y (Cert.Stages.refTgt (F := Ideal) (m ((c : Thread nD τ).loc main_arg1)))) (Cert.Alg.gather_left_half X1 _ _ _)
  have e2 : V5 m ρ c (Pipeline.arrRef spec2 2)
      = broadcastInDim S1x100 ![1] Cert.ReferenceIdeal.Facts₀.bcast_S100_S1x100_1 (m ((c : Thread nD τ).loc main_arg13)) :=
    (Bound.W5_v26 m ρ c).trans (Cert.Alg.row100_eq _)
  rw [e0, e1, e2, Cert.KStages.refX2_eq]
  rfl

/-- The first graph convolution's product. -/
theorem conv1_product (c : Dev nD) (X2 : FVec Ideal S50000x100 .f32) (h : W6 m ρ c (Proc.devRef .tc main_v27) = X2) :
    W7 m ρ c (Proc.devRef .tc main_v28) = (Host.dotGeneral (F := Ideal) (φ₁ := .f32) (φ₂ := .f32) Cert.ReferenceIdeal.dot_S50000x100_S100x100_S50000x100_1_0_0_1_n_n none X2 (m ((c : Thread nD τ).loc main_arg14))) := by
  refine (W7_arr m ρ c 2).trans ((Regions.final3 (V6 m ρ) c).trans ?_)
  have h0 : V6 m ρ c (Pipeline.arrRef spec3 0) = X2 := h
  have h1 : V6 m ρ c (Pipeline.arrRef spec3 1) = (m ((c : Thread nD τ).loc main_arg14)) := Keep.W6_arg14 m ρ c
  rw [h0, h1]

/-- The first graph convolution's region leaves the reference's first graph convolution. -/
theorem conv1 (c : Dev nD) (X2 : FVec Ideal S50000x100 .f32)
    (h : W7 m ρ c (Proc.devRef .tc main_v28) = (Host.dotGeneral (F := Ideal) (φ₁ := .f32) (φ₂ := .f32) Cert.ReferenceIdeal.dot_S50000x100_S100x100_S50000x100_1_0_0_1_n_n none X2 (m ((c : Thread nD τ).loc main_arg14)))) :
    W11 m ρ c (Proc.devRef .tc main_v70)
      = Cert.Stages.refX3 (F := Ideal) X2 (Cert.Stages.refSrc (F := Ideal) (m ((c : Thread nD τ).loc main_arg1))) (Cert.Stages.refTgt (F := Ideal) (m ((c : Thread nD τ).loc main_arg1))) (m ((c : Thread nD τ).loc main_arg14)) (m ((c : Thread nD τ).loc main_arg15)) := by
  refine (W11_arr m ρ c 2).trans ((Regions.final4 (V10 m ρ) c).trans ?_)
  have e0 : V10 m ρ c (Pipeline.arrRef spec4 0)
      = Cert.KStages.agg100 (F := Ideal) (Host.dotGeneral (F := Ideal) (φ₁ := .f32) (φ₂ := .f32) Cert.ReferenceIdeal.dot_S50000x100_S100x100_S50000x100_1_0_0_1_n_n none X2 (m ((c : Thread nD τ).loc main_arg14))) (Cert.Stages.refSrc (F := Ideal) (m ((c : Thread nD τ).loc main_arg1))) (Cert.Stages.refTgt (F := Ideal) (m ((c : Thread nD τ).loc main_arg1))) (Cert.KStages.norm (F := Ideal) (Cert.Stages.refSrc (F := Ideal) (m ((c : Thread nD τ).loc main_arg1))) (Cert.Stages.refTgt (F := Ideal) (m ((c : Thread nD τ).loc main_arg1)))) := by
    refine (Bound.W10_v68 m ρ c).trans ?_
    rw [h, src7 m ρ c, tgt7 m ρ c]
  have e1 : V10 m ρ c (Pipeline.arrRef spec4 1)
      = broadcastInDim S1x100 ![1] Cert.ReferenceIdeal.Facts₀.bcast_S100_S1x100_1 (m ((c : Thread nD τ).loc main_arg15)) :=
    (Bound.W10_v69 m ρ c).trans (Cert.Alg.row100_eq _)
  rw [e0, e1, Cert.KStages.refX3_eq]
  rfl

/-- The second graph convolution's product. -/
theorem conv2_product (c : Dev nD) (X3 : FVec Ideal S50000x100 .f32) (h : W11 m ρ c (Proc.devRef .tc main_v70) = X3) :
    W12 m ρ c (Proc.devRef .tc main_v71) = (Host.dotGeneral (F := Ideal) (φ₁ := .f32) (φ₂ := .f32) Cert.ReferenceIdeal.dot_S50000x100_S100x64_S50000x64_1_0_0_1_n_n none X3 (m ((c : Thread nD τ).loc main_arg16))) := by
  refine (W12_arr m ρ c 2).trans ((Regions.final5 (V11 m ρ) c).trans ?_)
  have h0 : V11 m ρ c (Pipeline.arrRef spec5 0) = X3 := h
  have h1 : V11 m ρ c (Pipeline.arrRef spec5 1) = (m ((c : Thread nD τ).loc main_arg16)) := Keep.W11_arg16 m ρ c
  rw [h0, h1]

/-- What the last host stretch leaves for the final region: the second aggregation of the product, over the reference's
    edge lists and normalisation. -/
theorem conv2_aggregate (c : Dev nD) (X3 : FVec Ideal S50000x100 .f32)
    (h : W12 m ρ c (Proc.devRef .tc main_v71) = (Host.dotGeneral (F := Ideal) (φ₁ := .f32) (φ₂ := .f32) Cert.ReferenceIdeal.dot_S50000x100_S100x64_S50000x64_1_0_0_1_n_n none X3 (m ((c : Thread nD τ).loc main_arg16)))) :
    W13 m ρ c (Proc.devRef .tc main_v87)
      = Cert.KStages.agg64 (F := Ideal) (Host.dotGeneral (F := Ideal) (φ₁ := .f32) (φ₂ := .f32) Cert.ReferenceIdeal.dot_S50000x100_S100x64_S50000x64_1_0_0_1_n_n none X3 (m ((c : Thread nD τ).loc main_arg16))) (Cert.Stages.refSrc (F := Ideal) (m ((c : Thread nD τ).loc main_arg1))) (Cert.Stages.refTgt (F := Ideal) (m ((c : Thread nD τ).loc main_arg1))) (Cert.KStages.norm (F := Ideal) (Cert.Stages.refSrc (F := Ideal) (m ((c : Thread nD τ).loc main_arg1))) (Cert.Stages.refTgt (F := Ideal) (m ((c : Thread nD τ).loc main_arg1)))) := by
  refine (Bound.W13_v87 m ρ c).trans ?_
  rw [h, src12 m ρ c, tgt12 m ρ c, Keep.W12_v55 m ρ c, Bound.W10_v55 m ρ c, src7 m ρ c, tgt7 m ρ c]

end Cert.KernelIdeal.Chain

end
-- ==== Proof.Stages2.lean ====
/-
  The first stage of the reference — Linear → LayerNorm → relu → Linear → LayerNorm → relu — as a function of the
  node features, the two weight matrices and the six bias and scale vectors held as ROWS f32[1, 100] (as the
  kernel's windows hold them), the same operations in the same order; and the reference's own stage is this one at
  the rows its `broadcast_in_dim`s make of the vectors.
-/
import proofs.«132481_j11579231830735_1_alg».proof.Proof.Stages

noncomputable section

namespace Cert.Stages

open Idealize.ShloMosaic Cert.ReferenceIdeal

variable {F : FTy → Type} [FloatOps F] [Cert.ReferenceIdeal.Facts]
open Cert.ReferenceIdeal.Facts₀ Cert.ReferenceIdeal.Facts

/-- The first stage over row-shaped biases and scales: `main_v5, main_v20, main_v23` are the first layer's bias, scale
    and shift as f32[1, 100], `main_v28, main_v43, main_v46` the second layer's. -/
def refX1row (main_arg0 : (⟨S50000x500, .f32⟩ : BufTy).Contents (Elt F)) (main_arg3 : (⟨S500x100, .f32⟩ : BufTy).Contents (Elt F)) (main_v5 main_v20 main_v23 : (⟨S1x100, .f32⟩ : BufTy).Contents (Elt F))
    (main_arg7 : (⟨S100x100, .f32⟩ : BufTy).Contents (Elt F)) (main_v28 main_v43 main_v46 : (⟨S1x100, .f32⟩ : BufTy).Contents (Elt F)) : (⟨S50000x100, .f32⟩ : BufTy).Contents (Elt F) :=
  let main_v4 := ((fun l r => Host.dotGeneral dot_S50000x500_S500x100_S50000x100_1_0_0_1_n_n none l r) : (⟨S50000x500, .f32⟩ : BufTy).Contents (Elt F) → (⟨S500x100, .f32⟩ : BufTy).Contents (Elt F) → (⟨S50000x100, .f32⟩ : BufTy).Contents (Elt F)) main_arg0 main_arg3
  let main_v6 := (broadcastInDim S50000x100 ![0, 1] bcast_S1x100_S50000x100_0_1 : (⟨S1x100, .f32⟩ : BufTy).Contents (Elt F) → (⟨S50000x100, .f32⟩ : BufTy).Contents (Elt F)) main_v5
  let main_v7 := (addf : (⟨S50000x100, .f32⟩ : BufTy).Contents (Elt F) → (⟨S50000x100, .f32⟩ : BufTy).Contents (Elt F) → (⟨S50000x100, .f32⟩ : BufTy).Contents (Elt F)) main_v4 main_v6
  let main_cst : (⟨S_, .f32⟩ : BufTy).Contents (Elt F) := constant S_ .f32 0x00000000#32
  let main_v8 := ((fun x v => Host.reduceAdd x v reducesTo_S50000x100_S50000_d1 h_S_) : (⟨S50000x100, .f32⟩ : BufTy).Contents (Elt F) → (⟨S_, .f32⟩ : BufTy).Contents (Elt F) → (⟨S50000, .f32⟩ : BufTy).Contents (Elt F)) main_v7 main_cst
  let main_v9 := (broadcastInDim S50000x1 ![0] bcast_S50000_S50000x1_0 : (⟨S50000, .f32⟩ : BufTy).Contents (Elt F) → (⟨S50000x1, .f32⟩ : BufTy).Contents (Elt F)) main_v8
  let main_cst_0 : (⟨S_, .f32⟩ : BufTy).Contents (Elt F) := constant S_ .f32 0x42C80000#32
  let main_v10 := (broadcastInDim S50000x1 ![] bcast_S_S50000x1 : (⟨S_, .f32⟩ : BufTy).Contents (Elt F) → (⟨S50000x1, .f32⟩ : BufTy).Contents (Elt F)) main_cst_0
  let main_v11 := (Host.divf : (⟨S50000x1, .f32⟩ : BufTy).Contents (Elt F) → (⟨S50000x1, .f32⟩ : BufTy).Contents (Elt F) → (⟨S50000x1, .f32⟩ : BufTy).Contents (Elt F)) main_v9 main_v10
  let main_c : (⟨S_, .i32⟩ : BufTy).Contents (Elt F) := constantI S_ 32 0#32
  let main_v12 := fnvar main_v7 main_c
  let main_v13 := (broadcastInDim S50000x100 ![0, 1] bcast_S50000x1_S50000x100_0_1 : (⟨S50000x1, .f32⟩ : BufTy).Contents (Elt F) → (⟨S50000x100, .f32⟩ : BufTy).Contents (Elt F)) main_v11
  let main_v14 := (subf : (⟨S50000x100, .f32⟩ : BufTy).Contents (Elt F) → (⟨S50000x100, .f32⟩ : BufTy).Contents (Elt F) → (⟨S50000x100, .f32⟩ : BufTy).Contents (Elt F)) main_v7 main_v13
  let main_cst_1 : (⟨S_, .f32⟩ : BufTy).Contents (Elt F) := constant S_ .f32 0x3727C5AC#32
  let main_v15 := (broadcastInDim S50000x1 ![] bcast_S_S50000x1 : (⟨S_, .f32⟩ : BufTy).Contents (Elt F) → (⟨S50000x1, .f32⟩ : BufTy).Contents (Elt F)) main_cst_1
  let main_v16 := (addf : (⟨S50000x1, .f32⟩ : BufTy).Contents (Elt F) → (⟨S50000x1, .f32⟩ : BufTy).Contents (Elt F) → (⟨S50000x1, .f32⟩ : BufTy).Contents (Elt F)) main_v12 main_v15
  let main_v17 := (Host.sqrt : (⟨S50000x1, .f32⟩ : BufTy).Contents (Elt F) → (⟨S50000x1, .f32⟩ : BufTy).Contents (Elt F)) main_v16
  let main_v18 := (broadcastInDim S50000x100 ![0, 1] bcast_S50000x1_S50000x100_0_1 : (⟨S50000x1, .f32⟩ : BufTy).Contents (Elt F) → (⟨S50000x100, .f32⟩ : BufTy).Contents (Elt F)) main_v17
  let main_v19 := (Host.divf : (⟨S50000x100, .f32⟩ : BufTy).Contents (Elt F) → (⟨S50000x100, .f32⟩ : BufTy).Contents (Elt F) → (⟨S50000x100, .f32⟩ : BufTy).Contents (Elt F)) main_v14 main_v18
  let main_v21 := (broadcastInDim S50000x100 ![0, 1] bcast_S1x100_S50000x100_0_1 : (⟨S1x100, .f32⟩ : BufTy).Contents (Elt F) → (⟨S50000x100, .f32⟩ : BufTy).Contents (Elt F)) main_v20
  let main_v22 := (mulf : (⟨S50000x100, .f32⟩ : BufTy).Contents (Elt F) → (⟨S50000x100, .f32⟩ : BufTy).Contents (Elt F) → (⟨S50000x100, .f32⟩ : BufTy).Contents (Elt F)) main_v19 main_v21
  let main_v24 := (broadcastInDim S50000x100 ![0, 1] bcast_S1x100_S50000x100_0_1 : (⟨S1x100, .f32⟩ : BufTy).Contents (Elt F) → (⟨S50000x100, .f32⟩ : BufTy).Contents (Elt F)) main_v23
  let main_v25 := (addf : (⟨S50000x100, .f32⟩ : BufTy).Contents (Elt F) → (⟨S50000x100, .f32⟩ : BufTy).Contents (Elt F) → (⟨S50000x100, .f32⟩ : BufTy).Contents (Elt F)) main_v22 main_v24
  let main_v26 := fnrelu main_v25
  let main_v27 := ((fun l r => Host.dotGeneral dot_S50000x100_S100x100_S50000x100_1_0_0_1_n_n none l r) : (⟨S50000x100, .f32⟩ : BufTy).Contents (Elt F) → (⟨S100x100, .f32⟩ : BufTy).Contents (Elt F) → (⟨S50000x100, .f32⟩ : BufTy).Contents (Elt F)) main_v26 main_arg7
  let main_v29 := (broadcastInDim S50000x100 ![0, 1] bcast_S1x100_S50000x100_0_1 : (⟨S1x100, .f32⟩ : BufTy).Contents (Elt F) → (⟨S50000x100, .f32⟩ : BufTy).Contents (Elt F)) main_v28
  let main_v30 := (addf : (⟨S50000x100, .f32⟩ : BufTy).Contents (Elt F) → (⟨S50000x100, .f32⟩ : BufTy).Contents (Elt F) → (⟨S50000x100, .f32⟩ : BufTy).Contents (Elt F)) main_v27 main_v29
  let main_cst_2 : (⟨S_, .f32⟩ : BufTy).Contents (Elt F) := constant S_ .f32 0x00000000#32
  let main_v31 := ((fun x v => Host.reduceAdd x v reducesTo_S50000x100_S50000_d1 h_S_) : (⟨S50000x100, .f32⟩ : BufTy).Contents (Elt F) → (⟨S_, .f32⟩ : BufTy).Contents (Elt F) → (⟨S50000, .f32⟩ : BufTy).Contents (Elt F)) main_v30 main_cst_2
  let main_v32 := (broadcastInDim S50000x1 ![0] bcast_S50000_S50000x1_0 : (⟨S50000, .f32⟩ : BufTy).Contents (Elt F) → (⟨S50000x1, .f32⟩ : BufTy).Contents (Elt F)) main_v31
  let main_cst_3 : (⟨S_, .f32⟩ : BufTy).Contents (Elt F) := constant S_ .f32 0x42C80000#32
  let main_v33 := (broadcastInDim S50000x1 ![] bcast_S_S50000x1 : (⟨S_, .f32⟩ : BufTy).Contents (Elt F) → (⟨S50000x1, .f32⟩ : BufTy).Contents (Elt F)) main_cst_3
  let main_v34 := (Host.divf : (⟨S50000x1, .f32⟩ : BufTy).Contents (Elt F) → (⟨S50000x1, .f32⟩ : BufTy).Contents (Elt F) → (⟨S50000x1, .f32⟩ : BufTy).Contents (Elt F)) main_v32 main_v33
  let main_c_4 : (⟨S_, .i32⟩ : BufTy).Contents (Elt F) := constantI S_ 32 0#32
  let main_v35 := fnvar main_v30 main_c_4
  let main_v36 := (broadcastInDim S50000x100 ![0, 1] bcast_S50000x1_S50000x100_0_1 : (⟨S50000x1, .f32⟩ : BufTy).Contents (Elt F) → (⟨S50000x100, .f32⟩ : BufTy).Contents (Elt F)) main_v34
  let main_v37 := (subf : (⟨S50000x100, .f32⟩ : BufTy).Contents (Elt F) → (⟨S50000x100, .f32⟩ : BufTy).Contents (Elt F) → (⟨S50000x100, .f32⟩ : BufTy).Contents (Elt F)) main_v30 main_v36
  let main_cst_5 : (⟨S_, .f32⟩ : BufTy).Contents (Elt F) := constant S_ .f32 0x3727C5AC#32
  let main_v38 := (broadcastInDim S50000x1 ![] bcast_S_S50000x1 : (⟨S_, .f32⟩ : BufTy).Contents (Elt F) → (⟨S50000x1, .f32⟩ : BufTy).Contents (Elt F)) main_cst_5
  let main_v39 := (addf : (⟨S50000x1, .f32⟩ : BufTy).Contents (Elt F) → (⟨S50000x1, .f32⟩ : BufTy).Contents (Elt F) → (⟨S50000x1, .f32⟩ : BufTy).Contents (Elt F)) main_v35 main_v38
  let main_v40 := (Host.sqrt : (⟨S50000x1, .f32⟩ : BufTy).Contents (Elt F) → (⟨S50000x1, .f32⟩ : BufTy).Contents (Elt F)) main_v39
  let main_v41 := (broadcastInDim S50000x100 ![0, 1] bcast_S50000x1_S50000x100_0_1 : (⟨S50000x1, .f32⟩ : BufTy).Contents (Elt F) → (⟨S50000x100, .f32⟩ : BufTy).Contents (Elt F)) main_v40
  let main_v42 := (Host.divf : (⟨S50000x100, .f32⟩ : BufTy).Contents (Elt F) → (⟨S50000x100, .f32⟩ : BufTy).Contents (Elt F) → (⟨S50000x100, .f32⟩ : BufTy).Contents (Elt F)) main_v37 main_v41
  let main_v44 := (broadcastInDim S50000x100 ![0, 1] bcast_S1x100_S50000x100_0_1 : (⟨S1x100, .f32⟩ : BufTy).Contents (Elt F) → (⟨S50000x100, .f32⟩ : BufTy).Contents (Elt F)) main_v43
  let main_v45 := (mulf : (⟨S50000x100, .f32⟩ : BufTy).Contents (Elt F) → (⟨S50000x100, .f32⟩ : BufTy).Contents (Elt F) → (⟨S50000x100, .f32⟩ : BufTy).Contents (Elt F)) main_v42 main_v44
  let main_v47 := (broadcastInDim S50000x100 ![0, 1] bcast_S1x100_S50000x100_0_1 : (⟨S1x100, .f32⟩ : BufTy).Contents (Elt F) → (⟨S50000x100, .f32⟩ : BufTy).Contents (Elt F)) main_v46
  let main_v48 := (addf : (⟨S50000x100, .f32⟩ : BufTy).Contents (Elt F) → (⟨S50000x100, .f32⟩ : BufTy).Contents (Elt F) → (⟨S50000x100, .f32⟩ : BufTy).Contents (Elt F)) main_v45 main_v47
  let main_v49 := fnrelu main_v48
  main_v49

/-- The reference's first stage is the row form at the rows its broadcasts make. -/
theorem refX1_eq_row (a0 : (⟨S50000x500, .f32⟩ : BufTy).Contents (Elt F)) (a3 : (⟨S500x100, .f32⟩ : BufTy).Contents (Elt F)) (a4 a5 a6 : (⟨S100, .f32⟩ : BufTy).Contents (Elt F))
    (a7 : (⟨S100x100, .f32⟩ : BufTy).Contents (Elt F)) (a8 a9 a10 : (⟨S100, .f32⟩ : BufTy).Contents (Elt F)) :
    refX1 a0 a3 a4 a5 a6 a7 a8 a9 a10
      = refX1row a0 a3 (broadcastInDim S1x100 ![1] bcast_S100_S1x100_1 a4) (broadcastInDim S1x100 ![1] bcast_S100_S1x100_1 a5)
          (broadcastInDim S1x100 ![1] bcast_S100_S1x100_1 a6) a7 (broadcastInDim S1x100 ![1] bcast_S100_S1x100_1 a8)
          (broadcastInDim S1x100 ![1] bcast_S100_S1x100_1 a9) (broadcastInDim S1x100 ![1] bcast_S100_S1x100_1 a10) := rfl

end Cert.Stages

end
-- ==== Proof.LsmRow.lean ====
/- The log-softmax of the rows of an [a, b] array at the ideal values, two ways, each read at one entry (p, q) as the
   same function of row p alone: with M the maximum of the row (the fold of max from -∞) and s the sum over k of
   exp(x(p, k) - M), the entry is (x(p, q) - M) - log s.
   The first way is the vector unit's: a lane maximum from -∞, recast as a column and broadcast along the lanes,
   subtracted; exp; a lane sum from 0, recast as a column; log; broadcast and subtracted. The second is the host's: a
   max-reduce from -∞ (and the maximum of that with a -∞ splat, which changes nothing), broadcast back in two steps,
   subtracted; exp; an add-reduce from 0, broadcast as a column; log; broadcast and subtracted. -/
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.KernelIdeal.Regions

open Idealize.ShloMosaic Idealize.ShloMosaic.ValueIdx

variable {a b : Nat}

/-- The log-softmax of one row x of b extended reals, at its entry q. -/
def lsmRow (x : Fin b → EReal) (q : Fin b) : EReal :=
  (x q - Finset.univ.fold max ⊥ x) - Ideal.log (∑ k : Fin b, Ideal.exp (x k - Finset.univ.fold max ⊥ x))

/-! ## A column [a] → [a, 1] → [a, b], read at an entry -/

section Layout
variable {α : Type}

/-- A vector recast as a one-column matrix reads, at (p, 0), the vector at p. -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A one-column matrix broadcast along b lanes reads, at (p, q), the column at (p, 0). -/
theorem colBroadcastTo_apply (w : (⟨2, ![a, 1]⟩ : Shape).Idx → α) (h : (⟨2, ![a, 1]⟩ : Shape).Broadcasts ⟨2, ![a, b]⟩)
    (p : Fin a) (q : Fin b) : broadcastTo ⟨2, ![a, b]⟩ w h (ix2 p q) = w (ix2 p (0 : Fin 1)) := by
  refine broadcastTo_apply w h (ix2 p q) (ix2 p (0 : Fin 1)) fun ax => ?_
  match ax with
  | ⟨0, _⟩ =>
    show p.val = if a = 1 then 0 else p.val
    split
    · have := p.isLt; omega
    · rfl
  | ⟨1, _⟩ => rfl

/-- The host's broadcast of a vector to a one-column matrix reads, at (p, 0), the vector at p. -/
theorem colBroadcastInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's broadcast of a one-column matrix along b columns reads, at (p, q), the column at (p, 0). -/
theorem lanesBroadcastInDim_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The reductions along the lanes, read at a row -/

/-- -∞ as an f32 word is the least extended real. -/
theorem ofBits_neg_inf : Ideal.ofBits .f32 0xFF800000#32 = ⊥ := by simp [Ideal.ofBits, Ideal.ieee]

/-- Row p with coordinate k inserted on the lane axis is (p, k). -/
theorem lift_row (h : (⟨2, ![a, b]⟩ : Shape).Reduces [1] ⟨1, ![a]⟩) (p : Fin a) (k : Fin b) :
    h.lift (ix1 p) k = ix2 p k := by
  funext ax
  apply Fin.ext
  match ax with
  | ⟨0, _⟩ => rfl
  | ⟨1, _⟩ => rfl

/-- The vector unit's lane maximum from -∞ at row p: the fold of max over the row. -/
theorem laneMax_apply (X : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ X 0xFF800000#32 h hφ hacc (ix1 p)
      = Finset.univ.fold max ⊥ (fun k : Fin b => X (ix2 p k)) := by
  refine (Ideal.multiReduction_maximumf_single X _ h hφ hacc (ix1 p)).trans ?_
  show Finset.univ.fold max (Ideal.ofBits .f32 0xFF800000#32) (fun k : Fin b => X (h.lift (ix1 p) k)) = _
  rw [ofBits_neg_inf]
  exact congrArg (Finset.univ.fold max ⊥) (funext fun k => congrArg X (lift_row h p k))

/-- The vector unit's lane sum from 0 at row p: the sum over the row. -/
theorem laneSum_apply (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X _ h hφ hacc (ix1 p)).trans ?_
  exact Finset.sum_congr rfl fun k _ => congrArg X (lift_row h p k)

/-- A one-axis reduction to a vector keeps an axis. -/
theorem reduces_of_reducesTo (h : (⟨2, ![a, b]⟩ : Shape).ReducesTo [1] ⟨1, ![a]⟩) :
    (⟨2, ![a, b]⟩ : Shape).Reduces [1] ⟨1, ![a]⟩ := by
  obtain ⟨h1, h2⟩ := h
  exact ⟨h1, Nat.one_pos, h2⟩

/-- The host's max-reduce along the columns from a -∞ scalar at row p: the fold of max over the row. -/
theorem hostMax_apply (X : FVec Ideal ⟨2, ![a, b]⟩ .f32) (h : (⟨2, ![a, b]⟩ : Shape).ReducesTo [1] ⟨1, ![a]⟩)
    (hu : 0 < (⟨0, ![]⟩ : Shape).numel) (p : Fin a) :
    Host.reduce FloatOps.maximumf X (constant (F := Ideal) ⟨0, ![]⟩ .f32 0xFF800000#32) h hu (ix1 p)
      = Finset.univ.fold max ⊥ (fun k : Fin b => X (ix2 p k)) := by
  refine (Host.reduce_eq_fold_single FloatOps.maximumf X _ h (reduces_of_reducesTo h) hu (ix1 p)).trans ?_
  show Finset.univ.fold max (Ideal.ofBits .f32 0xFF800000#32) (fun k : Fin b => X ((reduces_of_reducesTo h).lift (ix1 p) k)) = _
  rw [ofBits_neg_inf]
  exact congrArg (Finset.univ.fold max ⊥) (funext fun k => congrArg X (lift_row _ p k))

/-- The host's add-reduce along the columns from a zero scalar at row p: the sum over the row. -/
theorem hostSum_apply (X : FVec Ideal ⟨2, ![a, b]⟩ .f32) (h : (⟨2, ![a, b]⟩ : Shape).ReducesTo [1] ⟨1, ![a]⟩)
    (hu : 0 < (⟨0, ![]⟩ : Shape).numel) (p : Fin a) :
    Host.reduceAdd X (constant (F := Ideal) ⟨0, ![]⟩ .f32 0x00000000#32) h hu (ix1 p) = ∑ k : Fin b, X (ix2 p k) := by
  rw [hostReduceAdd_apply, Ideal.hostReduceAdd_single h (reduces_of_reducesTo h)]
  show Ideal.ofBits .f32 0x00000000#32 + _ = _
  rw [Ideal.ofBits_zero_f32, zero_add]
  exact Finset.sum_congr rfl fun k _ => congrArg X (lift_row _ p k)

/-! ## The two chains -/

/-- The vector unit's chain on a block X. -/
def unitLsm (X : FVec Ideal ⟨2, ![a, b]⟩ .f32) (hr : (⟨2, ![a, b]⟩ : Shape).Reduces [1] ⟨1, ![a]⟩) (hφ : FKind.Formats .f32)
    (hm : (0xFF800000#32 : BitVec 32) = FKind.maximumf.neutral .f32 hφ)
    (hs : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  let M : FVec Ideal ⟨2, ![a, 1]⟩ .f32 := shapeCast ⟨2, ![a, 1]⟩ (multiReduction .maximumf [1] ⟨1, ![a]⟩ X 0xFF800000#32 hr hφ hm) hc
  let d : FVec Ideal ⟨2, ![a, b]⟩ .f32 := subf X (broadcastTo ⟨2, ![a, b]⟩ M hb)
  let s : FVec Ideal ⟨2, ![a, 1]⟩ .f32 := shapeCast ⟨2, ![a, 1]⟩ (multiReduction .add [1] ⟨1, ![a]⟩ (exp d) 0x00000000#32 hr hφ hs) hc
  subf d (broadcastTo ⟨2, ![a, b]⟩ (log s) hb)

/-- The block minus its lane maximum, at (p, q). -/
theorem unitShift_apply (X : FVec Ideal ⟨2, ![a, b]⟩ .f32) (hr : (⟨2, ![a, b]⟩ : Shape).Reduces [1] ⟨1, ![a]⟩)
    (hφ : FKind.Formats .f32) (hm : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf X (broadcastTo ⟨2, ![a, b]⟩ (shapeCast ⟨2, ![a, 1]⟩ (multiReduction .maximumf [1] ⟨1, ![a]⟩ X 0xFF800000#32 hr hφ hm) hc) hb) (ix2 p q)
      = X (ix2 p q) - Finset.univ.fold max ⊥ (fun k : Fin b => X (ix2 p k)) := by
  rw [subf_apply, colBroadcastTo_apply, colCast_apply, laneMax_apply]

/-- The vector unit's chain at (p, q) is the log-softmax of row p at q. -/
theorem unitLsm_apply (X : FVec Ideal ⟨2, ![a, b]⟩ .f32) (hr : (⟨2, ![a, b]⟩ : Shape).Reduces [1] ⟨1, ![a]⟩)
    (hφ : FKind.Formats .f32) (hm : (0xFF800000#32 : BitVec 32) = FKind.maximumf.neutral .f32 hφ)
    (hs : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    unitLsm X hr hφ hm hs hc hb (ix2 p q) = lsmRow (fun k => X (ix2 p k)) q := by
  unfold unitLsm lsmRow
  dsimp only
  rw [subf_apply, unitShift_apply, colBroadcastTo_apply]
  show _ - Ideal.log (shapeCast ⟨2, ![a, 1]⟩ _ hc (ix2 p (0 : Fin 1))) = _
  rw [colCast_apply, laneSum_apply]
  refine congrArg (fun z => _ - Ideal.log z) (Finset.sum_congr rfl fun k _ => ?_)
  show Ideal.exp (subf X _ (ix2 p k)) = _
  rw [unitShift_apply]

/-- The host's chain on an array X. -/
def hostLsm (X : FVec Ideal ⟨2, ![a, b]⟩ .f32) (hr : (⟨2, ![a, b]⟩ : Shape).ReducesTo [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) : FVec Ideal ⟨2, ![a, b]⟩ .f32 :=
  let M : FVec Ideal ⟨1, ![a]⟩ .f32 :=
    maximumf (broadcastInDim ⟨1, ![a]⟩ ![] b0 (constant (F := Ideal) ⟨0, ![]⟩ .f32 0xFF800000#32))
      (Host.reduce FloatOps.maximumf X (constant (F := Ideal) ⟨0, ![]⟩ .f32 0xFF800000#32) hr hu)
  let d : FVec Ideal ⟨2, ![a, b]⟩ .f32 := subf X (broadcastInDim ⟨2, ![a, b]⟩ ![0, 1] b2 (broadcastInDim ⟨2, ![a, 1]⟩ ![0] b1 M))
  let s : FVec Ideal ⟨1, ![a]⟩ .f32 := Host.reduceAdd (Host.exp d) (constant (F := Ideal) ⟨0, ![]⟩ .f32 0x00000000#32) hr hu
  subf d (broadcastInDim ⟨2, ![a, b]⟩ ![0, 1] b2 (Host.log (broadcastInDim ⟨2, ![a, 1]⟩ ![0] b1 s)))

/-- The array minus its row maximum, at (p, q). -/
theorem hostShift_apply (X : FVec Ideal ⟨2, ![a, b]⟩ .f32) (hr : (⟨2, ![a, b]⟩ : Shape).ReducesTo [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    subf X (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf X (constant (F := Ideal) ⟨0, ![]⟩ .f32 0xFF800000#32) hr hu)))) (ix2 p q)
      = X (ix2 p q) - Finset.univ.fold max ⊥ (fun k : Fin b => X (ix2 p k)) := by
  rw [subf_apply, lanesBroadcastInDim_apply, colBroadcastInDim_apply, maximumf_apply, broadcastInDim_scalar_apply,
    hostMax_apply, constant_apply, ofBits_neg_inf, max_eq_right bot_le]

/-- The host's chain at (p, q) is the log-softmax of row p at q. -/
theorem hostLsm_apply (X : FVec Ideal ⟨2, ![a, b]⟩ .f32) (hr : (⟨2, ![a, b]⟩ : Shape).ReducesTo [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    hostLsm X hr hu b0 b1 b2 (ix2 p q) = lsmRow (fun k => X (ix2 p k)) q := by
  unfold hostLsm lsmRow
  dsimp only
  rw [subf_apply, hostShift_apply, lanesBroadcastInDim_apply]
  show _ - Ideal.log (broadcastInDim (s := ⟨1, ![a]⟩) ⟨2, ![a, 1]⟩ ![0] b1 _ (ix2 p (0 : Fin 1))) = _
  rw [colBroadcastInDim_apply, hostSum_apply]
  refine congrArg (fun z => _ - Ideal.log z) (Finset.sum_congr rfl fun k _ => ?_)
  show Ideal.exp (subf X _ (ix2 p k)) = _
  rw [hostShift_apply]

end Cert.KernelIdeal.Regions

end
-- ==== Proof.LayerLaw.lean ====
/-
  The scalar laws that join the two spellings of LayerNorm on the extended reals.
  The kernel multiplies the centred value by the reciprocal square root of `var + ε`; the reference divides it by the
  square root. Both are the same extended real wherever `var + ε` is positive — a positive real (the two are
  `a · (√v)⁻¹`) or `+∞` (both are `a · 0`) —, and it always is: the variance is a sum of squares divided by a positive
  count, so it is nonnegative whatever the row holds, and `ε` is a positive real.
-/
import Idealize.ShloMosaic.PureOps.Ideal
import Idealize.ShloMosaic.PureOps.Ideal.Laws

noncomputable section

namespace Cert.LayerLaw

open Idealize.ShloMosaic

/-- A square is nonnegative on the extended reals (also at the infinities: `⊥ · ⊥ = ⊤`). -/
theorem mul_self_nonneg (x : EReal) : 0 ≤ x * x :=
  EReal.mul_nonneg_iff.mpr ((le_total 0 x).elim (fun h => Or.inl ⟨h, h⟩) (fun h => Or.inr ⟨h, h⟩))

/-- A sum of squares is nonnegative. -/
theorem sum_mul_self_nonneg {ι : Type} (s : Finset ι) (f : ι → EReal) : 0 ≤ ∑ i ∈ s, f i * f i :=
  Finset.sum_nonneg fun i _ => mul_self_nonneg (f i)

/-- Dividing a nonnegative extended real by a positive real leaves it nonnegative. -/
theorem div_nonneg_of_pos {S : EReal} (hS : 0 ≤ S) {n : ℝ} (hn : 0 < n) : 0 ≤ Ideal.div S (n : EReal) := by
  rw [Ideal.div_coe (ne_of_gt hn)]
  exact EReal.mul_nonneg hS (by exact_mod_cast (one_div_pos.mpr hn).le)

/-- `a · rsqrt v = a / √v` for every extended real `a` and every positive `v`, `+∞` included. -/
theorem mul_rsqrt_eq_div_sqrt (a : EReal) {v : EReal} (hv : 0 < v) :
    a * Ideal.rsqrt v = Ideal.div a (Ideal.sqrt v) := by
  induction v using EReal.rec with
  | bot => exact absurd hv (not_lt.mpr bot_le)
  | top =>
    show a * 0 = Ideal.div a ⊤
    unfold Ideal.div
    rw [if_neg (by simp), EReal.inv_top]
  | coe r =>
    have hr : 0 < r := by exact_mod_cast hv
    have hs : Real.sqrt r ≠ 0 := ne_of_gt (Real.sqrt_pos.mpr hr)
    have h1 : Ideal.rsqrt (r : EReal) = (((Real.sqrt r)⁻¹ : ℝ) : EReal) := by
      rw [Ideal.rsqrt_coe, if_neg (not_lt.mpr hr.le), if_neg (ne_of_gt hr)]
    have h2 : Ideal.sqrt (r : EReal) = ((Real.sqrt r : ℝ) : EReal) := by
      show (if r < 0 then (⊥ : EReal) else (Real.sqrt r : EReal)) = _
      rw [if_neg (not_lt.mpr hr.le)]
    rw [h1, h2]
    unfold Ideal.div
    rw [if_neg (by exact_mod_cast hs), EReal.coe_inv]

/-- The kernel's normalised value is the reference's: with `v = S / n + ε` for a nonnegative `S` (a sum of
    squares), a positive count `n` and a positive real `ε`. -/
theorem normalise_eq (a S : EReal) (hS : 0 ≤ S) {n e : ℝ} (hn : 0 < n) (he : 0 < e) :
    a * Ideal.rsqrt (Ideal.div S (n : EReal) + (e : EReal)) = Ideal.div a (Ideal.sqrt (Ideal.div S (n : EReal) + (e : EReal))) :=
  mul_rsqrt_eq_div_sqrt a (by
    have h0 : (0 : EReal) < (e : EReal) := by exact_mod_cast he
    have h1 : (e : EReal) ≤ Ideal.div S (n : EReal) + (e : EReal) :=
      le_add_of_nonneg_left (div_nonneg_of_pos hS hn)
    exact lt_of_lt_of_le h0 h1)

end Cert.LayerLaw

end
-- ==== Proof.Lits.lean ====
/-
  The float words the first stage spells, as the extended reals they denote: the row length 100 (the divisor of the
  mean and of the variance), the LayerNorm's ε (a positive real), and the two facts the reference's variance needs of
  them — its divisor 100 − 0 is 100, and it is positive, so the guarded quotient is the quotient.
-/
import Idealize.ShloMosaic.PureOps.Ideal
import Idealize.ShloMosaic.PureOps.Ideal.Laws

noncomputable section

namespace Cert.Lits

open Idealize.ShloMosaic

/-- `100.0` denotes the real 100. -/
theorem hundred : Ideal.ofBits .f32 0x42C80000#32 = ((100 : ℝ) : EReal) := by
  simp [Ideal.ofBits, Ideal.ieee, -EReal.coe_mul]; norm_num

/-- `9.99999974e-6` denotes the real 10995116 / 2⁴⁰. -/
theorem eps_val : Ideal.ofBits .f32 0x3727C5AC#32 = (((10995116 : ℝ) / 1099511627776 : ℝ) : EReal) := by
  simp [Ideal.ofBits, Ideal.ieee, -EReal.coe_mul]; norm_num

/-- ε is a positive real. -/
theorem eps_pos : ∃ e : ℝ, 0 < e ∧ Ideal.ofBits .f32 0x3727C5AC#32 = (e : EReal) :=
  ⟨10995116 / 1099511627776, by norm_num, eps_val⟩

/-- The integer word 0 converted to a float is 0. -/
theorem sitofp_zero : FloatOps.sitofp (F := Ideal) .f32 (0#32 : BitVec 32) = 0 := by
  show (((0#32 : BitVec 32).toInt : ℝ) : EReal) = 0
  simp

/-- The variance's divisor: 100 less the zero degrees of freedom is 100. -/
theorem hundred_sub_zero :
    Ideal.ofBits .f32 0x42C80000#32 - FloatOps.sitofp (F := Ideal) .f32 (0#32 : BitVec 32) = Ideal.ofBits .f32 0x42C80000#32 := by
  rw [sitofp_zero, sub_zero]

/-- 100 is above zero: the comparison guarding the variance's quotient holds. -/
theorem hundred_gt_zero :
    FloatOps.cmpf (F := Ideal) (φ := .f32) .ogt (Ideal.ofBits .f32 0x42C80000#32) (Ideal.ofBits .f32 0x00000000#32) = 1#1 := by
  show Ideal.cmp .ogt _ _ = 1#1
  rw [hundred, Ideal.ofBits_zero_f32]
  have h : (0 : EReal) < ((100 : ℝ) : EReal) := by exact_mod_cast (by norm_num : (0 : ℝ) < 100)
  simp [Ideal.cmp, h]

end Cert.Lits

end
-- ==== Proof.MlpRow.lean ====
/-
  The first stage on ONE row, at the ideal values. A row x of K extended reals goes through a Linear layer into 100
  values, x·W + b, then through LayerNorm with scale and shift and relu; twice. LayerNorm of a row r of 100 values:
  with μ the mean, the sum of the row over 100, and σ² the variance, the sum of the squared deviations from μ over 100,
  entry q is (r q − μ) normalised by √(σ² + ε), times the scale, plus the shift, and relu takes the maximum with 0.
  The normalisation is spelt two ways — times the reciprocal square root, or divided by the square root — which are
  the same extended real because σ² + ε is positive whatever the row holds: a sum of squares over a positive count is
  nonnegative, and ε is a positive real.
-/
import proofs.«132481_j11579231830735_1_alg».proof.Proof.LayerLaw
import proofs.«132481_j11579231830735_1_alg».proof.Proof.Lits

noncomputable section

open scoped BigOperators

namespace Cert.MlpRow

open Idealize.ShloMosaic

/-- The mean of a row of 100. -/
def mean (r : Fin 100 → EReal) : EReal := Ideal.div (∑ j : Fin 100, r j) (Ideal.ofBits .f32 0x42C80000#32)

/-- The variance of a row of 100: the mean of the squared deviations from the mean. -/
def var (r : Fin 100 → EReal) : EReal :=
  Ideal.div (∑ j : Fin 100, (r j - mean r) * (r j - mean r)) (Ideal.ofBits .f32 0x42C80000#32)

/-- LayerNorm with scale g and shift s, then relu, at entry q: times the reciprocal square root. -/
def normMul (r g s : Fin 100 → EReal) (q : Fin 100) : EReal :=
  max ((r q - mean r) * Ideal.rsqrt (var r + Ideal.ofBits .f32 0x3727C5AC#32) * g q + s q) 0

/-- LayerNorm with scale g and shift s, then relu, at entry q: divided by the square root. -/
def normDiv (r g s : Fin 100 → EReal) (q : Fin 100) : EReal :=
  max (Ideal.div (r q - mean r) (Ideal.sqrt (var r + Ideal.ofBits .f32 0x3727C5AC#32)) * g q + s q) 0

/-- The two spellings are one value: the variance is nonnegative and ε a positive real. -/
theorem normMul_eq_normDiv (r g s : Fin 100 → EReal) (q : Fin 100) : normMul r g s q = normDiv r g s q := by
  obtain ⟨e, he, hE⟩ := Cert.Lits.eps_pos
  unfold normMul normDiv var
  rw [hE, Cert.Lits.hundred,
    Cert.LayerLaw.normalise_eq (r q - mean r) _ (Cert.LayerLaw.sum_mul_self_nonneg Finset.univ fun j => r j - mean r)
      (by norm_num : (0 : ℝ) < 100) he]

/-- A Linear layer on a row: x·W + b at entry q. -/
def lin {K : Nat} (x : Fin K → EReal) (W : Fin K → Fin 100 → EReal) (b : Fin 100 → EReal) (q : Fin 100) : EReal :=
  (∑ k : Fin K, x k * W k q) + b q

/-- One layer on a row — Linear, LayerNorm with scale and shift, relu —, the normalisation by division. -/
def layer {K : Nat} (x : Fin K → EReal) (W : Fin K → Fin 100 → EReal) (b g s : Fin 100 → EReal) : Fin 100 → EReal :=
  normDiv (lin x W b) g s

/-- The same layer, the normalisation by multiplication. -/
def layerMul {K : Nat} (x : Fin K → EReal) (W : Fin K → Fin 100 → EReal) (b g s : Fin 100 → EReal) : Fin 100 → EReal :=
  normMul (lin x W b) g s

theorem layerMul_eq_layer {K : Nat} (x : Fin K → EReal) (W : Fin K → Fin 100 → EReal) (b g s : Fin 100 → EReal) :
    layerMul x W b g s = layer x W b g s := funext fun q => normMul_eq_normDiv _ g s q

/-- The first stage on a row of 500 features: two layers. -/
def mlpRow (x : Fin 500 → EReal) (W1 : Fin 500 → Fin 100 → EReal) (b1 g1 s1 : Fin 100 → EReal)
    (W2 : Fin 100 → Fin 100 → EReal) (b2 g2 s2 : Fin 100 → EReal) : Fin 100 → EReal :=
  layer (layer x W1 b1 g1 s1) W2 b2 g2 s2

end Cert.MlpRow

end
-- ==== Proof.MlpUnit.lean ====
/-
  One layer's arithmetic after its matrix product, as the vector unit does it on a block of a rows by 100 lanes, read at
  one entry (p, q) as the per-row LayerNorm of row p alone. The unit adds the bias row to every row; takes each row's
  lane sum from 0, recast as a column, over 100 for the mean; subtracts the mean's broadcast; takes the lane sum of the
  squares over 100 for the variance; adds ε, takes the reciprocal square root, broadcasts it along the lanes and
  multiplies; multiplies by the scale row, adds the shift row, and takes the maximum with 0.
-/
import Idealize.ShloMosaic.PureOps.Ideal.Laws
import Idealize.ShloMosaic.Lib.ValueIdx
import Idealize.ShloMosaic.Lib.ValueLayout
import Idealize.ShloMosaic.Lib.Pipeline.Value
import proofs.«132481_j11579231830735_1_alg».proof.Proof.LsmRow
import proofs.«132481_j11579231830735_1_alg».proof.Proof.MlpRow

noncomputable section

open scoped BigOperators

namespace Cert.KernelIdeal.Regions

open Idealize.ShloMosaic Idealize.ShloMosaic.ValueIdx

variable {a : Nat}

section Chain

variable (hsc : (⟨2, ![1, 100]⟩ : Shape).ShapeCasts ⟨2, ![1, 100]⟩) (hbr : (⟨2, ![1, 100]⟩ : Shape).Broadcasts ⟨2, ![a, 100]⟩)
  (hr : (⟨2, ![a, 100]⟩ : Shape).Reduces [1] ⟨1, ![a]⟩) (hφ : FKind.Formats .f32)
  (hs : (0x00000000#32 : BitVec 32) = FKind.add.neutral .f32 hφ)
  (hc : (⟨1, ![a]⟩ : Shape).ShapeCasts ⟨2, ![a, 1]⟩) (hb : (⟨2, ![a, 1]⟩ : Shape).Broadcasts ⟨2, ![a, 100]⟩)

/-- The unit's LayerNorm, scale, shift and relu on a block X (the layer's product plus its bias). -/
def unitNormCore (X : FVec Ideal ⟨2, ![a, 100]⟩ .f32) (g s : FVec Ideal ⟨2, ![1, 100]⟩ .f32) : FVec Ideal ⟨2, ![a, 100]⟩ .f32 :=
  let μ : FVec Ideal ⟨2, ![a, 1]⟩ .f32 :=
    divf (shapeCast ⟨2, ![a, 1]⟩ (multiReduction .add [1] ⟨1, ![a]⟩ X 0x00000000#32 hr hφ hs) hc)
      (broadcast ⟨2, ![a, 1]⟩ (Scalar.ofBits .f32 0x42C80000#32))
  let d : FVec Ideal ⟨2, ![a, 100]⟩ .f32 := subf X (broadcastTo ⟨2, ![a, 100]⟩ μ hb)
  let v : FVec Ideal ⟨2, ![a, 1]⟩ .f32 :=
    divf (shapeCast ⟨2, ![a, 1]⟩ (multiReduction .add [1] ⟨1, ![a]⟩ (mulf d d) 0x00000000#32 hr hφ hs) hc)
      (broadcast ⟨2, ![a, 1]⟩ (Scalar.ofBits .f32 0x42C80000#32))
  let ρ : FVec Ideal ⟨2, ![a, 1]⟩ .f32 := rsqrt (addf v (broadcast ⟨2, ![a, 1]⟩ (Scalar.ofBits .f32 0x3727C5AC#32)))
  maximumf
    (addf (mulf (mulf d (broadcastTo ⟨2, ![a, 100]⟩ ρ hb)) (broadcastTo ⟨2, ![a, 100]⟩ (shapeCast ⟨2, ![1, 100]⟩ g hsc) hbr))
      (broadcastTo ⟨2, ![a, 100]⟩ (shapeCast ⟨2, ![1, 100]⟩ s hsc) hbr))
    (broadcast ⟨2, ![a, 100]⟩ (Scalar.ofBits .f32 0x00000000#32))

/-- The whole of it on a product h: the bias row added to every row first. -/
def unitNorm (h : FVec Ideal ⟨2, ![a, 100]⟩ .f32) (b g s : FVec Ideal ⟨2, ![1, 100]⟩ .f32) : FVec Ideal ⟨2, ![a, 100]⟩ .f32 :=
  unitNormCore hsc hbr hr hφ hs hc hb (addf h (broadcastTo ⟨2, ![a, 100]⟩ (shapeCast ⟨2, ![1, 100]⟩ b hsc) hbr)) g s

/-- The product plus the bias row, at (p, j). -/
theorem rowAdd_apply (h : FVec Ideal ⟨2, ![a, 100]⟩ .f32) (b : FVec Ideal ⟨2, ![1, 100]⟩ .f32) (p : Fin a) (j : Fin 100) :
    addf h (broadcastTo ⟨2, ![a, 100]⟩ (shapeCast ⟨2, ![1, 100]⟩ b hsc) hbr) (ix2 p j) = h (ix2 p j) + b (ix2 (0 : Fin 1) j) := by
  rw [addf_apply, broadcastTo_1b_ab_apply, shapeCast_self]

/-- A row's lane sum from 0, as a column, over the word w: at (p, 0) the sum of row p divided by w. -/
theorem unitMean_apply (X : FVec Ideal ⟨2, ![a, 100]⟩ .f32) (w : BitVec 32) (p : Fin a) :
    divf (shapeCast ⟨2, ![a, 1]⟩ (multiReduction .add [1] ⟨1, ![a]⟩ X 0x00000000#32 hr hφ hs) hc)
        (broadcast ⟨2, ![a, 1]⟩ (Scalar.ofBits .f32 w)) (ix2 p (0 : Fin 1))
      = Ideal.div (∑ k : Fin 100, X (ix2 p k)) (Ideal.ofBits .f32 w) := by
  rw [divf_apply, colCast_apply, laneSum_apply, broadcast_apply]
  rfl

/-- The block less its rows' means, at (p, q): the entry less the mean of row p. -/
theorem unitDev_apply (X : FVec Ideal ⟨2, ![a, 100]⟩ .f32) (p : Fin a) (q : Fin 100) :
    subf X (broadcastTo ⟨2, ![a, 100]⟩
        (divf (shapeCast ⟨2, ![a, 1]⟩ (multiReduction .add [1] ⟨1, ![a]⟩ X 0x00000000#32 hr hφ hs) hc)
          (broadcast ⟨2, ![a, 1]⟩ (Scalar.ofBits .f32 0x42C80000#32))) hb) (ix2 p q)
      = X (ix2 p q) - Cert.MlpRow.mean (fun k => X (ix2 p k)) := by
  rw [subf_apply, colBroadcastTo_apply, unitMean_apply]
  rfl

/-- The lane sum of the squared deviations over 100, as a column: at (p, 0) the variance of row p. -/
theorem unitVar_apply (X : FVec Ideal ⟨2, ![a, 100]⟩ .f32) (p : Fin a) :
    divf (shapeCast ⟨2, ![a, 1]⟩ (multiReduction .add [1] ⟨1, ![a]⟩
          (mulf
            (subf X (broadcastTo ⟨2, ![a, 100]⟩
              (divf (shapeCast ⟨2, ![a, 1]⟩ (multiReduction .add [1] ⟨1, ![a]⟩ X 0x00000000#32 hr hφ hs) hc)
                (broadcast ⟨2, ![a, 1]⟩ (Scalar.ofBits .f32 0x42C80000#32))) hb))
            (subf X (broadcastTo ⟨2, ![a, 100]⟩
              (divf (shapeCast ⟨2, ![a, 1]⟩ (multiReduction .add [1] ⟨1, ![a]⟩ X 0x00000000#32 hr hφ hs) hc)
                (broadcast ⟨2, ![a, 1]⟩ (Scalar.ofBits .f32 0x42C80000#32))) hb)))
          0x00000000#32 hr hφ hs) hc)
        (broadcast ⟨2, ![a, 1]⟩ (Scalar.ofBits .f32 0x42C80000#32)) (ix2 p (0 : Fin 1))
      = Cert.MlpRow.var (fun k => X (ix2 p k)) := by
  rw [unitMean_apply]
  unfold Cert.MlpRow.var
  refine congrArg (fun z => Ideal.div z _) (Finset.sum_congr rfl fun k _ => ?_)
  rw [mulf_apply, unitDev_apply]

/-- The reciprocal square root of a column plus a splat word, at (p, 0). -/
theorem rsqrtAdd_apply (V : FVec Ideal ⟨2, ![a, 1]⟩ .f32) (w : BitVec 32) (p : Fin a) :
    rsqrt (addf V (broadcast ⟨2, ![a, 1]⟩ (Scalar.ofBits .f32 w))) (ix2 p (0 : Fin 1))
      = Ideal.rsqrt (V (ix2 p (0 : Fin 1)) + Ideal.ofBits .f32 w) := rfl

/-- The unit's LayerNorm, scale, shift and relu at (p, q): the per-row one of row p, by multiplication. -/
theorem unitNormCore_apply (X : FVec Ideal ⟨2, ![a, 100]⟩ .f32) (g s : FVec Ideal ⟨2, ![1, 100]⟩ .f32) (p : Fin a) (q : Fin 100) :
    unitNormCore hsc hbr hr hφ hs hc hb X g s (ix2 p q)
      = Cert.MlpRow.normMul (fun k => X (ix2 p k)) (fun j => g (ix2 (0 : Fin 1) j)) (fun j => s (ix2 (0 : Fin 1) j)) q := by
  unfold unitNormCore Cert.MlpRow.normMul
  dsimp only
  rw [maximumf_apply, addf_apply, mulf_apply, mulf_apply, unitDev_apply, colBroadcastTo_apply,
    broadcastTo_1b_ab_apply, broadcastTo_1b_ab_apply, shapeCast_self, shapeCast_self, broadcast_apply]
  rw [rsqrtAdd_apply, unitVar_apply]
  show max _ (Ideal.ofBits .f32 0x00000000#32) = _
  rw [Ideal.ofBits_zero_f32]

/-- The same on a product h with its bias row b: the per-row one of row p of h plus b. -/
theorem unitNorm_apply (h : FVec Ideal ⟨2, ![a, 100]⟩ .f32) (b g s : FVec Ideal ⟨2, ![1, 100]⟩ .f32) (p : Fin a) (q : Fin 100) :
    unitNorm hsc hbr hr hφ hs hc hb h b g s (ix2 p q)
      = Cert.MlpRow.normMul (fun j => h (ix2 p j) + b (ix2 (0 : Fin 1) j)) (fun j => g (ix2 (0 : Fin 1) j))
          (fun j => s (ix2 (0 : Fin 1) j)) q := by
  unfold unitNorm
  rw [unitNormCore_apply]
  exact congrArg (fun r => Cert.MlpRow.normMul r _ _ q) (funext fun j => rowAdd_apply hsc hbr h b p j)

end Chain

end Cert.KernelIdeal.Regions

end
-- ==== Proof.MlpPay.lean ====
/-
  The body of the first region at one entry. Its one stored value is two layers in a row on the block of 2000 rows the
  point holds: the rows times the first weight matrix on the matrix unit (into a zero accumulator: the exact sums; the
  narrowing to bf16 around it is the identity at the ideal values), the vector unit's LayerNorm chain with the first
  bias, scale and shift rows; then the same with the second weight matrix and rows. At entry (p, q) that is the
  two-layer function of row p of the block alone.
-/
import proofs.«132481_j11579231830735_1_alg».proof.Proof.Gen.KernelIdeal.Skeleton
import proofs.«132481_j11579231830735_1_alg».proof.Proof.DotAt
import proofs.«132481_j11579231830735_1_alg».proof.Proof.MlpUnit

set_option maxRecDepth 16384

noncomputable section

open scoped BigOperators

namespace Cert.KernelIdeal.Regions

open Cert.KernelIdeal Cert.KernelIdeal.Gen Idealize.ShloMosaic Idealize.ShloMosaic.ValueIdx

/-- The first layer's value: the unit's chain on the product of the block with the first weights. -/
theorem pay2_eq (x0 : Vec Ideal S2000x500 .f32) (x1 : Vec Ideal S500x100 .f32) (x2 x3 x4 : Vec Ideal S1x100 .f32) :
    k0_pay2 x0 x1 x2 x3 x4
      = truncf .bf16
          (unitNorm shapeCasts_S1x100_S1x100 broadcasts_S1x100_S2000x100 reduces_S2000x100_S2000 (.inl rfl) rfl
            shapeCasts_S2000_S2000x1 broadcasts_S2000x1_S2000x100
            (matmul dot_S2000x500_S500x100_S2000x100_1_0_0_1_n_n none (truncf .bf16 x0 bitsLt_bf16_f32)
              (truncf .bf16 x1 bitsLt_bf16_f32) (constant S2000x100 .f32 0x00000000#32)) x2 x3 x4)
          bitsLt_bf16_f32 := rfl

/-- The second layer's value: the same chain on the product of the first layer's value with the second weights. -/
theorem pay1_eq (v : FVec Ideal S2000x100 .bf16) (x5 : Vec Ideal S100x100 .f32) (x6 x7 x8 : Vec Ideal S1x100 .f32) :
    k0_pay1 v x5 x6 x7 x8
      = unitNorm shapeCasts_S1x100_S1x100 broadcasts_S1x100_S2000x100 reduces_S2000x100_S2000 (.inl rfl) rfl
          shapeCasts_S2000_S2000x1 broadcasts_S2000x1_S2000x100
          (matmul dot_S2000x100_S100x100_S2000x100_1_0_0_1_n_n none v (truncf .bf16 x5 bitsLt_bf16_f32)
            (constant S2000x100 .f32 0x00000000#32)) x6 x7 x8 := rfl

/-- The first layer at (p, c): the per-row layer of row p of the block. -/
theorem layer1_apply (x0 : Vec Ideal S2000x500 .f32) (x1 : Vec Ideal S500x100 .f32) (x2 x3 x4 : Vec Ideal S1x100 .f32)
    (p : Fin 2000) (c : Fin 100) :
    k0_pay2 x0 x1 x2 x3 x4 (ix2 p c)
      = Cert.MlpRow.layer (fun k => x0 (ix2 p k)) (fun k j => x1 (ix2 k j)) (fun j => x2 (ix2 (0 : Fin 1) j))
          (fun j => x3 (ix2 (0 : Fin 1) j)) (fun j => x4 (ix2 (0 : Fin 1) j)) c := by
  rw [pay2_eq, truncf_apply, ← Cert.MlpRow.layerMul_eq_layer]
  refine (unitNorm_apply _ _ _ _ _ _ _ _ x2 x3 x4 p c).trans ?_
  unfold Cert.MlpRow.layerMul Cert.MlpRow.lin
  refine congrArg (fun r => Cert.MlpRow.normMul r _ _ c) (funext fun j => congrArg (· + _) ?_)
  refine (matmul_rowCol_apply dot_S2000x500_S500x100_S2000x100_1_0_0_1_n_n_wf none _ _ p j).trans ?_
  refine Finset.sum_congr rfl fun k _ => ?_
  rw [truncf_apply, truncf_apply]

/-- The stored value at (p, q): the two-layer function of row p of the block. -/
theorem mlpPay_apply (x0 : Vec Ideal S2000x500 .f32) (x1 : Vec Ideal S500x100 .f32) (x2 x3 x4 : Vec Ideal S1x100 .f32)
    (x5 : Vec Ideal S100x100 .f32) (x6 x7 x8 : Vec Ideal S1x100 .f32) (p : Fin 2000) (q : Fin 100) :
    k0_pay1 (k0_pay2 x0 x1 x2 x3 x4) x5 x6 x7 x8 (ix2 p q)
      = Cert.MlpRow.mlpRow (fun k => x0 (ix2 p k)) (fun k j => x1 (ix2 k j)) (fun j => x2 (ix2 (0 : Fin 1) j))
          (fun j => x3 (ix2 (0 : Fin 1) j)) (fun j => x4 (ix2 (0 : Fin 1) j)) (fun k j => x5 (ix2 k j))
          (fun j => x6 (ix2 (0 : Fin 1) j)) (fun j => x7 (ix2 (0 : Fin 1) j)) (fun j => x8 (ix2 (0 : Fin 1) j)) q := by
  rw [pay1_eq]
  refine (unitNorm_apply _ _ _ _ _ _ _ _ x6 x7 x8 p q).trans ?_
  unfold Cert.MlpRow.mlpRow
  rw [← Cert.MlpRow.layerMul_eq_layer _ (fun k j => x5 (ix2 k j))]
  unfold Cert.MlpRow.layerMul Cert.MlpRow.lin
  refine congrArg (fun r => Cert.MlpRow.normMul r _ _ q) (funext fun j => congrArg (· + _) ?_)
  refine (matmul_rowCol_apply dot_S2000x100_S100x100_S2000x100_1_0_0_1_n_n_wf none _ _ p j).trans ?_
  refine Finset.sum_congr rfl fun c _ => ?_
  rw [truncf_apply, layer1_apply]

end Cert.KernelIdeal.Regions

end
-- ==== Proof.MlpRef.lean ====
/- The reference's first stage — Linear → LayerNorm → relu, twice, from the node features f32[50000, 500] to
   f32[50000, 100] — read at one entry (i, q): it is
   the per-row function of row i of the node features (and the weights, and the bias, scale and shift rows) at q. Every
   operation of the stage is row-wise: the matrix product's entry (i, q) sums over row i of its left operand; the mean
   and the variance of row i are the host's add-reduces along the 100 columns, broadcast back as a column and then
   along the columns; the variance's divisor 100 − 0 is 100 and positive, so its guarded quotient is the quotient. -/
import proofs.«132481_j11579231830735_1_alg».proof.Proof.Stages2
import proofs.«132481_j11579231830735_1_alg».proof.Proof.MlpRow
import proofs.«132481_j11579231830735_1_alg».proof.Proof.LsmRow
import proofs.«132481_j11579231830735_1_alg».proof.Proof.DotAt
import Idealize.ShloMosaic.Lib.KernelVsHost
import Idealize.ShloMosaic.Lib.IdealHost
import Idealize.ShloMosaic.Lib.ValueLayout

noncomputable section

open scoped BigOperators

namespace Cert.KernelIdeal.Regions

open Idealize.ShloMosaic Idealize.ShloMosaic.ValueIdx
open Cert.ReferenceIdeal

variable [Cert.ReferenceIdeal.Facts]
open Cert.ReferenceIdeal.Facts₀ Cert.ReferenceIdeal.Facts

/-! ## The mean and the variance of a row -/

/-- The host's row means of an [50000, 100] array, as a column: the add-reduce along the columns over 100. -/
def meanCol (X : FVec Ideal S50000x100 .f32) : FVec Ideal S50000x1 .f32 :=
  Host.divf
    (broadcastInDim S50000x1 ![0] bcast_S50000_S50000x1_0
      (Host.reduceAdd X (constant (F := Ideal) S_ .f32 0x00000000#32) reducesTo_S50000x100_S50000_d1 h_S_))
    (broadcastInDim S50000x1 ![] bcast_S_S50000x1 (constant (F := Ideal) S_ .f32 0x42C80000#32))

/-- … at row i: the mean of the row. -/
theorem meanCol_apply (X : FVec Ideal S50000x100 .f32) (i : Fin 50000) :
    meanCol X (ix2 i (0 : Fin 1)) = Cert.MlpRow.mean (fun j => X (ix2 i j)) := by
  unfold meanCol Cert.MlpRow.mean
  rw [hostDivf_apply, colBroadcastInDim_apply, hostSum_apply, broadcastInDim_scalar_apply, constant_apply]

/-- The array minus its row means, at (i, j). -/
theorem centred_apply (X : FVec Ideal S50000x100 .f32) (i : Fin 50000) (j : Fin 100) :
    subf X (broadcastInDim S50000x100 ![0, 1] bcast_S50000x1_S50000x100_0_1 (meanCol X)) (ix2 i j)
      = X (ix2 i j) - Cert.MlpRow.mean (fun j => X (ix2 i j)) := by
  rw [subf_apply, lanesBroadcastInDim_apply, meanCol_apply]

/-- The host's variance with zero degrees of freedom, at row i: the variance of the row. -/
theorem fnvar_apply (X : FVec Ideal S50000x100 .f32) (i : Fin 50000) :
    Cert.Stages.fnvar (F := Ideal) X (constantI S_ 32 0#32) (ix2 i (0 : Fin 1)) = Cert.MlpRow.var (fun j => X (ix2 i j)) := by
  unfold Cert.Stages.fnvar Cert.Stages.fnwhere
  dsimp only
  rw [select_apply, broadcastInDim_scalar_apply]
  show Scalar.select (FloatOps.cmpf (F := Ideal) (φ := .f32) .ogt
      (Ideal.ofBits .f32 0x42C80000#32 - FloatOps.sitofp (F := Ideal) .f32 (0#32 : BitVec 32)) (Ideal.ofBits .f32 0x00000000#32)) _ _ = _
  rw [Cert.Lits.hundred_sub_zero, Cert.Lits.hundred_gt_zero, select_one, hostDivf_apply, colBroadcastInDim_apply, hostSum_apply,
    broadcastInDim_scalar_apply]
  show Ideal.div _ (Ideal.ofBits .f32 0x42C80000#32 - FloatOps.sitofp (F := Ideal) .f32 (0#32 : BitVec 32)) = _
  rw [Cert.Lits.hundred_sub_zero]
  unfold Cert.MlpRow.var
  refine congrArg (fun z => Ideal.div z _) (Finset.sum_congr rfl fun j _ => ?_)
  rw [mulf_apply]
  exact congrArg₂ (· * ·) (centred_apply X i j) (centred_apply X i j)

/-! ## One layer -/

/-- LayerNorm with scale and shift rows, then relu, on an [50000, 100] array, in the host's operations. -/
def hostNorm (X : FVec Ideal S50000x100 .f32) (g s : FVec Ideal S1x100 .f32) : FVec Ideal S50000x100 .f32 :=
  Cert.Stages.fnrelu (F := Ideal)
    (addf
      (mulf
        (Host.divf (subf X (broadcastInDim S50000x100 ![0, 1] bcast_S50000x1_S50000x100_0_1 (meanCol X)))
          (broadcastInDim S50000x100 ![0, 1] bcast_S50000x1_S50000x100_0_1
            (Host.sqrt (addf (Cert.Stages.fnvar (F := Ideal) X (constantI S_ 32 0#32))
              (broadcastInDim S50000x1 ![] bcast_S_S50000x1 (constant (F := Ideal) S_ .f32 0x3727C5AC#32))))))
        (broadcastInDim S50000x100 ![0, 1] bcast_S1x100_S50000x100_0_1 g))
      (broadcastInDim S50000x100 ![0, 1] bcast_S1x100_S50000x100_0_1 s))

/-- … at (i, q): the row function of row i. -/
theorem hostNorm_apply (X : FVec Ideal S50000x100 .f32) (g s : FVec Ideal S1x100 .f32) (i : Fin 50000) (q : Fin 100) :
    hostNorm X g s (ix2 i q)
      = Cert.MlpRow.normDiv (fun j => X (ix2 i j)) (fun j => g (ix2 (0 : Fin 1) j)) (fun j => s (ix2 (0 : Fin 1) j)) q := by
  unfold hostNorm Cert.Stages.fnrelu Cert.MlpRow.normDiv
  dsimp only
  rw [maximumf_apply, broadcastInDim_scalar_apply, constant_apply, Ideal.ofBits_zero_f32, addf_apply, mulf_apply,
    hostDivf_apply, centred_apply, lanesBroadcastInDim_apply, broadcastInDim_oneRow_apply, broadcastInDim_oneRow_apply]
  show max (Ideal.div _ (Ideal.sqrt (Cert.Stages.fnvar (F := Ideal) X (constantI S_ 32 0#32) (ix2 i (0 : Fin 1))
      + broadcastInDim S50000x1 ![] bcast_S_S50000x1 (constant (F := Ideal) S_ .f32 0x3727C5AC#32) (ix2 i (0 : Fin 1)))) * _ + _) 0 = _
  rw [fnvar_apply, broadcastInDim_scalar_apply, constant_apply]

/-- The first Linear layer in the host's operations: the product with the weights plus the broadcast bias row. -/
def hostLin1 (A : FVec Ideal S50000x500 .f32) (W : FVec Ideal S500x100 .f32) (b : FVec Ideal S1x100 .f32) :
    FVec Ideal S50000x100 .f32 :=
  addf (Host.dotGeneral (F := Ideal) (φ₁ := .f32) (φ₂ := .f32) dot_S50000x500_S500x100_S50000x100_1_0_0_1_n_n none A W)
    (broadcastInDim S50000x100 ![0, 1] bcast_S1x100_S50000x100_0_1 b)

/-- The second Linear layer likewise. -/
def hostLin2 (A : FVec Ideal S50000x100 .f32) (W : FVec Ideal S100x100 .f32) (b : FVec Ideal S1x100 .f32) :
    FVec Ideal S50000x100 .f32 :=
  addf (Host.dotGeneral (F := Ideal) (φ₁ := .f32) (φ₂ := .f32) dot_S50000x100_S100x100_S50000x100_1_0_0_1_n_n none A W)
    (broadcastInDim S50000x100 ![0, 1] bcast_S1x100_S50000x100_0_1 b)

theorem hostLin1_apply (A : FVec Ideal S50000x500 .f32) (W : FVec Ideal S500x100 .f32) (b : FVec Ideal S1x100 .f32)
    (i : Fin 50000) (q : Fin 100) :
    hostLin1 A W b (ix2 i q)
      = Cert.MlpRow.lin (fun k => A (ix2 i k)) (fun k j => W (ix2 k j)) (fun j => b (ix2 (0 : Fin 1) j)) q := by
  unfold hostLin1 Cert.MlpRow.lin
  rw [addf_apply, broadcastInDim_oneRow_apply]
  exact congrArg (· + _) (dotGeneral_rowCol_apply _ none A W i q)

theorem hostLin2_apply (A : FVec Ideal S50000x100 .f32) (W : FVec Ideal S100x100 .f32) (b : FVec Ideal S1x100 .f32)
    (i : Fin 50000) (q : Fin 100) :
    hostLin2 A W b (ix2 i q)
      = Cert.MlpRow.lin (fun k => A (ix2 i k)) (fun k j => W (ix2 k j)) (fun j => b (ix2 (0 : Fin 1) j)) q := by
  unfold hostLin2 Cert.MlpRow.lin
  rw [addf_apply, broadcastInDim_oneRow_apply]
  exact congrArg (· + _) (dotGeneral_rowCol_apply _ none A W i q)

/-! ## The stage -/

/-- The reference's first stage is two such layers. -/
theorem refX1row_eq (a0 : FVec Ideal S50000x500 .f32) (a3 : FVec Ideal S500x100 .f32) (r5 r20 r23 : FVec Ideal S1x100 .f32)
    (a7 : FVec Ideal S100x100 .f32) (r28 r43 r46 : FVec Ideal S1x100 .f32) :
    Cert.Stages.refX1row (F := Ideal) a0 a3 r5 r20 r23 a7 r28 r43 r46
      = hostNorm (hostLin2 (hostNorm (hostLin1 a0 a3 r5) r20 r23) a7 r28) r43 r46 := by
  unfold Cert.Stages.refX1row hostNorm hostLin2 hostLin1 meanCol
  rfl

/-- THE REFERENCE'S FIRST STAGE at entry (i, q): the two-layer row function of row i of the node features. -/
theorem refX1row_apply (a0 : FVec Ideal S50000x500 .f32) (a3 : FVec Ideal S500x100 .f32) (r5 r20 r23 : FVec Ideal S1x100 .f32)
    (a7 : FVec Ideal S100x100 .f32) (r28 r43 r46 : FVec Ideal S1x100 .f32) (i : Fin 50000) (q : Fin 100) :
    Cert.Stages.refX1row (F := Ideal) a0 a3 r5 r20 r23 a7 r28 r43 r46 (ix2 i q)
      = Cert.MlpRow.mlpRow (fun k => a0 (ix2 i k)) (fun k j => a3 (ix2 k j)) (fun j => r5 (ix2 (0 : Fin 1) j))
          (fun j => r20 (ix2 (0 : Fin 1) j)) (fun j => r23 (ix2 (0 : Fin 1) j)) (fun k j => a7 (ix2 k j))
          (fun j => r28 (ix2 (0 : Fin 1) j)) (fun j => r43 (ix2 (0 : Fin 1) j)) (fun j => r46 (ix2 (0 : Fin 1) j)) q := by
  rw [refX1row_eq, hostNorm_apply]
  unfold Cert.MlpRow.mlpRow Cert.MlpRow.layer
  refine congrArg (fun r => Cert.MlpRow.normDiv r _ _ q) (funext fun j => ?_)
  rw [hostLin2_apply]
  refine congrArg (fun r => Cert.MlpRow.lin r _ _ j) (funext fun k => ?_)
  rw [hostNorm_apply]
  refine congrArg (fun r => Cert.MlpRow.normDiv r _ _ k) (funext fun j' => ?_)
  rw [hostLin1_apply]

end Cert.KernelIdeal.Regions

end
-- ==== Proof.RegionMlp.lean ====
/-
  Region 0 of the kernel's program — the node-feature stack, Linear → LayerNorm → relu twice, over row tiles — as ONE
  function of the arrays the region finds: after its 25 grid points the output array is the reference's first stage of
  those arrays (the biases, scales and shifts held as rows). Point t holds rows 2000·t … 2000·t + 1999 of the features
  and the whole of the two weight matrices and the six rows; every output row depends on the same row of the features
  only, and both programs compute the same two-layer function of that row; point t writes rows 2000·t … 2000·t + 1999
  of the output, and the 25 row tiles cover the 50000 rows.
-/
import proofs.«132481_j11579231830735_1_alg».proof.Proof.Gen.KernelIdeal.Frame
import proofs.«132481_j11579231830735_1_alg».proof.Proof.MlpPay
import proofs.«132481_j11579231830735_1_alg».proof.Proof.MlpRef
import Idealize.ShloMosaic.Lib.Pipeline.Value
import Idealize.ShloMosaic.Lib.ValueIdx

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]
variable (V : (c : Dev nD) → (b : Ref sig .tc) → Buf (Elt Ideal) ((c : Thread nD τ).loc b))

/-- Every access of the body starts at its block's origin. -/
theorem origin0 : (![0, 0] : Fin 2 → Nat) = fun _ => 0 := funext fun a => by fin_cases a <;> rfl

/-! ## The printed index maps over the 25 points -/

/-- The features' window sits at block row t, block column 0. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
/-- The output's window sits at block row t, block column 0. -/
theorem idx0_9 : ∀ t : Fin cfg0.N, win0_9.index t (0 : Fin 2) = t.val ∧ win0_9.index t (1 : Fin 2) = 0 :=
  (by decide +kernel : ∀ t : Fin grid0.N, _)

/-! ## The blocks, read off the arrays -/

/-- The features' block at point t, at (p, k), is the array at row 2000·t + p, column k. -/
theorem rows0_0 (c : Dev nD) (t : Fin cfg0.N) (x : S2000x500.Idx) (i : S50000x500.Idx)
    (h0 : (i 0).val = 2000 * t.val + (x 0).val) (h1 : (i 1).val = (x 1).val) :
    (iblk0 V c 0 t : Vec Ideal S2000x500 .f32) x = (V c (Pipeline.arrRef spec0 0) : S50000x500.Idx → Elt Ideal .f32) i := by
  obtain ⟨e0, e1⟩ := idx0_0 t
  unfold iblk0
  rw [View.read_apply]
  show V c (Pipeline.arrRef spec0 0) _ = V c (Pipeline.arrRef spec0 0) i
  congr 1
  funext a
  apply Fin.ext
  match a with
  | ⟨0, _⟩ => show win0_0.index t (0 : Fin 2) * 2000 + 1 * (x 0).val = (i 0).val; rw [e0, h0]; omega
  | ⟨1, _⟩ => show win0_0.index t (1 : Fin 2) * 500 + 1 * (x 1).val = (i 1).val; rw [e1, h1]; omega

/-- The block of window 1 at every point is the whole array: the first weight matrix. -/
theorem whole0_1 (c : Dev nD) (t : Fin cfg0.N) (x : S500x100.Idx) :
    (iblk0 V c 1 t : Vec Ideal S500x100 .f32) x = (V c (Pipeline.arrRef spec0 1) : S500x100.Idx → Elt Ideal .f32) x := by
  obtain ⟨e0, e1⟩ := idx0_1 t
  unfold iblk0
  rw [View.read_apply]
  show V c (Pipeline.arrRef spec0 1) _ = V c (Pipeline.arrRef spec0 1) x
  congr 1
  funext a
  apply Fin.ext
  match a with
  | ⟨0, _⟩ => show win0_1.index t (0 : Fin 2) * 500 + 1 * (x 0).val = (x 0).val; rw [e0]; omega
  | ⟨1, _⟩ => show win0_1.index t (1 : Fin 2) * 100 + 1 * (x 1).val = (x 1).val; rw [e1]; omega

/-- The block of window 2 at every point is the whole array: the first bias row. -/
theorem whole0_2 (c : Dev nD) (t : Fin cfg0.N) (x : S1x100.Idx) :
    (iblk0 V c 2 t : Vec Ideal S1x100 .f32) x = (V c (Pipeline.arrRef spec0 2) : S1x100.Idx → Elt Ideal .f32) x := by
  obtain ⟨e0, e1⟩ := idx0_2 t
  unfold iblk0
  rw [View.read_apply]
  show V c (Pipeline.arrRef spec0 2) _ = V c (Pipeline.arrRef spec0 2) x
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 100 + 1 * (x 1).val = (x 1).val; rw [e1]; omega

/-- The block of window 3 at every point is the whole array: the first scale row. -/
theorem whole0_3 (c : Dev nD) (t : Fin cfg0.N) (x : S1x100.Idx) :
    (iblk0 V c 3 t : Vec Ideal S1x100 .f32) x = (V c (Pipeline.arrRef spec0 3) : S1x100.Idx → Elt Ideal .f32) x := by
  obtain ⟨e0, e1⟩ := idx0_3 t
  unfold iblk0
  rw [View.read_apply]
  show V c (Pipeline.arrRef spec0 3) _ = V c (Pipeline.arrRef spec0 3) x
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 100 + 1 * (x 1).val = (x 1).val; rw [e1]; omega

/-- The block of window 4 at every point is the whole array: the first shift row. -/
theorem whole0_4 (c : Dev nD) (t : Fin cfg0.N) (x : S1x100.Idx) :
    (iblk0 V c 4 t : Vec Ideal S1x100 .f32) x = (V c (Pipeline.arrRef spec0 4) : S1x100.Idx → Elt Ideal .f32) x := by
  obtain ⟨e0, e1⟩ := idx0_4 t
  unfold iblk0
  rw [View.read_apply]
  show V c (Pipeline.arrRef spec0 4) _ = V c (Pipeline.arrRef spec0 4) x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 100 + 1 * (x 1).val = (x 1).val; rw [e1]; omega

/-- The block of window 5 at every point is the whole array: the second weight matrix. -/
theorem whole0_5 (c : Dev nD) (t : Fin cfg0.N) (x : S100x100.Idx) :
    (iblk0 V c 5 t : Vec Ideal S100x100 .f32) x = (V c (Pipeline.arrRef spec0 5) : S100x100.Idx → Elt Ideal .f32) x := by
  obtain ⟨e0, e1⟩ := idx0_5 t
  unfold iblk0
  rw [View.read_apply]
  show V c (Pipeline.arrRef spec0 5) _ = V c (Pipeline.arrRef spec0 5) x
  congr 1
  funext a
  apply Fin.ext
  match a with
  | ⟨0, _⟩ => show win0_5.index t (0 : Fin 2) * 100 + 1 * (x 0).val = (x 0).val; rw [e0]; omega
  | ⟨1, _⟩ => show win0_5.index t (1 : Fin 2) * 100 + 1 * (x 1).val = (x 1).val; rw [e1]; omega

/-- The block of window 6 at every point is the whole array: the second bias row. -/
theorem whole0_6 (c : Dev nD) (t : Fin cfg0.N) (x : S1x100.Idx) :
    (iblk0 V c 6 t : Vec Ideal S1x100 .f32) x = (V c (Pipeline.arrRef spec0 6) : S1x100.Idx → Elt Ideal .f32) x := by
  obtain ⟨e0, e1⟩ := idx0_6 t
  unfold iblk0
  rw [View.read_apply]
  show V c (Pipeline.arrRef spec0 6) _ = V c (Pipeline.arrRef spec0 6) x
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 100 + 1 * (x 1).val = (x 1).val; rw [e1]; omega

/-- The block of window 7 at every point is the whole array: the second scale row. -/
theorem whole0_7 (c : Dev nD) (t : Fin cfg0.N) (x : S1x100.Idx) :
    (iblk0 V c 7 t : Vec Ideal S1x100 .f32) x = (V c (Pipeline.arrRef spec0 7) : S1x100.Idx → Elt Ideal .f32) x := by
  obtain ⟨e0, e1⟩ := idx0_7 t
  unfold iblk0
  rw [View.read_apply]
  show V c (Pipeline.arrRef spec0 7) _ = V c (Pipeline.arrRef spec0 7) x
  congr 1
  funext a
  apply Fin.ext
  match a with
  | ⟨0, _⟩ => show win0_7.index t (0 : Fin 2) * 1 + 1 * (x 0).val = (x 0).val; rw [e0]; omega
  | ⟨1, _⟩ => show win0_7.index t (1 : Fin 2) * 100 + 1 * (x 1).val = (x 1).val; rw [e1]; omega

/-- The block of window 8 at every point is the whole array: the second shift row. -/
theorem whole0_8 (c : Dev nD) (t : Fin cfg0.N) (x : S1x100.Idx) :
    (iblk0 V c 8 t : Vec Ideal S1x100 .f32) x = (V c (Pipeline.arrRef spec0 8) : S1x100.Idx → Elt Ideal .f32) x := by
  obtain ⟨e0, e1⟩ := idx0_8 t
  unfold iblk0
  rw [View.read_apply]
  show V c (Pipeline.arrRef spec0 8) _ = V c (Pipeline.arrRef spec0 8) x
  congr 1
  funext a
  apply Fin.ext
  match a with
  | ⟨0, _⟩ => show win0_8.index t (0 : Fin 2) * 1 + 1 * (x 0).val = (x 0).val; rw [e0]; omega
  | ⟨1, _⟩ => show win0_8.index t (1 : Fin 2) * 100 + 1 * (x 1).val = (x 1).val; rw [e1]; omega

/-! ## What each point writes back -/

/-- What the region's output array ends holding: the reference's first stage of the arrays the region finds. -/
abbrev stage0 (c : Dev nD) : FVec Ideal S50000x100 .f32 :=
  Cert.Stages.refX1row (F := Ideal) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8))

/-- The two-layer row function depends on its arguments only. -/
theorem mlpRow_congr {x x' : Fin 500 → EReal} {W1 W1' : Fin 500 → Fin 100 → EReal} {b1 b1' g1 g1' s1 s1' : Fin 100 → EReal}
    {W2 W2' : Fin 100 → Fin 100 → EReal} {b2 b2' g2 g2' s2 s2' : Fin 100 → EReal}
    (hx : x = x') (hW1 : W1 = W1') (hb1 : b1 = b1') (hg1 : g1 = g1') (hs1 : s1 = s1')
    (hW2 : W2 = W2') (hb2 : b2 = b2') (hg2 : g2 = g2') (hs2 : s2 = s2') :
    Cert.MlpRow.mlpRow x W1 b1 g1 s1 W2 b2 g2 s2 = Cert.MlpRow.mlpRow x' W1' b1' g1' s1' W2' b2' g2' s2' := by
  subst hx hW1 hb1 hg1 hs1 hW2 hb2 hg2 hs2; rfl

/-- What point t writes back is rows 2000·t … 2000·t + 1999 of that stage. -/
theorem flushed0_eq (c : Dev nD) (t : Fin cfg0.N) :
    (dat0 (F := Ideal) V c).flushed 9 t = ((cfg0.win 9).blk t).view.read (Elt Ideal) (stage0 V c) := by
  have ht : t.val < 25 := lt_of_lt_of_eq t.isLt N_0
  obtain ⟨e0, e1⟩ := idx0_9 t
  show (cfg0.win 9).cut (grid0.coords t) ((dat0 V c).after 9 t) = _
  rw [after0_9]
  unfold out0_9
  rw [View.canon_unit_zero origin0]
  simp only [View.ld_unit_zero (S := S2000x500) origin0, View.ld_unit_zero (S := S500x100) origin0,
    View.ld_unit_zero (S := S1x100) origin0, View.ld_unit_zero (S := S100x100) origin0]
  funext j
  obtain ⟨p, q, rfl⟩ : ∃ (p : Fin 2000) (q : Fin 100), j = ix2 p q := ⟨j 0, j 1, eq_ix2 j⟩
  have hemb : ((cfg0.win 9).blk t).view.emb (ix2 p q) = (ix2 (⟨2000 * t.val + p.val, by omega⟩ : Fin 50000) q : S50000x100.Idx) := by
    funext a
    apply Fin.ext
    match a with
    | ⟨0, _⟩ => show win0_9.index t (0 : Fin 2) * 2000 + 1 * p.val = 2000 * t.val + p.val; rw [e0]; omega
    | ⟨1, _⟩ => show win0_9.index t (1 : Fin 2) * 100 + 1 * q.val = q.val; rw [e1]; omega
  show k0_pay1 (k0_pay2 (iblk0 V c 0 t) (iblk0 V c 1 t) (iblk0 V c 2 t) (iblk0 V c 3 t) (iblk0 V c 4 t)) (iblk0 V c 5 t)
      (iblk0 V c 6 t) (iblk0 V c 7 t) (iblk0 V c 8 t) (ix2 p q) = stage0 V c (((cfg0.win 9).blk t).view.emb (ix2 p q))
  rw [hemb]
  refine (mlpPay_apply _ _ _ _ _ _ _ _ _ p q).trans (Eq.trans ?_ (refX1row_apply _ _ _ _ _ _ _ _ _ _ q).symm)
  exact congrFun (mlpRow_congr
    (funext fun k => rows0_0 V c t (ix2 p k) (ix2 (⟨2000 * t.val + p.val, by omega⟩ : Fin 50000) k) rfl rfl)
    (funext fun k => funext fun j => whole0_1 V c t (ix2 k j))
    (funext fun j => whole0_2 V c t (ix2 (0 : Fin 1) j)) (funext fun j => whole0_3 V c t (ix2 (0 : Fin 1) j))
    (funext fun j => whole0_4 V c t (ix2 (0 : Fin 1) j))
    (funext fun k => funext fun j => whole0_5 V c t (ix2 k j))
    (funext fun j => whole0_6 V c t (ix2 (0 : Fin 1) j)) (funext fun j => whole0_7 V c t (ix2 (0 : Fin 1) j))
    (funext fun j => whole0_8 V c t (ix2 (0 : Fin 1) j))) q

/-- An index of the output array is in point t's block iff each coordinate is in the block's range on its axis. -/
theorem mem_blk0 (t : Fin cfg0.N) (i : S50000x100.Idx) :
    i ∈ ((cfg0.win 9).blk t).view.set ↔ ∀ a : Fin 2, win0_9.index t a * S2000x100.size a ≤ (i a).val ∧ (i a).val < win0_9.index t a * S2000x100.size a + S2000x100.size a := by
  show i ∈ ((View.whole (Pipeline.arrRef spec0 9)).slice (win0_9.rect t)).set ↔ _
  rw [View.set_slice_whole, Rect.mem_set_unit]
  exact Iff.rfl

/-- Row r of the output lies in the block of point r / 2000, and every point writes back. -/
theorem cover0 (i : S50000x100.Idx) :
    ∃ t : Fin cfg0.N, (cfg0.win 9).flush t = true ∧ i ∈ ((cfg0.win 9).blk t).view.set := by
  have hi0 : (i 0).val < 50000 := (i 0).isLt
  have hi1 : (i 1).val < 100 := (i 1).isLt
  have hN : cfg0.N = 25 := N_0
  have hlt : (i 0).val / 2000 < cfg0.N := by rw [hN]; omega
  obtain ⟨e0, e1⟩ := idx0_9 ⟨(i 0).val / 2000, hlt⟩
  refine ⟨⟨(i 0).val / 2000, hlt⟩, flush0_9 _, ?_⟩
  rw [mem_blk0]
  intro a
  match a with
  | ⟨0, _⟩ =>
    show win0_9.index ⟨(i 0).val / 2000, hlt⟩ (0 : Fin 2) * 2000 ≤ (i 0).val ∧ (i 0).val < win0_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_9.index ⟨(i 0).val / 2000, hlt⟩ (1 : Fin 2) * 100 ≤ (i 1).val ∧ (i 1).val < win0_9.index ⟨(i 0).val / 2000, hlt⟩ (1 : Fin 2) * 100 + 100
    rw [e1]; omega

/-- THE REGION'S VALUE: after the 25 points the output array is the reference's first stage of the arrays the region
    finds, the biases, scales and shifts as rows. -/
theorem final0 (c : Dev nD) :
    (Gen.dat0 (F := Ideal) V c).arrAt 9 cfg0.N
      = Cert.Stages.refX1row (F := Ideal) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) :=
  (dat0 (F := Ideal) V c).arrAt_eq_of_cover 9 (stage0 V c) (fun t _ => flushed0_eq V c t) cover0

end Cert.KernelIdeal.Regions

end
-- ==== Proof.ChainFirst.lean ====
/-
  The first stage of the idealized kernel: the first region (Linear, LayerNorm, relu, twice) finds the node features,
  the two weight matrices and the six bias and scale vectors laid out as rows, and leaves the reference's first stage of
  the arguments.
-/
import proofs.«132481_j11579231830735_1_alg».proof.Proof.Chain
import proofs.«132481_j11579231830735_1_alg».proof.Proof.Stages2
import proofs.«132481_j11579231830735_1_alg».proof.Proof.RegionMlp

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first stage (rows form) at equal operands. -/
theorem refX1row_congr [Cert.ReferenceIdeal.Facts]
    {x x' : (⟨S50000x500, .f32⟩ : BufTy).Contents (Elt Ideal)} {w w' : (⟨S500x100, .f32⟩ : BufTy).Contents (Elt Ideal)} {b1 b1' g1 g1' s1 s1' : (⟨S1x100, .f32⟩ : BufTy).Contents (Elt Ideal)}
    {u u' : (⟨S100x100, .f32⟩ : BufTy).Contents (Elt Ideal)} {b2 b2' g2 g2' s2 s2' : (⟨S1x100, .f32⟩ : BufTy).Contents (Elt Ideal)}
    (e0 : x = x') (e1 : w = w') (e2 : b1 = b1') (e3 : g1 = g1') (e4 : s1 = s1') (e5 : u = u') (e6 : b2 = b2') (e7 : g2 = g2')
    (e8 : s2 = s2') :
    Cert.Stages.refX1row (F := Ideal) x w b1 g1 s1 u b2 g2 s2 = Cert.Stages.refX1row (F := Ideal) x' w' b1' g1' s1' u' b2' g2' s2' := by
  subst e0 e1 e2 e3 e4 e5 e6 e7 e8
  rfl

/-- The first region leaves the reference's first stage of the arguments. -/
theorem first (c : Dev nD) :
    W2 m ρ c (Proc.devRef .tc main_v10)
      = Cert.Stages.refX1 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W2_arr m ρ c 9).trans ((Regions.final0 (V1 m ρ) c).trans ?_)
  have h0 : V1 m ρ c (Pipeline.arrRef spec0 0) = (m ((c : Thread nD τ).loc main_arg0)) := Keep.W1_arg0 m ρ c
  have h1 : V1 m ρ c (Pipeline.arrRef spec0 1) = (m ((c : Thread nD τ).loc main_arg3)) := Keep.W1_arg3 m ρ c
  have h2 : V1 m ρ c (Pipeline.arrRef spec0 2) = (broadcastInDim S1x100 ![1] Cert.ReferenceIdeal.Facts₀.bcast_S100_S1x100_1 (m ((c : Thread nD τ).loc main_arg4))) := (Bound.W1_v4 m ρ c).trans (Cert.Alg.row100_eq _)
  have h3 : V1 m ρ c (Pipeline.arrRef spec0 3) = (broadcastInDim S1x100 ![1] Cert.ReferenceIdeal.Facts₀.bcast_S100_S1x100_1 (m ((c : Thread nD τ).loc main_arg5))) := (Bound.W1_v5 m ρ c).trans (Cert.Alg.row100_eq _)
  have h4 : V1 m ρ c (Pipeline.arrRef spec0 4) = (broadcastInDim S1x100 ![1] Cert.ReferenceIdeal.Facts₀.bcast_S100_S1x100_1 (m ((c : Thread nD τ).loc main_arg6))) := (Bound.W1_v6 m ρ c).trans (Cert.Alg.row100_eq _)
  have h5 : V1 m ρ c (Pipeline.arrRef spec0 5) = (m ((c : Thread nD τ).loc main_arg7)) := Keep.W1_arg7 m ρ c
  have h6 : V1 m ρ c (Pipeline.arrRef spec0 6) = (broadcastInDim S1x100 ![1] Cert.ReferenceIdeal.Facts₀.bcast_S100_S1x100_1 (m ((c : Thread nD τ).loc main_arg8))) := (Bound.W1_v7 m ρ c).trans (Cert.Alg.row100_eq _)
  have h7 : V1 m ρ c (Pipeline.arrRef spec0 7) = (broadcastInDim S1x100 ![1] Cert.ReferenceIdeal.Facts₀.bcast_S100_S1x100_1 (m ((c : Thread nD τ).loc main_arg9))) := (Bound.W1_v8 m ρ c).trans (Cert.Alg.row100_eq _)
  have h8 : V1 m ρ c (Pipeline.arrRef spec0 8) = (broadcastInDim S1x100 ![1] Cert.ReferenceIdeal.Facts₀.bcast_S100_S1x100_1 (m ((c : Thread nD τ).loc main_arg10))) := (Bound.W1_v9 m ρ c).trans (Cert.Alg.row100_eq _)
  exact (refX1row_congr h0 h1 h2 h3 h4 h5 h6 h7 h8).trans (Cert.Stages.refX1_eq_row _ _ _ _ _ _ _ _ _).symm

end Cert.KernelIdeal.Chain

end
-- ==== Proof.RegionLsm.lean ====
/- Region 6 of the kernel's program (an activation plus a bias row, then log-softmax along the 64 classes, over row
   tiles), as ONE function of the arrays the region finds: after its 25 grid points the output array is the host's
   log_softmax of the activation with the bias row broadcast down the 50000 rows and added. Each output row depends on
   the same row of the sum only: entry (r, q) is the log-softmax of the row k ↦ a(r, k) + bias(0, k) at q, on both
   sides. Point t computes rows 2000·t … 2000·t + 1999 from the same rows of the activation and the whole bias row;
   the 25 row tiles cover the 50000 rows. -/
import proofs.«132481_j11579231830735_1_alg».proof.Proof.Gen.KernelIdeal.Frame
import proofs.«132481_j11579231830735_1_alg».proof.Proof.Stages
import proofs.«132481_j11579231830735_1_alg».proof.Proof.LsmRow
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts]

variable (V : (c : Dev nD) → (b : Ref sig .tc) → Buf (Elt Ideal) ((c : Thread nD τ).loc b))

/-- Every access of the body starts at the block's origin. -/
theorem origin6 : (![0, 0] : Fin 2 → Nat) = fun _ => 0 := funext fun a => by fin_cases a <;> rfl

/-- The body's one stored value is the vector unit's log-softmax chain on the block plus the bias row. -/
theorem pay6_eq (x0 : Vec Ideal S2000x64 .f32) (x2 : Vec Ideal S1x64 .f32) :
    k6_pay1 x0 x2 = unitLsm (a := 2000) (b := 64) (addf x0 (broadcastTo S2000x64 x2 Facts₀.broadcasts_S1x64_S2000x64))
      Facts₀.reduces_S2000x64_S2000 (.inl rfl) rfl rfl Facts₀.shapeCasts_S2000_S2000x1 Facts₀.broadcasts_S2000x1_S2000x64 := by
  unfold k6_pay1 unitLsm
  simp only [shapeCast_self]

/-- … so at entry (p, q) of the block it is the log-softmax of the row k ↦ x0(p, k) + x2(0, k), at q. -/
theorem pay6_apply (x0 : Vec Ideal S2000x64 .f32) (x2 : Vec Ideal S1x64 .f32) (p : Fin 2000) (q : Fin 64) :
    k6_pay1 x0 x2 (ix2 p q) = lsmRow (fun k : Fin 64 => x0 (ix2 p k) + x2 (ix2 (0 : Fin 1) k)) q := by
  refine (congrFun (pay6_eq x0 x2) (ix2 p q)).trans ((unitLsm_apply _ _ _ _ _ _ _ p q).trans ?_)
  refine congrArg (fun x => lsmRow x q) (funext fun k => ?_)
  rw [addf_apply, broadcastTo_1b_ab_apply]

/-- The host's operations on whole arrays: the bias row broadcast down the rows and added, then log_softmax. -/
abbrev logits6 (A : FVec Ideal S50000x64 .f32) (bias : FVec Ideal S1x64 .f32) : FVec Ideal S50000x64 .f32 :=
  Cert.Stages.fnlogSoftmax (F := Ideal)
    (addf A (broadcastInDim S50000x64 ![0, 1] Cert.ReferenceIdeal.Facts₀.bcast_S1x64_S50000x64_0_1 bias))

/-- The host's log_softmax is the host's chain of the row-wise module. -/
theorem fnlogSoftmax_eq (X : FVec Ideal S50000x64 .f32) :
    Cert.Stages.fnlogSoftmax (F := Ideal) X = hostLsm (a := 50000) (b := 64) X
      Cert.ReferenceIdeal.Facts₀.reducesTo_S50000x64_S50000_d1 Cert.ReferenceIdeal.Facts₀.h_S_
      Cert.ReferenceIdeal.Facts₀.bcast_S_S50000 Cert.ReferenceIdeal.Facts₀.bcast_S50000_S50000x1_0
      Cert.ReferenceIdeal.Facts₀.bcast_S50000x1_S50000x64_0_1 := by
  unfold Cert.Stages.fnlogSoftmax hostLsm
  rfl

/-- … read at entry (r, q): the log-softmax of the row k ↦ A(r, k) + bias(0, k), at q. -/
theorem logits6_apply (A : FVec Ideal S50000x64 .f32) (bias : FVec Ideal S1x64 .f32) (r : Fin 50000) (q : Fin 64) :
    logits6 A bias (ix2 r q) = lsmRow (fun k : Fin 64 => A (ix2 r k) + bias (ix2 (0 : Fin 1) k)) q := by
  unfold logits6
  rw [fnlogSoftmax_eq, hostLsm_apply]
  refine congrArg (fun x => lsmRow x q) (funext fun k => ?_)
  rw [addf_apply, broadcastInDim_oneRow_apply]

/-- The printed index maps over the 25 points: the row-tiled windows sit at block row t, block column 0; the bias
    row's window at block (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The activation's block at point t, at (p, k), is the array at row 2000·t + p, column k. -/
theorem a6_apply (c : Dev nD) (t : Fin cfg6.N) (x : S2000x64.Idx) (i : S50000x64.Idx)
    (h0 : (i 0).val = 2000 * t.val + (x 0).val) (h1 : (i 1).val = (x 1).val) :
    (iblk6 V c 0 t : Vec Ideal S2000x64 .f32) x = (V c (Pipeline.arrRef spec6 0) : S50000x64.Idx → Elt Ideal .f32) i := by
  obtain ⟨e0, e1, -⟩ := idx_facts6 t
  unfold iblk6
  rw [View.read_apply]
  show V c (Pipeline.arrRef spec6 0) _ = V c (Pipeline.arrRef spec6 0) i
  congr 1
  funext a
  apply Fin.ext
  match a with
  | ⟨0, _⟩ => show win6_0.index t (0 : Fin 2) * 2000 + 1 * (x 0).val = (i 0).val; rw [e0, h0]; omega
  | ⟨1, _⟩ => show win6_0.index t (1 : Fin 2) * 64 + 1 * (x 1).val = (i 1).val; rw [e1, h1]; omega

/-- The bias row's block at every point is the whole bias row. -/
theorem bias6_apply (c : Dev nD) (t : Fin cfg6.N) (x : S1x64.Idx) :
    (iblk6 V c 1 t : Vec Ideal S1x64 .f32) x = (V c (Pipeline.arrRef spec6 1) : S1x64.Idx → Elt Ideal .f32) x := by
  obtain ⟨-, -, e0, e1, -⟩ := idx_facts6 t
  unfold iblk6
  rw [View.read_apply]
  show V c (Pipeline.arrRef spec6 1) _ = V c (Pipeline.arrRef spec6 1) x
  congr 1
  funext a
  apply Fin.ext
  match a with
  | ⟨0, _⟩ => show win6_1.index t (0 : Fin 2) * 1 + 1 * (x 0).val = (x 0).val; rw [e0]; omega
  | ⟨1, _⟩ => show win6_1.index t (1 : Fin 2) * 64 + 1 * (x 1).val = (x 1).val; rw [e1]; omega

/-- What the region's output array ends holding: the host's operations of the arrays the region finds. -/
abbrev val6 (c : Dev nD) : FVec Ideal S50000x64 .f32 :=
  logits6 (V c (Pipeline.arrRef spec6 0)) (V c (Pipeline.arrRef spec6 1))

/-- What point t writes back is rows 2000·t … 2000·t + 1999 of that array. -/
theorem flushed6_eq (c : Dev nD) (t : Fin cfg6.N) :
    (dat6 (F := Ideal) V c).flushed 2 t = ((cfg6.win 2).blk t).view.read (Elt Ideal) (val6 V c) := by
  have ht : t.val < 25 := lt_of_lt_of_eq t.isLt N_6
  obtain ⟨-, -, -, -, e4, e5⟩ := idx_facts6 t
  show (cfg6.win 2).cut (grid6.coords t) ((dat6 V c).after 2 t) = _
  rw [after6_2]
  unfold out6_2
  rw [View.canon_unit_zero origin6]
  simp only [View.ld_unit_zero (S := S2000x64) origin6, View.ld_unit_zero (S := S1x64) origin6]
  funext j
  obtain ⟨p, q, rfl⟩ : ∃ (p : Fin 2000) (q : Fin 64), j = ix2 p q := ⟨j 0, j 1, eq_ix2 j⟩
  have hemb : ((cfg6.win 2).blk t).view.emb (ix2 p q) = (ix2 (⟨2000 * t.val + p.val, by omega⟩ : Fin 50000) q : S50000x64.Idx) := by
    funext a
    apply Fin.ext
    match a with
    | ⟨0, _⟩ => show win6_2.index t (0 : Fin 2) * 2000 + 1 * p.val = 2000 * t.val + p.val; rw [e4]; omega
    | ⟨1, _⟩ => show win6_2.index t (1 : Fin 2) * 64 + 1 * q.val = q.val; rw [e5]; omega
  show k6_pay1 (iblk6 V c 0 t) (iblk6 V c 1 t) (ix2 p q) = val6 V c (((cfg6.win 2).blk t).view.emb (ix2 p q))
  rw [hemb]
  refine (pay6_apply _ _ p q).trans (Eq.trans ?_ (logits6_apply _ _ _ q).symm)
  refine congrArg (fun x => lsmRow x q) (funext fun k => ?_)
  exact congrArg₂ (· + ·)
    (a6_apply V c t (ix2 p k) (ix2 (⟨2000 * t.val + p.val, by omega⟩ : Fin 50000) k) rfl rfl)
    (bias6_apply V c t (ix2 (0 : Fin 1) k))

/-- An index of the output array is in point t's block iff each coordinate is in the block's range on its axis. -/
theorem mem_blk6 (t : Fin cfg6.N) (i : S50000x64.Idx) :
    i ∈ ((cfg6.win 2).blk t).view.set ↔ ∀ a : Fin 2, win6_2.index t a * S2000x64.size a ≤ (i a).val ∧ (i a).val < win6_2.index t a * S2000x64.size a + S2000x64.size a := by
  show i ∈ ((View.whole (Pipeline.arrRef spec6 2)).slice (win6_2.rect t)).set ↔ _
  rw [View.set_slice_whole, Rect.mem_set_unit]
  exact Iff.rfl

/-- Row r of the output lies in the block of point r / 2000, and every point writes back. -/
theorem cover6 (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  have hN : cfg6.N = 25 := N_6
  have hlt : (i 0).val / 2000 < cfg6.N := by rw [hN]; omega
  obtain ⟨-, -, -, -, e4, e5⟩ := idx_facts6 ⟨(i 0).val / 2000, hlt⟩
  refine ⟨⟨(i 0).val / 2000, hlt⟩, flush6_2 _, ?_⟩
  rw [mem_blk6]
  intro a
  match a with
  | ⟨0, _⟩ =>
    show win6_2.index ⟨(i 0).val / 2000, hlt⟩ (0 : Fin 2) * 2000 ≤ (i 0).val ∧ (i 0).val < win6_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win6_2.index ⟨(i 0).val / 2000, hlt⟩ (1 : Fin 2) * 64 ≤ (i 1).val ∧ (i 1).val < win6_2.index ⟨(i 0).val / 2000, hlt⟩ (1 : Fin 2) * 64 + 64
    rw [e5]; omega

/-- THE REGION'S VALUE: after the 25 points the output array is the host's log_softmax of the activation plus the
    broadcast bias row. -/
theorem final6 (c : Dev nD) :
    (Gen.dat6 (F := Ideal) V c).arrAt 2 cfg6.N
      = Cert.Stages.fnlogSoftmax (F := Ideal) (addf (F := Ideal) (φ := .f32) (V c (Pipeline.arrRef spec6 0))
          (broadcastInDim S50000x64 ![0, 1] Cert.ReferenceIdeal.Facts₀.bcast_S1x64_S50000x64_0_1 (V c (Pipeline.arrRef spec6 1)))) :=
  (dat6 (F := Ideal) V c).arrAt_eq_of_cover 2 (val6 V c) (fun t _ => flushed6_eq V c t) cover6

end Cert.KernelIdeal.Regions

end
-- ==== Proof.ChainLast.lean ====
/-
  The last stage of the idealized kernel: the final region (bias and log_softmax) finds the second aggregation of the
  64-feature product and the bias as a row, and leaves the reference's result of the third stage's output.
-/
import proofs.«132481_j11579231830735_1_alg».proof.Proof.Chain
import proofs.«132481_j11579231830735_1_alg».proof.Proof.RegionLsm

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The last region leaves the reference's result of the third stage's output. -/
theorem last (c : Dev nD) (X3 : FVec Ideal S50000x100 .f32)
    (h : W12 m ρ c (Proc.devRef .tc main_v71) = (Host.dotGeneral (F := Ideal) (φ₁ := .f32) (φ₂ := .f32) Cert.ReferenceIdeal.dot_S50000x100_S100x64_S50000x64_1_0_0_1_n_n none X3 (m ((c : Thread nD τ).loc main_arg16)))) :
    W14 m ρ c (Proc.devRef .tc main_v89)
      = Cert.Stages.refOut (F := Ideal) X3 (Cert.Stages.refSrc (F := Ideal) (m ((c : Thread nD τ).loc main_arg1))) (Cert.Stages.refTgt (F := Ideal) (m ((c : Thread nD τ).loc main_arg1))) (m ((c : Thread nD τ).loc main_arg16)) (m ((c : Thread nD τ).loc main_arg17)) := by
  refine (W14_arr m ρ c 2).trans ((Regions.final6 (V13 m ρ) c).trans ?_)
  have e0 := conv2_aggregate m ρ c X3 h
  have e0' : V13 m ρ c (Pipeline.arrRef spec6 0)
      = Cert.KStages.agg64 (F := Ideal) (Host.dotGeneral (F := Ideal) (φ₁ := .f32) (φ₂ := .f32) Cert.ReferenceIdeal.dot_S50000x100_S100x64_S50000x64_1_0_0_1_n_n none X3 (m ((c : Thread nD τ).loc main_arg16))) (Cert.Stages.refSrc (F := Ideal) (m ((c : Thread nD τ).loc main_arg1))) (Cert.Stages.refTgt (F := Ideal) (m ((c : Thread nD τ).loc main_arg1))) (Cert.KStages.norm (F := Ideal) (Cert.Stages.refSrc (F := Ideal) (m ((c : Thread nD τ).loc main_arg1))) (Cert.Stages.refTgt (F := Ideal) (m ((c : Thread nD τ).loc main_arg1)))) := e0
  have e1 : V13 m ρ c (Pipeline.arrRef spec6 1)
      = broadcastInDim S1x64 ![1] Cert.ReferenceIdeal.Facts₀.bcast_S64_S1x64_1 (m ((c : Thread nD τ).loc main_arg17)) :=
    (Bound.W13_v88 m ρ c).trans (Cert.Alg.row64_eq _)
  rw [e0', e1, Cert.KStages.refOut_eq]
  rfl

end Cert.KernelIdeal.Chain

end
-- ==== Proof.Result.lean ====
/-
  The whole chain: the result buffer at the idealized kernel's last boundary holds the reference's result function of the
  launch memory's arguments.
-/
import proofs.«132481_j11579231830735_1_alg».proof.Proof.Chain
import proofs.«132481_j11579231830735_1_alg».proof.Proof.ChainFirst
import proofs.«132481_j11579231830735_1_alg».proof.Proof.ChainLast

set_option maxRecDepth 16384

noncomputable section

namespace Cert.KernelIdeal.Chain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result buffer at the last boundary holds the reference's result of the launch memory's arguments. -/
theorem result (c : Dev nD) :
    W14 m ρ c (Proc.devRef .tc main_v89)
      = Cert.Stages.refResult (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  last m ρ c _ (conv2_product m ρ c _ (conv1 m ρ c _ (conv1_product m ρ c _ (relational m ρ c _ (doubled m ρ c _ (first m ρ c))))))

end Cert.KernelIdeal.Chain

end
-- ==== Proof.lean ====
/-
  The certificate. The three frames: the kernel's and the idealized kernel's by their generated frame certificates;
  the reference's by its run with the result dropped. The idealization rewrote nothing, so `preserves` is trivial.
  The algebraic claim: from memories agreeing on the arguments the idealized kernel's run ends with its result
  buffer at the reference's result function of the arguments (the chain of stages through its seven regions and the
  host stretches between them), and the reference's run ends at the same function of its own — equal — arguments.
  No finiteness of the inputs is used: every law that joins the two programs holds on all extended reals.
-/
import proofs.«132481_j11579231830735_1_alg».proof.Defs
import proofs.«132481_j11579231830735_1_alg».proof.Proof.Gen.Kernel
import proofs.«132481_j11579231830735_1_alg».proof.Proof.Gen.Kernel.Frame
import proofs.«132481_j11579231830735_1_alg».proof.Proof.Gen.KernelIdeal
import proofs.«132481_j11579231830735_1_alg».proof.Proof.Gen.KernelIdeal.Frame
import proofs.«132481_j11579231830735_1_alg».proof.Proof.Gen.ReferenceIdeal
import proofs.«132481_j11579231830735_1_alg».proof.Proof.Gen.Pre_finite_inputs
import proofs.«132481_j11579231830735_1_alg».proof.Proof.KernelRun
import proofs.«132481_j11579231830735_1_alg».proof.Proof.RefRun
import proofs.«132481_j11579231830735_1_alg».proof.Proof.Result

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

theorem algebraic : Cert.algebraic_KernelIdeal_ReferenceIdeal := by
  intro m ρ m' ρ' _ hagree
  refine ⟨fun c => Cert.Stages.refResult (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun _ h c => ⟨(h c).1.trans (Cert.KernelIdeal.Chain.result m ρ c), (h c).2⟩)
      (Cert.KernelIdeal.ValueRun.run_result (F := Ideal) m ρ)
  · refine (θ_run Cert.ReferenceIdeal.defs _ _).mono (fun _ h c => ⟨(h c).1.trans ?_, (h c).2⟩)
      (Cert.RefRun.run (F := Ideal) m' ρ')
    obtain ⟨h0, h1, _, h3, h4, h5, h6, h7, h8, h9, h10, h11, h12, h13, h14, h15, h16, h17⟩ := hagree c
    rw [h0, h1, h3, h4, h5, h6, h7, h8, h9, h10, h11, h12, h13, h14, h15, h16, h17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
